-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x4x512 : Shape := ⟨3, ![131072, 4, 512]⟩
abbrev S131072 : Shape := ⟨1, ![131072]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S_ : Shape := ⟨0, ![]⟩

class Facts : Prop where
  bcast_S_S131072x4x512 : S_.BroadcastsInDim S131072x4x512 (![] : Fin 0 → Fin S131072x4x512.rank)
  reducesTo_S131072x4x512_S_d0_1_2 : S131072x4x512.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256x2 .f32) (main_arg11 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg10
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S256 .f32) (main_arg6 : FVec F S512x256 .f32) (main_arg7 : FVec F S256 .f32) (main_arg8 : FVec F S256 .f32) (main_arg9 : FVec F S256 .f32) (main_arg10 : FVec F S256x2 .f32) (main_arg11 : FVec F S2 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S131072x4x512 .f32) (main_arg1 : IVec S131072 1) (main_arg2 : FVec F S256x256 .f32) (main_arg3 : FVec F S256 .f32) (main_arg4 : FVec F S512x256 .f32) (main_arg5 : FVec F S256 .f32) (main_arg6 : FVec F S512x256 .f32) (main_arg7 : FVec F S256 .f32) (main_arg8 : FVec F S256 .f32) (main_arg9 : FVec F S256 .f32) (main_arg10 : FVec F S256x2 .f32) (main_arg11 : FVec F S2 .f32) : IVec S_ 1 :=
  let main_v0 : FVec F S131072x4x512 .f32 := Host.absf main_arg0
  let main_cst : FVec F S_ .f32 := constant S_ .f32 0x7F800000#32
  let main_v1 : FVec F S131072x4x512 .f32 := broadcastInDim S131072x4x512 ![] bcast_S_S131072x4x512 main_cst
  let main_v2 : IVec S131072x4x512 1 := cmpf .olt main_v0 main_v1
  let main_c : IVec S_ 1 := constantI S_ 1 1#1
  let main_v3 : IVec S_ 1 := (fun x v => Host.reduce IntOp.andi x v reducesTo_S131072x4x512_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_arg10 main_arg11 main_v13 main_v16
-- ==== Kernel.lean ====
abbrev S131072x4x512 : Shape := ⟨3, ![131072, 4, 512]⟩
abbrev S131072 : Shape := ⟨1, ![131072]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S131072x1 : Shape := ⟨2, ![131072, 1]⟩
abbrev S131072x256 : Shape := ⟨2, ![131072, 256]⟩
abbrev S2x1x256 : Shape := ⟨3, ![2, 1, 256]⟩
abbrev S1024x4x512 : Shape := ⟨3, ![1024, 4, 512]⟩
abbrev S1024x1 : Shape := ⟨2, ![1024, 1]⟩
abbrev S1024x256 : Shape := ⟨2, ![1024, 256]⟩
abbrev S1x1x256 : Shape := ⟨3, ![1, 1, 256]⟩
abbrev S1024x1x256 : Shape := ⟨3, ![1024, 1, 256]⟩
abbrev S1024x1x512 : Shape := ⟨3, ![1024, 1, 512]⟩
abbrev S1024x512 : Shape := ⟨2, ![1024, 512]⟩
abbrev S1024 : Shape := ⟨1, ![1024]⟩
abbrev S1x256 : Shape := ⟨2, ![1, 256]⟩
abbrev S_ : Shape := ⟨0, ![]⟩
abbrev S1x2 : Shape := ⟨2, ![1, 2]⟩
abbrev S131072x2 : Shape := ⟨2, ![131072, 2]⟩
abbrev S4096x256 : Shape := ⟨2, ![4096, 256]⟩
abbrev S4096x2 : Shape := ⟨2, ![4096, 2]⟩

abbrev nBuf : Space → Nat
  | .hbm => 45
  | .vmem => 28
  | .smem => 0
  | _ => 0

abbrev bufTy : (tb : Table) → Fin (tcTables nBuf tb) → BufTy
  | .hbm, ⟨0, _⟩ => ⟨S131072x4x512, .f32⟩
  | .hbm, ⟨1, _⟩ => ⟨S131072, .i1⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S131072, .f32⟩
  | .hbm, ⟨13, _⟩ => ⟨S131072x1, .f32⟩
  | .hbm, ⟨14, _⟩ => ⟨S131072x256, .bf16⟩
  | .hbm, ⟨15, _⟩ => ⟨S2x1x256, .f32⟩
  | .hbm, ⟨16, _⟩ => ⟨S2x1x256, .f32⟩
  | .hbm, ⟨17, _⟩ => ⟨S1x1x256, .f32⟩
  | .hbm, ⟨18, _⟩ => ⟨S256, .f32⟩
  | .hbm, ⟨19, _⟩ => ⟨S1x1x256, .f32⟩
  | .hbm, ⟨20, _⟩ => ⟨S256, .f32⟩
  | .hbm, ⟨21, _⟩ => ⟨S256, .f32⟩
  | .hbm, ⟨22, _⟩ => ⟨S1x1x256, .f32⟩
  | .hbm, ⟨23, _⟩ => ⟨S256, .f32⟩
  | .hbm, ⟨24, _⟩ => ⟨S1x1x256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x2, .f32⟩
  | .hbm, ⟨44, _⟩ => ⟨S131072x2, .f32⟩
  | .local _ .vmem, ⟨0, _⟩ => ⟨S1024x4x512, .f32⟩
  | .local _ .vmem, ⟨1, _⟩ => ⟨S1024x4x512, .f32⟩
  | .local _ .vmem, ⟨2, _⟩ => ⟨S1024x1, .f32⟩
  | .local _ .vmem, ⟨3, _⟩ => ⟨S1024x1, .f32⟩
  | .local _ .vmem, ⟨4, _⟩ => ⟨S256x256, .f32⟩
  | .local _ .vmem, ⟨5, _⟩ => ⟨S256, .f32⟩
  | .local _ .vmem, ⟨6, _⟩ => ⟨S512x256, .f32⟩
  | .local _ .vmem, ⟨7, _⟩ => ⟨S256, .f32⟩
  | .local _ .vmem, ⟨8, _⟩ => ⟨S512x256, .f32⟩
  | .local _ .vmem, ⟨9, _⟩ => ⟨S256, .f32⟩
  | .local _ .vmem, ⟨10, _⟩ => ⟨S1024x256, .bf16⟩
  | .local _ .vmem, ⟨11, _⟩ => ⟨S1024x256, .bf16⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S4096x256, .bf16⟩
  | .local _ .vmem, ⟨19, _⟩ => ⟨S4096x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x2, .f32⟩
  | .local _ .vmem, ⟨25, _⟩ => ⟨S1x2, .f32⟩
  | .local _ .vmem, ⟨26, _⟩ => ⟨S4096x2, .f32⟩
  | .local _ .vmem, ⟨27, _⟩ => ⟨S4096x2, .f32⟩
  | _, _ => ⟨S131072x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v82 : BitVec 1 := Scalar.cmpi .eq arg1 c63_i32
  let v83 : BitVec 32 := Scalar.extui v82
  let c0_i32_37 : BitVec 32 := 0#32
  let v84 : BitVec 1 := Scalar.cmpi .ne v83 c0_i32_37
  v84

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S131072_S131072x1 : S131072.ShapeCasts S131072x1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S1024x4x512_S1024x4x512_0_0_0 : ∀ a, (![0, 0, 0] : Fin 3 → Nat) a + S1024x4x512.size a ≤ S1024x4x512.size a
  h_S1024x4x512 : 0 < S1024x4x512.numel
  slices_S1024x4x512_o0_0_0_S1024x1x256 : S1024x4x512.Slices ![0, 0, 0] S1024x1x256
  shapeCasts_S1024x1x256_S1024x256 : S1024x1x256.ShapeCasts S1024x256
  slices_S1024x4x512_o0_1_0_S1024x1x512 : S1024x4x512.Slices ![0, 1, 0] S1024x1x512
  shapeCasts_S1024x1x512_S1024x512 : S1024x1x512.ShapeCasts S1024x512
  slices_S1024x4x512_o0_2_0_S1024x1x512 : S1024x4x512.Slices ![0, 2, 0] S1024x1x512
  slices_S1024x4x512_o0_3_0_S1024x1x512 : S1024x4x512.Slices ![0, 3, 0] S1024x1x512
  reduces_S1024x512_S1024 : S1024x512.Reduces [1] S1024
  shapeCasts_S1024_S1024x1 : S1024.ShapeCasts S1024x1
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  broadcasts_S1024x1_S1024x256 : S1024x1.Broadcasts S1024x256
  concatenates_S1024x256_S1024x256_S1024x512_d1 : Shape.Concatenates [S1024x256, S1024x256] S1024x512 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  reduces_S1024x256_S256 : S1024x256.Reduces [0] S256
  shapeCasts_S1x256_S1x1x256 : S1x256.ShapeCasts S1x1x256
  slices_S2x1x256_S1x1x256_0_0_0 : S2x1x256.Slices ![0, 0, 0] S1x1x256
  shapeCasts_S1x1x256_S256 : S1x1x256.ShapeCasts S256
  slices_S2x1x256_S1x1x256_1_0_0 : S2x1x256.Slices ![1, 0, 0] S1x1x256
  bcast_S_S256 : S_.BroadcastsInDim S256 (![] : Fin 0 → Fin S256.rank)
  shapeCasts_S2_S1x2 : S2.ShapeCasts S1x2
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S1024x256_S256x256_S1024x256_1_0_0_1_n_n_wf : DotDims.WF S1024x256 S256x256 S1024x256 [1] [0] [0] [1] [] []
  dot_S1024x512_S512x256_S1024x256_1_0_0_1_n_n_wf : DotDims.WF S1024x512 S512x256 S1024x256 [1] [0] [0] [1] [] []
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4x512.size a ≤ S131072x4x512.size a
  hwx0_0 : ∀ i : grid0.Coords, EltTy.bits .f32 = 32 ∨ (Rect.block (s := S131072x4x512) S1024x4x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .f32 = 32 ∨ (Rect.block (s := S131072x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S131072x256.size a
  hwx0_8 : ∀ i : grid0.Coords, EltTy.bits .bf16 = 32 ∨ (Rect.block (s := S131072x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256.size a ≤ S2x1x256.size a
  hwx0_9 : ∀ i : grid0.Coords, EltTy.bits .f32 = 32 ∨ (Rect.block (s := S2x1x256) S1x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S2x1x256.size a
  hwx0_10 : ∀ i : grid0.Coords, EltTy.bits .f32 = 32 ∨ (Rect.block (s := S2x1x256) S1x1x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .bf16 = 32 ∨ (Rect.block (s := S131072x256) S4096x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S256x2.size a
  hwx1_5 : ∀ i : grid1.Coords, EltTy.bits .f32 = 32 ∨ (Rect.block (s := S256x2) S256x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x2.size a ≤ S131072x2.size a
  hwx1_7 : ∀ i : grid1.Coords, EltTy.bits .f32 = 32 ∨ (Rect.block (s := S131072x2) S4096x2.size (cc1_transform_7 i) (hinb1_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_arg0) S1024x4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S1x1x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_2) S1x1x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v2_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S4096x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S131072x4x512 : Shape := ⟨3, ![131072, 4, 512]⟩
abbrev S131072 : Shape := ⟨1, ![131072]⟩
abbrev S256x256 : Shape := ⟨2, ![256, 256]⟩
abbrev S256 : Shape := ⟨1, ![256]⟩
abbrev S512x256 : Shape := ⟨2, ![512, 256]⟩
abbrev S256x2 : Shape := ⟨2, ![256, 2]⟩
abbrev S2 : Shape := ⟨1, ![2]⟩
abbrev S131072x1x256 : Shape := ⟨3, ![131072, 1, 256]⟩
abbrev S131072x256 : Shape := ⟨2, ![131072, 256]⟩
abbrev S131072x1x512 : Shape := ⟨3, ![131072, 1, 512]⟩
abbrev S131072x512 : Shape := ⟨2, ![131072, 512]⟩
abbrev S_ : Shape := ⟨0, ![]⟩
abbrev S1x256 : Shape := ⟨2, ![1, 256]⟩
abbrev S131072x1 : Shape := ⟨2, ![131072, 1]⟩
abbrev S131072x2 : Shape := ⟨2, ![131072, 2]⟩
abbrev S1x2 : Shape := ⟨2, ![1, 2]⟩

abbrev nBuf : Space → Nat
  | .hbm => 92
  | .vmem => 0
  | .smem => 0
  | _ => 0

abbrev bufTy : (tb : Table) → Fin (tcTables nBuf tb) → BufTy
  | .hbm, ⟨0, _⟩ => ⟨S131072x4x512, .f32⟩
  | .hbm, ⟨1, _⟩ => ⟨S131072, .i1⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S131072x1x256, .f32⟩
  | .hbm, ⟨13, _⟩ => ⟨S131072x256, .f32⟩
  | .hbm, ⟨14, _⟩ => ⟨S131072x1x512, .f32⟩
  | .hbm, ⟨15, _⟩ => ⟨S131072x512, .f32⟩
  | .hbm, ⟨16, _⟩ => ⟨S131072x1x512, .f32⟩
  | .hbm, ⟨17, _⟩ => ⟨S131072x512, .f32⟩
  | .hbm, ⟨18, _⟩ => ⟨S131072x1x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072, .f32⟩
  | .hbm, ⟨23, _⟩ => ⟨S131072x512, .f32⟩
  | .hbm, ⟨24, _⟩ => ⟨S_, .f32⟩
  | .hbm, ⟨25, _⟩ => ⟨S131072, .f32⟩
  | .hbm, ⟨26, _⟩ => ⟨S131072, .f32⟩
  | .hbm, ⟨27, _⟩ => ⟨S131072x512, .f32⟩
  | .hbm, ⟨28, _⟩ => ⟨S_, .f32⟩
  | .hbm, ⟨29, _⟩ => ⟨S131072, .f32⟩
  | .hbm, ⟨30, _⟩ => ⟨S131072, .f32⟩
  | .hbm, ⟨31, _⟩ => ⟨S131072, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S131072, .f32⟩
  | .hbm, ⟨36, _⟩ => ⟨S131072x256, .f32⟩
  | .hbm, ⟨37, _⟩ => ⟨S1x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S1x256, .f32⟩
  | .hbm, ⟨42, _⟩ => ⟨S131072x256, .f32⟩
  | .hbm, ⟨43, _⟩ => ⟨S131072x256, .f32⟩
  | .hbm, ⟨44, _⟩ => ⟨S131072x1, .f32⟩
  | .hbm, ⟨45, _⟩ => ⟨S131072x256, .f32⟩
  | .hbm, ⟨46, _⟩ => ⟨S131072x256, .f32⟩
  | .hbm, ⟨47, _⟩ => ⟨S131072x512, .f32⟩
  | .hbm, ⟨48, _⟩ => ⟨S131072x256, .f32⟩
  | .hbm, ⟨49, _⟩ => ⟨S1x256, .f32⟩
  | .hbm, ⟨50, _⟩ => ⟨S131072x256, .f32⟩
  | .hbm, ⟨51, _⟩ => ⟨S131072x256, .f32⟩
  | .hbm, ⟨52, _⟩ => ⟨S131072x1, .i1⟩
  | .hbm, ⟨53, _⟩ => ⟨S131072x256, .i1⟩
  | .hbm, ⟨54, _⟩ => ⟨S131072x256, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S_, .f32⟩
  | .hbm, ⟨65, _⟩ => ⟨S256, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S1x256, .f32⟩
  | .hbm, ⟨70, _⟩ => ⟨S131072x256, .f32⟩
  | .hbm, ⟨71, _⟩ => ⟨S131072x256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | .hbm, ⟨76, _⟩ => ⟨S1x256, .f32⟩
  | .hbm, ⟨77, _⟩ => ⟨S131072x256, .f32⟩
  | .hbm, ⟨78, _⟩ => ⟨S131072x256, .f32⟩
  | .hbm, ⟨79, _⟩ => ⟨S1x256, .f32⟩
  | .hbm, ⟨80, _⟩ => ⟨S131072x256, .f32⟩
  | .hbm, ⟨81, _⟩ => ⟨S131072x256, .f32⟩
  | .hbm, ⟨82, _⟩ => ⟨S1x256, .f32⟩
  | .hbm, ⟨83, _⟩ => ⟨S131072x256, .f32⟩
  | .hbm, ⟨84, _⟩ => ⟨S131072x256, .f32⟩
  | .hbm, ⟨85, _⟩ => ⟨S_, .f32⟩
  | .hbm, ⟨86, _⟩ => ⟨S131072x256, .f32⟩
  | .hbm, ⟨87, _⟩ => ⟨S131072x256, .f32⟩
  | .hbm, ⟨88, _⟩ => ⟨S131072x2, .f32⟩
  | .hbm, ⟨89, _⟩ => ⟨S1x2, .f32⟩
  | .hbm, ⟨90, _⟩ => ⟨S131072x2, .f32⟩
  | .hbm, ⟨91, _⟩ => ⟨S131072x2, .f32⟩
  | _, _ => ⟨S131072x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v10 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_v0 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call3_cst : Ref sig .tc := ⟨.hbm, 85, rfl⟩
abbrev main_call3_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S131072x4x512_S131072x1x256_0_0_0 : S131072x4x512.Slices ![0, 0, 0] S131072x1x256
  shapeCasts_S131072x1x256_S131072x256 : S131072x1x256.ShapeCasts S131072x256
  slices_S131072x4x512_S131072x1x512_0_1_0 : S131072x4x512.Slices ![0, 1, 0] S131072x1x512
  shapeCasts_S131072x1x512_S131072x512 : S131072x1x512.ShapeCasts S131072x512
  slices_S131072x4x512_S131072x1x512_0_2_0 : S131072x4x512.Slices ![0, 2, 0] S131072x1x512
  slices_S131072x4x512_S131072x1x512_0_3_0 : S131072x4x512.Slices ![0, 3, 0] S131072x1x512
  reducesTo_S131072x512_S131072_d1 : S131072x512.ReducesTo [1] S131072
  h_S_ : 0 < S_.numel
  bcast_S_S131072 : S_.BroadcastsInDim S131072 (![] : Fin 0 → Fin S131072.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  concatenates_S131072x256_S131072x256_S131072x512_d1 : Shape.Concatenates [S131072x256, S131072x256] S131072x512 1
  reducesTo_S131072x256_S256_d0 : S131072x256.ReducesTo [0] S256
  bcast_S_S256 : S_.BroadcastsInDim S256 (![] : Fin 0 → Fin S256.rank)
  bcast_S_S131072x256 : S_.BroadcastsInDim S131072x256 (![] : Fin 0 → Fin S131072x256.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  dot_S131072x256_S256x256_S131072x256_1_0_0_1_n_n_wf : DotDims.WF S131072x256 S256x256 S131072x256 [1] [0] [0] [1] [] []
  dot_S131072x512_S512x256_S131072x256_1_0_0_1_n_n_wf : DotDims.WF S131072x512 S512x256 S131072x256 [1] [0] [0] [1] [] []
  dot_S131072x256_S256x2_S131072x2_1_0_0_1_n_n_wf : DotDims.WF S131072x256 S256x2 S131072x2 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf

class Facts : Prop extends Facts₀ where

variable [Facts]
-- ==== Proof.K.R0Base.lean ====
/-
  Region 0 of the program: the first kernel, on a 2 × 64 grid of 1024-row tiles.  Here: the tile of each operand a grid
  point works on, the fact that an input's buffer holds its tile at every point (whether the pipeline fetched it there or the
  tile did not move), the two branch conditions of the body in closed form — "first tile of a core's run" (t ≡ 0 mod 64: the
  two running column sums are reset) and "last tile of a core's run" (t ≡ 63 mod 64: the running sums are written out) —, the
  points at which the two sum outputs are left untouched, and the kernel's two running-sum buffers split out of the region's
  invariant.
-/
import proofs.«135453_j26697516712490_1_alg».proof.Proof.Gen.Kernel.Launch
import proofs.«135453_j26697516712490_1_alg».proof.Proof.Gen.Kernel.Skeleton
import proofs.«135453_j26697516712490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s tile at grid point `t`: its block of the array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds the input's tile at every point: fetched there, or its tile index has not moved. -/
theorem found_in0 {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem found_in1 {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem found_in2 {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem found_in3 {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem found_in4 {c : Dev nD} (dat : Dat τ (Elt F) Unit ℕ (UR sig nD τ) ℕ cfg0 c) (hA : dat.A 4 = V c (Pipeline.arrRef spec0 4))
    (hafter : ∀ t, dat.after 4 t = tile V c 4 t) (t : Fin cfg0.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

theorem found_in5 {c : Dev nD} (dat : Dat τ (Elt F) Unit ℕ (UR sig nD τ) ℕ cfg0 c) (hA : dat.A 5 = V c (Pipeline.arrRef spec0 5))
    (hafter : ∀ t, dat.after 5 t = tile V c 5 t) (t : Fin cfg0.N) (d) : dat.before 5 t d = tile V c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

theorem found_in6 {c : Dev nD} (dat : Dat τ (Elt F) Unit ℕ (UR sig nD τ) ℕ cfg0 c) (hA : dat.A 6 = V c (Pipeline.arrRef spec0 6))
    (hafter : ∀ t, dat.after 6 t = tile V c 6 t) (t : Fin cfg0.N) (d) : dat.before 6 t d = tile V c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)

theorem found_in7 {c : Dev nD} (dat : Dat τ (Elt F) Unit ℕ (UR sig nD τ) ℕ cfg0 c) (hA : dat.A 7 = V c (Pipeline.arrRef spec0 7))
    (hafter : ∀ t, dat.after 7 t = tile V c 7 t) (t : Fin cfg0.N) (d) : dat.before 7 t d = tile V c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)

/-! ## The two branches of the body -/

/-- "This is the first tile of the core's run": the inner grid coordinate is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 64 = 0 :=
  (by decide +kernel : ∀ t : Fin grid0.N, isFirst (grid0.coords t) ↔ t.val % 64 = 0)

/-- "This is the last tile of the core's run": the inner grid coordinate is 63. -/
abbrev isLast (i : grid0.Coords) : Prop := k0_cond2 i = 1#1
theorem isLast_iff : ∀ t : Fin cfg0.N, isLast (grid0.coords t) ↔ t.val % 64 = 63 :=
  (by decide +kernel : ∀ t : Fin grid0.N, isLast (grid0.coords t) ↔ t.val % 64 = 63)

/-! ## Where the two sum outputs are left untouched -/

theorem live_le8 : ∀ (w : Fin cfg0.W), w.val ≤ 8 → ∀ t : Fin cfg0.N, cfg0.idle w (grid0.coords t) = false := by decide +kernel
theorem idle9 : ∀ t : Fin cfg0.N, ¬isLast (grid0.coords t) → cfg0.idle 9 (grid0.coords t) = true := by decide +kernel
theorem idle10 : ∀ t : Fin cfg0.N, ¬isLast (grid0.coords t) → cfg0.idle 10 (grid0.coords t) = true := by decide +kernel
theorem noFlush9 : ∀ t : Fin cfg0.N, ¬isLast (grid0.coords t) → (cfg0.win 9).flush t = false := by decide +kernel
theorem noFlush10 : ∀ t : Fin cfg0.N, ¬isLast (grid0.coords t) → (cfg0.win 10).flush t = false := by decide +kernel
theorem live9 : ∀ t : Fin cfg0.N, isLast (grid0.coords t) → cfg0.idle 9 (grid0.coords t) = false := by decide +kernel
theorem live10 : ∀ t : Fin cfg0.N, isLast (grid0.coords t) → cfg0.idle 10 (grid0.coords t) = false := by decide +kernel

/-! ## The running-sum buffers -/

/-- The buffer holding the running column sums of the feature rows, -/
abbrev sumBuf : Memref sig .tc .vmem S1x1x256 .f32 := Memref.whole cc0_scratch0
/-- and the one holding the running column sums of their squares. -/
abbrev sqBuf : Memref sig .tc .vmem S1x1x256 .f32 := Memref.whole cc0_scratch1

/-- The scoped buffers of the second kernel, which this region never touches: each whole, at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- Before the first point the region's invariant is: both running-sum buffers at anything, the other kernel's buffers at
    anything, the generator register at some state. -/
theorem inv_start (c : Dev nD) :
    (Pipeline.ΦA spec0 c : sProp 𝕄)
      = iprop(iprop((∃ d, owns (c : Thread nD τ) sumBuf fullShare d) ∗ (∃ d, owns (c : Thread nD τ) sqBuf fullShare d) ∗ otherStaging (F := F) c) ∗ (∃ r, prngReg c r)) := by
  unfold Pipeline.ΦA otherStaging; rw [scopedRest0_eq]; simp only [sumBuf, sqBuf, owns_whole]; try rfl

end Cert.Kernel.Region0

end
-- ==== Proof.K.R0Defs.lean ====
/-
  What one grid point of the first kernel computes, as values: from the tile's eight input blocks (the 1024 × 4 × 512 slab of
  x, the mask column, the three weight matrices and their bias rows) the 1024 × 256 feature rows g; what it stores is g
  (narrowed), the running column sum advanced by the tile's column sum of g, and the running sum of squares advanced by the
  tile's column sum of g·g.  Every load and every store of the body is of a whole buffer.
-/
import proofs.«135453_j26697516712490_1_alg».proof.Proof.K.R0Base
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole-buffer rectangles the body loads and stores through. -/
abbrev rX : Rect S1024x4x512 := Rect.unit (s := S1024x4x512) ![0, 0, 0] S1024x4x512.size inb_S1024x4x512_S1024x4x512_0_0_0
abbrev rM : Rect S1024x1 := Rect.unit (s := S1024x1) ![0, 0] S1024x1.size inb_S1024x1_S1024x1_0_0
abbrev rWa : Rect S256x256 := Rect.unit (s := S256x256) ![0, 0] S256x256.size inb_S256x256_S256x256_0_0
abbrev rB : Rect S256 := Rect.unit (s := S256) ![0] S256.size inb_S256_S256_0
abbrev rW : Rect S512x256 := Rect.unit (s := S512x256) ![0, 0] S512x256.size inb_S512x256_S512x256_0_0
abbrev rG : Rect S1024x256 := Rect.unit (s := S1024x256) ![0, 0] S1024x256.size inb_S1024x256_S1024x256_0_0
abbrev rS : Rect S1x1x256 := Rect.unit (s := S1x1x256) ![0, 0, 0] S1x1x256.size inb_S1x1x256_S1x1x256_0_0_0

variable (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)

/-- The tile's feature rows as stored: g narrowed to the storage format. -/
def featStored : Vec F S1024x256 .bf16 :=
  View.canon [⟨rG, k0_pay11 (k0_pay4 (View.ld x0 rX)) (k0_pay5 (View.ld x0 rX)) (k0_pay6 (View.ld x4 rW)) (k0_pay7 (View.ld x6 rW)) (k0_pay8 (View.ld x0 rX) (View.ld x2 rWa) (View.ld x3 rB)) (k0_pay9 (View.ld x0 rX)) (View.ld x5 rB) (View.ld x7 rB) (View.ld x1 rM)⟩]

/-- The running column sum after this tile, from the running sum `s` before it: s + (column sum of g). -/
def sumStep (s : Vec F S1x1x256 .f32) : Vec F S1x1x256 .f32 :=
  View.canon [⟨rS, k0_pay12 (k0_pay4 (View.ld x0 rX)) (k0_pay5 (View.ld x0 rX)) (k0_pay6 (View.ld x4 rW)) (k0_pay7 (View.ld x6 rW)) (k0_pay8 (View.ld x0 rX) (View.ld x2 rWa) (View.ld x3 rB)) (k0_pay9 (View.ld x0 rX)) (View.ld x5 rB) (View.ld x7 rB) (View.ld x1 rM) (View.ld s rS)⟩]

/-- The running column sum of squares after this tile, from the one before it: s + (column sum of g·g). -/
def sqStep (s : Vec F S1x1x256 .f32) : Vec F S1x1x256 .f32 :=
  View.canon [⟨rS, k0_pay1 (View.ld s rS) (k0_pay13 (k0_pay4 (View.ld x0 rX)) (k0_pay5 (View.ld x0 rX)) (k0_pay6 (View.ld x4 rW)) (k0_pay7 (View.ld x6 rW)) (k0_pay8 (View.ld x0 rX) (View.ld x2 rWa) (View.ld x3 rB)) (k0_pay9 (View.ld x0 rX)) (View.ld x5 rB) (View.ld x7 rB) (View.ld x1 rM))⟩]

/-- The zero row a core's run starts its running sum from, -/
def zeroSum : Vec F S1x1x256 .f32 := View.canon [⟨rS, (k0_pay2 : FVec F S1x1x256 .f32)⟩]
/-- and the one it starts its running sum of squares from. -/
def zeroSq : Vec F S1x1x256 .f32 := View.canon [⟨rS, (k0_pay3 : FVec F S1x1x256 .f32)⟩]

/-! One whole-buffer store covers its buffer. -/
theorem coverG (p : Vec F S1024x256 .bf16) (y : S1024x256.Idx) :
    ∃ pc ∈ ([⟨rG, p⟩] : List (View.Piece (Elt F) S1024x256 .bf16)), y ∈ pc.1.set :=
  View.cover_of_tiled [⟨rG, p⟩] S1024x256.size (by rfl) y
theorem coverS (p : Vec F S1x1x256 .f32) (y : S1x1x256.Idx) :
    ∃ pc ∈ ([⟨rS, p⟩] : List (View.Piece (Elt F) S1x1x256 .f32)), y ∈ pc.1.set :=
  View.cover_of_tiled [⟨rS, p⟩] S1x1x256.size (by rfl) y
theorem coverS2 (p q : Vec F S1x1x256 .f32) (y : S1x1x256.Idx) :
    ∃ pc ∈ ([⟨rS, p⟩, ⟨rS, q⟩] : List (View.Piece (Elt F) S1x1x256 .f32)), y ∈ pc.1.set := by
  obtain ⟨pc, hpc, hy⟩ := coverS p y
  simp only [List.mem_singleton] at hpc; subst hpc
  exact ⟨_, List.mem_cons_self, hy⟩

end Cert.Kernel.Region0

end
-- ==== Proof.K.R0RunFirst.lean ====
/-
  The body at the first tile of a core's run: both running sums are reset to the zero row before the tile's column sums are
  added, so whatever the two buffers held before is forgotten; the two sum outputs' buffers are left untouched.
-/
import proofs.«135453_j26697516712490_1_alg».proof.Proof.K.R0Defs
import Idealize.ShloMosaic.Lib.Pipeline.Value
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off3 : (![0, 0, 0] : Fin S1x1x256.rank → ℕ) = fun _ => 0 := by funext a; fin_cases a <;> rfl

set_option maxHeartbeats 4000000 in
theorem run_first (c : Dev nD) (i : grid0.Coords) (E : Set ℕ) (a2 : Memref sig .tc .vmem S1024x4x512 .f32) (h2 : a2.IsWhole) (a3 : Memref sig .tc .vmem S1024x1 .f32) (h3 : a3.IsWhole) (a4 : Memref sig .tc .vmem S256x256 .f32) (h4 : a4.IsWhole) (a5 : Memref sig .tc .vmem S256 .f32) (h5 : a5.IsWhole) (a6 : Memref sig .tc .vmem S512x256 .f32) (h6 : a6.IsWhole) (a7 : Memref sig .tc .vmem S256 .f32) (h7 : a7.IsWhole) (a8 : Memref sig .tc .vmem S512x256 .f32) (h8 : a8.IsWhole) (a9 : Memref sig .tc .vmem S256 .f32) (h9 : a9.IsWhole) (a10 : Memref sig .tc .vmem S1024x256 .bf16) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole)
    (hF : isFirst i) (hL : ¬isLast i) (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)
    (y9 y10 s1 s2 : Vec F S1x1x256 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
        ∗ (∃ d, owns (c : Thread nD τ) a10 fullShare d) ∗ owns (c : Thread nD τ) a11 fullShare y9 ∗ owns (c : Thread nD τ) a12 fullShare y10
        ∗ owns (c : Thread nD τ) a13 fullShare s1 ∗ owns (c : Thread nD τ) a14 fullShare s2
        ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
            ∗ owns (c : Thread nD τ) a10 fullShare (featStored x0 x1 x2 x3 x4 x5 x6 x7) ∗ owns (c : Thread nD τ) a11 fullShare y9 ∗ owns (c : Thread nD τ) a12 fullShare y10
            ∗ owns (c : Thread nD τ) a13 fullShare (sumStep x0 x1 x2 x3 x4 x5 x6 x7 zeroSum) ∗ owns (c : Thread nD τ) a14 fullShare (sqStep x0 x1 x2 x3 x4 x5 x6 x7 zeroSq)) -∗ K ⟨⟩))
      ⊢ wp frame (wpE (defs₀ (F := F)) Variants.none c none) E (cc0__k1_kernel i a2 h2 a3 h3 a4 h4 a5 h5 a6 h6 a7 h7 a8 h8 a9 h9 a10 h10 a11 h11 a12 h12 a13 h13 a14 h14) K := by
  simp only [cc0__k1_kernel_eq_skeleton]; unfold cc0__k1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%g1, %hg1, HS1⟩, ⟨%g2, %hg2, HS2⟩, Hk⟩
  subst hf0; subst hf1; subst hf2; subst hf3; subst hf4; subst hf5; subst hf6; subst hf7; subst hf9; subst hf10; subst hg1; subst hg2
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; unfold featStored; sl_unfold_words
    exact View.read_writes_eq_canon _ _ _ (coverG _)
  isplitl [H9]
  · iexists f9; isplitr; · ipureintro; rfl
    iexact H9
  isplitl [H10]
  · iexists f10; isplitr; · ipureintro; rfl
    iexact H10
  isplitl [HS1]
  · iexists _; isplitr
    swap; · iexact HS1
    ipureintro; unfold sumStep zeroSum; sl_unfold_words
    rw [View.read_writes_eq_canon _ _ _ (coverS2 _ _)]
    simp only [View.canon_cons_unit_zero (S := S1x1x256) off3, View.canon_unit_zero (S := S1x1x256) off3, View.readCov_unit_zero (S := S1x1x256) _ off3, View.ld_unit_zero (S := S1x1x256) off3]
    rfl
  iexists _; isplitr
  swap; · iexact HS2
  ipureintro; unfold sqStep zeroSq; sl_unfold_words
  rw [View.read_writes_eq_canon _ _ _ (coverS2 _ _)]
  simp only [View.canon_cons_unit_zero (S := S1x1x256) off3, View.canon_unit_zero (S := S1x1x256) off3, View.readCov_unit_zero (S := S1x1x256) _ off3, View.ld_unit_zero (S := S1x1x256) off3]
  rfl

end Cert.Kernel.Region0

end
-- ==== Proof.K.R0RunMid.lean ====
/-
  The body at a grid point that is neither the first nor the last tile of a core's run: from the eight input blocks and the
  two running sums it leaves the inputs as they were, the feature rows in the feature output's buffer, the two sum outputs'
  buffers untouched, and each running sum advanced by the tile's column sum.
-/
import proofs.«135453_j26697516712490_1_alg».proof.Proof.K.R0Defs
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_mid (c : Dev nD) (i : grid0.Coords) (E : Set ℕ) (a2 : Memref sig .tc .vmem S1024x4x512 .f32) (h2 : a2.IsWhole) (a3 : Memref sig .tc .vmem S1024x1 .f32) (h3 : a3.IsWhole) (a4 : Memref sig .tc .vmem S256x256 .f32) (h4 : a4.IsWhole) (a5 : Memref sig .tc .vmem S256 .f32) (h5 : a5.IsWhole) (a6 : Memref sig .tc .vmem S512x256 .f32) (h6 : a6.IsWhole) (a7 : Memref sig .tc .vmem S256 .f32) (h7 : a7.IsWhole) (a8 : Memref sig .tc .vmem S512x256 .f32) (h8 : a8.IsWhole) (a9 : Memref sig .tc .vmem S256 .f32) (h9 : a9.IsWhole) (a10 : Memref sig .tc .vmem S1024x256 .bf16) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole)
    (hF : ¬isFirst i) (hL : ¬isLast i) (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)
    (y9 y10 s1 s2 : Vec F S1x1x256 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
        ∗ (∃ d, owns (c : Thread nD τ) a10 fullShare d) ∗ owns (c : Thread nD τ) a11 fullShare y9 ∗ owns (c : Thread nD τ) a12 fullShare y10
        ∗ owns (c : Thread nD τ) a13 fullShare s1 ∗ owns (c : Thread nD τ) a14 fullShare s2
        ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
            ∗ owns (c : Thread nD τ) a10 fullShare (featStored x0 x1 x2 x3 x4 x5 x6 x7) ∗ owns (c : Thread nD τ) a11 fullShare y9 ∗ owns (c : Thread nD τ) a12 fullShare y10
            ∗ owns (c : Thread nD τ) a13 fullShare (sumStep x0 x1 x2 x3 x4 x5 x6 x7 s1) ∗ owns (c : Thread nD τ) a14 fullShare (sqStep x0 x1 x2 x3 x4 x5 x6 x7 s2)) -∗ K ⟨⟩))
      ⊢ wp frame (wpE (defs₀ (F := F)) Variants.none c none) E (cc0__k1_kernel i a2 h2 a3 h3 a4 h4 a5 h5 a6 h6 a7 h7 a8 h8 a9 h9 a10 h10 a11 h11 a12 h12 a13 h13 a14 h14) K := by
  simp only [cc0__k1_kernel_eq_skeleton]; unfold cc0__k1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%g1, %hg1, HS1⟩, ⟨%g2, %hg2, HS2⟩, Hk⟩
  subst hf0; subst hf1; subst hf2; subst hf3; subst hf4; subst hf5; subst hf6; subst hf7; subst hf9; subst hf10; subst hg1; subst hg2
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; unfold featStored; sl_unfold_words
    exact View.read_writes_eq_canon _ _ _ (coverG _)
  isplitl [H9]
  · iexists f9; isplitr; · ipureintro; rfl
    iexact H9
  isplitl [H10]
  · iexists f10; isplitr; · ipureintro; rfl
    iexact H10
  isplitl [HS1]
  · iexists _; isplitr
    swap; · iexact HS1
    ipureintro; unfold sumStep; sl_unfold_words
    exact View.read_writes_eq_canon _ _ _ (coverS _)
  iexists _; isplitr
  swap; · iexact HS2
  ipureintro; unfold sqStep; sl_unfold_words
  exact View.read_writes_eq_canon _ _ _ (coverS _)

end Cert.Kernel.Region0

end
-- ==== Proof.K.R0RunLast.lean ====
/-
  The body at the last tile of a core's run: after advancing both running sums by the tile's column sums it copies them out,
  each into its sum output's buffer; so the two outputs' buffers end holding the core's totals.
-/
import proofs.«135453_j26697516712490_1_alg».proof.Proof.K.R0Defs
import Idealize.ShloMosaic.Lib.Pipeline.Value
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off3 : (![0, 0, 0] : Fin S1x1x256.rank → ℕ) = fun _ => 0 := by funext a; fin_cases a <;> rfl

set_option maxHeartbeats 4000000 in
theorem run_last (c : Dev nD) (i : grid0.Coords) (E : Set ℕ) (a2 : Memref sig .tc .vmem S1024x4x512 .f32) (h2 : a2.IsWhole) (a3 : Memref sig .tc .vmem S1024x1 .f32) (h3 : a3.IsWhole) (a4 : Memref sig .tc .vmem S256x256 .f32) (h4 : a4.IsWhole) (a5 : Memref sig .tc .vmem S256 .f32) (h5 : a5.IsWhole) (a6 : Memref sig .tc .vmem S512x256 .f32) (h6 : a6.IsWhole) (a7 : Memref sig .tc .vmem S256 .f32) (h7 : a7.IsWhole) (a8 : Memref sig .tc .vmem S512x256 .f32) (h8 : a8.IsWhole) (a9 : Memref sig .tc .vmem S256 .f32) (h9 : a9.IsWhole) (a10 : Memref sig .tc .vmem S1024x256 .bf16) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole)
    (hF : ¬isFirst i) (hL : isLast i) (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)
    (s1 s2 : Vec F S1x1x256 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
        ∗ (∃ d, owns (c : Thread nD τ) a10 fullShare d) ∗ (∃ d, owns (c : Thread nD τ) a11 fullShare d) ∗ (∃ d, owns (c : Thread nD τ) a12 fullShare d)
        ∗ owns (c : Thread nD τ) a13 fullShare s1 ∗ owns (c : Thread nD τ) a14 fullShare s2
        ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
            ∗ owns (c : Thread nD τ) a10 fullShare (featStored x0 x1 x2 x3 x4 x5 x6 x7) ∗ owns (c : Thread nD τ) a11 fullShare (sumStep x0 x1 x2 x3 x4 x5 x6 x7 s1) ∗ owns (c : Thread nD τ) a12 fullShare (sqStep x0 x1 x2 x3 x4 x5 x6 x7 s2)
            ∗ owns (c : Thread nD τ) a13 fullShare (sumStep x0 x1 x2 x3 x4 x5 x6 x7 s1) ∗ owns (c : Thread nD τ) a14 fullShare (sqStep x0 x1 x2 x3 x4 x5 x6 x7 s2)) -∗ K ⟨⟩))
      ⊢ wp frame (wpE (defs₀ (F := F)) Variants.none c none) E (cc0__k1_kernel i a2 h2 a3 h3 a4 h4 a5 h5 a6 h6 a7 h7 a8 h8 a9 h9 a10 h10 a11 h11 a12 h12 a13 h13 a14 h14) K := by
  simp only [cc0__k1_kernel_eq_skeleton]; unfold cc0__k1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%g1, %hg1, HS1⟩, ⟨%g2, %hg2, HS2⟩, Hk⟩
  subst hf0; subst hf1; subst hf2; subst hf3; subst hf4; subst hf5; subst hf6; subst hf7; subst hg1; subst hg2
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; unfold featStored; sl_unfold_words
    exact View.read_writes_eq_canon _ _ _ (coverG _)
  isplitl [H9]
  · iexists _; isplitr
    swap; · iexact H9
    ipureintro; unfold sumStep; sl_unfold_words
    rw [View.read_writes_eq_canon _ _ _ (coverS _)]
    simp only [View.canon_unit_zero (S := S1x1x256) off3, View.readCov_unit_zero (S := S1x1x256) _ off3]
    rfl
  isplitl [H10]
  · iexists _; isplitr
    swap; · iexact H10
    ipureintro; unfold sqStep; sl_unfold_words
    rw [View.read_writes_eq_canon _ _ _ (coverS _)]
    simp only [View.canon_unit_zero (S := S1x1x256) off3, View.readCov_unit_zero (S := S1x1x256) _ off3]
    rfl
  isplitl [HS1]
  · iexists _; isplitr
    swap; · iexact HS1
    ipureintro; unfold sumStep; sl_unfold_words
    exact View.read_writes_eq_canon _ _ _ (coverS _)
  iexists _; isplitr
  swap; · iexact HS2
  ipureintro; unfold sqStep; sl_unfold_words
  exact View.read_writes_eq_canon _ _ _ (coverS _)

end Cert.Kernel.Region0

end
-- ==== Proof.K.R0Dat.lean ====
/-
  Region 0 point by point.  The two running column sums a core keeps: at the first tile of a core's run they are the tile's
  column sums added to the zero row; at every later tile of the run, the previous point's sums advanced by this tile's.  The
  region's invariant after a point holds the two buffers at exactly these; the feature output's buffer holds the tile's feature
  rows; the two sum outputs' buffers are written only at the last tile of a run, where they receive the run's totals.  The body
  obligation is the body's run in the case the point is in: first tile, last tile, or neither.
-/
import proofs.«135453_j26697516712490_1_alg».proof.Proof.K.R0RunFirst
import proofs.«135453_j26697516712490_1_alg».proof.Proof.K.R0RunMid
import proofs.«135453_j26697516712490_1_alg».proof.Proof.K.R0RunLast
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two running column sums (of the feature rows; of their squares) after grid point `n`. -/
def sumsAt (c : Dev nD) : (n : ℕ) → n < cfg0.N → Vec F S1x1x256 .f32 × Vec F S1x1x256 .f32
  | 0, hn => (sumStep (tile V c 0 ⟨0, hn⟩) (tile V c 1 ⟨0, hn⟩) (tile V c 2 ⟨0, hn⟩) (tile V c 3 ⟨0, hn⟩) (tile V c 4 ⟨0, hn⟩) (tile V c 5 ⟨0, hn⟩) (tile V c 6 ⟨0, hn⟩) (tile V c 7 ⟨0, hn⟩) zeroSum, sqStep (tile V c 0 ⟨0, hn⟩) (tile V c 1 ⟨0, hn⟩) (tile V c 2 ⟨0, hn⟩) (tile V c 3 ⟨0, hn⟩) (tile V c 4 ⟨0, hn⟩) (tile V c 5 ⟨0, hn⟩) (tile V c 6 ⟨0, hn⟩) (tile V c 7 ⟨0, hn⟩) zeroSq)
  | n + 1, hn =>
    if (n + 1) % 64 = 0 then
      (sumStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) zeroSum, sqStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) zeroSq)
    else
      (sumStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) (sumsAt c n (Nat.lt_of_succ_lt hn)).1, sqStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) (sumsAt c n (Nat.lt_of_succ_lt hn)).2)

/-- At the first tile of a core's run the sums restart from the zero row. -/
theorem sumsAt_first (c : Dev nD) (t : Fin cfg0.N) (h : t.val % 64 = 0) :
    sumsAt V c t.val t.isLt = (sumStep (tile V c 0 t) (tile V c 1 t) (tile V c 2 t) (tile V c 3 t) (tile V c 4 t) (tile V c 5 t) (tile V c 6 t) (tile V c 7 t) zeroSum, sqStep (tile V c 0 t) (tile V c 1 t) (tile V c 2 t) (tile V c 3 t) (tile V c 4 t) (tile V c 5 t) (tile V c 6 t) (tile V c 7 t) zeroSq) := by
  obtain ⟨n, hn⟩ := t
  cases n with
  | zero => rfl
  | succ n => exact (if_pos h).trans rfl

/-- At any other tile they advance the previous point's. -/
theorem sumsAt_next (c : Dev nD) (t : Fin cfg0.N) (h : ¬t.val % 64 = 0) :
    sumsAt V c t.val t.isLt = (sumStep (tile V c 0 t) (tile V c 1 t) (tile V c 2 t) (tile V c 3 t) (tile V c 4 t) (tile V c 5 t) (tile V c 6 t) (tile V c 7 t) (sumsAt V c (t.val - 1) (Nat.lt_of_le_of_lt (Nat.sub_le _ _) t.isLt)).1, sqStep (tile V c 0 t) (tile V c 1 t) (tile V c 2 t) (tile V c 3 t) (tile V c 4 t) (tile V c 5 t) (tile V c 6 t) (tile V c 7 t) (sumsAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The region's invariant before point `n`: before the first point both running-sum buffers hold anything; afterwards they
    hold the sums after the point before. -/
def inv (c : Dev nD) : (n : ℕ) → n ≤ cfg0.N → sProp 𝕄
  | 0, _ => Pipeline.ΦA spec0 c
  | n + 1, hn => iprop(iprop(owns (c : Thread nD τ) sumBuf fullShare (sumsAt V c n hn).1 ∗ owns (c : Thread nD τ) sqBuf fullShare (sumsAt V c n hn).2 ∗ otherStaging (F := F) c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) sumBuf fullShare (sumsAt V c n hn).1 ∗ owns (c : Thread nD τ) sqBuf fullShare (sumsAt V c n hn).2 ∗ otherStaging (F := F) c) ∗ (∃ r, prngReg c r)) := rfl
theorem inv_pos (c : Dev nD) (n : ℕ) (h : n ≤ cfg0.N) (hz : n ≠ 0) :
    inv V c n h = iprop(iprop(owns (c : Thread nD τ) sumBuf fullShare (sumsAt V c (n - 1) (by omega)).1 ∗ owns (c : Thread nD τ) sqBuf fullShare (sumsAt V c (n - 1) (by omega)).2 ∗ otherStaging (F := F) c) ∗ (∃ r, prngReg c r)) := by
  cases n with
  | zero => exact absurd rfl hz
  | succ n => rfl

/-- The proof data of the first kernel's pipeline: the arrays as the region finds them; after the body each input's buffer at
    its tile, the feature output's at the tile's feature rows, the sum outputs' at the running sums; the invariant above. -/
def dat0 (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => tile V c 6 t
    | ⟨7, _⟩ => tile V c 7 t
    | ⟨8, _⟩ => featStored (tile V c 0 t) (tile V c 1 t) (tile V c 2 t) (tile V c 3 t) (tile V c 4 t) (tile V c 5 t) (tile V c 6 t) (tile V c 7 t)
    | ⟨9, _⟩ => (sumsAt V c t.val t.isLt).1
    | ⟨10, _⟩ => (sumsAt V c t.val t.isLt).2
  Φ t := inv V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv_castSucc (c : Dev nD) (t : Fin cfg0.N) :
    (dat0 V c).Φ t.castSucc = inv V c t.val (Nat.le_of_lt t.isLt) := by
  dsimp only [dat0]; simp only [Fin.coe_castSucc]

theorem after0_0 (c : Dev nD) (t : Fin cfg0.N) : (dat0 V c).after 0 t = tile V c 0 t := by dsimp only [dat0]
theorem after0_1 (c : Dev nD) (t : Fin cfg0.N) : (dat0 V c).after 1 t = tile V c 1 t := by dsimp only [dat0]
theorem after0_2 (c : Dev nD) (t : Fin cfg0.N) : (dat0 V c).after 2 t = tile V c 2 t := by dsimp only [dat0]
theorem after0_3 (c : Dev nD) (t : Fin cfg0.N) : (dat0 V c).after 3 t = tile V c 3 t := by dsimp only [dat0]
theorem after0_4 (c : Dev nD) (t : Fin cfg0.N) : (dat0 V c).after 4 t = tile V c 4 t := by dsimp only [dat0]
theorem after0_5 (c : Dev nD) (t : Fin cfg0.N) : (dat0 V c).after 5 t = tile V c 5 t := by dsimp only [dat0]
theorem after0_6 (c : Dev nD) (t : Fin cfg0.N) : (dat0 V c).after 6 t = tile V c 6 t := by dsimp only [dat0]
theorem after0_7 (c : Dev nD) (t : Fin cfg0.N) : (dat0 V c).after 7 t = tile V c 7 t := by dsimp only [dat0]
theorem after0_8 (c : Dev nD) (t : Fin cfg0.N) : (dat0 V c).after 8 t = featStored (tile V c 0 t) (tile V c 1 t) (tile V c 2 t) (tile V c 3 t) (tile V c 4 t) (tile V c 5 t) (tile V c 6 t) (tile V c 7 t) := by dsimp only [dat0]
theorem after0_9 (c : Dev nD) (t : Fin cfg0.N) : (dat0 V c).after 9 t = (sumsAt V c t.val t.isLt).1 := by dsimp only [dat0]
theorem after0_10 (c : Dev nD) (t : Fin cfg0.N) : (dat0 V c).after 10 t = (sumsAt V c t.val t.isLt).2 := by dsimp only [dat0]

theorem before0_0 (c : Dev nD) (t : Fin cfg0.N) (d) : (dat0 V c).before 0 t d = tile V c 0 t :=
  found_in0 V (dat0 V c) (A_eq0 V c 0) (after0_0 V c) t d
theorem before0_1 (c : Dev nD) (t : Fin cfg0.N) (d) : (dat0 V c).before 1 t d = tile V c 1 t :=
  found_in1 V (dat0 V c) (A_eq0 V c 1) (after0_1 V c) t d
theorem before0_2 (c : Dev nD) (t : Fin cfg0.N) (d) : (dat0 V c).before 2 t d = tile V c 2 t :=
  found_in2 V (dat0 V c) (A_eq0 V c 2) (after0_2 V c) t d
theorem before0_3 (c : Dev nD) (t : Fin cfg0.N) (d) : (dat0 V c).before 3 t d = tile V c 3 t :=
  found_in3 V (dat0 V c) (A_eq0 V c 3) (after0_3 V c) t d
theorem before0_4 (c : Dev nD) (t : Fin cfg0.N) (d) : (dat0 V c).before 4 t d = tile V c 4 t :=
  found_in4 V (dat0 V c) (A_eq0 V c 4) (after0_4 V c) t d
theorem before0_5 (c : Dev nD) (t : Fin cfg0.N) (d) : (dat0 V c).before 5 t d = tile V c 5 t :=
  found_in5 V (dat0 V c) (A_eq0 V c 5) (after0_5 V c) t d
theorem before0_6 (c : Dev nD) (t : Fin cfg0.N) (d) : (dat0 V c).before 6 t d = tile V c 6 t :=
  found_in6 V (dat0 V c) (A_eq0 V c 6) (after0_6 V c) t d
theorem before0_7 (c : Dev nD) (t : Fin cfg0.N) (d) : (dat0 V c).before 7 t d = tile V c 7 t :=
  found_in7 V (dat0 V c) (A_eq0 V c 7) (after0_7 V c) t d

/-- A window that is never idle is handed back at what the body leaves in it. -/
theorem leaves_live (c : Dev nD) (t : Fin cfg0.N) (w : Fin cfg0.W) (hw : w.val ≤ 8) :
    (dat0 V c).leavesExact w t = owns (c : Thread nD τ) ((cfg0.win w).stage (cfg0.slots t w)) fullShare ((dat0 V c).after w t) := by
  unfold Dat.leavesExact; rw [live_le8 w hw t]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' buffers hold their tiles; the point is the first tile of a run, the last, or neither, and
    the body's run in that case applies; the invariant hands over the two running sums as the point before left them (anything
    at the very first point) and takes them back advanced. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = inv V c (t.val + 1) t.isLt from rfl, inv_succ]
  rw [leaves_live V c t 0 (by decide), leaves_live V c t 1 (by decide), leaves_live V c t 2 (by decide), leaves_live V c t 3 (by decide), leaves_live V c t 4 (by decide), leaves_live V c t 5 (by decide), leaves_live V c t 6 (by decide), leaves_live V c t 7 (by decide), leaves_live V c t 8 (by decide),
    after0_0, after0_1, after0_2, after0_3, after0_4, after0_5, after0_6, after0_7, after0_8]
  have hN : t.val < 128 := lt_of_lt_of_eq t.isLt (show cfg0.N = 128 from N_0)
  by_cases h0 : t.val % 64 = 0
  · have h1 : ¬t.val % 64 = 63 := by omega
    rw [Dat.leavesExact_idle (dat0 V c) 9 t (idle9 t (fun h => h1 ((isLast_iff t).mp h))) (noFlush9 t (fun h => h1 ((isLast_iff t).mp h))),
      Dat.leavesExact_idle (dat0 V c) 10 t (idle10 t (fun h => h1 ((isLast_iff t).mp h))) (noFlush10 t (fun h => h1 ((isLast_iff t).mp h)))]
    rw [sumsAt_first V c t h0]; (try dsimp only)
    by_cases hz : t.val = 0
    · rw [inv_castSucc V c t, inv_zero V c _ _ hz, inv_start]
      iintro ⟨⟨⟨⟨%e1, HS1⟩, ⟨%e2, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) Set.univ _ _ _ _ _ _ _ _ _ _ _ _ _ _ _ _ _ _ _ _ _ _ _ _ _ _ ((isFirst_iff t).mpr h0) (fun h => h1 ((isLast_iff t).mp h)) (tile V c 0 t) (tile V c 1 t) (tile V c 2 t) (tile V c 3 t) (tile V c 4 t) (tile V c 5 t) (tile V c 6 t) (tile V c 7 t) ((dat0 V c).before 9 t d9) ((dat0 V c).before 10 t d10) e1 e2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [inv_castSucc V c t, inv_pos V c _ _ hz]
      iintro ⟨⟨⟨HS1, HS2, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) Set.univ _ _ _ _ _ _ _ _ _ _ _ _ _ _ _ _ _ _ _ _ _ _ _ _ _ _ ((isFirst_iff t).mpr h0) (fun h => h1 ((isLast_iff t).mp h)) (tile V c 0 t) (tile V c 1 t) (tile V c 2 t) (tile V c 3 t) (tile V c 4 t) (tile V c 5 t) (tile V c 6 t) (tile V c 7 t) ((dat0 V c).before 9 t d9) ((dat0 V c).before 10 t d10) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
  · by_cases h1 : t.val % 64 = 63
    · have hz : t.val ≠ 0 := by omega
      rw [show (dat0 V c).leavesExact 9 t = owns (c : Thread nD τ) (st0_9 t) fullShare ((dat0 V c).after 9 t) from by
        unfold Dat.leavesExact; rw [live9 t ((isLast_iff t).mpr h1)], after0_9]
      rw [show (dat0 V c).leavesExact 10 t = owns (c : Thread nD τ) (st0_10 t) fullShare ((dat0 V c).after 10 t) from by
        unfold Dat.leavesExact; rw [live10 t ((isLast_iff t).mpr h1)], after0_10]
      rw [sumsAt_next V c t h0]; (try dsimp only)
      rw [inv_castSucc V c t, inv_pos V c _ _ hz]
      iintro ⟨⟨⟨HS1, HS2, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) Set.univ _ _ _ _ _ _ _ _ _ _ _ _ _ _ _ _ _ _ _ _ _ _ _ _ _ _ (fun h => h0 ((isFirst_iff t).mp h)) ((isLast_iff t).mpr h1) (tile V c 0 t) (tile V c 1 t) (tile V c 2 t) (tile V c 3 t) (tile V c 4 t) (tile V c 5 t) (tile V c 6 t) (tile V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : t.val ≠ 0 := fun e => h0 (by rw [e])
      rw [Dat.leavesExact_idle (dat0 V c) 9 t (idle9 t (fun h => h1 ((isLast_iff t).mp h))) (noFlush9 t (fun h => h1 ((isLast_iff t).mp h))),
        Dat.leavesExact_idle (dat0 V c) 10 t (idle10 t (fun h => h1 ((isLast_iff t).mp h))) (noFlush10 t (fun h => h1 ((isLast_iff t).mp h)))]
      rw [sumsAt_next V c t h0]; (try dsimp only)
      rw [inv_castSucc V c t, inv_pos V c _ _ hz]
      iintro ⟨⟨⟨HS1, HS2, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) Set.univ _ _ _ _ _ _ _ _ _ _ _ _ _ _ _ _ _ _ _ _ _ _ _ _ _ _ (fun h => h0 ((isFirst_iff t).mp h)) (fun h => h1 ((isLast_iff t).mp h)) (tile V c 0 t) (tile V c 1 t) (tile V c 2 t) (tile V c 3 t) (tile V c 4 t) (tile V c 5 t) (tile V c 6 t) (tile V c 7 t) ((dat0 V c).before 9 t d9) ((dat0 V c).before 10 t d10) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem inv_in (c : Dev nD) : Pipeline.ΦA spec0 c ⊢ (dat0 V c).Φ 0 := by
  rw [show (dat0 V c).Φ 0 = inv V c 0 (Nat.zero_le _) from rfl, inv_zero V c 0 _ rfl]
  try exact Idealize.SL.BI.Entails.refl _

/-- and after the last point the invariant gives it back, the running sums' contents forgotten. -/
theorem inv_out (c : Dev nD) : (dat0 V c).Φ (Fin.last cfg0.N) ⊢ Pipeline.ΦA spec0 c := by
  rw [show (dat0 V c).Φ (Fin.last cfg0.N) = inv V c (Fin.last cfg0.N).val (Nat.le_of_lt_succ (Fin.last cfg0.N).isLt) from rfl,
    inv_pos V c _ _ (by rw [Fin.val_last]; have : cfg0.N = 128 := N_0; omega), inv_start]
  iintro ⟨⟨HS1, HS2, Hoth⟩, Hg⟩
  isplitl [HS1 HS2 Hoth]
  · isplitl [HS1]; · iexists _; iexact HS1
    isplitl [HS2]; · iexists _; iexact HS2
    iexact Hoth
  iexact Hg

end Cert.Kernel.Region0

end
-- ==== Proof.K.Region1.lean ====
/- REGION 1 of the program: the second kernel call, on a grid of 32 points. At point `t` it takes rows
   `4096·t … 4096·t + 4095` of the matrix `g` (256 columns, half precision), normalises each column by `mu` and
   `inv`, scales by `gamma`, shifts by `beta`, rectifies (maximum with 0), multiplies the result by the
   256 × 2 head matrix `Wfc` and adds the bias `bfc`: 4096 rows of 2 columns, written back as rows
   `4096·t …` of the result. The body reads seven windows whole and stores the eighth whole, once; it keeps
   nothing from point to point. This module states, at ANY contents `V` of the buffers when the region is
   entered: the block of each window at a point; that the body finds each input's block in its buffer whether
   or not it was transferred in at that point; what the body leaves in the output's buffer; the body's triple;
   the proof data of the pipeline; and the body obligation at every point. -/
import proofs.«135453_j26697516712490_1_alg».proof.Proof.Gen.Kernel.Launch
import proofs.«135453_j26697516712490_1_alg».proof.Proof.Gen.Kernel.Skeleton
import proofs.«135453_j26697516712490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 rows: the structural check recurses once per coordinate of the long axis
set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: everything below is stated at any such contents
variable (V : (c : Dev nD) → (b : Ref sig .tc) → Buf (Elt F) ((c : Thread nD τ).loc b))

/-! ## The windows' blocks -/

/-- Window `w`'s block at point `t`: the part of its array, as the region finds it, that the point's index map
    selects. For window 0 rows `4096·t … 4096·t + 4095` of `g`; for windows 1–6 the whole (small) array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 — the 4096 rows of `g` the point covers (rows `4096·t …`), in half precision — is transferred in at every point: the
    body finds its block in the window's buffer at every point. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Window 1 — the per-column mean `mu` — is transferred in at the first point only, and its block index never moves: the
    body finds its block in the window's buffer at every point. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Window 2 — the per-column inverse deviation `inv` — is transferred in at the first point only, and its block index never moves: the
    body finds its block in the window's buffer at every point. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Window 3 — the per-column scale `gamma` — is transferred in at the first point only, and its block index never moves: the
    body finds its block in the window's buffer at every point. -/
theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Window 4 — the per-column shift `beta` — is transferred in at the first point only, and its block index never moves: the
    body finds its block in the window's buffer at every point. -/
theorem found1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Window 5 — the head matrix `Wfc` — is transferred in at the first point only, and its block index never moves: the
    body finds its block in the window's buffer at every point. -/
theorem found1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Window 6 — the head bias `bfc` — is transferred in at the first point only, and its block index never moves: the
    body finds its block in the window's buffer at every point. -/
theorem found1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! ## The body's one store -/

/-- The whole 4096 × 2 buffer, as a rectangle: where the body stores. -/
abbrev whole4096x2 : Rect S4096x2 := Rect.unit (s := S4096x2) ![0, 0] S4096x2.size inb_S4096x2_S4096x2_0_0

/-- What the body leaves in the output window's buffer, from the seven input blocks: its single store, of the
    normalised, rectified rows times the head matrix plus the bias, laid over the whole buffer. -/
def headRows (g : Vec F S4096x256 .bf16) (mu inv gamma beta : Vec F S1x256 .f32) (Wfc : Vec F S256x2 .f32) (bfc : Vec F S1x2 .f32) :
    Vec F S4096x2 .f32 :=
  View.canon [⟨whole4096x2, k1_pay1 (View.ld g (Rect.unit (s := S4096x256) ![0, 0] S4096x256.size inb_S4096x256_S4096x256_0_0))
    (View.ld mu (Rect.unit (s := S1x256) ![0, 0] S1x256.size inb_S1x256_S1x256_0_0))
    (View.ld inv (Rect.unit (s := S1x256) ![0, 0] S1x256.size inb_S1x256_S1x256_0_0))
    (View.ld gamma (Rect.unit (s := S1x256) ![0, 0] S1x256.size inb_S1x256_S1x256_0_0))
    (View.ld beta (Rect.unit (s := S1x256) ![0, 0] S1x256.size inb_S1x256_S1x256_0_0))
    (View.ld Wfc (Rect.unit (s := S256x2) ![0, 0] S256x2.size inb_S256x2_S256x2_0_0))
    (View.ld bfc (Rect.unit (s := S1x2) ![0, 0] S1x2.size inb_S1x2_S1x2_0_0))⟩]

/-- The one store covers the buffer: every index of the 4096 × 2 shape lies in the whole rectangle. -/
theorem headRows_cover (p : Vec F S4096x2 .f32) (y : S4096x2.Idx) :
    ∃ pc ∈ ([⟨whole4096x2, p⟩] : List (View.Piece (Elt F) S4096x2 .f32)), y ∈ pc.1.set :=
  View.cover_of_tiled [⟨whole4096x2, p⟩] S4096x2.size (by rfl) y

/-! ## The body's triple -/

set_option maxHeartbeats 1000000 in
/-- The kernel body on whole buffers — the seven inputs' at read contents `g, mu, inv, gamma, beta, Wfc, bfc` and the
    output's at anything — runs to a continuation that holds the inputs' as they were and the output's at
    `headRows` of the inputs: seven whole loads, a load of the output's buffer whose value is not used, and one
    whole store, which covers the buffer. -/
theorem kernel_triple1 (c : Dev nD) (E : Set ℕ) (i : grid1.Coords)
    (a0 : Memref sig .tc .vmem S4096x256 .bf16) (h0 : a0.IsWhole) (a1 : Memref sig .tc .vmem S1x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (a5 : Memref sig .tc .vmem S256x2 .f32) (h5 : a5.IsWhole)
    (a6 : Memref sig .tc .vmem S1x2 .f32) (h6 : a6.IsWhole) (a7 : Memref sig .tc .vmem S4096x2 .f32) (h7 : a7.IsWhole)
    (g : Vec F S4096x256 .bf16) (mu inv gamma beta : Vec F S1x256 .f32) (Wfc : Vec F S256x2 .f32) (bfc : Vec F S1x2 .f32)
    (K : PUnit → sProp 𝕄) :
    iprop(owns (c : Thread nD τ) a0 fullShare g ∗ owns (c : Thread nD τ) a1 fullShare mu ∗ owns (c : Thread nD τ) a2 fullShare inv
        ∗ owns (c : Thread nD τ) a3 fullShare gamma ∗ owns (c : Thread nD τ) a4 fullShare beta ∗ owns (c : Thread nD τ) a5 fullShare Wfc
        ∗ owns (c : Thread nD τ) a6 fullShare bfc ∗ (∃ d, owns (c : Thread nD τ) a7 fullShare d)
        ∗ (iprop(owns (c : Thread nD τ) a0 fullShare g ∗ owns (c : Thread nD τ) a1 fullShare mu ∗ owns (c : Thread nD τ) a2 fullShare inv
            ∗ owns (c : Thread nD τ) a3 fullShare gamma ∗ owns (c : Thread nD τ) a4 fullShare beta ∗ owns (c : Thread nD τ) a5 fullShare Wfc
            ∗ owns (c : Thread nD τ) a6 fullShare bfc ∗ owns (c : Thread nD τ) a7 fullShare (headRows g mu inv gamma beta Wfc bfc)) -∗ K ⟨⟩))
      ⊢ wp frame (wpE (defs₀ (F := F)) Variants.none c none) E (cc1__k2_kernel i a0 h0 a1 h1 a2 h2 a3 h3 a4 h4 a5 h5 a6 h6 a7 h7) K := by
  simp only [cc1__k2_kernel_eq_skeleton]; unfold cc1__k2_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (headRows_cover _)

/-! ## The pipeline's proof data -/

/-- The proof data of this pipeline on core `c`: the windows' arrays as the region finds them (`V`); after the
    body at point `t` each input's buffer still at its block and the output's at `headRows` of the seven input
    blocks; the invariant that of a body which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => headRows (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
/-- and in the output's buffer the normalised, rectified rows of the point times the head matrix, plus the bias. -/
theorem after1_7 (c : Dev nD) (t : Fin cfg1.N) : (dat1 V c).after 7 t
    = headRows (blk1 V c 0 t) (blk1 V c 1 t) (blk1 V c 2 t) (blk1 V c 3 t) (blk1 V c 4 t) (blk1 V c 5 t) (blk1 V c 6 t) := by
  dsimp only [dat1]

/-- Each input's buffer holds its block at every point, transferred in there or not. -/
theorem before1_0 (c : Dev nD) (t : Fin cfg1.N) (d) : (dat1 V c).before 0 t d = blk1 V c 0 t :=
  found1_0_of V (dat1 V c) (A_eq1 V c 0) (after1_0 V c) t d
theorem before1_1 (c : Dev nD) (t : Fin cfg1.N) (d) : (dat1 V c).before 1 t d = blk1 V c 1 t :=
  found1_1_of V (dat1 V c) (A_eq1 V c 1) (after1_1 V c) t d
theorem before1_2 (c : Dev nD) (t : Fin cfg1.N) (d) : (dat1 V c).before 2 t d = blk1 V c 2 t :=
  found1_2_of V (dat1 V c) (A_eq1 V c 2) (after1_2 V c) t d
theorem before1_3 (c : Dev nD) (t : Fin cfg1.N) (d) : (dat1 V c).before 3 t d = blk1 V c 3 t :=
  found1_3_of V (dat1 V c) (A_eq1 V c 3) (after1_3 V c) t d
theorem before1_4 (c : Dev nD) (t : Fin cfg1.N) (d) : (dat1 V c).before 4 t d = blk1 V c 4 t :=
  found1_4_of V (dat1 V c) (A_eq1 V c 4) (after1_4 V c) t d
theorem before1_5 (c : Dev nD) (t : Fin cfg1.N) (d) : (dat1 V c).before 5 t d = blk1 V c 5 t :=
  found1_5_of V (dat1 V c) (A_eq1 V c 5) (after1_5 V c) t d
theorem before1_6 (c : Dev nD) (t : Fin cfg1.N) (d) : (dat1 V c).before 6 t d = blk1 V c 6 t :=
  found1_6_of V (dat1 V c) (A_eq1 V c 6) (after1_6 V c) t d

/-! ## The body obligation, at a generic point -/

/-- What the body is called with at point `t`: the invariant, what the core owes, and the eight windows' current
    buffers, whole, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_triple1 c Set.univ _ _ _ _ _ _ _ _ _ _ _ _ _ _ _ _ _ (blk1 V c 0 t) (blk1 V c 1 t) (blk1 V c 2 t) (blk1 V c 3 t)
    (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Region1

end
-- ==== Proof.K.Run.lean ====
/-
  The whole program as four segments — the mask's conversion on the host, the first kernel, the statistics on the host (the two
  cores' column sums added, mean, variance, reciprocal standard deviation, and the rows re-laid), the second kernel — run from any
  memory: every execution terminates, and every buffer that outlives the kernels ends at the contents the segments compose
  to.  Read at the arguments this is "unchanged"; read at the result it is the result's value.
-/
import proofs.«135453_j26697516712490_1_alg».proof.Proof.K.R0Dat
import proofs.«135453_j26697516712490_1_alg».proof.Proof.K.Region1
import proofs.«135453_j26697516712490_1_alg».proof.Proof.Gen.Kernel.Regions
set_option maxRecDepth 16384

noncomputable section

namespace Cert.Kernel.Run

open Cert.Kernel Cert.Kernel.Gen Cert.Kernel.Region0 Cert.Kernel.Region1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its three output arrays at what its write-backs left, everything else as before it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel: its output array at what its write-backs left, everything else as before it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 5).trans (((dat1 (V3 m ρ) c).arrAt_in 5 rfl _).trans (A_eq1 (V3 m ρ) c 5))
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as segments -/

theorem phiA_join0 (c : Dev nD) :
    iprop((∃ r, prngReg c r) ∗ Pipeline.prefHeld (pcfgs (F := F) 0).pre c (fun _ => fullShare) (adm (F := F) 0).1 ∗ Pipeline.scopedRest spec0 c)
      ⊢ (Pipeline.ΦA spec0 c : sProp 𝕄) := by
  unfold Pipeline.ΦA
  iintro ⟨Hp, -, Hr⟩
  isplitl [Hr]; · iexact Hr
  iexact Hp
theorem phiA_split0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

theorem phiA_join1 (c : Dev nD) :
    iprop((∃ r, prngReg c r) ∗ Pipeline.prefHeld (pcfgs (F := F) 1).pre c (fun _ => fullShare) (adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp
theorem phiA_split1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The second kernel keeps nothing between points: its invariant is the same before the first point and after the last. -/
theorem phiA_in1 (V : (c : Dev nD) → (b : Ref sig .tc) → Buf (Elt F) ((c : Thread nD τ).loc b)) (c : Dev nD) :
    (Pipeline.ΦA spec1 c : sProp 𝕄) ⊢ (dat1 V c).Φ 0 := by
  rw [show (dat1 V c).Φ 0 = Pipeline.ΦA spec1 c from rfl]; try exact Idealize.SL.BI.Entails.refl _
theorem phiA_out1 (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = Pipeline.ΦA spec1 c from rfl]; try exact Idealize.SL.BI.Entails.refl _

set_option backward.isDefEq.respectTransparency.types false in
/-- Region 0 over the thread state: entered with every unscoped buffer at the contents before it, left with them at the contents
    after it; its arrays are split out of the unscoped buffers on entry and put back at what the write-backs left on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_join0 c).trans (inv_in (V1 m ρ) c)
  hout c := by
    rw [Pipeline.ownSems0_none]
    exact (inv_out (V1 m ρ) c).trans (phiA_split0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the contents
    after it; its arrays are split out of the unscoped buffers on entry and put back at what the write-backs left on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_join1 c).trans (phiA_in1 (V3 m ρ) c)
  hout c := by
    rw [Pipeline.ownSems0_none]
    exact (phiA_out1 (V3 m ρ) c).trans (phiA_split1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution from `m` terminates without a fault, and every unscoped buffer ends at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

/-- The result array ends at what the second kernel's write-backs leave. -/
theorem result : θ_run defs (onTc (τ := τ) (main (F := F))) ⟨m, fun _ => 0, ρ⟩ (fun r => ∀ c : Dev nD,
      r.2.mem ((c.tc : Thread nD τ).loc main_v27) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v27 (by decide))).trans (W4_arr m ρ c 7),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

end Cert.Kernel.Run

end
-- ==== Proof.K.Region0Value.lean ====
/- What REGION 0 leaves in its three result arrays, each as ONE function of what the region read. The grid has 2 × 64
   points; point `t` (core `t / 64`, step `t mod 64`) reads rows `1024·t … 1024·t + 1023` of `x` and of the mask,
   and the six weight and bias arrays whole. It writes back rows `1024·t …` of the feature matrix at every point: the
   128 tiles cover the 131072 rows, so row `r` of the feature matrix is row `r mod 1024` of the body's feature rows
   on tile `r / 1024` (`featMatrix`, `final0_8`). The two running column sums are written back only at a core's last
   point `64·core + 63`, into row `core` of a 2 × 1 × 256 array: that row is the running sum after that point
   (`sumOfCore`, `sqOfCore`, `final0_9`, `final0_10`). -/
import proofs.«135453_j26697516712490_1_alg».proof.Proof.K.R0Dat
import Idealize.ShloMosaic.Lib.Pipeline.Value
import Idealize.ShloMosaic.Lib.ValueIdx

noncomputable section

namespace Cert.Kernel.Region0

open Cert.Kernel Cert.Kernel.Gen
open Idealize.ShloMosaic Idealize.ShloMosaic.TcCoe Idealize.SL.Sem
open Idealize.ShloMosaic.Pipeline (Dat)
open Idealize.ShloMosaic.ValueIdx

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The feature matrix as one function of the arrays -/

/-- The feature rows of one tile, from its eight input blocks: the body's value, before it is laid into the buffer. -/
def featRows (x0 : Vec F S1024x4x512 .f32) (x1 : Vec F S1024x1 .f32) (x2 : Vec F S256x256 .f32) (x3 : Vec F S256 .f32)
    (x4 : Vec F S512x256 .f32) (x5 : Vec F S256 .f32) (x6 : Vec F S512x256 .f32) (x7 : Vec F S256 .f32) : Vec F S1024x256 .bf16 :=
  k0_pay11 (k0_pay4 x0) (k0_pay5 x0) (k0_pay6 x4) (k0_pay7 x6) (k0_pay8 x0 x2 x3) (k0_pay9 x0) x5 x7 x1

/-- What the body stores IS those rows: every load and the store are of whole buffers. -/
theorem featStored_eq (x0 : Vec F S1024x4x512 .f32) (x1 : Vec F S1024x1 .f32) (x2 : Vec F S256x256 .f32) (x3 : Vec F S256 .f32)
    (x4 : Vec F S512x256 .f32) (x5 : Vec F S256 .f32) (x6 : Vec F S512x256 .f32) (x7 : Vec F S256 .f32) :
    featStored x0 x1 x2 x3 x4 x5 x6 x7 = featRows x0 x1 x2 x3 x4 x5 x6 x7 := by
  unfold featStored featRows
  rw [View.canon_unit_zero (S := S1024x256) hz2]
  simp only [View.ld_unit_zero (S := S1024x4x512) hz3, View.ld_unit_zero (S := S1024x1) hz2, View.ld_unit_zero (S := S256x256) hz2,
    View.ld_unit_zero (S := S256) hz1, View.ld_unit_zero (S := S512x256) hz2]

/-- Rows `1024·b … 1024·b + 1023` of `x`, all four slabs and 512 columns: tile `b`'s block of `x`. -/
def xTile (x : S131072x4x512.Idx → Elt F .f32) (b : Fin 128) : Vec F S1024x4x512 .f32 :=
  fun y => x (ix3 (⟨1024 * b.val + (y 0).val, by have hy : (y 0).val < 1024 := (y 0).isLt; have := b.isLt; omega⟩ : Fin 131072) (y 1 : Fin 4) (y 2 : Fin 512))

/-- Rows `1024·b … 1024·b + 1023` of the mask column: tile `b`'s block of the mask. -/
def maskTile (m : S131072x1.Idx → Elt F .f32) (b : Fin 128) : Vec F S1024x1 .f32 :=
  fun y => m (ix2 (⟨1024 * b.val + (y 0).val, by have hy : (y 0).val < 1024 := (y 0).isLt; have := b.isLt; omega⟩ : Fin 131072) (y 1 : Fin 1))

/-- The tile of 1024 rows that row `i 0` lies in: `(i 0) / 1024`. -/
def tileOfRow (i : S131072x256.Idx) : Fin 128 := ⟨(i 0).val / 1024, by have := idx2_lt0 i; omega⟩

/-- Where the entry sits inside its tile: row `(i 0) mod 1024`, same column. -/
def withinTile (i : S131072x256.Idx) : S1024x256.Idx :=
  ix2 (⟨(i 0).val % 1024, Nat.mod_lt _ (by decide)⟩ : Fin 1024) (i 1 : Fin 256)

/-- THE FEATURE MATRIX, entry by entry: the body's feature rows on the tile of `x` and of the mask the row lies in
    (and the whole weight and bias arrays), read at the row's place inside the tile. -/
def featMatrix (x : S131072x4x512.Idx → Elt F .f32) (m : S131072x1.Idx → Elt F .f32) (Wa : S256x256.Idx → Elt F .f32)
    (ba : S256.Idx → Elt F .f32) (W1 : S512x256.Idx → Elt F .f32) (b1 : S256.Idx → Elt F .f32) (W2 : S512x256.Idx → Elt F .f32)
    (b2 : S256.Idx → Elt F .f32) : S131072x256.Idx → Elt F .bf16 :=
  fun i => featRows (xTile x (tileOfRow i)) (maskTile m (tileOfRow i)) Wa ba W1 b1 W2 b2 (withinTile i)

/-- `featMatrix` at row `1024·b + j 0`, column `j 1`, is the feature rows of tile `b` at `j`. -/
theorem featMatrix_at (x : S131072x4x512.Idx → Elt F .f32) (m : S131072x1.Idx → Elt F .f32) (Wa : S256x256.Idx → Elt F .f32)
    (ba : S256.Idx → Elt F .f32) (W1 : S512x256.Idx → Elt F .f32) (b1 : S256.Idx → Elt F .f32) (W2 : S512x256.Idx → Elt F .f32)
    (b2 : S256.Idx → Elt F .f32) (b : Fin 128) (j : S1024x256.Idx) (i : S131072x256.Idx)
    (h0 : (i 0).val = 1024 * b.val + (j 0).val) (h1 : (i 1).val = (j 1).val) :
    featMatrix x m Wa ba W1 b1 W2 b2 i = featRows (xTile x b) (maskTile m b) Wa ba W1 b1 W2 b2 j := by
  have hj : (j 0).val < 1024 := idx2_lt0 j
  have eb : tileOfRow i = b := Fin.ext (by show (i 0).val / 1024 = b.val; omega)
  have ej : withinTile i = j := by
    funext a
    match a with
    | ⟨0, _⟩ => exact Fin.ext (by show (i 0).val % 1024 = (j 0).val; omega)
    | ⟨1, _⟩ => exact Fin.ext h1
  unfold featMatrix
  rw [eb, ej]

/-! ## The windows' blocks, read off the arrays -/

variable (V : (c : Dev nD) → (b : Ref sig .tc) → Buf (Elt F) ((c : Thread nD τ).loc b))

/-- The printed index maps, decided once over the 128 points: at point `t` the windows of `x`, of the mask and of the
    feature matrix are at block `t`; the two sums' windows at block `t / 64` (the core); the weights' and biases' at 0. -/
theorem index_facts0 : ∀ t : Fin cfg0.N, t.val < 128
    ∧ (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_8.index t (0 : Fin 2) = t.val ∧ win0_8.index t (1 : Fin 2) = 0)
    ∧ (win0_9.index t (0 : Fin 3) = t.val / 64 ∧ win0_9.index t (1 : Fin 3) = 0 ∧ win0_9.index t (2 : Fin 3) = 0)
    ∧ (win0_10.index t (0 : Fin 3) = t.val / 64 ∧ win0_10.index t (1 : Fin 3) = 0 ∧ win0_10.index t (2 : Fin 3) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0 :=
  (by decide +kernel : ∀ t : Fin grid0.N, _)

/-- Window 0's block at point `t` is rows `1024·t …` of `x`. -/
theorem tile0_eq (c : Dev nD) (t : Fin cfg0.N) :
    (tile V c 0 t : Vec F S1024x4x512 .f32)
      = xTile (V c (Pipeline.arrRef spec0 0) : S131072x4x512.Idx → Elt F .f32) ⟨t.val, (index_facts0 t).1⟩ := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile xTile
  rw [View.read_apply]
  refine congrArg (V c (Pipeline.arrRef spec0 0) : S131072x4x512.Idx → Elt F .f32) (funext fun a => Fin.ext ?_)
  match a with
  | ⟨0, _⟩ => show win0_0.index t 0 * 1024 + 1 * (y 0).val = 1024 * t.val + (y 0).val; rw [x0]; omega
  | ⟨1, _⟩ => show win0_0.index t 1 * 4 + 1 * (y 1).val = (y 1).val; rw [x1]; omega
  | ⟨2, _⟩ => show win0_0.index t 2 * 512 + 1 * (y 2).val = (y 2).val; rw [x2]; omega

/-- Window 1's block at point `t` is rows `1024·t …` of the mask column. -/
theorem tile1_eq (c : Dev nD) (t : Fin cfg0.N) :
    (tile V c 1 t : Vec F S1024x1 .f32)
      = maskTile (V c (Pipeline.arrRef spec0 1) : S131072x1.Idx → Elt F .f32) ⟨t.val, (index_facts0 t).1⟩ := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile maskTile
  rw [View.read_apply]
  refine congrArg (V c (Pipeline.arrRef spec0 1) : S131072x1.Idx → Elt F .f32) (funext fun a => Fin.ext ?_)
  match a with
  | ⟨0, _⟩ => show win0_1.index t 0 * 1024 + 1 * (y 0).val = 1024 * t.val + (y 0).val; rw [k0]; omega
  | ⟨1, _⟩ => show win0_1.index t 1 * 1 + 1 * (y 1).val = (y 1).val; rw [k1]; omega

/-- Window 2's block at every point is its whole array: one block, at index 0. -/
theorem tile2_eq (c : Dev nD) (t : Fin cfg0.N) :
    (tile V c 2 t : Vec F S256x256 .f32) = (V c (Pipeline.arrRef spec0 2) : S256x256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 2) : S256x256.Idx → Elt F .f32) (funext fun a => Fin.ext ?_)
  match a with
  | ⟨0, _⟩ => show win0_2.index t 0 * 256 + 1 * (y 0).val = (y 0).val; rw [a0]; omega
  | ⟨1, _⟩ => show win0_2.index t 1 * 256 + 1 * (y 1).val = (y 1).val; rw [a1]; omega

/-- Window 3's block at every point is its whole array: one block, at index 0. -/
theorem tile3_eq (c : Dev nD) (t : Fin cfg0.N) :
    (tile V c 3 t : Vec F S256 .f32) = (V c (Pipeline.arrRef spec0 3) : S256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 3) : S256.Idx → Elt F .f32) (funext fun a => Fin.ext ?_)
  match a with
  | ⟨0, _⟩ => show win0_3.index t 0 * 256 + 1 * (y 0).val = (y 0).val; rw [b0]; omega

/-- Window 4's block at every point is its whole array: one block, at index 0. -/
theorem tile4_eq (c : Dev nD) (t : Fin cfg0.N) :
    (tile V c 4 t : Vec F S512x256 .f32) = (V c (Pipeline.arrRef spec0 4) : S512x256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 4) : S512x256.Idx → Elt F .f32) (funext fun a => Fin.ext ?_)
  match a with
  | ⟨0, _⟩ => show win0_4.index t 0 * 512 + 1 * (y 0).val = (y 0).val; rw [d0]; omega
  | ⟨1, _⟩ => show win0_4.index t 1 * 256 + 1 * (y 1).val = (y 1).val; rw [d1]; omega

/-- Window 5's block at every point is its whole array: one block, at index 0. -/
theorem tile5_eq (c : Dev nD) (t : Fin cfg0.N) :
    (tile V c 5 t : Vec F S256 .f32) = (V c (Pipeline.arrRef spec0 5) : S256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 5) : S256.Idx → Elt F .f32) (funext fun a => Fin.ext ?_)
  match a with
  | ⟨0, _⟩ => show win0_5.index t 0 * 256 + 1 * (y 0).val = (y 0).val; rw [e0]; omega

/-- Window 6's block at every point is its whole array: one block, at index 0. -/
theorem tile6_eq (c : Dev nD) (t : Fin cfg0.N) :
    (tile V c 6 t : Vec F S512x256 .f32) = (V c (Pipeline.arrRef spec0 6) : S512x256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 6) : S512x256.Idx → Elt F .f32) (funext fun a => Fin.ext ?_)
  match a with
  | ⟨0, _⟩ => show win0_6.index t 0 * 512 + 1 * (y 0).val = (y 0).val; rw [f0]; omega
  | ⟨1, _⟩ => show win0_6.index t 1 * 256 + 1 * (y 1).val = (y 1).val; rw [f1]; omega

/-- Window 7's block at every point is its whole array: one block, at index 0. -/
theorem tile7_eq (c : Dev nD) (t : Fin cfg0.N) :
    (tile V c 7 t : Vec F S256 .f32) = (V c (Pipeline.arrRef spec0 7) : S256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 7) : S256.Idx → Elt F .f32) (funext fun a => Fin.ext ?_)
  match a with
  | ⟨0, _⟩ => show win0_7.index t 0 * 256 + 1 * (y 0).val = (y 0).val; rw [h0]; omega

/-! ## Window 8: the feature matrix -/

/-- The window is not cut: what is written back of a buffer's contents is all of it. -/
theorem whole_block0_8 (t : Fin cfg0.N) (X : Vec F S1024x256 .bf16) : (cfg0.win 8).cut (grid0.coords t) X = X := rfl

/-- Block `t` of a whole-array function, read at `j`, is the function at the block's `j`-th entry. -/
theorem read_block0_8 (t : Fin cfg0.N) (G : S131072x256.Idx → Elt F .bf16) (j : S1024x256.Idx) :
    ((cfg0.win 8).blk t).view.read (Elt F) G j = G (((cfg0.win 8).blk t).view.emb j) := rfl

/-- WHAT POINT `t` WRITES BACK is block `t` of `featMatrix` of the arrays as the region finds them. -/
theorem writeback0_8_eq (c : Dev nD) (t : Fin cfg0.N) :
    (dat0 V c).flushed 8 t = ((cfg0.win 8).blk t).view.read (Elt F) (featMatrix (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  show (cfg0.win 8).cut (grid0.coords t) ((dat0 V c).after 8 t) = _
  rw [after0_8, featStored_eq, tile0_eq, tile1_eq, tile2_eq, tile3_eq, tile4_eq, tile5_eq, tile6_eq, tile7_eq]
  refine (whole_block0_8 t _).trans (funext fun j => ((featMatrix_at _ _ _ _ _ _ _ _ ⟨t.val, ht⟩ j _ ?_ ?_).symm.trans (read_block0_8 t _ j).symm))
  · show win0_8.index t 0 * 1024 + 1 * (j 0).val = 1024 * t.val + (j 0).val; rw [g0]; omega
  · show win0_8.index t 1 * 256 + 1 * (j 1).val = (j 1).val; rw [g1]; omega

/-- A row-and-column of the feature matrix lies in point `t`'s block iff each coordinate is in the block's range. -/
theorem mem_block0_8 (t : Fin cfg0.N) (i : S131072x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v2_0).slice (win0_8.rect t)).set ↔ _
  rw [View.set_slice_whole, Rect.mem_set_unit]
  exact Iff.rfl

/-- Every entry of the feature matrix is written back by some point: row `r` by point `r / 1024`. -/
theorem covered0_8 (i : S131072x256.Idx) : ∃ t : Fin cfg0.N, (cfg0.win 8).flush t = true ∧ i ∈ ((cfg0.win 8).blk t).view.set := by
  have hi0 : (i 0).val < 131072 := idx2_lt0 i
  have hi1 : (i 1).val < 256 := idx2_lt1 i
  have hN : cfg0.N = 128 := N_0
  let t : Fin cfg0.N := ⟨(i 0).val / 1024, by rw [hN]; omega⟩
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  refine ⟨t, flush0_8 t, ?_⟩
  rw [mem_block0_8]
  intro a
  match a with
  | ⟨0, _⟩ => show win0_8.index t 0 * 1024 ≤ (i 0).val ∧ (i 0).val < win0_8.index t 0 * 1024 + 1024
              rw [g0]; show (i 0).val / 1024 * 1024 ≤ (i 0).val ∧ (i 0).val < (i 0).val / 1024 * 1024 + 1024; omega
  | ⟨1, _⟩ => show win0_8.index t 1 * 256 ≤ (i 1).val ∧ (i 1).val < win0_8.index t 1 * 256 + 256
              rw [g1]; omega

/-- THE FEATURE MATRIX after the region's last point is `featMatrix` of the eight arrays as the region found them. -/
theorem final0_8 (c : Dev nD) : (dat0 V c).arrAt 8 cfg0.N = featMatrix (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) :=
  (dat0 V c).arrAt_eq_of_cover 8 _ (fun t _ => writeback0_8_eq V c t) covered0_8

/-! ## The two running sums -/

/-- A core's last point is a point of the grid. -/
theorem lastPoint_lt (i : S2x1x256.Idx) : 64 * (i 0).val + 63 < cfg0.N := by
  have hi0 : (i 0).val < 2 := (i 0).isLt
  rw [show cfg0.N = 128 from N_0]; omega

/-- The place of an entry of a 2 × 1 × 256 array inside its core's 1 × 1 × 256 row. -/
def inRow (i : S2x1x256.Idx) : S1x1x256.Idx := ix3 (0 : Fin 1) (i 1 : Fin 1) (i 2 : Fin 256)

/-- The running sums after a point do not depend on how the point is written. -/
theorem sumsAt_congr (c : Dev nD) (n n' : ℕ) (h : n < cfg0.N) (h' : n' < cfg0.N) (e : n = n') : sumsAt V c n h = sumsAt V c n' h' := by
  subst e; rfl

/-! ## Window 9: column sum -/

/-- What the region leaves in the sumOfCore array: for core `i 0` the running column sum after that core's last
    point, `64·(i 0) + 63`. -/
def sumOfCore (c : Dev nD) : S2x1x256.Idx → Elt F .f32 :=
  fun i => (sumsAt V c (64 * (i 0).val + 63) (lastPoint_lt i)).1 (inRow i)

/-- At the last point `t` of a core, `sumOfCore` at the core's row is the running value after `t`. -/
theorem sumOfCore_at (c : Dev nD) (t : Fin cfg0.N) (h63 : t.val % 64 = 63) (j : S1x1x256.Idx) (i : S2x1x256.Idx)
    (h0 : (i 0).val = t.val / 64) (h2 : (i 2).val = (j 2).val) :
    sumOfCore V c i = (sumsAt V c t.val t.isLt).1 j := by
  have en : 64 * (i 0).val + 63 = t.val := by omega
  have ej : inRow i = j := by
    funext a
    match a with
    | ⟨0, _⟩ => exact Fin.ext (by have hj : (j 0).val < 1 := (j 0).isLt; show 0 = (j 0).val; omega)
    | ⟨1, _⟩ => exact Fin.ext (by have hj : (j 1).val < 1 := (j 1).isLt; have hi : (i 1).val < 1 := (i 1).isLt; show (i 1).val = (j 1).val; omega)
    | ⟨2, _⟩ => exact Fin.ext h2
  unfold sumOfCore
  rw [ej]
  exact congrArg (fun p => p.1 j) (sumsAt_congr V c _ _ _ _ en)

/-- The window is not cut: what is written back of a buffer's contents is all of it. -/
theorem whole_block0_9 (t : Fin cfg0.N) (X : Vec F S1x1x256 .f32) : (cfg0.win 9).cut (grid0.coords t) X = X := rfl

/-- Block `t` of a whole-array function, read at `j`, is the function at the block's `j`-th entry. -/
theorem read_block0_9 (t : Fin cfg0.N) (G : S2x1x256.Idx → Elt F .f32) (j : S1x1x256.Idx) :
    ((cfg0.win 9).blk t).view.read (Elt F) G j = G (((cfg0.win 9).blk t).view.emb j) := rfl

/-- What a core's last point writes back is that core's row of `sumOfCore`. -/
theorem writeback0_9_eq (c : Dev nD) (t : Fin cfg0.N) (hf : (cfg0.win 9).flush t = true) :
    (dat0 V c).flushed 9 t = ((cfg0.win 9).blk t).view.read (Elt F) (sumOfCore V c) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  have h63 : t.val % 64 = 63 := (flush0_9 t).mp hf
  show (cfg0.win 9).cut (grid0.coords t) ((dat0 V c).after 9 t) = _
  rw [after0_9]
  refine (whole_block0_9 t _).trans (funext fun j => ((sumOfCore_at V c t h63 j _ ?_ ?_).symm.trans (read_block0_9 t _ j).symm))
  · show win0_9.index t 0 * 1 + 1 * (j 0).val = t.val / 64
    have hj : (j 0).val < 1 := (j 0).isLt
    rw [s0]; omega
  · show win0_9.index t 2 * 256 + 1 * (j 2).val = (j 2).val
    rw [s2]; omega

/-- An entry of the array lies in point `t`'s block iff each coordinate is in the block's range. -/
theorem mem_block0_9 (t : Fin cfg0.N) (i : S2x1x256.Idx) :
    i ∈ ((cfg0.win 9).blk t).view.set ↔ ∀ a : Fin 3, win0_9.index t a * S1x1x256.size a ≤ (i a).val ∧ (i a).val < win0_9.index t a * S1x1x256.size a + S1x1x256.size a := by
  show i ∈ ((View.whole main_v2_1).slice (win0_9.rect t)).set ↔ _
  rw [View.set_slice_whole, Rect.mem_set_unit]
  exact Iff.rfl

/-- Every entry is written back: row `r` (a core) by that core's last point `64·r + 63`. -/
theorem covered0_9 (i : S2x1x256.Idx) : ∃ t : Fin cfg0.N, (cfg0.win 9).flush t = true ∧ i ∈ ((cfg0.win 9).blk t).view.set := by
  have hi0 : (i 0).val < 2 := (i 0).isLt
  have hi1 : (i 1).val < 1 := (i 1).isLt
  have hi2 : (i 2).val < 256 := (i 2).isLt
  let t : Fin cfg0.N := ⟨64 * (i 0).val + 63, lastPoint_lt i⟩
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  refine ⟨t, (flush0_9 t).mpr (by show (64 * (i 0).val + 63) % 64 = 63; omega), ?_⟩
  rw [mem_block0_9]
  intro a
  match a with
  | ⟨0, _⟩ => show win0_9.index t 0 * 1 ≤ (i 0).val ∧ (i 0).val < win0_9.index t 0 * 1 + 1
              rw [s0]; show (64 * (i 0).val + 63) / 64 * 1 ≤ (i 0).val ∧ (i 0).val < (64 * (i 0).val + 63) / 64 * 1 + 1; omega
  | ⟨1, _⟩ => show win0_9.index t 1 * 1 ≤ (i 1).val ∧ (i 1).val < win0_9.index t 1 * 1 + 1
              rw [s1]; omega
  | ⟨2, _⟩ => show win0_9.index t 2 * 256 ≤ (i 2).val ∧ (i 2).val < win0_9.index t 2 * 256 + 256
              rw [s2]; omega

/-- THE ARRAY after the region's last point: each core's row at its running column sum after the core's last point. -/
theorem final0_9 (c : Dev nD) : (dat0 V c).arrAt 9 cfg0.N = sumOfCore V c :=
  (dat0 V c).arrAt_eq_of_cover 9 _ (fun t hf => writeback0_9_eq V c t hf) covered0_9

/-! ## Window 10: column sum of squares -/

/-- What the region leaves in the sqOfCore array: for core `i 0` the running column sum of squares after that core's last
    point, `64·(i 0) + 63`. -/
def sqOfCore (c : Dev nD) : S2x1x256.Idx → Elt F .f32 :=
  fun i => (sumsAt V c (64 * (i 0).val + 63) (lastPoint_lt i)).2 (inRow i)

/-- At the last point `t` of a core, `sqOfCore` at the core's row is the running value after `t`. -/
theorem sqOfCore_at (c : Dev nD) (t : Fin cfg0.N) (h63 : t.val % 64 = 63) (j : S1x1x256.Idx) (i : S2x1x256.Idx)
    (h0 : (i 0).val = t.val / 64) (h2 : (i 2).val = (j 2).val) :
    sqOfCore V c i = (sumsAt V c t.val t.isLt).2 j := by
  have en : 64 * (i 0).val + 63 = t.val := by omega
  have ej : inRow i = j := by
    funext a
    match a with
    | ⟨0, _⟩ => exact Fin.ext (by have hj : (j 0).val < 1 := (j 0).isLt; show 0 = (j 0).val; omega)
    | ⟨1, _⟩ => exact Fin.ext (by have hj : (j 1).val < 1 := (j 1).isLt; have hi : (i 1).val < 1 := (i 1).isLt; show (i 1).val = (j 1).val; omega)
    | ⟨2, _⟩ => exact Fin.ext h2
  unfold sqOfCore
  rw [ej]
  exact congrArg (fun p => p.2 j) (sumsAt_congr V c _ _ _ _ en)

/-- The window is not cut: what is written back of a buffer's contents is all of it. -/
theorem whole_block0_10 (t : Fin cfg0.N) (X : Vec F S1x1x256 .f32) : (cfg0.win 10).cut (grid0.coords t) X = X := rfl

/-- Block `t` of a whole-array function, read at `j`, is the function at the block's `j`-th entry. -/
theorem read_block0_10 (t : Fin cfg0.N) (G : S2x1x256.Idx → Elt F .f32) (j : S1x1x256.Idx) :
    ((cfg0.win 10).blk t).view.read (Elt F) G j = G (((cfg0.win 10).blk t).view.emb j) := rfl

/-- What a core's last point writes back is that core's row of `sqOfCore`. -/
theorem writeback0_10_eq (c : Dev nD) (t : Fin cfg0.N) (hf : (cfg0.win 10).flush t = true) :
    (dat0 V c).flushed 10 t = ((cfg0.win 10).blk t).view.read (Elt F) (sqOfCore V c) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  have h63 : t.val % 64 = 63 := (flush0_10 t).mp hf
  show (cfg0.win 10).cut (grid0.coords t) ((dat0 V c).after 10 t) = _
  rw [after0_10]
  refine (whole_block0_10 t _).trans (funext fun j => ((sqOfCore_at V c t h63 j _ ?_ ?_).symm.trans (read_block0_10 t _ j).symm))
  · show win0_10.index t 0 * 1 + 1 * (j 0).val = t.val / 64
    have hj : (j 0).val < 1 := (j 0).isLt
    rw [q0]; omega
  · show win0_10.index t 2 * 256 + 1 * (j 2).val = (j 2).val
    rw [q2]; omega

/-- An entry of the array lies in point `t`'s block iff each coordinate is in the block's range. -/
theorem mem_block0_10 (t : Fin cfg0.N) (i : S2x1x256.Idx) :
    i ∈ ((cfg0.win 10).blk t).view.set ↔ ∀ a : Fin 3, win0_10.index t a * S1x1x256.size a ≤ (i a).val ∧ (i a).val < win0_10.index t a * S1x1x256.size a + S1x1x256.size a := by
  show i ∈ ((View.whole main_v2_2).slice (win0_10.rect t)).set ↔ _
  rw [View.set_slice_whole, Rect.mem_set_unit]
  exact Iff.rfl

/-- Every entry is written back: row `r` (a core) by that core's last point `64·r + 63`. -/
theorem covered0_10 (i : S2x1x256.Idx) : ∃ t : Fin cfg0.N, (cfg0.win 10).flush t = true ∧ i ∈ ((cfg0.win 10).blk t).view.set := by
  have hi0 : (i 0).val < 2 := (i 0).isLt
  have hi1 : (i 1).val < 1 := (i 1).isLt
  have hi2 : (i 2).val < 256 := (i 2).isLt
  let t : Fin cfg0.N := ⟨64 * (i 0).val + 63, lastPoint_lt i⟩
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  refine ⟨t, (flush0_10 t).mpr (by show (64 * (i 0).val + 63) % 64 = 63; omega), ?_⟩
  rw [mem_block0_10]
  intro a
  match a with
  | ⟨0, _⟩ => show win0_10.index t 0 * 1 ≤ (i 0).val ∧ (i 0).val < win0_10.index t 0 * 1 + 1
              rw [q0]; show (64 * (i 0).val + 63) / 64 * 1 ≤ (i 0).val ∧ (i 0).val < (64 * (i 0).val + 63) / 64 * 1 + 1; omega
  | ⟨1, _⟩ => show win0_10.index t 1 * 1 ≤ (i 1).val ∧ (i 1).val < win0_10.index t 1 * 1 + 1
              rw [q1]; omega
  | ⟨2, _⟩ => show win0_10.index t 2 * 256 ≤ (i 2).val ∧ (i 2).val < win0_10.index t 2 * 256 + 256
              rw [q2]; omega

/-- THE ARRAY after the region's last point: each core's row at its running column sum of squares after the core's last point. -/
theorem final0_10 (c : Dev nD) : (dat0 V c).arrAt 10 cfg0.N = sqOfCore V c :=
  (dat0 V c).arrAt_eq_of_cover 10 _ (fun t hf => writeback0_10_eq V c t hf) covered0_10

end Cert.Kernel.Region0

end
-- ==== Proof.K.Region1Value.lean ====
/- What REGION 1 leaves in its result array, as ONE function of the seven arrays it reads. Point `t` of the grid
   of 32 writes back rows `4096·t … 4096·t + 4095` of the result, computed from rows `4096·t …` of `g` and the
   whole of `mu, inv, gamma, beta, Wfc, bfc`; the 32 blocks tile the 131072 rows. So row `r` of the result is row
   `r mod 4096` of the body's value on the block `r / 4096` of `g`: that function is `G1`, and `final1` says the
   result array after the last point IS `G1` of the arrays as the region found them. -/
import proofs.«135453_j26697516712490_1_alg».proof.Proof.K.Region1
import Idealize.ShloMosaic.Lib.Pipeline.Value
import Idealize.ShloMosaic.Lib.ValueIdx

noncomputable section

namespace Cert.Kernel.Region1

open Cert.Kernel Cert.Kernel.Gen
open Idealize.ShloMosaic Idealize.ShloMosaic.TcCoe Idealize.SL.Sem
open Idealize.ShloMosaic.Pipeline (Dat)
open Idealize.ShloMosaic.ValueIdx

variable {F : FTy → Type} [FloatOps F]

/-! ## The result as one function of the arrays -/

/-- Rows `4096·b … 4096·b + 4095` of `g`, as a 4096 × 256 block. -/
def rowBlock (g : S131072x256.Idx → Elt F .bf16) (b : Fin 32) : Vec F S4096x256 .bf16 :=
  fun y => g (ix2 (⟨4096 * b.val + (y 0).val, by have := idx2_lt0 y; have := b.isLt; omega⟩ : Fin 131072) (y 1 : Fin 256))

/-- The block of 4096 rows that row `i 0` lies in: `(i 0) / 4096`. -/
def blockOfRow (i : S131072x2.Idx) : Fin 32 := ⟨(i 0).val / 4096, by have := idx2_lt0 i; omega⟩

/-- Where the entry sits inside its block: row `(i 0) mod 4096`, same column. -/
def withinBlock (i : S131072x2.Idx) : S4096x2.Idx :=
  ix2 (⟨(i 0).val % 4096, Nat.mod_lt _ (by decide)⟩ : Fin 4096) (i 1 : Fin 2)

/-- THE RESULT ARRAY, entry by entry: the body's value — the normalised, rectified rows times the head matrix, plus
    the bias — on the block of `g` the row lies in, read at the row's place inside the block. -/
def G1 (g : S131072x256.Idx → Elt F .bf16) (mu inv gamma beta : S1x256.Idx → Elt F .f32)
    (Wfc : S256x2.Idx → Elt F .f32) (bfc : S1x2.Idx → Elt F .f32) : S131072x2.Idx → Elt F .f32 :=
  fun i => k1_pay1 (rowBlock g (blockOfRow i)) mu inv gamma beta Wfc bfc (withinBlock i)

/-- `G1` at row `4096·b + j 0`, column `j 1`, is the body's value on block `b` at `j`. -/
theorem G1_at (g : S131072x256.Idx → Elt F .bf16) (mu inv gamma beta : S1x256.Idx → Elt F .f32)
    (Wfc : S256x2.Idx → Elt F .f32) (bfc : S1x2.Idx → Elt F .f32) (b : Fin 32) (j : S4096x2.Idx) (i : S131072x2.Idx)
    (h0 : (i 0).val = 4096 * b.val + (j 0).val) (h1 : (i 1).val = (j 1).val) :
    G1 g mu inv gamma beta Wfc bfc i = k1_pay1 (rowBlock g b) mu inv gamma beta Wfc bfc j := by
  have hj : (j 0).val < 4096 := idx2_lt0 j
  have eb : blockOfRow i = b := Fin.ext (by show (i 0).val / 4096 = b.val; omega)
  have ej : withinBlock i = j := by
    funext a
    match a with
    | ⟨0, _⟩ => exact Fin.ext (by show (i 0).val % 4096 = (j 0).val; omega)
    | ⟨1, _⟩ => exact Fin.ext h1
  unfold G1
  rw [eb, ej]

/-! ## The windows' blocks, read off the arrays -/

variable (V : (c : Dev nD) → (b : Ref sig .tc) → Buf (Elt F) ((c : Thread nD τ).loc b))

theorem hz : (![0, 0] : Fin 2 → Nat) = fun _ => 0 := funext fun a => by fin_cases a <;> rfl

/-- The printed index maps, decided once over the 32 points: windows 0 and 7 (the rows of `g`, the rows of the
    result) are at block (t, 0) at point `t`; windows 1–6 at block (0, 0) throughout. -/
theorem index_facts1 : ∀ t : Fin cfg1.N,
    (win1_0.index t (0 : Fin 2) = t.val ∧ win1_0.index t (1 : Fin 2) = 0)
    ∧ (win1_7.index t (0 : Fin 2) = t.val ∧ win1_7.index t (1 : Fin 2) = 0)
    ∧ t.val < 32
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Window 0's block at point `t` is rows `4096·t …` of `g`. -/
theorem blk1_0_eq (c : Dev nD) (t : Fin cfg1.N) :
    (blk1 V c 0 t : Vec F S4096x256 .bf16)
      = rowBlock (V c (Pipeline.arrRef spec1 0) : S131072x256.Idx → Elt F .bf16) ⟨t.val, (index_facts1 t).2.2.1⟩ := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1 rowBlock
  rw [View.read_apply]
  refine congrArg (V c (Pipeline.arrRef spec1 0) : S131072x256.Idx → Elt F .bf16) (funext fun a => Fin.ext ?_)
  match a with
  | ⟨0, _⟩ => show win1_0.index t 0 * 4096 + 1 * (y 0).val = 4096 * t.val + (y 0).val; rw [a0]; omega
  | ⟨1, _⟩ => show win1_0.index t 1 * 256 + 1 * (y 1).val = (y 1).val; rw [a1]; omega

/-- Window 1's block at every point is its whole array (`mu`): one block, at index (0, 0). -/
theorem blk1_1_eq (c : Dev nD) (t : Fin cfg1.N) :
    (blk1 V c 1 t : Vec F S1x256 .f32) = (V c (Pipeline.arrRef spec1 1) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 1) : S1x256.Idx → Elt F .f32) (funext fun a => Fin.ext ?_)
  match a with
  | ⟨0, _⟩ => show win1_1.index t 0 * 1 + 1 * (y 0).val = (y 0).val; rw [m0]; omega
  | ⟨1, _⟩ => show win1_1.index t 1 * 256 + 1 * (y 1).val = (y 1).val; rw [m1]; omega

/-- Window 2's block at every point is its whole array (`inv`): one block, at index (0, 0). -/
theorem blk1_2_eq (c : Dev nD) (t : Fin cfg1.N) :
    (blk1 V c 2 t : Vec F S1x256 .f32) = (V c (Pipeline.arrRef spec1 2) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 2) : S1x256.Idx → Elt F .f32) (funext fun a => Fin.ext ?_)
  match a with
  | ⟨0, _⟩ => show win1_2.index t 0 * 1 + 1 * (y 0).val = (y 0).val; rw [n0]; omega
  | ⟨1, _⟩ => show win1_2.index t 1 * 256 + 1 * (y 1).val = (y 1).val; rw [n1]; omega

/-- Window 3's block at every point is its whole array (`gamma`): one block, at index (0, 0). -/
theorem blk1_3_eq (c : Dev nD) (t : Fin cfg1.N) :
    (blk1 V c 3 t : Vec F S1x256 .f32) = (V c (Pipeline.arrRef spec1 3) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 3) : S1x256.Idx → Elt F .f32) (funext fun a => Fin.ext ?_)
  match a with
  | ⟨0, _⟩ => show win1_3.index t 0 * 1 + 1 * (y 0).val = (y 0).val; rw [p0]; omega
  | ⟨1, _⟩ => show win1_3.index t 1 * 256 + 1 * (y 1).val = (y 1).val; rw [p1]; omega

/-- Window 4's block at every point is its whole array (`beta`): one block, at index (0, 0). -/
theorem blk1_4_eq (c : Dev nD) (t : Fin cfg1.N) :
    (blk1 V c 4 t : Vec F S1x256 .f32) = (V c (Pipeline.arrRef spec1 4) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 4) : S1x256.Idx → Elt F .f32) (funext fun a => Fin.ext ?_)
  match a with
  | ⟨0, _⟩ => show win1_4.index t 0 * 1 + 1 * (y 0).val = (y 0).val; rw [q0]; omega
  | ⟨1, _⟩ => show win1_4.index t 1 * 256 + 1 * (y 1).val = (y 1).val; rw [q1]; omega

/-- Window 5's block at every point is its whole array (`Wfc`): one block, at index (0, 0). -/
theorem blk1_5_eq (c : Dev nD) (t : Fin cfg1.N) :
    (blk1 V c 5 t : Vec F S256x2 .f32) = (V c (Pipeline.arrRef spec1 5) : S256x2.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 5) : S256x2.Idx → Elt F .f32) (funext fun a => Fin.ext ?_)
  match a with
  | ⟨0, _⟩ => show win1_5.index t 0 * 256 + 1 * (y 0).val = (y 0).val; rw [r0]; omega
  | ⟨1, _⟩ => show win1_5.index t 1 * 2 + 1 * (y 1).val = (y 1).val; rw [r1]; omega

/-- Window 6's block at every point is its whole array (`bfc`): one block, at index (0, 0). -/
theorem blk1_6_eq (c : Dev nD) (t : Fin cfg1.N) :
    (blk1 V c 6 t : Vec F S1x2 .f32) = (V c (Pipeline.arrRef spec1 6) : S1x2.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 6) : S1x2.Idx → Elt F .f32) (funext fun a => Fin.ext ?_)
  match a with
  | ⟨0, _⟩ => show win1_6.index t 0 * 1 + 1 * (y 0).val = (y 0).val; rw [s0]; omega
  | ⟨1, _⟩ => show win1_6.index t 1 * 2 + 1 * (y 1).val = (y 1).val; rw [s1]; omega

/-! ## What each point writes back, and the array after the last point -/

/-- The result's window is not cut at any point: what is written back of a buffer's contents is all of it. -/
theorem whole_block1_7 (t : Fin cfg1.N) (X : Vec F S4096x2 .f32) : (cfg1.win 7).cut (grid1.coords t) X = X := rfl

/-- Block `t` of a whole-array function, read at `j`, is the function at the block's `j`-th entry. -/
theorem read_block1_7 (t : Fin cfg1.N) (G : S131072x2.Idx → Elt F .f32) (j : S4096x2.Idx) :
    ((cfg1.win 7).blk t).view.read (Elt F) G j = G (((cfg1.win 7).blk t).view.emb j) := rfl

/-- WHAT POINT `t` WRITES BACK is block `t` of `G1` of the arrays as the region finds them: the body's value on
    rows `4096·t …` of `g`, which is `G1` at rows `4096·t …`. -/
theorem writeback1_eq (c : Dev nD) (t : Fin cfg1.N) :
    (dat1 V c).flushed 7 t = ((cfg1.win 7).blk t).view.read (Elt F)
      (G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  show (cfg1.win 7).cut (grid1.coords t) ((dat1 V c).after 7 t) = _
  rw [after1_7]
  unfold headRows
  rw [View.canon_unit_zero hz]
  simp only [View.ld_unit_zero (S := S4096x256) hz, View.ld_unit_zero (S := S1x256) hz, View.ld_unit_zero (S := S256x2) hz,
    View.ld_unit_zero (S := S1x2) hz]
  rw [blk1_0_eq, blk1_1_eq, blk1_2_eq, blk1_3_eq, blk1_4_eq, blk1_5_eq, blk1_6_eq]
  refine (whole_block1_7 t _).trans (funext fun j => ((G1_at _ _ _ _ _ _ _ ⟨t.val, ht⟩ j _ ?_ ?_).symm.trans (read_block1_7 t _ j).symm))
  · show win1_7.index t 0 * 4096 + 1 * (j 0).val = 4096 * t.val + (j 0).val; rw [o0]; omega
  · show win1_7.index t 1 * 2 + 1 * (j 1).val = (j 1).val; rw [o1]; omega

/-- A row-and-column of the result lies in point `t`'s block iff each coordinate is in the block's range. -/
theorem mem_block1_7 (t : Fin cfg1.N) (i : S131072x2.Idx) :
    i ∈ ((cfg1.win 7).blk t).view.set ↔ ∀ a : Fin 2, win1_7.index t a * S4096x2.size a ≤ (i a).val ∧ (i a).val < win1_7.index t a * S4096x2.size a + S4096x2.size a := by
  show i ∈ ((View.whole main_v27).slice (win1_7.rect t)).set ↔ _
  rw [View.set_slice_whole, Rect.mem_set_unit]
  exact Iff.rfl

/-- Every entry of the result is written back by some point: row `r` by point `r / 4096`. -/
theorem covered1_7 (i : S131072x2.Idx) : ∃ t : Fin cfg1.N, (cfg1.win 7).flush t = true ∧ i ∈ ((cfg1.win 7).blk t).view.set := by
  have hi0 : (i 0).val < 131072 := idx2_lt0 i
  have hi1 : (i 1).val < 2 := idx2_lt1 i
  have hN : cfg1.N = 32 := N_1
  let t : Fin cfg1.N := ⟨(i 0).val / 4096, by rw [hN]; omega⟩
  obtain ⟨-, ⟨o0, o1⟩, -⟩ := index_facts1 t
  refine ⟨t, flush1_7 t, ?_⟩
  rw [mem_block1_7]
  intro a
  match a with
  | ⟨0, _⟩ => show win1_7.index t 0 * 4096 ≤ (i 0).val ∧ (i 0).val < win1_7.index t 0 * 4096 + 4096
              rw [o0]; show (i 0).val / 4096 * 4096 ≤ (i 0).val ∧ (i 0).val < (i 0).val / 4096 * 4096 + 4096; omega
  | ⟨1, _⟩ => show win1_7.index t 1 * 2 ≤ (i 1).val ∧ (i 1).val < win1_7.index t 1 * 2 + 2
              rw [o1]; omega

/-- THE RESULT ARRAY after the region's last point is `G1` of the seven arrays as the region found them. -/
theorem final1 (c : Dev nD) : (dat1 V c).arrAt 7 cfg1.N
    = G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) :=
  (dat1 V c).arrAt_eq_of_cover 7 _ (fun t _ => writeback1_eq V c t) covered1_7

end Cert.Kernel.Region1

end
-- ==== Proof.K.R0Plain.lean ====
/-
  Every load and store of the first kernel's body is of a whole buffer, so what a grid point stores is just the body's
  arithmetic on the tile's input blocks: the feature rows, the running column sum plus the tile's column sum, the running sum of
  squares plus the tile's.
-/
import proofs.«135453_j26697516712490_1_alg».proof.Proof.K.R0Defs
import Idealize.ShloMosaic.Lib.Pipeline.Value
set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → ℕ) = fun _ => 0 := by funext a; fin_cases a <;> rfl
theorem zero2 : (![0, 0] : Fin 2 → ℕ) = fun _ => 0 := by funext a; fin_cases a <;> rfl
theorem zero1 : (![0] : Fin 1 → ℕ) = fun _ => 0 := by funext a; fin_cases a; rfl

variable (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)

theorem featStored_plain : featStored x0 x1 x2 x3 x4 x5 x6 x7 = k0_pay11 (k0_pay4 x0) (k0_pay5 x0) (k0_pay6 x4) (k0_pay7 x6) (k0_pay8 x0 x2 x3) (k0_pay9 x0) x5 x7 x1 := by
  unfold featStored
  simp only [View.canon_unit_zero (S := S1024x256) zero2, View.ld_unit_zero (S := S1024x4x512) zero3, View.ld_unit_zero (S := S1024x1) zero2,
    View.ld_unit_zero (S := S256x256) zero2, View.ld_unit_zero (S := S512x256) zero2, View.ld_unit_zero (S := S256) zero1]

theorem sumStep_eq (s : Vec F S1x1x256 .f32) : sumStep x0 x1 x2 x3 x4 x5 x6 x7 s = k0_pay12 (k0_pay4 x0) (k0_pay5 x0) (k0_pay6 x4) (k0_pay7 x6) (k0_pay8 x0 x2 x3) (k0_pay9 x0) x5 x7 x1 s := by
  unfold sumStep
  simp only [View.canon_unit_zero (S := S1x1x256) zero3, View.ld_unit_zero (S := S1x1x256) zero3, View.ld_unit_zero (S := S1024x4x512) zero3, View.ld_unit_zero (S := S1024x1) zero2,
    View.ld_unit_zero (S := S256x256) zero2, View.ld_unit_zero (S := S512x256) zero2, View.ld_unit_zero (S := S256) zero1]

theorem sqStep_eq (s : Vec F S1x1x256 .f32) : sqStep x0 x1 x2 x3 x4 x5 x6 x7 s = k0_pay1 s (k0_pay13 (k0_pay4 x0) (k0_pay5 x0) (k0_pay6 x4) (k0_pay7 x6) (k0_pay8 x0 x2 x3) (k0_pay9 x0) x5 x7 x1) := by
  unfold sqStep
  simp only [View.canon_unit_zero (S := S1x1x256) zero3, View.ld_unit_zero (S := S1x1x256) zero3, View.ld_unit_zero (S := S1024x4x512) zero3, View.ld_unit_zero (S := S1024x1) zero2,
    View.ld_unit_zero (S := S256x256) zero2, View.ld_unit_zero (S := S512x256) zero2, View.ld_unit_zero (S := S256) zero1]

theorem zeroSum_eq : (zeroSum : Vec F S1x1x256 .f32) = k0_pay2 := by
  unfold zeroSum; simp only [View.canon_unit_zero (S := S1x1x256) zero3]
theorem zeroSq_eq : (zeroSq : Vec F S1x1x256 .f32) = k0_pay3 := by
  unfold zeroSq; simp only [View.canon_unit_zero (S := S1x1x256) zero3]

end Cert.Kernel.Region0

end
-- ==== Proof.KI.R0Base.lean ====
/-
  Region 0 of the program: the first kernel, on a 2 × 64 grid of 1024-row tiles.  Here: the tile of each operand a grid
  point works on, the fact that an input's buffer holds its tile at every point (whether the pipeline fetched it there or the
  tile did not move), the two branch conditions of the body in closed form — "first tile of a core's run" (t ≡ 0 mod 64: the
  two running column sums are reset) and "last tile of a core's run" (t ≡ 63 mod 64: the running sums are written out) —, the
  points at which the two sum outputs are left untouched, and the kernel's two running-sum buffers split out of the region's
  invariant.
-/
import proofs.«135453_j26697516712490_1_alg».proof.Proof.Gen.KernelIdeal.Launch
import proofs.«135453_j26697516712490_1_alg».proof.Proof.Gen.KernelIdeal.Skeleton
import proofs.«135453_j26697516712490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Operand `w`'s tile at grid point `t`: its block of the array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds the input's tile at every point: fetched there, or its tile index has not moved. -/
theorem found_in0 {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

theorem found_in1 {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

theorem found_in2 {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

theorem found_in3 {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

theorem found_in4 {c : Dev nD} (dat : Dat τ (Elt F) Unit ℕ (UR sig nD τ) ℕ cfg0 c) (hA : dat.A 4 = V c (Pipeline.arrRef spec0 4))
    (hafter : ∀ t, dat.after 4 t = tile V c 4 t) (t : Fin cfg0.N) (d) : dat.before 4 t d = tile V c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)

theorem found_in5 {c : Dev nD} (dat : Dat τ (Elt F) Unit ℕ (UR sig nD τ) ℕ cfg0 c) (hA : dat.A 5 = V c (Pipeline.arrRef spec0 5))
    (hafter : ∀ t, dat.after 5 t = tile V c 5 t) (t : Fin cfg0.N) (d) : dat.before 5 t d = tile V c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

theorem found_in6 {c : Dev nD} (dat : Dat τ (Elt F) Unit ℕ (UR sig nD τ) ℕ cfg0 c) (hA : dat.A 6 = V c (Pipeline.arrRef spec0 6))
    (hafter : ∀ t, dat.after 6 t = tile V c 6 t) (t : Fin cfg0.N) (d) : dat.before 6 t d = tile V c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)

theorem found_in7 {c : Dev nD} (dat : Dat τ (Elt F) Unit ℕ (UR sig nD τ) ℕ cfg0 c) (hA : dat.A 7 = V c (Pipeline.arrRef spec0 7))
    (hafter : ∀ t, dat.after 7 t = tile V c 7 t) (t : Fin cfg0.N) (d) : dat.before 7 t d = tile V c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)

/-! ## The two branches of the body -/

/-- "This is the first tile of the core's run": the inner grid coordinate is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 64 = 0 :=
  (by decide +kernel : ∀ t : Fin grid0.N, isFirst (grid0.coords t) ↔ t.val % 64 = 0)

/-- "This is the last tile of the core's run": the inner grid coordinate is 63. -/
abbrev isLast (i : grid0.Coords) : Prop := k0_cond2 i = 1#1
theorem isLast_iff : ∀ t : Fin cfg0.N, isLast (grid0.coords t) ↔ t.val % 64 = 63 :=
  (by decide +kernel : ∀ t : Fin grid0.N, isLast (grid0.coords t) ↔ t.val % 64 = 63)

/-! ## Where the two sum outputs are left untouched -/

theorem live_le8 : ∀ (w : Fin cfg0.W), w.val ≤ 8 → ∀ t : Fin cfg0.N, cfg0.idle w (grid0.coords t) = false := by decide +kernel
theorem idle9 : ∀ t : Fin cfg0.N, ¬isLast (grid0.coords t) → cfg0.idle 9 (grid0.coords t) = true := by decide +kernel
theorem idle10 : ∀ t : Fin cfg0.N, ¬isLast (grid0.coords t) → cfg0.idle 10 (grid0.coords t) = true := by decide +kernel
theorem noFlush9 : ∀ t : Fin cfg0.N, ¬isLast (grid0.coords t) → (cfg0.win 9).flush t = false := by decide +kernel
theorem noFlush10 : ∀ t : Fin cfg0.N, ¬isLast (grid0.coords t) → (cfg0.win 10).flush t = false := by decide +kernel
theorem live9 : ∀ t : Fin cfg0.N, isLast (grid0.coords t) → cfg0.idle 9 (grid0.coords t) = false := by decide +kernel
theorem live10 : ∀ t : Fin cfg0.N, isLast (grid0.coords t) → cfg0.idle 10 (grid0.coords t) = false := by decide +kernel

/-! ## The running-sum buffers -/

/-- The buffer holding the running column sums of the feature rows, -/
abbrev sumBuf : Memref sig .tc .vmem S1x1x256 .f32 := Memref.whole cc0_scratch0
/-- and the one holding the running column sums of their squares. -/
abbrev sqBuf : Memref sig .tc .vmem S1x1x256 .f32 := Memref.whole cc0_scratch1

/-- The scoped buffers of the second kernel, which this region never touches: each whole, at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- Before the first point the region's invariant is: both running-sum buffers at anything, the other kernel's buffers at
    anything, the generator register at some state. -/
theorem inv_start (c : Dev nD) :
    (Pipeline.ΦA spec0 c : sProp 𝕄)
      = iprop(iprop((∃ d, owns (c : Thread nD τ) sumBuf fullShare d) ∗ (∃ d, owns (c : Thread nD τ) sqBuf fullShare d) ∗ otherStaging (F := F) c) ∗ (∃ r, prngReg c r)) := by
  unfold Pipeline.ΦA otherStaging; rw [scopedRest0_eq]; simp only [sumBuf, sqBuf, owns_whole]; try rfl

end Cert.KernelIdeal.Region0

end
-- ==== Proof.KI.R0Defs.lean ====
/-
  What one grid point of the first kernel computes, as values: from the tile's eight input blocks (the 1024 × 4 × 512 slab of
  x, the mask column, the three weight matrices and their bias rows) the 1024 × 256 feature rows g; what it stores is g
  (narrowed), the running column sum advanced by the tile's column sum of g, and the running sum of squares advanced by the
  tile's column sum of g·g.  Every load and every store of the body is of a whole buffer.
-/
import proofs.«135453_j26697516712490_1_alg».proof.Proof.KI.R0Base
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole-buffer rectangles the body loads and stores through. -/
abbrev rX : Rect S1024x4x512 := Rect.unit (s := S1024x4x512) ![0, 0, 0] S1024x4x512.size inb_S1024x4x512_S1024x4x512_0_0_0
abbrev rM : Rect S1024x1 := Rect.unit (s := S1024x1) ![0, 0] S1024x1.size inb_S1024x1_S1024x1_0_0
abbrev rWa : Rect S256x256 := Rect.unit (s := S256x256) ![0, 0] S256x256.size inb_S256x256_S256x256_0_0
abbrev rB : Rect S256 := Rect.unit (s := S256) ![0] S256.size inb_S256_S256_0
abbrev rW : Rect S512x256 := Rect.unit (s := S512x256) ![0, 0] S512x256.size inb_S512x256_S512x256_0_0
abbrev rG : Rect S1024x256 := Rect.unit (s := S1024x256) ![0, 0] S1024x256.size inb_S1024x256_S1024x256_0_0
abbrev rS : Rect S1x1x256 := Rect.unit (s := S1x1x256) ![0, 0, 0] S1x1x256.size inb_S1x1x256_S1x1x256_0_0_0

variable (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)

/-- The tile's feature rows as stored: g narrowed to the storage format. -/
def featStored : Vec F S1024x256 .bf16 :=
  View.canon [⟨rG, k0_pay11 (k0_pay4 (View.ld x0 rX)) (k0_pay5 (View.ld x0 rX)) (k0_pay6 (View.ld x4 rW)) (k0_pay7 (View.ld x6 rW)) (k0_pay8 (View.ld x0 rX) (View.ld x2 rWa) (View.ld x3 rB)) (k0_pay9 (View.ld x0 rX)) (View.ld x5 rB) (View.ld x7 rB) (View.ld x1 rM)⟩]

/-- The running column sum after this tile, from the running sum `s` before it: s + (column sum of g). -/
def sumStep (s : Vec F S1x1x256 .f32) : Vec F S1x1x256 .f32 :=
  View.canon [⟨rS, k0_pay12 (k0_pay4 (View.ld x0 rX)) (k0_pay5 (View.ld x0 rX)) (k0_pay6 (View.ld x4 rW)) (k0_pay7 (View.ld x6 rW)) (k0_pay8 (View.ld x0 rX) (View.ld x2 rWa) (View.ld x3 rB)) (k0_pay9 (View.ld x0 rX)) (View.ld x5 rB) (View.ld x7 rB) (View.ld x1 rM) (View.ld s rS)⟩]

/-- The running column sum of squares after this tile, from the one before it: s + (column sum of g·g). -/
def sqStep (s : Vec F S1x1x256 .f32) : Vec F S1x1x256 .f32 :=
  View.canon [⟨rS, k0_pay1 (View.ld s rS) (k0_pay13 (k0_pay4 (View.ld x0 rX)) (k0_pay5 (View.ld x0 rX)) (k0_pay6 (View.ld x4 rW)) (k0_pay7 (View.ld x6 rW)) (k0_pay8 (View.ld x0 rX) (View.ld x2 rWa) (View.ld x3 rB)) (k0_pay9 (View.ld x0 rX)) (View.ld x5 rB) (View.ld x7 rB) (View.ld x1 rM))⟩]

/-- The zero row a core's run starts its running sum from, -/
def zeroSum : Vec F S1x1x256 .f32 := View.canon [⟨rS, (k0_pay2 : FVec F S1x1x256 .f32)⟩]
/-- and the one it starts its running sum of squares from. -/
def zeroSq : Vec F S1x1x256 .f32 := View.canon [⟨rS, (k0_pay3 : FVec F S1x1x256 .f32)⟩]

/-! One whole-buffer store covers its buffer. -/
theorem coverG (p : Vec F S1024x256 .bf16) (y : S1024x256.Idx) :
    ∃ pc ∈ ([⟨rG, p⟩] : List (View.Piece (Elt F) S1024x256 .bf16)), y ∈ pc.1.set :=
  View.cover_of_tiled [⟨rG, p⟩] S1024x256.size (by rfl) y
theorem coverS (p : Vec F S1x1x256 .f32) (y : S1x1x256.Idx) :
    ∃ pc ∈ ([⟨rS, p⟩] : List (View.Piece (Elt F) S1x1x256 .f32)), y ∈ pc.1.set :=
  View.cover_of_tiled [⟨rS, p⟩] S1x1x256.size (by rfl) y
theorem coverS2 (p q : Vec F S1x1x256 .f32) (y : S1x1x256.Idx) :
    ∃ pc ∈ ([⟨rS, p⟩, ⟨rS, q⟩] : List (View.Piece (Elt F) S1x1x256 .f32)), y ∈ pc.1.set := by
  obtain ⟨pc, hpc, hy⟩ := coverS p y
  simp only [List.mem_singleton] at hpc; subst hpc
  exact ⟨_, List.mem_cons_self, hy⟩

end Cert.KernelIdeal.Region0

end
-- ==== Proof.KI.R0RunFirst.lean ====
/-
  The body at the first tile of a core's run: both running sums are reset to the zero row before the tile's column sums are
  added, so whatever the two buffers held before is forgotten; the two sum outputs' buffers are left untouched.
-/
import proofs.«135453_j26697516712490_1_alg».proof.Proof.KI.R0Defs
import Idealize.ShloMosaic.Lib.Pipeline.Value
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off3 : (![0, 0, 0] : Fin S1x1x256.rank → ℕ) = fun _ => 0 := by funext a; fin_cases a <;> rfl

set_option maxHeartbeats 4000000 in
theorem run_first (c : Dev nD) (i : grid0.Coords) (E : Set ℕ) (a2 : Memref sig .tc .vmem S1024x4x512 .f32) (h2 : a2.IsWhole) (a3 : Memref sig .tc .vmem S1024x1 .f32) (h3 : a3.IsWhole) (a4 : Memref sig .tc .vmem S256x256 .f32) (h4 : a4.IsWhole) (a5 : Memref sig .tc .vmem S256 .f32) (h5 : a5.IsWhole) (a6 : Memref sig .tc .vmem S512x256 .f32) (h6 : a6.IsWhole) (a7 : Memref sig .tc .vmem S256 .f32) (h7 : a7.IsWhole) (a8 : Memref sig .tc .vmem S512x256 .f32) (h8 : a8.IsWhole) (a9 : Memref sig .tc .vmem S256 .f32) (h9 : a9.IsWhole) (a10 : Memref sig .tc .vmem S1024x256 .bf16) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole)
    (hF : isFirst i) (hL : ¬isLast i) (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)
    (y9 y10 s1 s2 : Vec F S1x1x256 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
        ∗ (∃ d, owns (c : Thread nD τ) a10 fullShare d) ∗ owns (c : Thread nD τ) a11 fullShare y9 ∗ owns (c : Thread nD τ) a12 fullShare y10
        ∗ owns (c : Thread nD τ) a13 fullShare s1 ∗ owns (c : Thread nD τ) a14 fullShare s2
        ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
            ∗ owns (c : Thread nD τ) a10 fullShare (featStored x0 x1 x2 x3 x4 x5 x6 x7) ∗ owns (c : Thread nD τ) a11 fullShare y9 ∗ owns (c : Thread nD τ) a12 fullShare y10
            ∗ owns (c : Thread nD τ) a13 fullShare (sumStep x0 x1 x2 x3 x4 x5 x6 x7 zeroSum) ∗ owns (c : Thread nD τ) a14 fullShare (sqStep x0 x1 x2 x3 x4 x5 x6 x7 zeroSq)) -∗ K ⟨⟩))
      ⊢ wp frame (wpE (defs₀ (F := F)) Variants.none c none) E (cc0__k1_kernel i a2 h2 a3 h3 a4 h4 a5 h5 a6 h6 a7 h7 a8 h8 a9 h9 a10 h10 a11 h11 a12 h12 a13 h13 a14 h14) K := by
  simp only [cc0__k1_kernel_eq_skeleton]; unfold cc0__k1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%g1, %hg1, HS1⟩, ⟨%g2, %hg2, HS2⟩, Hk⟩
  subst hf0; subst hf1; subst hf2; subst hf3; subst hf4; subst hf5; subst hf6; subst hf7; subst hf9; subst hf10; subst hg1; subst hg2
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; unfold featStored; sl_unfold_words
    exact View.read_writes_eq_canon _ _ _ (coverG _)
  isplitl [H9]
  · iexists f9; isplitr; · ipureintro; rfl
    iexact H9
  isplitl [H10]
  · iexists f10; isplitr; · ipureintro; rfl
    iexact H10
  isplitl [HS1]
  · iexists _; isplitr
    swap; · iexact HS1
    ipureintro; unfold sumStep zeroSum; sl_unfold_words
    rw [View.read_writes_eq_canon _ _ _ (coverS2 _ _)]
    simp only [View.canon_cons_unit_zero (S := S1x1x256) off3, View.canon_unit_zero (S := S1x1x256) off3, View.readCov_unit_zero (S := S1x1x256) _ off3, View.ld_unit_zero (S := S1x1x256) off3]
    rfl
  iexists _; isplitr
  swap; · iexact HS2
  ipureintro; unfold sqStep zeroSq; sl_unfold_words
  rw [View.read_writes_eq_canon _ _ _ (coverS2 _ _)]
  simp only [View.canon_cons_unit_zero (S := S1x1x256) off3, View.canon_unit_zero (S := S1x1x256) off3, View.readCov_unit_zero (S := S1x1x256) _ off3, View.ld_unit_zero (S := S1x1x256) off3]
  rfl

end Cert.KernelIdeal.Region0

end
-- ==== Proof.KI.R0RunMid.lean ====
/-
  The body at a grid point that is neither the first nor the last tile of a core's run: from the eight input blocks and the
  two running sums it leaves the inputs as they were, the feature rows in the feature output's buffer, the two sum outputs'
  buffers untouched, and each running sum advanced by the tile's column sum.
-/
import proofs.«135453_j26697516712490_1_alg».proof.Proof.KI.R0Defs
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run_mid (c : Dev nD) (i : grid0.Coords) (E : Set ℕ) (a2 : Memref sig .tc .vmem S1024x4x512 .f32) (h2 : a2.IsWhole) (a3 : Memref sig .tc .vmem S1024x1 .f32) (h3 : a3.IsWhole) (a4 : Memref sig .tc .vmem S256x256 .f32) (h4 : a4.IsWhole) (a5 : Memref sig .tc .vmem S256 .f32) (h5 : a5.IsWhole) (a6 : Memref sig .tc .vmem S512x256 .f32) (h6 : a6.IsWhole) (a7 : Memref sig .tc .vmem S256 .f32) (h7 : a7.IsWhole) (a8 : Memref sig .tc .vmem S512x256 .f32) (h8 : a8.IsWhole) (a9 : Memref sig .tc .vmem S256 .f32) (h9 : a9.IsWhole) (a10 : Memref sig .tc .vmem S1024x256 .bf16) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole)
    (hF : ¬isFirst i) (hL : ¬isLast i) (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)
    (y9 y10 s1 s2 : Vec F S1x1x256 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
        ∗ (∃ d, owns (c : Thread nD τ) a10 fullShare d) ∗ owns (c : Thread nD τ) a11 fullShare y9 ∗ owns (c : Thread nD τ) a12 fullShare y10
        ∗ owns (c : Thread nD τ) a13 fullShare s1 ∗ owns (c : Thread nD τ) a14 fullShare s2
        ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
            ∗ owns (c : Thread nD τ) a10 fullShare (featStored x0 x1 x2 x3 x4 x5 x6 x7) ∗ owns (c : Thread nD τ) a11 fullShare y9 ∗ owns (c : Thread nD τ) a12 fullShare y10
            ∗ owns (c : Thread nD τ) a13 fullShare (sumStep x0 x1 x2 x3 x4 x5 x6 x7 s1) ∗ owns (c : Thread nD τ) a14 fullShare (sqStep x0 x1 x2 x3 x4 x5 x6 x7 s2)) -∗ K ⟨⟩))
      ⊢ wp frame (wpE (defs₀ (F := F)) Variants.none c none) E (cc0__k1_kernel i a2 h2 a3 h3 a4 h4 a5 h5 a6 h6 a7 h7 a8 h8 a9 h9 a10 h10 a11 h11 a12 h12 a13 h13 a14 h14) K := by
  simp only [cc0__k1_kernel_eq_skeleton]; unfold cc0__k1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%g1, %hg1, HS1⟩, ⟨%g2, %hg2, HS2⟩, Hk⟩
  subst hf0; subst hf1; subst hf2; subst hf3; subst hf4; subst hf5; subst hf6; subst hf7; subst hf9; subst hf10; subst hg1; subst hg2
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; unfold featStored; sl_unfold_words
    exact View.read_writes_eq_canon _ _ _ (coverG _)
  isplitl [H9]
  · iexists f9; isplitr; · ipureintro; rfl
    iexact H9
  isplitl [H10]
  · iexists f10; isplitr; · ipureintro; rfl
    iexact H10
  isplitl [HS1]
  · iexists _; isplitr
    swap; · iexact HS1
    ipureintro; unfold sumStep; sl_unfold_words
    exact View.read_writes_eq_canon _ _ _ (coverS _)
  iexists _; isplitr
  swap; · iexact HS2
  ipureintro; unfold sqStep; sl_unfold_words
  exact View.read_writes_eq_canon _ _ _ (coverS _)

end Cert.KernelIdeal.Region0

end
-- ==== Proof.KI.R0RunLast.lean ====
/-
  The body at the last tile of a core's run: after advancing both running sums by the tile's column sums it copies them out,
  each into its sum output's buffer; so the two outputs' buffers end holding the core's totals.
-/
import proofs.«135453_j26697516712490_1_alg».proof.Proof.KI.R0Defs
import Idealize.ShloMosaic.Lib.Pipeline.Value
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off3 : (![0, 0, 0] : Fin S1x1x256.rank → ℕ) = fun _ => 0 := by funext a; fin_cases a <;> rfl

set_option maxHeartbeats 4000000 in
theorem run_last (c : Dev nD) (i : grid0.Coords) (E : Set ℕ) (a2 : Memref sig .tc .vmem S1024x4x512 .f32) (h2 : a2.IsWhole) (a3 : Memref sig .tc .vmem S1024x1 .f32) (h3 : a3.IsWhole) (a4 : Memref sig .tc .vmem S256x256 .f32) (h4 : a4.IsWhole) (a5 : Memref sig .tc .vmem S256 .f32) (h5 : a5.IsWhole) (a6 : Memref sig .tc .vmem S512x256 .f32) (h6 : a6.IsWhole) (a7 : Memref sig .tc .vmem S256 .f32) (h7 : a7.IsWhole) (a8 : Memref sig .tc .vmem S512x256 .f32) (h8 : a8.IsWhole) (a9 : Memref sig .tc .vmem S256 .f32) (h9 : a9.IsWhole) (a10 : Memref sig .tc .vmem S1024x256 .bf16) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole)
    (hF : ¬isFirst i) (hL : isLast i) (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)
    (s1 s2 : Vec F S1x1x256 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
        ∗ (∃ d, owns (c : Thread nD τ) a10 fullShare d) ∗ (∃ d, owns (c : Thread nD τ) a11 fullShare d) ∗ (∃ d, owns (c : Thread nD τ) a12 fullShare d)
        ∗ owns (c : Thread nD τ) a13 fullShare s1 ∗ owns (c : Thread nD τ) a14 fullShare s2
        ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare x4 ∗ owns (c : Thread nD τ) a7 fullShare x5 ∗ owns (c : Thread nD τ) a8 fullShare x6 ∗ owns (c : Thread nD τ) a9 fullShare x7
            ∗ owns (c : Thread nD τ) a10 fullShare (featStored x0 x1 x2 x3 x4 x5 x6 x7) ∗ owns (c : Thread nD τ) a11 fullShare (sumStep x0 x1 x2 x3 x4 x5 x6 x7 s1) ∗ owns (c : Thread nD τ) a12 fullShare (sqStep x0 x1 x2 x3 x4 x5 x6 x7 s2)
            ∗ owns (c : Thread nD τ) a13 fullShare (sumStep x0 x1 x2 x3 x4 x5 x6 x7 s1) ∗ owns (c : Thread nD τ) a14 fullShare (sqStep x0 x1 x2 x3 x4 x5 x6 x7 s2)) -∗ K ⟨⟩))
      ⊢ wp frame (wpE (defs₀ (F := F)) Variants.none c none) E (cc0__k1_kernel i a2 h2 a3 h3 a4 h4 a5 h5 a6 h6 a7 h7 a8 h8 a9 h9 a10 h10 a11 h11 a12 h12 a13 h13 a14 h14) K := by
  simp only [cc0__k1_kernel_eq_skeleton]; unfold cc0__k1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%g1, %hg1, HS1⟩, ⟨%g2, %hg2, HS2⟩, Hk⟩
  subst hf0; subst hf1; subst hf2; subst hf3; subst hf4; subst hf5; subst hf6; subst hf7; subst hg1; subst hg2
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro; unfold featStored; sl_unfold_words
    exact View.read_writes_eq_canon _ _ _ (coverG _)
  isplitl [H9]
  · iexists _; isplitr
    swap; · iexact H9
    ipureintro; unfold sumStep; sl_unfold_words
    rw [View.read_writes_eq_canon _ _ _ (coverS _)]
    simp only [View.canon_unit_zero (S := S1x1x256) off3, View.readCov_unit_zero (S := S1x1x256) _ off3]
    rfl
  isplitl [H10]
  · iexists _; isplitr
    swap; · iexact H10
    ipureintro; unfold sqStep; sl_unfold_words
    rw [View.read_writes_eq_canon _ _ _ (coverS _)]
    simp only [View.canon_unit_zero (S := S1x1x256) off3, View.readCov_unit_zero (S := S1x1x256) _ off3]
    rfl
  isplitl [HS1]
  · iexists _; isplitr
    swap; · iexact HS1
    ipureintro; unfold sumStep; sl_unfold_words
    exact View.read_writes_eq_canon _ _ _ (coverS _)
  iexists _; isplitr
  swap; · iexact HS2
  ipureintro; unfold sqStep; sl_unfold_words
  exact View.read_writes_eq_canon _ _ _ (coverS _)

end Cert.KernelIdeal.Region0

end
-- ==== Proof.KI.R0Dat.lean ====
/-
  Region 0 point by point.  The two running column sums a core keeps: at the first tile of a core's run they are the tile's
  column sums added to the zero row; at every later tile of the run, the previous point's sums advanced by this tile's.  The
  region's invariant after a point holds the two buffers at exactly these; the feature output's buffer holds the tile's feature
  rows; the two sum outputs' buffers are written only at the last tile of a run, where they receive the run's totals.  The body
  obligation is the body's run in the case the point is in: first tile, last tile, or neither.
-/
import proofs.«135453_j26697516712490_1_alg».proof.Proof.KI.R0RunFirst
import proofs.«135453_j26697516712490_1_alg».proof.Proof.KI.R0RunMid
import proofs.«135453_j26697516712490_1_alg».proof.Proof.KI.R0RunLast
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two running column sums (of the feature rows; of their squares) after grid point `n`. -/
def sumsAt (c : Dev nD) : (n : ℕ) → n < cfg0.N → Vec F S1x1x256 .f32 × Vec F S1x1x256 .f32
  | 0, hn => (sumStep (tile V c 0 ⟨0, hn⟩) (tile V c 1 ⟨0, hn⟩) (tile V c 2 ⟨0, hn⟩) (tile V c 3 ⟨0, hn⟩) (tile V c 4 ⟨0, hn⟩) (tile V c 5 ⟨0, hn⟩) (tile V c 6 ⟨0, hn⟩) (tile V c 7 ⟨0, hn⟩) zeroSum, sqStep (tile V c 0 ⟨0, hn⟩) (tile V c 1 ⟨0, hn⟩) (tile V c 2 ⟨0, hn⟩) (tile V c 3 ⟨0, hn⟩) (tile V c 4 ⟨0, hn⟩) (tile V c 5 ⟨0, hn⟩) (tile V c 6 ⟨0, hn⟩) (tile V c 7 ⟨0, hn⟩) zeroSq)
  | n + 1, hn =>
    if (n + 1) % 64 = 0 then
      (sumStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) zeroSum, sqStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) zeroSq)
    else
      (sumStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) (sumsAt c n (Nat.lt_of_succ_lt hn)).1, sqStep (tile V c 0 ⟨n + 1, hn⟩) (tile V c 1 ⟨n + 1, hn⟩) (tile V c 2 ⟨n + 1, hn⟩) (tile V c 3 ⟨n + 1, hn⟩) (tile V c 4 ⟨n + 1, hn⟩) (tile V c 5 ⟨n + 1, hn⟩) (tile V c 6 ⟨n + 1, hn⟩) (tile V c 7 ⟨n + 1, hn⟩) (sumsAt c n (Nat.lt_of_succ_lt hn)).2)

/-- At the first tile of a core's run the sums restart from the zero row. -/
theorem sumsAt_first (c : Dev nD) (t : Fin cfg0.N) (h : t.val % 64 = 0) :
    sumsAt V c t.val t.isLt = (sumStep (tile V c 0 t) (tile V c 1 t) (tile V c 2 t) (tile V c 3 t) (tile V c 4 t) (tile V c 5 t) (tile V c 6 t) (tile V c 7 t) zeroSum, sqStep (tile V c 0 t) (tile V c 1 t) (tile V c 2 t) (tile V c 3 t) (tile V c 4 t) (tile V c 5 t) (tile V c 6 t) (tile V c 7 t) zeroSq) := by
  obtain ⟨n, hn⟩ := t
  cases n with
  | zero => rfl
  | succ n => exact (if_pos h).trans rfl

/-- At any other tile they advance the previous point's. -/
theorem sumsAt_next (c : Dev nD) (t : Fin cfg0.N) (h : ¬t.val % 64 = 0) :
    sumsAt V c t.val t.isLt = (sumStep (tile V c 0 t) (tile V c 1 t) (tile V c 2 t) (tile V c 3 t) (tile V c 4 t) (tile V c 5 t) (tile V c 6 t) (tile V c 7 t) (sumsAt V c (t.val - 1) (Nat.lt_of_le_of_lt (Nat.sub_le _ _) t.isLt)).1, sqStep (tile V c 0 t) (tile V c 1 t) (tile V c 2 t) (tile V c 3 t) (tile V c 4 t) (tile V c 5 t) (tile V c 6 t) (tile V c 7 t) (sumsAt V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The region's invariant before point `n`: before the first point both running-sum buffers hold anything; afterwards they
    hold the sums after the point before. -/
def inv (c : Dev nD) : (n : ℕ) → n ≤ cfg0.N → sProp 𝕄
  | 0, _ => Pipeline.ΦA spec0 c
  | n + 1, hn => iprop(iprop(owns (c : Thread nD τ) sumBuf fullShare (sumsAt V c n hn).1 ∗ owns (c : Thread nD τ) sqBuf fullShare (sumsAt V c n hn).2 ∗ otherStaging (F := F) c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) sumBuf fullShare (sumsAt V c n hn).1 ∗ owns (c : Thread nD τ) sqBuf fullShare (sumsAt V c n hn).2 ∗ otherStaging (F := F) c) ∗ (∃ r, prngReg c r)) := rfl
theorem inv_pos (c : Dev nD) (n : ℕ) (h : n ≤ cfg0.N) (hz : n ≠ 0) :
    inv V c n h = iprop(iprop(owns (c : Thread nD τ) sumBuf fullShare (sumsAt V c (n - 1) (by omega)).1 ∗ owns (c : Thread nD τ) sqBuf fullShare (sumsAt V c (n - 1) (by omega)).2 ∗ otherStaging (F := F) c) ∗ (∃ r, prngReg c r)) := by
  cases n with
  | zero => exact absurd rfl hz
  | succ n => rfl

/-- The proof data of the first kernel's pipeline: the arrays as the region finds them; after the body each input's buffer at
    its tile, the feature output's at the tile's feature rows, the sum outputs' at the running sums; the invariant above. -/
def dat0 (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => tile V c 4 t
    | ⟨5, _⟩ => tile V c 5 t
    | ⟨6, _⟩ => tile V c 6 t
    | ⟨7, _⟩ => tile V c 7 t
    | ⟨8, _⟩ => featStored (tile V c 0 t) (tile V c 1 t) (tile V c 2 t) (tile V c 3 t) (tile V c 4 t) (tile V c 5 t) (tile V c 6 t) (tile V c 7 t)
    | ⟨9, _⟩ => (sumsAt V c t.val t.isLt).1
    | ⟨10, _⟩ => (sumsAt V c t.val t.isLt).2
  Φ t := inv V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv_castSucc (c : Dev nD) (t : Fin cfg0.N) :
    (dat0 V c).Φ t.castSucc = inv V c t.val (Nat.le_of_lt t.isLt) := by
  dsimp only [dat0]; simp only [Fin.coe_castSucc]

theorem after0_0 (c : Dev nD) (t : Fin cfg0.N) : (dat0 V c).after 0 t = tile V c 0 t := by dsimp only [dat0]
theorem after0_1 (c : Dev nD) (t : Fin cfg0.N) : (dat0 V c).after 1 t = tile V c 1 t := by dsimp only [dat0]
theorem after0_2 (c : Dev nD) (t : Fin cfg0.N) : (dat0 V c).after 2 t = tile V c 2 t := by dsimp only [dat0]
theorem after0_3 (c : Dev nD) (t : Fin cfg0.N) : (dat0 V c).after 3 t = tile V c 3 t := by dsimp only [dat0]
theorem after0_4 (c : Dev nD) (t : Fin cfg0.N) : (dat0 V c).after 4 t = tile V c 4 t := by dsimp only [dat0]
theorem after0_5 (c : Dev nD) (t : Fin cfg0.N) : (dat0 V c).after 5 t = tile V c 5 t := by dsimp only [dat0]
theorem after0_6 (c : Dev nD) (t : Fin cfg0.N) : (dat0 V c).after 6 t = tile V c 6 t := by dsimp only [dat0]
theorem after0_7 (c : Dev nD) (t : Fin cfg0.N) : (dat0 V c).after 7 t = tile V c 7 t := by dsimp only [dat0]
theorem after0_8 (c : Dev nD) (t : Fin cfg0.N) : (dat0 V c).after 8 t = featStored (tile V c 0 t) (tile V c 1 t) (tile V c 2 t) (tile V c 3 t) (tile V c 4 t) (tile V c 5 t) (tile V c 6 t) (tile V c 7 t) := by dsimp only [dat0]
theorem after0_9 (c : Dev nD) (t : Fin cfg0.N) : (dat0 V c).after 9 t = (sumsAt V c t.val t.isLt).1 := by dsimp only [dat0]
theorem after0_10 (c : Dev nD) (t : Fin cfg0.N) : (dat0 V c).after 10 t = (sumsAt V c t.val t.isLt).2 := by dsimp only [dat0]

theorem before0_0 (c : Dev nD) (t : Fin cfg0.N) (d) : (dat0 V c).before 0 t d = tile V c 0 t :=
  found_in0 V (dat0 V c) (A_eq0 V c 0) (after0_0 V c) t d
theorem before0_1 (c : Dev nD) (t : Fin cfg0.N) (d) : (dat0 V c).before 1 t d = tile V c 1 t :=
  found_in1 V (dat0 V c) (A_eq0 V c 1) (after0_1 V c) t d
theorem before0_2 (c : Dev nD) (t : Fin cfg0.N) (d) : (dat0 V c).before 2 t d = tile V c 2 t :=
  found_in2 V (dat0 V c) (A_eq0 V c 2) (after0_2 V c) t d
theorem before0_3 (c : Dev nD) (t : Fin cfg0.N) (d) : (dat0 V c).before 3 t d = tile V c 3 t :=
  found_in3 V (dat0 V c) (A_eq0 V c 3) (after0_3 V c) t d
theorem before0_4 (c : Dev nD) (t : Fin cfg0.N) (d) : (dat0 V c).before 4 t d = tile V c 4 t :=
  found_in4 V (dat0 V c) (A_eq0 V c 4) (after0_4 V c) t d
theorem before0_5 (c : Dev nD) (t : Fin cfg0.N) (d) : (dat0 V c).before 5 t d = tile V c 5 t :=
  found_in5 V (dat0 V c) (A_eq0 V c 5) (after0_5 V c) t d
theorem before0_6 (c : Dev nD) (t : Fin cfg0.N) (d) : (dat0 V c).before 6 t d = tile V c 6 t :=
  found_in6 V (dat0 V c) (A_eq0 V c 6) (after0_6 V c) t d
theorem before0_7 (c : Dev nD) (t : Fin cfg0.N) (d) : (dat0 V c).before 7 t d = tile V c 7 t :=
  found_in7 V (dat0 V c) (A_eq0 V c 7) (after0_7 V c) t d

/-- A window that is never idle is handed back at what the body leaves in it. -/
theorem leaves_live (c : Dev nD) (t : Fin cfg0.N) (w : Fin cfg0.W) (hw : w.val ≤ 8) :
    (dat0 V c).leavesExact w t = owns (c : Thread nD τ) ((cfg0.win w).stage (cfg0.slots t w)) fullShare ((dat0 V c).after w t) := by
  unfold Dat.leavesExact; rw [live_le8 w hw t]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' buffers hold their tiles; the point is the first tile of a run, the last, or neither, and
    the body's run in that case applies; the invariant hands over the two running sums as the point before left them (anything
    at the very first point) and takes them back advanced. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = inv V c (t.val + 1) t.isLt from rfl, inv_succ]
  rw [leaves_live V c t 0 (by decide), leaves_live V c t 1 (by decide), leaves_live V c t 2 (by decide), leaves_live V c t 3 (by decide), leaves_live V c t 4 (by decide), leaves_live V c t 5 (by decide), leaves_live V c t 6 (by decide), leaves_live V c t 7 (by decide), leaves_live V c t 8 (by decide),
    after0_0, after0_1, after0_2, after0_3, after0_4, after0_5, after0_6, after0_7, after0_8]
  have hN : t.val < 128 := lt_of_lt_of_eq t.isLt (show cfg0.N = 128 from N_0)
  by_cases h0 : t.val % 64 = 0
  · have h1 : ¬t.val % 64 = 63 := by omega
    rw [Dat.leavesExact_idle (dat0 V c) 9 t (idle9 t (fun h => h1 ((isLast_iff t).mp h))) (noFlush9 t (fun h => h1 ((isLast_iff t).mp h))),
      Dat.leavesExact_idle (dat0 V c) 10 t (idle10 t (fun h => h1 ((isLast_iff t).mp h))) (noFlush10 t (fun h => h1 ((isLast_iff t).mp h)))]
    rw [sumsAt_first V c t h0]; (try dsimp only)
    by_cases hz : t.val = 0
    · rw [inv_castSucc V c t, inv_zero V c _ _ hz, inv_start]
      iintro ⟨⟨⟨⟨%e1, HS1⟩, ⟨%e2, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) Set.univ _ _ _ _ _ _ _ _ _ _ _ _ _ _ _ _ _ _ _ _ _ _ _ _ _ _ ((isFirst_iff t).mpr h0) (fun h => h1 ((isLast_iff t).mp h)) (tile V c 0 t) (tile V c 1 t) (tile V c 2 t) (tile V c 3 t) (tile V c 4 t) (tile V c 5 t) (tile V c 6 t) (tile V c 7 t) ((dat0 V c).before 9 t d9) ((dat0 V c).before 10 t d10) e1 e2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [inv_castSucc V c t, inv_pos V c _ _ hz]
      iintro ⟨⟨⟨HS1, HS2, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_first c (grid0.coords t) Set.univ _ _ _ _ _ _ _ _ _ _ _ _ _ _ _ _ _ _ _ _ _ _ _ _ _ _ ((isFirst_iff t).mpr h0) (fun h => h1 ((isLast_iff t).mp h)) (tile V c 0 t) (tile V c 1 t) (tile V c 2 t) (tile V c 3 t) (tile V c 4 t) (tile V c 5 t) (tile V c 6 t) (tile V c 7 t) ((dat0 V c).before 9 t d9) ((dat0 V c).before 10 t d10) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
  · by_cases h1 : t.val % 64 = 63
    · have hz : t.val ≠ 0 := by omega
      rw [show (dat0 V c).leavesExact 9 t = owns (c : Thread nD τ) (st0_9 t) fullShare ((dat0 V c).after 9 t) from by
        unfold Dat.leavesExact; rw [live9 t ((isLast_iff t).mpr h1)], after0_9]
      rw [show (dat0 V c).leavesExact 10 t = owns (c : Thread nD τ) (st0_10 t) fullShare ((dat0 V c).after 10 t) from by
        unfold Dat.leavesExact; rw [live10 t ((isLast_iff t).mpr h1)], after0_10]
      rw [sumsAt_next V c t h0]; (try dsimp only)
      rw [inv_castSucc V c t, inv_pos V c _ _ hz]
      iintro ⟨⟨⟨HS1, HS2, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) Set.univ _ _ _ _ _ _ _ _ _ _ _ _ _ _ _ _ _ _ _ _ _ _ _ _ _ _ (fun h => h0 ((isFirst_iff t).mp h)) ((isLast_iff t).mpr h1) (tile V c 0 t) (tile V c 1 t) (tile V c 2 t) (tile V c 3 t) (tile V c 4 t) (tile V c 5 t) (tile V c 6 t) (tile V c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : t.val ≠ 0 := fun e => h0 (by rw [e])
      rw [Dat.leavesExact_idle (dat0 V c) 9 t (idle9 t (fun h => h1 ((isLast_iff t).mp h))) (noFlush9 t (fun h => h1 ((isLast_iff t).mp h))),
        Dat.leavesExact_idle (dat0 V c) 10 t (idle10 t (fun h => h1 ((isLast_iff t).mp h))) (noFlush10 t (fun h => h1 ((isLast_iff t).mp h)))]
      rw [sumsAt_next V c t h0]; (try dsimp only)
      rw [inv_castSucc V c t, inv_pos V c _ _ hz]
      iintro ⟨⟨⟨HS1, HS2, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) Set.univ _ _ _ _ _ _ _ _ _ _ _ _ _ _ _ _ _ _ _ _ _ _ _ _ _ _ (fun h => h0 ((isFirst_iff t).mp h)) (fun h => h1 ((isLast_iff t).mp h)) (tile V c 0 t) (tile V c 1 t) (tile V c 2 t) (tile V c 3 t) (tile V c 4 t) (tile V c 5 t) (tile V c 6 t) (tile V c 7 t) ((dat0 V c).before 9 t d9) ((dat0 V c).before 10 t d10) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS1]; · iexact HS1
      isplitl [HS2]; · iexact HS2
      iintro ⟨H0, H1, H2, H3, H4, H5, H6, H7, H8, H9, H10, HS1, HS2⟩
      isplitl [HS1 HS2 Hoth Hg]
      · isplitl [HS1 HS2 Hoth]
        · isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem inv_in (c : Dev nD) : Pipeline.ΦA spec0 c ⊢ (dat0 V c).Φ 0 := by
  rw [show (dat0 V c).Φ 0 = inv V c 0 (Nat.zero_le _) from rfl, inv_zero V c 0 _ rfl]
  try exact Idealize.SL.BI.Entails.refl _

/-- and after the last point the invariant gives it back, the running sums' contents forgotten. -/
theorem inv_out (c : Dev nD) : (dat0 V c).Φ (Fin.last cfg0.N) ⊢ Pipeline.ΦA spec0 c := by
  rw [show (dat0 V c).Φ (Fin.last cfg0.N) = inv V c (Fin.last cfg0.N).val (Nat.le_of_lt_succ (Fin.last cfg0.N).isLt) from rfl,
    inv_pos V c _ _ (by rw [Fin.val_last]; have : cfg0.N = 128 := N_0; omega), inv_start]
  iintro ⟨⟨HS1, HS2, Hoth⟩, Hg⟩
  isplitl [HS1 HS2 Hoth]
  · isplitl [HS1]; · iexists _; iexact HS1
    isplitl [HS2]; · iexists _; iexact HS2
    iexact Hoth
  iexact Hg

end Cert.KernelIdeal.Region0

end
-- ==== Proof.KI.Region1.lean ====
/- REGION 1 of the program: the second kernel call, on a grid of 32 points. At point `t` it takes rows
   `4096·t … 4096·t + 4095` of the matrix `g` (256 columns, half precision), normalises each column by `mu` and
   `inv`, scales by `gamma`, shifts by `beta`, rectifies (maximum with 0), multiplies the result by the
   256 × 2 head matrix `Wfc` and adds the bias `bfc`: 4096 rows of 2 columns, written back as rows
   `4096·t …` of the result. The body reads seven windows whole and stores the eighth whole, once; it keeps
   nothing from point to point. This module states, at ANY contents `V` of the buffers when the region is
   entered: the block of each window at a point; that the body finds each input's block in its buffer whether
   or not it was transferred in at that point; what the body leaves in the output's buffer; the body's triple;
   the proof data of the pipeline; and the body obligation at every point. -/
import proofs.«135453_j26697516712490_1_alg».proof.Proof.Gen.KernelIdeal.Launch
import proofs.«135453_j26697516712490_1_alg».proof.Proof.Gen.KernelIdeal.Skeleton
import proofs.«135453_j26697516712490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4096 rows: the structural check recurses once per coordinate of the long axis
set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: everything below is stated at any such contents
variable (V : (c : Dev nD) → (b : Ref sig .tc) → Buf (Elt F) ((c : Thread nD τ).loc b))

/-! ## The windows' blocks -/

/-- Window `w`'s block at point `t`: the part of its array, as the region finds it, that the point's index map
    selects. For window 0 rows `4096·t … 4096·t + 4095` of `g`; for windows 1–6 the whole (small) array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 — the 4096 rows of `g` the point covers (rows `4096·t …`), in half precision — is transferred in at every point: the
    body finds its block in the window's buffer at every point. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Window 1 — the per-column mean `mu` — is transferred in at the first point only, and its block index never moves: the
    body finds its block in the window's buffer at every point. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Window 2 — the per-column inverse deviation `inv` — is transferred in at the first point only, and its block index never moves: the
    body finds its block in the window's buffer at every point. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Window 3 — the per-column scale `gamma` — is transferred in at the first point only, and its block index never moves: the
    body finds its block in the window's buffer at every point. -/
theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Window 4 — the per-column shift `beta` — is transferred in at the first point only, and its block index never moves: the
    body finds its block in the window's buffer at every point. -/
theorem found1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Window 5 — the head matrix `Wfc` — is transferred in at the first point only, and its block index never moves: the
    body finds its block in the window's buffer at every point. -/
theorem found1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Window 6 — the head bias `bfc` — is transferred in at the first point only, and its block index never moves: the
    body finds its block in the window's buffer at every point. -/
theorem found1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! ## The body's one store -/

/-- The whole 4096 × 2 buffer, as a rectangle: where the body stores. -/
abbrev whole4096x2 : Rect S4096x2 := Rect.unit (s := S4096x2) ![0, 0] S4096x2.size inb_S4096x2_S4096x2_0_0

/-- What the body leaves in the output window's buffer, from the seven input blocks: its single store, of the
    normalised, rectified rows times the head matrix plus the bias, laid over the whole buffer. -/
def headRows (g : Vec F S4096x256 .bf16) (mu inv gamma beta : Vec F S1x256 .f32) (Wfc : Vec F S256x2 .f32) (bfc : Vec F S1x2 .f32) :
    Vec F S4096x2 .f32 :=
  View.canon [⟨whole4096x2, k1_pay1 (View.ld g (Rect.unit (s := S4096x256) ![0, 0] S4096x256.size inb_S4096x256_S4096x256_0_0))
    (View.ld mu (Rect.unit (s := S1x256) ![0, 0] S1x256.size inb_S1x256_S1x256_0_0))
    (View.ld inv (Rect.unit (s := S1x256) ![0, 0] S1x256.size inb_S1x256_S1x256_0_0))
    (View.ld gamma (Rect.unit (s := S1x256) ![0, 0] S1x256.size inb_S1x256_S1x256_0_0))
    (View.ld beta (Rect.unit (s := S1x256) ![0, 0] S1x256.size inb_S1x256_S1x256_0_0))
    (View.ld Wfc (Rect.unit (s := S256x2) ![0, 0] S256x2.size inb_S256x2_S256x2_0_0))
    (View.ld bfc (Rect.unit (s := S1x2) ![0, 0] S1x2.size inb_S1x2_S1x2_0_0))⟩]

/-- The one store covers the buffer: every index of the 4096 × 2 shape lies in the whole rectangle. -/
theorem headRows_cover (p : Vec F S4096x2 .f32) (y : S4096x2.Idx) :
    ∃ pc ∈ ([⟨whole4096x2, p⟩] : List (View.Piece (Elt F) S4096x2 .f32)), y ∈ pc.1.set :=
  View.cover_of_tiled [⟨whole4096x2, p⟩] S4096x2.size (by rfl) y

/-! ## The body's triple -/

set_option maxHeartbeats 1000000 in
/-- The kernel body on whole buffers — the seven inputs' at read contents `g, mu, inv, gamma, beta, Wfc, bfc` and the
    output's at anything — runs to a continuation that holds the inputs' as they were and the output's at
    `headRows` of the inputs: seven whole loads, a load of the output's buffer whose value is not used, and one
    whole store, which covers the buffer. -/
theorem kernel_triple1 (c : Dev nD) (E : Set ℕ) (i : grid1.Coords)
    (a0 : Memref sig .tc .vmem S4096x256 .bf16) (h0 : a0.IsWhole) (a1 : Memref sig .tc .vmem S1x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (a5 : Memref sig .tc .vmem S256x2 .f32) (h5 : a5.IsWhole)
    (a6 : Memref sig .tc .vmem S1x2 .f32) (h6 : a6.IsWhole) (a7 : Memref sig .tc .vmem S4096x2 .f32) (h7 : a7.IsWhole)
    (g : Vec F S4096x256 .bf16) (mu inv gamma beta : Vec F S1x256 .f32) (Wfc : Vec F S256x2 .f32) (bfc : Vec F S1x2 .f32)
    (K : PUnit → sProp 𝕄) :
    iprop(owns (c : Thread nD τ) a0 fullShare g ∗ owns (c : Thread nD τ) a1 fullShare mu ∗ owns (c : Thread nD τ) a2 fullShare inv
        ∗ owns (c : Thread nD τ) a3 fullShare gamma ∗ owns (c : Thread nD τ) a4 fullShare beta ∗ owns (c : Thread nD τ) a5 fullShare Wfc
        ∗ owns (c : Thread nD τ) a6 fullShare bfc ∗ (∃ d, owns (c : Thread nD τ) a7 fullShare d)
        ∗ (iprop(owns (c : Thread nD τ) a0 fullShare g ∗ owns (c : Thread nD τ) a1 fullShare mu ∗ owns (c : Thread nD τ) a2 fullShare inv
            ∗ owns (c : Thread nD τ) a3 fullShare gamma ∗ owns (c : Thread nD τ) a4 fullShare beta ∗ owns (c : Thread nD τ) a5 fullShare Wfc
            ∗ owns (c : Thread nD τ) a6 fullShare bfc ∗ owns (c : Thread nD τ) a7 fullShare (headRows g mu inv gamma beta Wfc bfc)) -∗ K ⟨⟩))
      ⊢ wp frame (wpE (defs₀ (F := F)) Variants.none c none) E (cc1__k2_kernel i a0 h0 a1 h1 a2 h2 a3 h3 a4 h4 a5 h5 a6 h6 a7 h7) K := by
  simp only [cc1__k2_kernel_eq_skeleton]; unfold cc1__k2_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (headRows_cover _)

/-! ## The pipeline's proof data -/

/-- The proof data of this pipeline on core `c`: the windows' arrays as the region finds them (`V`); after the
    body at point `t` each input's buffer still at its block and the output's at `headRows` of the seven input
    blocks; the invariant that of a body which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => headRows (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
/-- and in the output's buffer the normalised, rectified rows of the point times the head matrix, plus the bias. -/
theorem after1_7 (c : Dev nD) (t : Fin cfg1.N) : (dat1 V c).after 7 t
    = headRows (blk1 V c 0 t) (blk1 V c 1 t) (blk1 V c 2 t) (blk1 V c 3 t) (blk1 V c 4 t) (blk1 V c 5 t) (blk1 V c 6 t) := by
  dsimp only [dat1]

/-- Each input's buffer holds its block at every point, transferred in there or not. -/
theorem before1_0 (c : Dev nD) (t : Fin cfg1.N) (d) : (dat1 V c).before 0 t d = blk1 V c 0 t :=
  found1_0_of V (dat1 V c) (A_eq1 V c 0) (after1_0 V c) t d
theorem before1_1 (c : Dev nD) (t : Fin cfg1.N) (d) : (dat1 V c).before 1 t d = blk1 V c 1 t :=
  found1_1_of V (dat1 V c) (A_eq1 V c 1) (after1_1 V c) t d
theorem before1_2 (c : Dev nD) (t : Fin cfg1.N) (d) : (dat1 V c).before 2 t d = blk1 V c 2 t :=
  found1_2_of V (dat1 V c) (A_eq1 V c 2) (after1_2 V c) t d
theorem before1_3 (c : Dev nD) (t : Fin cfg1.N) (d) : (dat1 V c).before 3 t d = blk1 V c 3 t :=
  found1_3_of V (dat1 V c) (A_eq1 V c 3) (after1_3 V c) t d
theorem before1_4 (c : Dev nD) (t : Fin cfg1.N) (d) : (dat1 V c).before 4 t d = blk1 V c 4 t :=
  found1_4_of V (dat1 V c) (A_eq1 V c 4) (after1_4 V c) t d
theorem before1_5 (c : Dev nD) (t : Fin cfg1.N) (d) : (dat1 V c).before 5 t d = blk1 V c 5 t :=
  found1_5_of V (dat1 V c) (A_eq1 V c 5) (after1_5 V c) t d
theorem before1_6 (c : Dev nD) (t : Fin cfg1.N) (d) : (dat1 V c).before 6 t d = blk1 V c 6 t :=
  found1_6_of V (dat1 V c) (A_eq1 V c 6) (after1_6 V c) t d

/-! ## The body obligation, at a generic point -/

/-- What the body is called with at point `t`: the invariant, what the core owes, and the eight windows' current
    buffers, whole, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_triple1 c Set.univ _ _ _ _ _ _ _ _ _ _ _ _ _ _ _ _ _ (blk1 V c 0 t) (blk1 V c 1 t) (blk1 V c 2 t) (blk1 V c 3 t)
    (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Region1

end
-- ==== Proof.KI.Run.lean ====
/-
  The whole program as four segments — the mask's conversion on the host, the first kernel, the statistics on the host (the two
  cores' column sums added, mean, variance, reciprocal standard deviation, and the rows re-laid), the second kernel — run from any
  memory: every execution terminates, and every buffer that outlives the kernels ends at the contents the segments compose
  to.  Read at the arguments this is "unchanged"; read at the result it is the result's value.
-/
import proofs.«135453_j26697516712490_1_alg».proof.Proof.KI.R0Dat
import proofs.«135453_j26697516712490_1_alg».proof.Proof.KI.Region1
import proofs.«135453_j26697516712490_1_alg».proof.Proof.Gen.KernelIdeal.Regions
set_option maxRecDepth 16384

noncomputable section

namespace Cert.KernelIdeal.Run

open Cert.KernelIdeal Cert.KernelIdeal.Gen Cert.KernelIdeal.Region0 Cert.KernelIdeal.Region1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first kernel: its three output arrays at what its write-backs left, everything else as before it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second kernel: its output array at what its write-backs left, everything else as before it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 5).trans (((dat1 (V3 m ρ) c).arrAt_in 5 rfl _).trans (A_eq1 (V3 m ρ) c 5))
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as segments -/

theorem phiA_join0 (c : Dev nD) :
    iprop((∃ r, prngReg c r) ∗ Pipeline.prefHeld (pcfgs (F := F) 0).pre c (fun _ => fullShare) (adm (F := F) 0).1 ∗ Pipeline.scopedRest spec0 c)
      ⊢ (Pipeline.ΦA spec0 c : sProp 𝕄) := by
  unfold Pipeline.ΦA
  iintro ⟨Hp, -, Hr⟩
  isplitl [Hr]; · iexact Hr
  iexact Hp
theorem phiA_split0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

theorem phiA_join1 (c : Dev nD) :
    iprop((∃ r, prngReg c r) ∗ Pipeline.prefHeld (pcfgs (F := F) 1).pre c (fun _ => fullShare) (adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp
theorem phiA_split1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The second kernel keeps nothing between points: its invariant is the same before the first point and after the last. -/
theorem phiA_in1 (V : (c : Dev nD) → (b : Ref sig .tc) → Buf (Elt F) ((c : Thread nD τ).loc b)) (c : Dev nD) :
    (Pipeline.ΦA spec1 c : sProp 𝕄) ⊢ (dat1 V c).Φ 0 := by
  rw [show (dat1 V c).Φ 0 = Pipeline.ΦA spec1 c from rfl]; try exact Idealize.SL.BI.Entails.refl _
theorem phiA_out1 (V : (c : Dev nD) → (b : Ref sig .tc) → Buf (Elt F) ((c : Thread nD τ).loc b)) (c : Dev nD) :
    (dat1 V c).Φ (Fin.last cfg1.N) ⊢ (Pipeline.ΦA spec1 c : sProp 𝕄) := by
  rw [show (dat1 V c).Φ (Fin.last cfg1.N) = Pipeline.ΦA spec1 c from rfl]; try exact Idealize.SL.BI.Entails.refl _

set_option backward.isDefEq.respectTransparency.types false in
/-- Region 0 over the thread state: entered with every unscoped buffer at the contents before it, left with them at the contents
    after it; its arrays are split out of the unscoped buffers on entry and put back at what the write-backs left on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_join0 c).trans (inv_in (V1 m ρ) c)
  hout c := by
    rw [Pipeline.ownSems0_none]
    exact (inv_out (V1 m ρ) c).trans (phiA_split0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the contents
    after it; its arrays are split out of the unscoped buffers on entry and put back at what the write-backs left on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_join1 c).trans (phiA_in1 (V3 m ρ) c)
  hout c := by
    rw [Pipeline.ownSems0_none]
    exact (phiA_out1 (V3 m ρ) c).trans (phiA_split1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution from `m` terminates without a fault, and every unscoped buffer ends at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

/-- The result array ends at what the second kernel's write-backs leave. -/
theorem result : θ_run defs (onTc (τ := τ) (main (F := F))) ⟨m, fun _ => 0, ρ⟩ (fun r => ∀ c : Dev nD,
      r.2.mem ((c.tc : Thread nD τ).loc main_v27) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v27 (by decide))).trans (W4_arr m ρ c 7),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c)⟩) (run_all m ρ)

end Cert.KernelIdeal.Run

end
-- ==== Proof.KI.HostValues.lean ====
/-
  What the host operations between the kernels leave in the buffers the kernels read, for an arbitrary state of the
  buffers before each stretch.

  The first stretch turns the mask bits into floats and lays them as a column. The second takes the two cores'
  column sums and column sums of squares (two slabs of 256 each), adds the slabs, divides by the number of rows to
  get the mean and the mean of the squares, forms one over the square root of the mean of the squares less the squared
  mean plus a constant, and lays the mean, that factor, the scale, the shift and the last bias as rows. Each is read
  here at an index; what a stretch does not write it leaves as it was.
-/
import proofs.«135453_j26697516712490_1_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostValues

open Cert.KernelIdeal Cert.KernelIdeal.Gen Idealize.ShloMosaic Idealize.ShloMosaic.TcCoe Idealize.ShloMosaic.StableHlo
  Idealize.ShloMosaic.ValueIdx

/-! ## Changes of shape read at an index -/

section Layout
variable {α : Type}

/-- A vector of 131072 entries laid as a column, read at row `r`. -/
theorem col_read (v : S131072.Idx → α) (r : Fin 131072) :
    shapeCast S131072x1 v shapeCasts_S131072_S131072x1 (ix2 r 0) = v (ix1 r) :=
  shapeCast_apply v shapeCasts_S131072_S131072x1 (ix2 r 0) (ix1 r)
    (by rw [Shape.rowMajor_val_one, Shape.rowMajor_val_two]; show r.val = r.val * 1 + 0; omega)

/-- A vector of 256 entries laid as a row, read at column `j`. -/
theorem row_read (v : S256.Idx → α) (j : Fin 256) :
    shapeCast S1x256 v shapeCasts_S256_S1x256 (ix2 0 j) = v (ix1 j) :=
  shapeCast_apply v shapeCasts_S256_S1x256 (ix2 0 j) (ix1 j)
    (by rw [Shape.rowMajor_val_one, Shape.rowMajor_val_two]; show j.val = 0 * 256 + j.val; omega)

/-- A vector of 2 entries laid as a row, read at column `o`. -/
theorem row2_read (v : S2.Idx → α) (o : Fin 2) :
    shapeCast S1x2 v shapeCasts_S2_S1x2 (ix2 0 o) = v (ix1 o) :=
  shapeCast_apply v shapeCasts_S2_S1x2 (ix2 0 o) (ix1 o)
    (by rw [Shape.rowMajor_val_one, Shape.rowMajor_val_two]; show o.val = 0 * 2 + o.val; omega)

/-- The first of the two slabs of a [2, 1, 256] array, flattened, read at `j`. -/
theorem slab0_read (S : S2x1x256.Idx → α) (j : Fin 256) :
    shapeCast S256 (extractStridedSlice S1x1x256 ![0, 0, 0] S slices_S2x1x256_S1x1x256_0_0_0) shapeCasts_S1x1x256_S256 (ix1 j)
      = S (ix3 0 0 j) := by
  rw [shapeCast_apply _ shapeCasts_S1x1x256_S256 (ix1 j) (ix3 0 0 j)
    (by rw [Shape.rowMajor_val_one, Shape.rowMajor_val_three]; show (0 * 1 + 0) * 256 + j.val = j.val; omega)]
  exact extractStridedSlice_apply ![0, 0, 0] S slices_S2x1x256_S1x1x256_0_0_0 (ix3 0 0 j) (ix3 0 0 j)
    (fun a => by match a with | ⟨0, _⟩ => rfl | ⟨1, _⟩ => rfl | ⟨2, _⟩ => show j.val = 0 + j.val; omega)

/-- The second of the two slabs, flattened, read at `j`. -/
theorem slab1_read (S : S2x1x256.Idx → α) (j : Fin 256) :
    shapeCast S256 (extractStridedSlice S1x1x256 ![1, 0, 0] S slices_S2x1x256_S1x1x256_1_0_0) shapeCasts_S1x1x256_S256 (ix1 j)
      = S (ix3 1 0 j) := by
  rw [shapeCast_apply _ shapeCasts_S1x1x256_S256 (ix1 j) (ix3 0 0 j)
    (by rw [Shape.rowMajor_val_one, Shape.rowMajor_val_three]; show (0 * 1 + 0) * 256 + j.val = j.val; omega)]
  exact extractStridedSlice_apply ![1, 0, 0] S slices_S2x1x256_S1x1x256_1_0_0 (ix3 0 0 j) (ix3 1 0 j)
    (fun a => by match a with | ⟨0, _⟩ => rfl | ⟨1, _⟩ => rfl | ⟨2, _⟩ => show j.val = 0 + j.val; omega)

end Layout

variable (W : Valuation τ sig (Elt Ideal))

/-! ## The first stretch: the mask as a column of floats -/

theorem v1_eq :
    (StableHlo.after (hostOps0 (F := Ideal)) W (Proc.devRef .tc main_v1) : S131072x1.Idx → EReal)
      = shapeCast S131072x1 (uitofp (F := Ideal) .f32 (W (Proc.devRef .tc main_arg1) : S131072.Idx → BitVec 1))
          shapeCasts_S131072_S131072x1 := by
  after_results; rfl

/-- The mask bit of row `r` as a float. -/
theorem mask_at (r : Fin 131072) :
    (StableHlo.after (hostOps0 (F := Ideal)) W (Proc.devRef .tc main_v1) : S131072x1.Idx → EReal) (ix2 r 0)
      = (FloatOps.uitofp (F := Ideal) .f32 ((W (Proc.devRef .tc main_arg1) : S131072.Idx → BitVec 1) (ix1 r)) : EReal) := by
  rw [v1_eq, col_read]; rfl

/-- The first stretch leaves the arguments it reads or passes by alone. -/
theorem hostOps0_keeps (r : Ref sig .tc) (h : r ∉ hostOps0_W) :
    StableHlo.after (hostOps0 (F := Ideal)) W (Proc.devRef .tc r) = W (Proc.devRef .tc r) :=
  StableHlo.after_of_writes_sub hostOps0 W hostOps0_writes h

theorem hostOps0_arg0 : StableHlo.after (hostOps0 (F := Ideal)) W (Proc.devRef .tc main_arg0) = W (Proc.devRef .tc main_arg0) :=
  hostOps0_keeps W main_arg0 (by decide)
theorem hostOps0_arg2 : StableHlo.after (hostOps0 (F := Ideal)) W (Proc.devRef .tc main_arg2) = W (Proc.devRef .tc main_arg2) :=
  hostOps0_keeps W main_arg2 (by decide)
theorem hostOps0_arg3 : StableHlo.after (hostOps0 (F := Ideal)) W (Proc.devRef .tc main_arg3) = W (Proc.devRef .tc main_arg3) :=
  hostOps0_keeps W main_arg3 (by decide)
theorem hostOps0_arg4 : StableHlo.after (hostOps0 (F := Ideal)) W (Proc.devRef .tc main_arg4) = W (Proc.devRef .tc main_arg4) :=
  hostOps0_keeps W main_arg4 (by decide)
theorem hostOps0_arg5 : StableHlo.after (hostOps0 (F := Ideal)) W (Proc.devRef .tc main_arg5) = W (Proc.devRef .tc main_arg5) :=
  hostOps0_keeps W main_arg5 (by decide)
theorem hostOps0_arg6 : StableHlo.after (hostOps0 (F := Ideal)) W (Proc.devRef .tc main_arg6) = W (Proc.devRef .tc main_arg6) :=
  hostOps0_keeps W main_arg6 (by decide)
theorem hostOps0_arg7 : StableHlo.after (hostOps0 (F := Ideal)) W (Proc.devRef .tc main_arg7) = W (Proc.devRef .tc main_arg7) :=
  hostOps0_keeps W main_arg7 (by decide)

/-! ## The second stretch: the column statistics from the two cores' sums -/

/-- The two slabs of a [2, 1, 256] array added entry by entry. -/
def slabSum (S : S2x1x256.Idx → EReal) : S256.Idx → EReal :=
  addf (F := Ideal) (φ := .f32)
    (shapeCast S256 (extractStridedSlice S1x1x256 ![0, 0, 0] S slices_S2x1x256_S1x1x256_0_0_0) shapeCasts_S1x1x256_S256)
    (shapeCast S256 (extractStridedSlice S1x1x256 ![1, 0, 0] S slices_S2x1x256_S1x1x256_1_0_0) shapeCasts_S1x1x256_S256)

/-- That sum over the number of rows. -/
def slabMean (S : S2x1x256.Idx → EReal) : S256.Idx → EReal :=
  Host.divf (F := Ideal) (φ := .f32) (slabSum S) (broadcastInDim S256 ![] bcast_S_S256 (constant (F := Ideal) S_ .f32 0x48000000#32))

/-- One over the square root of: the mean of the squares, less the squared mean, plus the constant. -/
def slabInv (S1 S2 : S2x1x256.Idx → EReal) : S256.Idx → EReal :=
  Host.rsqrt (F := Ideal) (φ := .f32)
    (addf (F := Ideal) (φ := .f32)
      (subf (F := Ideal) (φ := .f32) (slabMean S2) (mulf (F := Ideal) (φ := .f32) (slabMean S1) (slabMean S1)))
      (broadcastInDim S256 ![] bcast_S_S256 (constant (F := Ideal) S_ .f32 0x3727C5AC#32)))

theorem v22_eq :
    (StableHlo.after (hostOps1 (F := Ideal)) W (Proc.devRef .tc main_v22) : S1x256.Idx → EReal)
      = shapeCast S1x256 (slabMean (W (Proc.devRef .tc main_v2_1) : S2x1x256.Idx → EReal)) shapeCasts_S256_S1x256 := by
  after_results; rfl

theorem v23_eq :
    (StableHlo.after (hostOps1 (F := Ideal)) W (Proc.devRef .tc main_v23) : S1x256.Idx → EReal)
      = shapeCast S1x256 (slabInv (W (Proc.devRef .tc main_v2_1) : S2x1x256.Idx → EReal)
          (W (Proc.devRef .tc main_v2_2) : S2x1x256.Idx → EReal)) shapeCasts_S256_S1x256 := by
  after_results; rfl

theorem v24_eq :
    (StableHlo.after (hostOps1 (F := Ideal)) W (Proc.devRef .tc main_v24) : S1x256.Idx → EReal)
      = shapeCast S1x256 (W (Proc.devRef .tc main_arg8) : S256.Idx → EReal) shapeCasts_S256_S1x256 := by
  after_results; rfl

theorem v25_eq :
    (StableHlo.after (hostOps1 (F := Ideal)) W (Proc.devRef .tc main_v25) : S1x256.Idx → EReal)
      = shapeCast S1x256 (W (Proc.devRef .tc main_arg9) : S256.Idx → EReal) shapeCasts_S256_S1x256 := by
  after_results; rfl

theorem v26_eq :
    (StableHlo.after (hostOps1 (F := Ideal)) W (Proc.devRef .tc main_v26) : S1x2.Idx → EReal)
      = shapeCast S1x2 (W (Proc.devRef .tc main_arg11) : S2.Idx → EReal) shapeCasts_S2_S1x2 := by
  after_results; rfl

/-- The number of rows, as every index of a vector of 256. -/
theorem n_read (j : Fin 256) :
    broadcastInDim S256 ![] bcast_S_S256 (constant (F := Ideal) S_ .f32 0x48000000#32) (ix1 j)
      = Ideal.ofBits .f32 0x48000000#32 :=
  broadcastInDim_apply _ bcast_S_S256 _ (ix1 j) ix0 (fun a => a.elim0)

/-- The constant added to the variance, as every index of a vector of 256. -/
theorem e5_read (j : Fin 256) :
    broadcastInDim S256 ![] bcast_S_S256 (constant (F := Ideal) S_ .f32 0x3727C5AC#32) (ix1 j)
      = Ideal.ofBits .f32 0x3727C5AC#32 :=
  broadcastInDim_apply _ bcast_S_S256 _ (ix1 j) ix0 (fun a => a.elim0)

/-- The slab mean at column `j`. -/
theorem slabMean_at (S : S2x1x256.Idx → EReal) (j : Fin 256) :
    slabMean S (ix1 j) = Ideal.div (S (ix3 0 0 j) + S (ix3 1 0 j)) (Ideal.ofBits .f32 0x48000000#32) := by
  show Ideal.div (shapeCast S256 (extractStridedSlice S1x1x256 ![0, 0, 0] S slices_S2x1x256_S1x1x256_0_0_0) shapeCasts_S1x1x256_S256 (ix1 j)
      + shapeCast S256 (extractStridedSlice S1x1x256 ![1, 0, 0] S slices_S2x1x256_S1x1x256_1_0_0) shapeCasts_S1x1x256_S256 (ix1 j))
      (broadcastInDim S256 ![] bcast_S_S256 (constant (F := Ideal) S_ .f32 0x48000000#32) (ix1 j)) = _
  rw [slab0_read, slab1_read, n_read]

/-- The two cores' column sums, as the first kernel leaves them: a [2, 1, 256] array of extended reals. -/
abbrev colSums : S2x1x256.Idx → EReal := W (Proc.devRef .tc main_v2_1)
/-- The two cores' column sums of squares, as the first kernel leaves them. -/
abbrev sqSums : S2x1x256.Idx → EReal := W (Proc.devRef .tc main_v2_2)

/-- The column mean the second kernel reads: the two cores' column sums added, over the number of rows. -/
theorem mu_at (j : Fin 256) :
    (StableHlo.after (hostOps1 (F := Ideal)) W (Proc.devRef .tc main_v22) : S1x256.Idx → EReal) (ix2 0 j)
      = Ideal.div (colSums W (ix3 0 0 j) + colSums W (ix3 1 0 j)) (Ideal.ofBits .f32 0x48000000#32) := by
  rw [v22_eq, row_read, slabMean_at]

/-- The factor the second kernel reads: one over the square root of the two cores' sums of squares added, over the
    number of rows, less the squared mean, plus the constant. -/
theorem inv_at (j : Fin 256) :
    (StableHlo.after (hostOps1 (F := Ideal)) W (Proc.devRef .tc main_v23) : S1x256.Idx → EReal) (ix2 0 j)
      = Ideal.rsqrt ((Ideal.div (sqSums W (ix3 0 0 j) + sqSums W (ix3 1 0 j)) (Ideal.ofBits .f32 0x48000000#32)
          - Ideal.div (colSums W (ix3 0 0 j) + colSums W (ix3 1 0 j)) (Ideal.ofBits .f32 0x48000000#32)
            * Ideal.div (colSums W (ix3 0 0 j) + colSums W (ix3 1 0 j)) (Ideal.ofBits .f32 0x48000000#32))
          + Ideal.ofBits .f32 0x3727C5AC#32) := by
  rw [v23_eq, row_read]
  show Ideal.rsqrt ((slabMean _ (ix1 j) - slabMean _ (ix1 j) * slabMean _ (ix1 j))
      + broadcastInDim S256 ![] bcast_S_S256 (constant (F := Ideal) S_ .f32 0x3727C5AC#32) (ix1 j)) = _
  rw [slabMean_at, slabMean_at, e5_read]

/-- The scale, the shift and the last bias, as the second kernel reads them. -/
theorem gamma_at (j : Fin 256) :
    (StableHlo.after (hostOps1 (F := Ideal)) W (Proc.devRef .tc main_v24) : S1x256.Idx → EReal) (ix2 0 j)
      = (W (Proc.devRef .tc main_arg8) : S256.Idx → EReal) (ix1 j) := by
  rw [v24_eq, row_read]
theorem beta_at (j : Fin 256) :
    (StableHlo.after (hostOps1 (F := Ideal)) W (Proc.devRef .tc main_v25) : S1x256.Idx → EReal) (ix2 0 j)
      = (W (Proc.devRef .tc main_arg9) : S256.Idx → EReal) (ix1 j) := by
  rw [v25_eq, row_read]
theorem bias_at (o : Fin 2) :
    (StableHlo.after (hostOps1 (F := Ideal)) W (Proc.devRef .tc main_v26) : S1x2.Idx → EReal) (ix2 0 o)
      = (W (Proc.devRef .tc main_arg11) : S2.Idx → EReal) (ix1 o) := by
  rw [v26_eq, row2_read]

/-- The second stretch leaves alone what it does not write. -/
theorem hostOps1_keeps (r : Ref sig .tc) (h : r ∉ hostOps1_W) :
    StableHlo.after (hostOps1 (F := Ideal)) W (Proc.devRef .tc r) = W (Proc.devRef .tc r) :=
  StableHlo.after_of_writes_sub hostOps1 W hostOps1_writes h

theorem hostOps1_v2_0 : StableHlo.after (hostOps1 (F := Ideal)) W (Proc.devRef .tc main_v2_0) = W (Proc.devRef .tc main_v2_0) :=
  hostOps1_keeps W main_v2_0 (by decide)
theorem hostOps1_arg10 : StableHlo.after (hostOps1 (F := Ideal)) W (Proc.devRef .tc main_arg10) = W (Proc.devRef .tc main_arg10) :=
  hostOps1_keeps W main_arg10 (by decide)

end Cert.KernelIdeal.HostValues

end
-- ==== Proof.KI.Region0Value.lean ====
/- What REGION 0 leaves in its three result arrays, each as ONE function of what the region read. The grid has 2 × 64
   points; point `t` (core `t / 64`, step `t mod 64`) reads rows `1024·t … 1024·t + 1023` of `x` and of the mask,
   and the six weight and bias arrays whole. It writes back rows `1024·t …` of the feature matrix at every point: the
   128 tiles cover the 131072 rows, so row `r` of the feature matrix is row `r mod 1024` of the body's feature rows
   on tile `r / 1024` (`featMatrix`, `final0_8`). The two running column sums are written back only at a core's last
   point `64·core + 63`, into row `core` of a 2 × 1 × 256 array: that row is the running sum after that point
   (`sumOfCore`, `sqOfCore`, `final0_9`, `final0_10`). -/
import proofs.«135453_j26697516712490_1_alg».proof.Proof.KI.R0Dat
import Idealize.ShloMosaic.Lib.Pipeline.Value
import Idealize.ShloMosaic.Lib.ValueIdx

noncomputable section

namespace Cert.KernelIdeal.Region0

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The feature matrix as one function of the arrays -/

/-- The feature rows of one tile, from its eight input blocks: the body's value, before it is laid into the buffer. -/
def featRows (x0 : Vec F S1024x4x512 .f32) (x1 : Vec F S1024x1 .f32) (x2 : Vec F S256x256 .f32) (x3 : Vec F S256 .f32)
    (x4 : Vec F S512x256 .f32) (x5 : Vec F S256 .f32) (x6 : Vec F S512x256 .f32) (x7 : Vec F S256 .f32) : Vec F S1024x256 .bf16 :=
  k0_pay11 (k0_pay4 x0) (k0_pay5 x0) (k0_pay6 x4) (k0_pay7 x6) (k0_pay8 x0 x2 x3) (k0_pay9 x0) x5 x7 x1

/-- What the body stores IS those rows: every load and the store are of whole buffers. -/
theorem featStored_eq (x0 : Vec F S1024x4x512 .f32) (x1 : Vec F S1024x1 .f32) (x2 : Vec F S256x256 .f32) (x3 : Vec F S256 .f32)
    (x4 : Vec F S512x256 .f32) (x5 : Vec F S256 .f32) (x6 : Vec F S512x256 .f32) (x7 : Vec F S256 .f32) :
    featStored x0 x1 x2 x3 x4 x5 x6 x7 = featRows x0 x1 x2 x3 x4 x5 x6 x7 := by
  unfold featStored featRows
  rw [View.canon_unit_zero (S := S1024x256) hz2]
  simp only [View.ld_unit_zero (S := S1024x4x512) hz3, View.ld_unit_zero (S := S1024x1) hz2, View.ld_unit_zero (S := S256x256) hz2,
    View.ld_unit_zero (S := S256) hz1, View.ld_unit_zero (S := S512x256) hz2]

/-- Rows `1024·b … 1024·b + 1023` of `x`, all four slabs and 512 columns: tile `b`'s block of `x`. -/
def xTile (x : S131072x4x512.Idx → Elt F .f32) (b : Fin 128) : Vec F S1024x4x512 .f32 :=
  fun y => x (ix3 (⟨1024 * b.val + (y 0).val, by have hy : (y 0).val < 1024 := (y 0).isLt; have := b.isLt; omega⟩ : Fin 131072) (y 1 : Fin 4) (y 2 : Fin 512))

/-- Rows `1024·b … 1024·b + 1023` of the mask column: tile `b`'s block of the mask. -/
def maskTile (m : S131072x1.Idx → Elt F .f32) (b : Fin 128) : Vec F S1024x1 .f32 :=
  fun y => m (ix2 (⟨1024 * b.val + (y 0).val, by have hy : (y 0).val < 1024 := (y 0).isLt; have := b.isLt; omega⟩ : Fin 131072) (y 1 : Fin 1))

/-- The tile of 1024 rows that row `i 0` lies in: `(i 0) / 1024`. -/
def tileOfRow (i : S131072x256.Idx) : Fin 128 := ⟨(i 0).val / 1024, by have := idx2_lt0 i; omega⟩

/-- Where the entry sits inside its tile: row `(i 0) mod 1024`, same column. -/
def withinTile (i : S131072x256.Idx) : S1024x256.Idx :=
  ix2 (⟨(i 0).val % 1024, Nat.mod_lt _ (by decide)⟩ : Fin 1024) (i 1 : Fin 256)

/-- THE FEATURE MATRIX, entry by entry: the body's feature rows on the tile of `x` and of the mask the row lies in
    (and the whole weight and bias arrays), read at the row's place inside the tile. -/
def featMatrix (x : S131072x4x512.Idx → Elt F .f32) (m : S131072x1.Idx → Elt F .f32) (Wa : S256x256.Idx → Elt F .f32)
    (ba : S256.Idx → Elt F .f32) (W1 : S512x256.Idx → Elt F .f32) (b1 : S256.Idx → Elt F .f32) (W2 : S512x256.Idx → Elt F .f32)
    (b2 : S256.Idx → Elt F .f32) : S131072x256.Idx → Elt F .bf16 :=
  fun i => featRows (xTile x (tileOfRow i)) (maskTile m (tileOfRow i)) Wa ba W1 b1 W2 b2 (withinTile i)

/-- `featMatrix` at row `1024·b + j 0`, column `j 1`, is the feature rows of tile `b` at `j`. -/
theorem featMatrix_at (x : S131072x4x512.Idx → Elt F .f32) (m : S131072x1.Idx → Elt F .f32) (Wa : S256x256.Idx → Elt F .f32)
    (ba : S256.Idx → Elt F .f32) (W1 : S512x256.Idx → Elt F .f32) (b1 : S256.Idx → Elt F .f32) (W2 : S512x256.Idx → Elt F .f32)
    (b2 : S256.Idx → Elt F .f32) (b : Fin 128) (j : S1024x256.Idx) (i : S131072x256.Idx)
    (h0 : (i 0).val = 1024 * b.val + (j 0).val) (h1 : (i 1).val = (j 1).val) :
    featMatrix x m Wa ba W1 b1 W2 b2 i = featRows (xTile x b) (maskTile m b) Wa ba W1 b1 W2 b2 j := by
  have hj : (j 0).val < 1024 := idx2_lt0 j
  have eb : tileOfRow i = b := Fin.ext (by show (i 0).val / 1024 = b.val; omega)
  have ej : withinTile i = j := by
    funext a
    match a with
    | ⟨0, _⟩ => exact Fin.ext (by show (i 0).val % 1024 = (j 0).val; omega)
    | ⟨1, _⟩ => exact Fin.ext h1
  unfold featMatrix
  rw [eb, ej]

/-! ## The windows' blocks, read off the arrays -/

variable (V : (c : Dev nD) → (b : Ref sig .tc) → Buf (Elt F) ((c : Thread nD τ).loc b))

/-- The printed index maps, decided once over the 128 points: at point `t` the windows of `x`, of the mask and of the
    feature matrix are at block `t`; the two sums' windows at block `t / 64` (the core); the weights' and biases' at 0. -/
theorem index_facts0 : ∀ t : Fin cfg0.N, t.val < 128
    ∧ (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_8.index t (0 : Fin 2) = t.val ∧ win0_8.index t (1 : Fin 2) = 0)
    ∧ (win0_9.index t (0 : Fin 3) = t.val / 64 ∧ win0_9.index t (1 : Fin 3) = 0 ∧ win0_9.index t (2 : Fin 3) = 0)
    ∧ (win0_10.index t (0 : Fin 3) = t.val / 64 ∧ win0_10.index t (1 : Fin 3) = 0 ∧ win0_10.index t (2 : Fin 3) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0 :=
  (by decide +kernel : ∀ t : Fin grid0.N, _)

/-- Window 0's block at point `t` is rows `1024·t …` of `x`. -/
theorem tile0_eq (c : Dev nD) (t : Fin cfg0.N) :
    (tile V c 0 t : Vec F S1024x4x512 .f32)
      = xTile (V c (Pipeline.arrRef spec0 0) : S131072x4x512.Idx → Elt F .f32) ⟨t.val, (index_facts0 t).1⟩ := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile xTile
  rw [View.read_apply]
  refine congrArg (V c (Pipeline.arrRef spec0 0) : S131072x4x512.Idx → Elt F .f32) (funext fun a => Fin.ext ?_)
  match a with
  | ⟨0, _⟩ => show win0_0.index t 0 * 1024 + 1 * (y 0).val = 1024 * t.val + (y 0).val; rw [x0]; omega
  | ⟨1, _⟩ => show win0_0.index t 1 * 4 + 1 * (y 1).val = (y 1).val; rw [x1]; omega
  | ⟨2, _⟩ => show win0_0.index t 2 * 512 + 1 * (y 2).val = (y 2).val; rw [x2]; omega

/-- Window 1's block at point `t` is rows `1024·t …` of the mask column. -/
theorem tile1_eq (c : Dev nD) (t : Fin cfg0.N) :
    (tile V c 1 t : Vec F S1024x1 .f32)
      = maskTile (V c (Pipeline.arrRef spec0 1) : S131072x1.Idx → Elt F .f32) ⟨t.val, (index_facts0 t).1⟩ := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile maskTile
  rw [View.read_apply]
  refine congrArg (V c (Pipeline.arrRef spec0 1) : S131072x1.Idx → Elt F .f32) (funext fun a => Fin.ext ?_)
  match a with
  | ⟨0, _⟩ => show win0_1.index t 0 * 1024 + 1 * (y 0).val = 1024 * t.val + (y 0).val; rw [k0]; omega
  | ⟨1, _⟩ => show win0_1.index t 1 * 1 + 1 * (y 1).val = (y 1).val; rw [k1]; omega

/-- Window 2's block at every point is its whole array: one block, at index 0. -/
theorem tile2_eq (c : Dev nD) (t : Fin cfg0.N) :
    (tile V c 2 t : Vec F S256x256 .f32) = (V c (Pipeline.arrRef spec0 2) : S256x256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 2) : S256x256.Idx → Elt F .f32) (funext fun a => Fin.ext ?_)
  match a with
  | ⟨0, _⟩ => show win0_2.index t 0 * 256 + 1 * (y 0).val = (y 0).val; rw [a0]; omega
  | ⟨1, _⟩ => show win0_2.index t 1 * 256 + 1 * (y 1).val = (y 1).val; rw [a1]; omega

/-- Window 3's block at every point is its whole array: one block, at index 0. -/
theorem tile3_eq (c : Dev nD) (t : Fin cfg0.N) :
    (tile V c 3 t : Vec F S256 .f32) = (V c (Pipeline.arrRef spec0 3) : S256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 3) : S256.Idx → Elt F .f32) (funext fun a => Fin.ext ?_)
  match a with
  | ⟨0, _⟩ => show win0_3.index t 0 * 256 + 1 * (y 0).val = (y 0).val; rw [b0]; omega

/-- Window 4's block at every point is its whole array: one block, at index 0. -/
theorem tile4_eq (c : Dev nD) (t : Fin cfg0.N) :
    (tile V c 4 t : Vec F S512x256 .f32) = (V c (Pipeline.arrRef spec0 4) : S512x256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 4) : S512x256.Idx → Elt F .f32) (funext fun a => Fin.ext ?_)
  match a with
  | ⟨0, _⟩ => show win0_4.index t 0 * 512 + 1 * (y 0).val = (y 0).val; rw [d0]; omega
  | ⟨1, _⟩ => show win0_4.index t 1 * 256 + 1 * (y 1).val = (y 1).val; rw [d1]; omega

/-- Window 5's block at every point is its whole array: one block, at index 0. -/
theorem tile5_eq (c : Dev nD) (t : Fin cfg0.N) :
    (tile V c 5 t : Vec F S256 .f32) = (V c (Pipeline.arrRef spec0 5) : S256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 5) : S256.Idx → Elt F .f32) (funext fun a => Fin.ext ?_)
  match a with
  | ⟨0, _⟩ => show win0_5.index t 0 * 256 + 1 * (y 0).val = (y 0).val; rw [e0]; omega

/-- Window 6's block at every point is its whole array: one block, at index 0. -/
theorem tile6_eq (c : Dev nD) (t : Fin cfg0.N) :
    (tile V c 6 t : Vec F S512x256 .f32) = (V c (Pipeline.arrRef spec0 6) : S512x256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 6) : S512x256.Idx → Elt F .f32) (funext fun a => Fin.ext ?_)
  match a with
  | ⟨0, _⟩ => show win0_6.index t 0 * 512 + 1 * (y 0).val = (y 0).val; rw [f0]; omega
  | ⟨1, _⟩ => show win0_6.index t 1 * 256 + 1 * (y 1).val = (y 1).val; rw [f1]; omega

/-- Window 7's block at every point is its whole array: one block, at index 0. -/
theorem tile7_eq (c : Dev nD) (t : Fin cfg0.N) :
    (tile V c 7 t : Vec F S256 .f32) = (V c (Pipeline.arrRef spec0 7) : S256.Idx → Elt F .f32) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  funext y
  unfold tile
  rw [View.read_apply]
  refine congrArg (V c (Pipeline.arrRef spec0 7) : S256.Idx → Elt F .f32) (funext fun a => Fin.ext ?_)
  match a with
  | ⟨0, _⟩ => show win0_7.index t 0 * 256 + 1 * (y 0).val = (y 0).val; rw [h0]; omega

/-! ## Window 8: the feature matrix -/

/-- The window is not cut: what is written back of a buffer's contents is all of it. -/
theorem whole_block0_8 (t : Fin cfg0.N) (X : Vec F S1024x256 .bf16) : (cfg0.win 8).cut (grid0.coords t) X = X := rfl

/-- Block `t` of a whole-array function, read at `j`, is the function at the block's `j`-th entry. -/
theorem read_block0_8 (t : Fin cfg0.N) (G : S131072x256.Idx → Elt F .bf16) (j : S1024x256.Idx) :
    ((cfg0.win 8).blk t).view.read (Elt F) G j = G (((cfg0.win 8).blk t).view.emb j) := rfl

/-- WHAT POINT `t` WRITES BACK is block `t` of `featMatrix` of the arrays as the region finds them. -/
theorem writeback0_8_eq (c : Dev nD) (t : Fin cfg0.N) :
    (dat0 V c).flushed 8 t = ((cfg0.win 8).blk t).view.read (Elt F) (featMatrix (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  show (cfg0.win 8).cut (grid0.coords t) ((dat0 V c).after 8 t) = _
  rw [after0_8, featStored_eq, tile0_eq, tile1_eq, tile2_eq, tile3_eq, tile4_eq, tile5_eq, tile6_eq, tile7_eq]
  refine (whole_block0_8 t _).trans (funext fun j => ((featMatrix_at _ _ _ _ _ _ _ _ ⟨t.val, ht⟩ j _ ?_ ?_).symm.trans (read_block0_8 t _ j).symm))
  · show win0_8.index t 0 * 1024 + 1 * (j 0).val = 1024 * t.val + (j 0).val; rw [g0]; omega
  · show win0_8.index t 1 * 256 + 1 * (j 1).val = (j 1).val; rw [g1]; omega

/-- A row-and-column of the feature matrix lies in point `t`'s block iff each coordinate is in the block's range. -/
theorem mem_block0_8 (t : Fin cfg0.N) (i : S131072x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v2_0).slice (win0_8.rect t)).set ↔ _
  rw [View.set_slice_whole, Rect.mem_set_unit]
  exact Iff.rfl

/-- Every entry of the feature matrix is written back by some point: row `r` by point `r / 1024`. -/
theorem covered0_8 (i : S131072x256.Idx) : ∃ t : Fin cfg0.N, (cfg0.win 8).flush t = true ∧ i ∈ ((cfg0.win 8).blk t).view.set := by
  have hi0 : (i 0).val < 131072 := idx2_lt0 i
  have hi1 : (i 1).val < 256 := idx2_lt1 i
  have hN : cfg0.N = 128 := N_0
  let t : Fin cfg0.N := ⟨(i 0).val / 1024, by rw [hN]; omega⟩
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  refine ⟨t, flush0_8 t, ?_⟩
  rw [mem_block0_8]
  intro a
  match a with
  | ⟨0, _⟩ => show win0_8.index t 0 * 1024 ≤ (i 0).val ∧ (i 0).val < win0_8.index t 0 * 1024 + 1024
              rw [g0]; show (i 0).val / 1024 * 1024 ≤ (i 0).val ∧ (i 0).val < (i 0).val / 1024 * 1024 + 1024; omega
  | ⟨1, _⟩ => show win0_8.index t 1 * 256 ≤ (i 1).val ∧ (i 1).val < win0_8.index t 1 * 256 + 256
              rw [g1]; omega

/-- THE FEATURE MATRIX after the region's last point is `featMatrix` of the eight arrays as the region found them. -/
theorem final0_8 (c : Dev nD) : (dat0 V c).arrAt 8 cfg0.N = featMatrix (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) :=
  (dat0 V c).arrAt_eq_of_cover 8 _ (fun t _ => writeback0_8_eq V c t) covered0_8

/-! ## The two running sums -/

/-- A core's last point is a point of the grid. -/
theorem lastPoint_lt (i : S2x1x256.Idx) : 64 * (i 0).val + 63 < cfg0.N := by
  have hi0 : (i 0).val < 2 := (i 0).isLt
  rw [show cfg0.N = 128 from N_0]; omega

/-- The place of an entry of a 2 × 1 × 256 array inside its core's 1 × 1 × 256 row. -/
def inRow (i : S2x1x256.Idx) : S1x1x256.Idx := ix3 (0 : Fin 1) (i 1 : Fin 1) (i 2 : Fin 256)

/-- The running sums after a point do not depend on how the point is written. -/
theorem sumsAt_congr (c : Dev nD) (n n' : ℕ) (h : n < cfg0.N) (h' : n' < cfg0.N) (e : n = n') : sumsAt V c n h = sumsAt V c n' h' := by
  subst e; rfl

/-! ## Window 9: column sum -/

/-- What the region leaves in the sumOfCore array: for core `i 0` the running column sum after that core's last
    point, `64·(i 0) + 63`. -/
def sumOfCore (c : Dev nD) : S2x1x256.Idx → Elt F .f32 :=
  fun i => (sumsAt V c (64 * (i 0).val + 63) (lastPoint_lt i)).1 (inRow i)

/-- At the last point `t` of a core, `sumOfCore` at the core's row is the running value after `t`. -/
theorem sumOfCore_at (c : Dev nD) (t : Fin cfg0.N) (h63 : t.val % 64 = 63) (j : S1x1x256.Idx) (i : S2x1x256.Idx)
    (h0 : (i 0).val = t.val / 64) (h2 : (i 2).val = (j 2).val) :
    sumOfCore V c i = (sumsAt V c t.val t.isLt).1 j := by
  have en : 64 * (i 0).val + 63 = t.val := by omega
  have ej : inRow i = j := by
    funext a
    match a with
    | ⟨0, _⟩ => exact Fin.ext (by have hj : (j 0).val < 1 := (j 0).isLt; show 0 = (j 0).val; omega)
    | ⟨1, _⟩ => exact Fin.ext (by have hj : (j 1).val < 1 := (j 1).isLt; have hi : (i 1).val < 1 := (i 1).isLt; show (i 1).val = (j 1).val; omega)
    | ⟨2, _⟩ => exact Fin.ext h2
  unfold sumOfCore
  rw [ej]
  exact congrArg (fun p => p.1 j) (sumsAt_congr V c _ _ _ _ en)

/-- The window is not cut: what is written back of a buffer's contents is all of it. -/
theorem whole_block0_9 (t : Fin cfg0.N) (X : Vec F S1x1x256 .f32) : (cfg0.win 9).cut (grid0.coords t) X = X := rfl

/-- Block `t` of a whole-array function, read at `j`, is the function at the block's `j`-th entry. -/
theorem read_block0_9 (t : Fin cfg0.N) (G : S2x1x256.Idx → Elt F .f32) (j : S1x1x256.Idx) :
    ((cfg0.win 9).blk t).view.read (Elt F) G j = G (((cfg0.win 9).blk t).view.emb j) := rfl

/-- What a core's last point writes back is that core's row of `sumOfCore`. -/
theorem writeback0_9_eq (c : Dev nD) (t : Fin cfg0.N) (hf : (cfg0.win 9).flush t = true) :
    (dat0 V c).flushed 9 t = ((cfg0.win 9).blk t).view.read (Elt F) (sumOfCore V c) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  have h63 : t.val % 64 = 63 := (flush0_9 t).mp hf
  show (cfg0.win 9).cut (grid0.coords t) ((dat0 V c).after 9 t) = _
  rw [after0_9]
  refine (whole_block0_9 t _).trans (funext fun j => ((sumOfCore_at V c t h63 j _ ?_ ?_).symm.trans (read_block0_9 t _ j).symm))
  · show win0_9.index t 0 * 1 + 1 * (j 0).val = t.val / 64
    have hj : (j 0).val < 1 := (j 0).isLt
    rw [s0]; omega
  · show win0_9.index t 2 * 256 + 1 * (j 2).val = (j 2).val
    rw [s2]; omega

/-- An entry of the array lies in point `t`'s block iff each coordinate is in the block's range. -/
theorem mem_block0_9 (t : Fin cfg0.N) (i : S2x1x256.Idx) :
    i ∈ ((cfg0.win 9).blk t).view.set ↔ ∀ a : Fin 3, win0_9.index t a * S1x1x256.size a ≤ (i a).val ∧ (i a).val < win0_9.index t a * S1x1x256.size a + S1x1x256.size a := by
  show i ∈ ((View.whole main_v2_1).slice (win0_9.rect t)).set ↔ _
  rw [View.set_slice_whole, Rect.mem_set_unit]
  exact Iff.rfl

/-- Every entry is written back: row `r` (a core) by that core's last point `64·r + 63`. -/
theorem covered0_9 (i : S2x1x256.Idx) : ∃ t : Fin cfg0.N, (cfg0.win 9).flush t = true ∧ i ∈ ((cfg0.win 9).blk t).view.set := by
  have hi0 : (i 0).val < 2 := (i 0).isLt
  have hi1 : (i 1).val < 1 := (i 1).isLt
  have hi2 : (i 2).val < 256 := (i 2).isLt
  let t : Fin cfg0.N := ⟨64 * (i 0).val + 63, lastPoint_lt i⟩
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  refine ⟨t, (flush0_9 t).mpr (by show (64 * (i 0).val + 63) % 64 = 63; omega), ?_⟩
  rw [mem_block0_9]
  intro a
  match a with
  | ⟨0, _⟩ => show win0_9.index t 0 * 1 ≤ (i 0).val ∧ (i 0).val < win0_9.index t 0 * 1 + 1
              rw [s0]; show (64 * (i 0).val + 63) / 64 * 1 ≤ (i 0).val ∧ (i 0).val < (64 * (i 0).val + 63) / 64 * 1 + 1; omega
  | ⟨1, _⟩ => show win0_9.index t 1 * 1 ≤ (i 1).val ∧ (i 1).val < win0_9.index t 1 * 1 + 1
              rw [s1]; omega
  | ⟨2, _⟩ => show win0_9.index t 2 * 256 ≤ (i 2).val ∧ (i 2).val < win0_9.index t 2 * 256 + 256
              rw [s2]; omega

/-- THE ARRAY after the region's last point: each core's row at its running column sum after the core's last point. -/
theorem final0_9 (c : Dev nD) : (dat0 V c).arrAt 9 cfg0.N = sumOfCore V c :=
  (dat0 V c).arrAt_eq_of_cover 9 _ (fun t hf => writeback0_9_eq V c t hf) covered0_9

/-! ## Window 10: column sum of squares -/

/-- What the region leaves in the sqOfCore array: for core `i 0` the running column sum of squares after that core's last
    point, `64·(i 0) + 63`. -/
def sqOfCore (c : Dev nD) : S2x1x256.Idx → Elt F .f32 :=
  fun i => (sumsAt V c (64 * (i 0).val + 63) (lastPoint_lt i)).2 (inRow i)

/-- At the last point `t` of a core, `sqOfCore` at the core's row is the running value after `t`. -/
theorem sqOfCore_at (c : Dev nD) (t : Fin cfg0.N) (h63 : t.val % 64 = 63) (j : S1x1x256.Idx) (i : S2x1x256.Idx)
    (h0 : (i 0).val = t.val / 64) (h2 : (i 2).val = (j 2).val) :
    sqOfCore V c i = (sumsAt V c t.val t.isLt).2 j := by
  have en : 64 * (i 0).val + 63 = t.val := by omega
  have ej : inRow i = j := by
    funext a
    match a with
    | ⟨0, _⟩ => exact Fin.ext (by have hj : (j 0).val < 1 := (j 0).isLt; show 0 = (j 0).val; omega)
    | ⟨1, _⟩ => exact Fin.ext (by have hj : (j 1).val < 1 := (j 1).isLt; have hi : (i 1).val < 1 := (i 1).isLt; show (i 1).val = (j 1).val; omega)
    | ⟨2, _⟩ => exact Fin.ext h2
  unfold sqOfCore
  rw [ej]
  exact congrArg (fun p => p.2 j) (sumsAt_congr V c _ _ _ _ en)

/-- The window is not cut: what is written back of a buffer's contents is all of it. -/
theorem whole_block0_10 (t : Fin cfg0.N) (X : Vec F S1x1x256 .f32) : (cfg0.win 10).cut (grid0.coords t) X = X := rfl

/-- Block `t` of a whole-array function, read at `j`, is the function at the block's `j`-th entry. -/
theorem read_block0_10 (t : Fin cfg0.N) (G : S2x1x256.Idx → Elt F .f32) (j : S1x1x256.Idx) :
    ((cfg0.win 10).blk t).view.read (Elt F) G j = G (((cfg0.win 10).blk t).view.emb j) := rfl

/-- What a core's last point writes back is that core's row of `sqOfCore`. -/
theorem writeback0_10_eq (c : Dev nD) (t : Fin cfg0.N) (hf : (cfg0.win 10).flush t = true) :
    (dat0 V c).flushed 10 t = ((cfg0.win 10).blk t).view.read (Elt F) (sqOfCore V c) := by
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  have h63 : t.val % 64 = 63 := (flush0_10 t).mp hf
  show (cfg0.win 10).cut (grid0.coords t) ((dat0 V c).after 10 t) = _
  rw [after0_10]
  refine (whole_block0_10 t _).trans (funext fun j => ((sqOfCore_at V c t h63 j _ ?_ ?_).symm.trans (read_block0_10 t _ j).symm))
  · show win0_10.index t 0 * 1 + 1 * (j 0).val = t.val / 64
    have hj : (j 0).val < 1 := (j 0).isLt
    rw [q0]; omega
  · show win0_10.index t 2 * 256 + 1 * (j 2).val = (j 2).val
    rw [q2]; omega

/-- An entry of the array lies in point `t`'s block iff each coordinate is in the block's range. -/
theorem mem_block0_10 (t : Fin cfg0.N) (i : S2x1x256.Idx) :
    i ∈ ((cfg0.win 10).blk t).view.set ↔ ∀ a : Fin 3, win0_10.index t a * S1x1x256.size a ≤ (i a).val ∧ (i a).val < win0_10.index t a * S1x1x256.size a + S1x1x256.size a := by
  show i ∈ ((View.whole main_v2_2).slice (win0_10.rect t)).set ↔ _
  rw [View.set_slice_whole, Rect.mem_set_unit]
  exact Iff.rfl

/-- Every entry is written back: row `r` (a core) by that core's last point `64·r + 63`. -/
theorem covered0_10 (i : S2x1x256.Idx) : ∃ t : Fin cfg0.N, (cfg0.win 10).flush t = true ∧ i ∈ ((cfg0.win 10).blk t).view.set := by
  have hi0 : (i 0).val < 2 := (i 0).isLt
  have hi1 : (i 1).val < 1 := (i 1).isLt
  have hi2 : (i 2).val < 256 := (i 2).isLt
  let t : Fin cfg0.N := ⟨64 * (i 0).val + 63, lastPoint_lt i⟩
  obtain ⟨ht, ⟨x0, x1, x2⟩, ⟨k0, k1⟩, ⟨g0, g1⟩, ⟨s0, s1, s2⟩, ⟨q0, q1, q2⟩, ⟨a0, a1⟩, b0, ⟨d0, d1⟩, e0, ⟨f0, f1⟩, h0⟩ := index_facts0 t
  refine ⟨t, (flush0_10 t).mpr (by show (64 * (i 0).val + 63) % 64 = 63; omega), ?_⟩
  rw [mem_block0_10]
  intro a
  match a with
  | ⟨0, _⟩ => show win0_10.index t 0 * 1 ≤ (i 0).val ∧ (i 0).val < win0_10.index t 0 * 1 + 1
              rw [q0]; show (64 * (i 0).val + 63) / 64 * 1 ≤ (i 0).val ∧ (i 0).val < (64 * (i 0).val + 63) / 64 * 1 + 1; omega
  | ⟨1, _⟩ => show win0_10.index t 1 * 1 ≤ (i 1).val ∧ (i 1).val < win0_10.index t 1 * 1 + 1
              rw [q1]; omega
  | ⟨2, _⟩ => show win0_10.index t 2 * 256 ≤ (i 2).val ∧ (i 2).val < win0_10.index t 2 * 256 + 256
              rw [q2]; omega

/-- THE ARRAY after the region's last point: each core's row at its running column sum of squares after the core's last point. -/
theorem final0_10 (c : Dev nD) : (dat0 V c).arrAt 10 cfg0.N = sqOfCore V c :=
  (dat0 V c).arrAt_eq_of_cover 10 _ (fun t hf => writeback0_10_eq V c t hf) covered0_10

end Cert.KernelIdeal.Region0

end
-- ==== Proof.KI.Region1Value.lean ====
/- What REGION 1 leaves in its result array, as ONE function of the seven arrays it reads. Point `t` of the grid
   of 32 writes back rows `4096·t … 4096·t + 4095` of the result, computed from rows `4096·t …` of `g` and the
   whole of `mu, inv, gamma, beta, Wfc, bfc`; the 32 blocks tile the 131072 rows. So row `r` of the result is row
   `r mod 4096` of the body's value on the block `r / 4096` of `g`: that function is `G1`, and `final1` says the
   result array after the last point IS `G1` of the arrays as the region found them. -/
import proofs.«135453_j26697516712490_1_alg».proof.Proof.KI.Region1
import Idealize.ShloMosaic.Lib.Pipeline.Value
import Idealize.ShloMosaic.Lib.ValueIdx

noncomputable section

namespace Cert.KernelIdeal.Region1

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The result as one function of the arrays -/

/-- Rows `4096·b … 4096·b + 4095` of `g`, as a 4096 × 256 block. -/
def rowBlock (g : S131072x256.Idx → Elt F .bf16) (b : Fin 32) : Vec F S4096x256 .bf16 :=
  fun y => g (ix2 (⟨4096 * b.val + (y 0).val, by have := idx2_lt0 y; have := b.isLt; omega⟩ : Fin 131072) (y 1 : Fin 256))

/-- The block of 4096 rows that row `i 0` lies in: `(i 0) / 4096`. -/
def blockOfRow (i : S131072x2.Idx) : Fin 32 := ⟨(i 0).val / 4096, by have := idx2_lt0 i; omega⟩

/-- Where the entry sits inside its block: row `(i 0) mod 4096`, same column. -/
def withinBlock (i : S131072x2.Idx) : S4096x2.Idx :=
  ix2 (⟨(i 0).val % 4096, Nat.mod_lt _ (by decide)⟩ : Fin 4096) (i 1 : Fin 2)

/-- THE RESULT ARRAY, entry by entry: the body's value — the normalised, rectified rows times the head matrix, plus
    the bias — on the block of `g` the row lies in, read at the row's place inside the block. -/
def G1 (g : S131072x256.Idx → Elt F .bf16) (mu inv gamma beta : S1x256.Idx → Elt F .f32)
    (Wfc : S256x2.Idx → Elt F .f32) (bfc : S1x2.Idx → Elt F .f32) : S131072x2.Idx → Elt F .f32 :=
  fun i => k1_pay1 (rowBlock g (blockOfRow i)) mu inv gamma beta Wfc bfc (withinBlock i)

/-- `G1` at row `4096·b + j 0`, column `j 1`, is the body's value on block `b` at `j`. -/
theorem G1_at (g : S131072x256.Idx → Elt F .bf16) (mu inv gamma beta : S1x256.Idx → Elt F .f32)
    (Wfc : S256x2.Idx → Elt F .f32) (bfc : S1x2.Idx → Elt F .f32) (b : Fin 32) (j : S4096x2.Idx) (i : S131072x2.Idx)
    (h0 : (i 0).val = 4096 * b.val + (j 0).val) (h1 : (i 1).val = (j 1).val) :
    G1 g mu inv gamma beta Wfc bfc i = k1_pay1 (rowBlock g b) mu inv gamma beta Wfc bfc j := by
  have hj : (j 0).val < 4096 := idx2_lt0 j
  have eb : blockOfRow i = b := Fin.ext (by show (i 0).val / 4096 = b.val; omega)
  have ej : withinBlock i = j := by
    funext a
    match a with
    | ⟨0, _⟩ => exact Fin.ext (by show (i 0).val % 4096 = (j 0).val; omega)
    | ⟨1, _⟩ => exact Fin.ext h1
  unfold G1
  rw [eb, ej]

/-! ## The windows' blocks, read off the arrays -/

variable (V : (c : Dev nD) → (b : Ref sig .tc) → Buf (Elt F) ((c : Thread nD τ).loc b))

theorem hz : (![0, 0] : Fin 2 → Nat) = fun _ => 0 := funext fun a => by fin_cases a <;> rfl

/-- The printed index maps, decided once over the 32 points: windows 0 and 7 (the rows of `g`, the rows of the
    result) are at block (t, 0) at point `t`; windows 1–6 at block (0, 0) throughout. -/
theorem index_facts1 : ∀ t : Fin cfg1.N,
    (win1_0.index t (0 : Fin 2) = t.val ∧ win1_0.index t (1 : Fin 2) = 0)
    ∧ (win1_7.index t (0 : Fin 2) = t.val ∧ win1_7.index t (1 : Fin 2) = 0)
    ∧ t.val < 32
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Window 0's block at point `t` is rows `4096·t …` of `g`. -/
theorem blk1_0_eq (c : Dev nD) (t : Fin cfg1.N) :
    (blk1 V c 0 t : Vec F S4096x256 .bf16)
      = rowBlock (V c (Pipeline.arrRef spec1 0) : S131072x256.Idx → Elt F .bf16) ⟨t.val, (index_facts1 t).2.2.1⟩ := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1 rowBlock
  rw [View.read_apply]
  refine congrArg (V c (Pipeline.arrRef spec1 0) : S131072x256.Idx → Elt F .bf16) (funext fun a => Fin.ext ?_)
  match a with
  | ⟨0, _⟩ => show win1_0.index t 0 * 4096 + 1 * (y 0).val = 4096 * t.val + (y 0).val; rw [a0]; omega
  | ⟨1, _⟩ => show win1_0.index t 1 * 256 + 1 * (y 1).val = (y 1).val; rw [a1]; omega

/-- Window 1's block at every point is its whole array (`mu`): one block, at index (0, 0). -/
theorem blk1_1_eq (c : Dev nD) (t : Fin cfg1.N) :
    (blk1 V c 1 t : Vec F S1x256 .f32) = (V c (Pipeline.arrRef spec1 1) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 1) : S1x256.Idx → Elt F .f32) (funext fun a => Fin.ext ?_)
  match a with
  | ⟨0, _⟩ => show win1_1.index t 0 * 1 + 1 * (y 0).val = (y 0).val; rw [m0]; omega
  | ⟨1, _⟩ => show win1_1.index t 1 * 256 + 1 * (y 1).val = (y 1).val; rw [m1]; omega

/-- Window 2's block at every point is its whole array (`inv`): one block, at index (0, 0). -/
theorem blk1_2_eq (c : Dev nD) (t : Fin cfg1.N) :
    (blk1 V c 2 t : Vec F S1x256 .f32) = (V c (Pipeline.arrRef spec1 2) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 2) : S1x256.Idx → Elt F .f32) (funext fun a => Fin.ext ?_)
  match a with
  | ⟨0, _⟩ => show win1_2.index t 0 * 1 + 1 * (y 0).val = (y 0).val; rw [n0]; omega
  | ⟨1, _⟩ => show win1_2.index t 1 * 256 + 1 * (y 1).val = (y 1).val; rw [n1]; omega

/-- Window 3's block at every point is its whole array (`gamma`): one block, at index (0, 0). -/
theorem blk1_3_eq (c : Dev nD) (t : Fin cfg1.N) :
    (blk1 V c 3 t : Vec F S1x256 .f32) = (V c (Pipeline.arrRef spec1 3) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 3) : S1x256.Idx → Elt F .f32) (funext fun a => Fin.ext ?_)
  match a with
  | ⟨0, _⟩ => show win1_3.index t 0 * 1 + 1 * (y 0).val = (y 0).val; rw [p0]; omega
  | ⟨1, _⟩ => show win1_3.index t 1 * 256 + 1 * (y 1).val = (y 1).val; rw [p1]; omega

/-- Window 4's block at every point is its whole array (`beta`): one block, at index (0, 0). -/
theorem blk1_4_eq (c : Dev nD) (t : Fin cfg1.N) :
    (blk1 V c 4 t : Vec F S1x256 .f32) = (V c (Pipeline.arrRef spec1 4) : S1x256.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 4) : S1x256.Idx → Elt F .f32) (funext fun a => Fin.ext ?_)
  match a with
  | ⟨0, _⟩ => show win1_4.index t 0 * 1 + 1 * (y 0).val = (y 0).val; rw [q0]; omega
  | ⟨1, _⟩ => show win1_4.index t 1 * 256 + 1 * (y 1).val = (y 1).val; rw [q1]; omega

/-- Window 5's block at every point is its whole array (`Wfc`): one block, at index (0, 0). -/
theorem blk1_5_eq (c : Dev nD) (t : Fin cfg1.N) :
    (blk1 V c 5 t : Vec F S256x2 .f32) = (V c (Pipeline.arrRef spec1 5) : S256x2.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 5) : S256x2.Idx → Elt F .f32) (funext fun a => Fin.ext ?_)
  match a with
  | ⟨0, _⟩ => show win1_5.index t 0 * 256 + 1 * (y 0).val = (y 0).val; rw [r0]; omega
  | ⟨1, _⟩ => show win1_5.index t 1 * 2 + 1 * (y 1).val = (y 1).val; rw [r1]; omega

/-- Window 6's block at every point is its whole array (`bfc`): one block, at index (0, 0). -/
theorem blk1_6_eq (c : Dev nD) (t : Fin cfg1.N) :
    (blk1 V c 6 t : Vec F S1x2 .f32) = (V c (Pipeline.arrRef spec1 6) : S1x2.Idx → Elt F .f32) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  funext y
  unfold blk1
  rw [View.read_apply]
  refine congrArg (V c (Pipeline.arrRef spec1 6) : S1x2.Idx → Elt F .f32) (funext fun a => Fin.ext ?_)
  match a with
  | ⟨0, _⟩ => show win1_6.index t 0 * 1 + 1 * (y 0).val = (y 0).val; rw [s0]; omega
  | ⟨1, _⟩ => show win1_6.index t 1 * 2 + 1 * (y 1).val = (y 1).val; rw [s1]; omega

/-! ## What each point writes back, and the array after the last point -/

/-- The result's window is not cut at any point: what is written back of a buffer's contents is all of it. -/
theorem whole_block1_7 (t : Fin cfg1.N) (X : Vec F S4096x2 .f32) : (cfg1.win 7).cut (grid1.coords t) X = X := rfl

/-- Block `t` of a whole-array function, read at `j`, is the function at the block's `j`-th entry. -/
theorem read_block1_7 (t : Fin cfg1.N) (G : S131072x2.Idx → Elt F .f32) (j : S4096x2.Idx) :
    ((cfg1.win 7).blk t).view.read (Elt F) G j = G (((cfg1.win 7).blk t).view.emb j) := rfl

/-- WHAT POINT `t` WRITES BACK is block `t` of `G1` of the arrays as the region finds them: the body's value on
    rows `4096·t …` of `g`, which is `G1` at rows `4096·t …`. -/
theorem writeback1_eq (c : Dev nD) (t : Fin cfg1.N) :
    (dat1 V c).flushed 7 t = ((cfg1.win 7).blk t).view.read (Elt F)
      (G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  obtain ⟨⟨a0, a1⟩, ⟨o0, o1⟩, ht, ⟨m0, m1⟩, ⟨n0, n1⟩, ⟨p0, p1⟩, ⟨q0, q1⟩, ⟨r0, r1⟩, ⟨s0, s1⟩⟩ := index_facts1 t
  show (cfg1.win 7).cut (grid1.coords t) ((dat1 V c).after 7 t) = _
  rw [after1_7]
  unfold headRows
  rw [View.canon_unit_zero hz]
  simp only [View.ld_unit_zero (S := S4096x256) hz, View.ld_unit_zero (S := S1x256) hz, View.ld_unit_zero (S := S256x2) hz,
    View.ld_unit_zero (S := S1x2) hz]
  rw [blk1_0_eq, blk1_1_eq, blk1_2_eq, blk1_3_eq, blk1_4_eq, blk1_5_eq, blk1_6_eq]
  refine (whole_block1_7 t _).trans (funext fun j => ((G1_at _ _ _ _ _ _ _ ⟨t.val, ht⟩ j _ ?_ ?_).symm.trans (read_block1_7 t _ j).symm))
  · show win1_7.index t 0 * 4096 + 1 * (j 0).val = 4096 * t.val + (j 0).val; rw [o0]; omega
  · show win1_7.index t 1 * 2 + 1 * (j 1).val = (j 1).val; rw [o1]; omega

/-- A row-and-column of the result lies in point `t`'s block iff each coordinate is in the block's range. -/
theorem mem_block1_7 (t : Fin cfg1.N) (i : S131072x2.Idx) :
    i ∈ ((cfg1.win 7).blk t).view.set ↔ ∀ a : Fin 2, win1_7.index t a * S4096x2.size a ≤ (i a).val ∧ (i a).val < win1_7.index t a * S4096x2.size a + S4096x2.size a := by
  show i ∈ ((View.whole main_v27).slice (win1_7.rect t)).set ↔ _
  rw [View.set_slice_whole, Rect.mem_set_unit]
  exact Iff.rfl

/-- Every entry of the result is written back by some point: row `r` by point `r / 4096`. -/
theorem covered1_7 (i : S131072x2.Idx) : ∃ t : Fin cfg1.N, (cfg1.win 7).flush t = true ∧ i ∈ ((cfg1.win 7).blk t).view.set := by
  have hi0 : (i 0).val < 131072 := idx2_lt0 i
  have hi1 : (i 1).val < 2 := idx2_lt1 i
  have hN : cfg1.N = 32 := N_1
  let t : Fin cfg1.N := ⟨(i 0).val / 4096, by rw [hN]; omega⟩
  obtain ⟨-, ⟨o0, o1⟩, -⟩ := index_facts1 t
  refine ⟨t, flush1_7 t, ?_⟩
  rw [mem_block1_7]
  intro a
  match a with
  | ⟨0, _⟩ => show win1_7.index t 0 * 4096 ≤ (i 0).val ∧ (i 0).val < win1_7.index t 0 * 4096 + 4096
              rw [o0]; show (i 0).val / 4096 * 4096 ≤ (i 0).val ∧ (i 0).val < (i 0).val / 4096 * 4096 + 4096; omega
  | ⟨1, _⟩ => show win1_7.index t 1 * 2 ≤ (i 1).val ∧ (i 1).val < win1_7.index t 1 * 2 + 2
              rw [o1]; omega

/-- THE RESULT ARRAY after the region's last point is `G1` of the seven arrays as the region found them. -/
theorem final1 (c : Dev nD) : (dat1 V c).arrAt 7 cfg1.N
    = G1 (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) :=
  (dat1 V c).arrAt_eq_of_cover 7 _ (fun t _ => writeback1_eq V c t) covered1_7

end Cert.KernelIdeal.Region1

end
-- ==== Proof.KI.Entry.lean ====
/-
  What the two kernels find in their operand arrays.  The first kernel finds the arguments as launched and, for its mask
  operand, the mask column the host made of the mask bits (0 or 1 as floats).  The second kernel finds the feature array the
  first one wrote, the weight and bias arguments as launched (re-laid as rows), and the mean and reciprocal-standard-deviation rows
  the host computed from the two arrays of per-core column sums the first kernel wrote.
-/
import proofs.«135453_j26697516712490_1_alg».proof.Proof.KI.Run
import proofs.«135453_j26697516712490_1_alg».proof.Proof.KI.HostValues
import proofs.«135453_j26697516712490_1_alg».proof.Proof.KI.Region0Value
import proofs.«135453_j26697516712490_1_alg».proof.Proof.KI.Region1Value

set_option maxRecDepth 16384

noncomputable section

namespace Cert.KernelIdeal.Result

open Cert.KernelIdeal Cert.KernelIdeal.Gen Cert.KernelIdeal.Run Cert.KernelIdeal.Region0 Cert.KernelIdeal.Region1 Cert.KernelIdeal.HostValues
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The first kernel's operands -/

theorem in0_x : V1 m ρ c (Pipeline.arrRef spec0 0) = m ((c : Thread nD τ).loc main_arg0) := hostOps0_arg0 (W0 m ρ c)
theorem in0_Wa : V1 m ρ c (Pipeline.arrRef spec0 2) = m ((c : Thread nD τ).loc main_arg2) := hostOps0_arg2 (W0 m ρ c)
theorem in0_ba : V1 m ρ c (Pipeline.arrRef spec0 3) = m ((c : Thread nD τ).loc main_arg3) := hostOps0_arg3 (W0 m ρ c)
theorem in0_Wv : V1 m ρ c (Pipeline.arrRef spec0 4) = m ((c : Thread nD τ).loc main_arg4) := hostOps0_arg4 (W0 m ρ c)
theorem in0_bv : V1 m ρ c (Pipeline.arrRef spec0 5) = m ((c : Thread nD τ).loc main_arg5) := hostOps0_arg5 (W0 m ρ c)
theorem in0_Wf : V1 m ρ c (Pipeline.arrRef spec0 6) = m ((c : Thread nD τ).loc main_arg6) := hostOps0_arg6 (W0 m ρ c)
theorem in0_bf : V1 m ρ c (Pipeline.arrRef spec0 7) = m ((c : Thread nD τ).loc main_arg7) := hostOps0_arg7 (W0 m ρ c)
/-- The mask column: entry r is the float made of row r's mask bit. -/
theorem in0_mask (r : Fin 131072) :
    (V1 m ρ c (Pipeline.arrRef spec0 1) : S131072x1.Idx → EReal) (ix2 r 0)
      = (FloatOps.uitofp (F := Ideal) .f32 ((m ((c : Thread nD τ).loc main_arg1) : S131072.Idx → BitVec 1) (ix1 r)) : EReal) :=
  mask_at (W0 m ρ c) r

/-! ## The second kernel's operands -/

/-- The feature array is what the first kernel's write-backs left. -/
theorem in1_feat : V3 m ρ c (Pipeline.arrRef spec1 0) = (dat0 (V1 m ρ) c).arrAt 8 cfg0.N :=
  (hostOps1_v2_0 (W2 m ρ c)).trans (W2_arr m ρ c 8)
/-- The per-core column sums the host reads are what the first kernel's write-backs left. -/
theorem sums_read : colSums (W2 m ρ c) = (dat0 (V1 m ρ) c).arrAt 9 cfg0.N := W2_arr m ρ c 9
theorem sqs_read : sqSums (W2 m ρ c) = (dat0 (V1 m ρ) c).arrAt 10 cfg0.N := W2_arr m ρ c 10
theorem in1_mu (j : Fin 256) :
    (V3 m ρ c (Pipeline.arrRef spec1 1) : S1x256.Idx → EReal) (ix2 0 j)
      = Ideal.div (colSums (W2 m ρ c) (ix3 0 0 j) + colSums (W2 m ρ c) (ix3 1 0 j)) (Ideal.ofBits .f32 0x48000000#32) :=
  mu_at (W2 m ρ c) j
theorem in1_inv (j : Fin 256) :
    (V3 m ρ c (Pipeline.arrRef spec1 2) : S1x256.Idx → EReal) (ix2 0 j)
      = Ideal.rsqrt ((Ideal.div (sqSums (W2 m ρ c) (ix3 0 0 j) + sqSums (W2 m ρ c) (ix3 1 0 j)) (Ideal.ofBits .f32 0x48000000#32)
          - Ideal.div (colSums (W2 m ρ c) (ix3 0 0 j) + colSums (W2 m ρ c) (ix3 1 0 j)) (Ideal.ofBits .f32 0x48000000#32) * Ideal.div (colSums (W2 m ρ c) (ix3 0 0 j) + colSums (W2 m ρ c) (ix3 1 0 j)) (Ideal.ofBits .f32 0x48000000#32))
          + Ideal.ofBits .f32 0x3727C5AC#32) :=
  inv_at (W2 m ρ c) j
/-- No segment before the second kernel writes gamma, beta, the head matrix or its bias. -/
theorem W2_arg (r : Ref sig .tc) (h0 : r ∉ hostOps0_W) (h2 : ∀ w, Pipeline.arrRef spec0 w ≠ r) :
    W2 m ρ c (Proc.devRef .tc r) = m ((c : Thread nD τ).loc r) :=
  (W2_of_ne m ρ c r h2).trans (hostOps0_keeps (W0 m ρ c) r h0)
theorem in1_gamma (j : Fin 256) :
    (V3 m ρ c (Pipeline.arrRef spec1 3) : S1x256.Idx → EReal) (ix2 0 j) = (m ((c : Thread nD τ).loc main_arg8) : S256.Idx → EReal) (ix1 j) :=
  (gamma_at (W2 m ρ c) j).trans (congrFun (W2_arg m ρ c main_arg8 (by decide) (by decide)) _)
theorem in1_beta (j : Fin 256) :
    (V3 m ρ c (Pipeline.arrRef spec1 4) : S1x256.Idx → EReal) (ix2 0 j) = (m ((c : Thread nD τ).loc main_arg9) : S256.Idx → EReal) (ix1 j) :=
  (beta_at (W2 m ρ c) j).trans (congrFun (W2_arg m ρ c main_arg9 (by decide) (by decide)) _)
theorem in1_Wfc : V3 m ρ c (Pipeline.arrRef spec1 5) = m ((c : Thread nD τ).loc main_arg10) :=
  (hostOps1_arg10 (W2 m ρ c)).trans (W2_arg m ρ c main_arg10 (by decide) (by decide))
theorem in1_bfc (o : Fin 2) :
    (V3 m ρ c (Pipeline.arrRef spec1 6) : S1x2.Idx → EReal) (ix2 0 o) = (m ((c : Thread nD τ).loc main_arg11) : S2.Idx → EReal) (ix1 o) :=
  (bias_at (W2 m ρ c) o).trans (congrFun (W2_arg m ρ c main_arg11 (by decide) (by decide)) _)

end Cert.KernelIdeal.Result

end
-- ==== Proof.KI.Region1Read.lean ====
/- REGION 1's result read entry by entry at the extended reals: the body's value at row `p` of a block and
   column `o` is the sum over the 256 columns `k` of the normalised, scaled, shifted and rectified entry
   `max(((g[p,k] − mu[k])·inv[k])·gamma[k] + beta[k], 0)` times `Wfc[k,o]`, plus `bfc[o]` — the format changes
   are the identity on extended reals, the matrix product into the zero accumulator is the plain sum. -/
import proofs.«135453_j26697516712490_1_alg».proof.Proof.KI.Region1Value
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen
open Idealize.ShloMosaic Idealize.ShloMosaic.TcCoe Idealize.SL.Sem
open Idealize.ShloMosaic.ValueIdx

/-! ## The layout operations of the body, read at an entry -/

/-- A 1 × 256 row broadcast down 4096 rows reads, at row `p` and column `k`, the row's entry at column `k`. -/
theorem rowBroadcast256_apply (x : Vec Ideal S1x256 .f32) (p : Fin 4096) (k : Fin 256) :
    broadcastTo S4096x256 x broadcasts_S1x256_S4096x256 (ix2 p k) = x (ix2 (0 : Fin 1) k) :=
  broadcastTo_apply x _ (ix2 p k) (ix2 (0 : Fin 1) k) (fun a => by
    match a with
    | ⟨0, _⟩ => rfl
    | ⟨1, _⟩ => rfl)

/-- The 1 × 2 bias row broadcast down 4096 rows reads, at row `p` and column `o`, its entry at column `o`. -/
theorem rowBroadcast2_apply (x : Vec Ideal S1x2 .f32) (p : Fin 4096) (o : Fin 2) :
    broadcastTo S4096x2 x broadcasts_S1x2_S4096x2 (ix2 p o) = x (ix2 (0 : Fin 1) o) :=
  broadcastTo_apply x _ (ix2 p o) (ix2 (0 : Fin 1) o) (fun a => by
    match a with
    | ⟨0, _⟩ => rfl
    | ⟨1, _⟩ => rfl)

/-! ## The matrix product's operand indices: row `i 0` of the left against column `i 1` of the right -/

theorem lhs_head_0 (i : S4096x2.Idx) (q : dot_S4096x256_S256x2_S4096x2_1_0_0_1_n_n.contr.Idx) : (dot_S4096x256_S256x2_S4096x2_1_0_0_1_n_n.lhsIdx i q 0).val = (i 0).val := by
  unfold DotDims.lhsIdx
  rw [dif_neg (show ¬(0 : Fin S4096x256.rank) ∈ dot_S4096x256_S256x2_S4096x2_1_0_0_1_n_n.lhsBatch by decide), dif_pos (show (0 : Fin S4096x256.rank) ∈ dot_S4096x256_S256x2_S4096x2_1_0_0_1_n_n.lhsNonContracting by decide)]
  rfl
theorem lhs_head_1 (i : S4096x2.Idx) (q : dot_S4096x256_S256x2_S4096x2_1_0_0_1_n_n.contr.Idx) : (dot_S4096x256_S256x2_S4096x2_1_0_0_1_n_n.lhsIdx i q 1).val = (q ⟨0, by decide⟩).val :=
  dot_S4096x256_S256x2_S4096x2_1_0_0_1_n_n.lhsIdx_val_of_single rfl i q
theorem rhs_head_0 (i : S4096x2.Idx) (q : dot_S4096x256_S256x2_S4096x2_1_0_0_1_n_n.contr.Idx) : (dot_S4096x256_S256x2_S4096x2_1_0_0_1_n_n.rhsIdx i q 0).val = (q ⟨0, by decide⟩).val :=
  dot_S4096x256_S256x2_S4096x2_1_0_0_1_n_n.rhsIdx_val_of_single rfl i q
theorem rhs_head_1 (i : S4096x2.Idx) (q : dot_S4096x256_S256x2_S4096x2_1_0_0_1_n_n.contr.Idx) : (dot_S4096x256_S256x2_S4096x2_1_0_0_1_n_n.rhsIdx i q 1).val = (i 1).val := by
  unfold DotDims.rhsIdx
  rw [dif_neg (show ¬(1 : Fin S256x2.rank) ∈ dot_S4096x256_S256x2_S4096x2_1_0_0_1_n_n.rhsBatch by decide), dif_pos (show (1 : Fin S256x2.rank) ∈ dot_S4096x256_S256x2_S4096x2_1_0_0_1_n_n.rhsNonContracting by decide)]
  rfl

/-- The 4096 × 256 by 256 × 2 product into the zero accumulator, at row `p` and column `o`: the sum over the 256
    columns `k` of left `[p, k]` times right `[k, o]`. -/
theorem headProduct_at {φ₁ φ₂ : FTy} (lhs : FVec Ideal S4096x256 φ₁) (rhs : FVec Ideal S256x2 φ₂) (p : Fin 4096) (o : Fin 2) :
    FloatOps.matmul dot_S4096x256_S256x2_S4096x2_1_0_0_1_n_n none lhs rhs (constant S4096x2 .f32 0x00000000#32) (ix2 p o)
      = ∑ k : Fin 256, lhs (ix2 p k) * rhs (ix2 k o) := by
  rw [Ideal.matmul_constant_zero_apply, ← Equiv.sum_comp (contrEquiv1 dot_S4096x256_S256x2_S4096x2_1_0_0_1_n_n 256 rfl rfl).symm]
  refine Finset.sum_congr rfl fun k _ => ?_
  have hk := contrEquiv1_symm_val dot_S4096x256_S256x2_S4096x2_1_0_0_1_n_n 256 rfl rfl k
  have el : dot_S4096x256_S256x2_S4096x2_1_0_0_1_n_n.lhsIdx (ix2 p o) ((contrEquiv1 dot_S4096x256_S256x2_S4096x2_1_0_0_1_n_n 256 rfl rfl).symm k) = ix2 p k := funext fun a => Fin.ext (by
    match a with
    | ⟨0, _⟩ => exact lhs_head_0 _ _
    | ⟨1, _⟩ => exact (lhs_head_1 _ _).trans hk)
  have er : dot_S4096x256_S256x2_S4096x2_1_0_0_1_n_n.rhsIdx (ix2 p o) ((contrEquiv1 dot_S4096x256_S256x2_S4096x2_1_0_0_1_n_n 256 rfl rfl).symm k) = ix2 k o := funext fun a => Fin.ext (by
    match a with
    | ⟨0, _⟩ => exact (rhs_head_0 _ _).trans hk
    | ⟨1, _⟩ => exact rhs_head_1 _ _)
  rw [el, er]

/-! ## The body's value at an entry -/

/-- THE BODY'S VALUE at row `p`, column `o`, at the extended reals. -/
theorem k1_pay1_at (g : Vec Ideal S4096x256 .bf16) (mu inv gamma beta : Vec Ideal S1x256 .f32) (Wfc : Vec Ideal S256x2 .f32)
    (bfc : Vec Ideal S1x2 .f32) (p : Fin 4096) (o : Fin 2) :
    (k1_pay1 (F := Ideal) g mu inv gamma beta Wfc bfc (ix2 p o) : EReal)
      = (∑ k : Fin 256, max ((((g (ix2 p k) : EReal) - (mu (ix2 (0 : Fin 1) k) : EReal)) * (inv (ix2 (0 : Fin 1) k) : EReal)) * (gamma (ix2 (0 : Fin 1) k) : EReal)
            + (beta (ix2 (0 : Fin 1) k) : EReal)) 0 * (Wfc (ix2 k o) : EReal))
        + (bfc (ix2 (0 : Fin 1) o) : EReal) := by
  unfold k1_pay1
  simp only [shapeCast_self]
  rw [addf_apply, rowBroadcast2_apply]
  simp only [matmul]
  rw [headProduct_at]
  congr 1
  refine Finset.sum_congr rfl fun k _ => ?_
  rw [truncf_apply, truncf_apply, maximumf_apply, addf_apply, mulf_apply, mulf_apply, subf_apply, extf_apply, broadcast_apply,
    rowBroadcast256_apply, rowBroadcast256_apply, rowBroadcast256_apply, rowBroadcast256_apply]
  rw [show (FloatOps.ofBits .f32 0x00000000#32 : Ideal .f32) = (0 : EReal) from Ideal.ofBits_zero_f32]

/-- THE RESULT ARRAY at the extended reals, at row `r` and column `o`: the sum over the 256 columns `k` of the
    rectified, normalised entry of `g` at row `r` times `Wfc[k, o]`, plus `bfc[o]` (row `r` is row `r mod 4096` of
    block `r / 4096`, and `4096·(r / 4096) + r mod 4096 = r`). -/
theorem G1_apply (g : S131072x256.Idx → EReal) (mu inv gamma beta : S1x256.Idx → EReal) (Wfc : S256x2.Idx → EReal)
    (bfc : S1x2.Idx → EReal) (r : Fin 131072) (o : Fin 2) :
    (G1 (F := Ideal) g mu inv gamma beta Wfc bfc (ix2 r o) : EReal)
      = (∑ k : Fin 256, max (((g (ix2 r k) - mu (ix2 (0 : Fin 1) k)) * inv (ix2 (0 : Fin 1) k)) * gamma (ix2 (0 : Fin 1) k)
            + beta (ix2 (0 : Fin 1) k)) 0 * Wfc (ix2 k o))
        + bfc (ix2 (0 : Fin 1) o) := by
  have hr : r.val < 131072 := r.isLt
  unfold G1
  rw [show withinBlock (ix2 r o) = ix2 (⟨r.val % 4096, Nat.mod_lt _ (by decide)⟩ : Fin 4096) o from rfl, k1_pay1_at]
  congr 1
  refine Finset.sum_congr rfl fun k _ => ?_
  have e : rowBlock (F := Ideal) g (blockOfRow (ix2 r o)) (ix2 (⟨r.val % 4096, Nat.mod_lt _ (by decide)⟩ : Fin 4096) k) = g (ix2 r k) := by
    unfold rowBlock
    refine congrArg g (funext fun a => ?_)
    match a with
    | ⟨0, _⟩ => exact Fin.ext (by show 4096 * (r.val / 4096) + r.val % 4096 = r.val; omega)
    | ⟨1, _⟩ => rfl
  rw [e]

end Cert.KernelIdeal.Region1

end
-- ==== Proof.KI.Layout.lean ====
/-
  Layout operations and reductions of matrices read at an index given by its coordinates.

  A column of `a` entries may be carried as a vector `[a]`, as a one-column matrix `[a, 1]` or as a slab `[a, 1, b]` of
  a three-axis array whose middle axis has one entry; a shape cast between these forms moves no entry, so it reads the
  operand at the index with the unit coordinate dropped or inserted. A one-column matrix broadcast along its rows reads
  its one column. A sum of a matrix along one of its two axes, read at the coordinate of the other axis, is the sum over
  the summed axis's coordinates of the matrix's entries. A matrix made of two matrices set side by side reads the first
  on its first columns and the second, with the first's width subtracted from the column, on the others.
-/
import Idealize.ShloMosaic.Lib.ValueIdx
import Idealize.ShloMosaic.Lib.ValueLayout
import Idealize.ShloMosaic.Lib.Pipeline.Value
import Idealize.ShloMosaic.PureOps.Ideal.Laws

open scoped BigOperators

namespace Cert.KernelIdeal.Layout

open Idealize.ShloMosaic Idealize.ShloMosaic.ValueIdx

variable {α : Type}

/-! ## Shape casts that drop or insert a unit axis -/

/-- An `[a]` vector cast to the one-column matrix `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, b]` slab cast to the matrix `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, a]` row cast to `[1, 1, a]` reads, at `(u, w, i)`, the operand at `(0, i)`. -/
theorem shapeCast_1a_11a_apply {a : ℕ} (x : (⟨2, ![1, a]⟩ : Shape).Idx → α)
    (h : (⟨2, ![1, a]⟩ : Shape).ShapeCasts ⟨3, ![1, 1, a]⟩) (u w : Fin 1) (i : Fin a) :
    shapeCast ⟨3, ![1, 1, a]⟩ x h (ix3 u w i) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * 1 + w.val) * a + i.val
    rw [hu, hw])

/-! ## One column broadcast over many -/

/-- An `[a, 1]` one-column matrix broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums of a matrix along one axis -/

/-- The sum of an `[a, b]` matrix along its second axis, at row `p`: the sum of the row's entries. -/
theorem reduceAdd_axis1_apply {a b : ℕ} (v : (⟨2, ![a, b]⟩ : Shape).Idx → EReal)
    (h : (⟨2, ![a, b]⟩ : Shape).Reduces [1] ⟨1, ![a]⟩) (p : Fin a) :
    Ideal.reduceAdd h v (ix1 p) = ∑ k : Fin b, v (ix2 p k) := by
  refine (Ideal.reduceAdd_single h v (ix1 p)).trans ?_
  refine Finset.sum_congr rfl fun k _ => congrArg v (funext fun c => Fin.ext ?_)
  match c with
  | ⟨0, _⟩ => rfl
  | ⟨1, _⟩ => rfl

/-- The sum of an `[a, b]` matrix along its first axis, at column `j`: the sum of the column's entries. -/
theorem reduceAdd_axis0_apply {a b : ℕ} (v : (⟨2, ![a, b]⟩ : Shape).Idx → EReal)
    (h : (⟨2, ![a, b]⟩ : Shape).Reduces [0] ⟨1, ![b]⟩) (j : Fin b) :
    Ideal.reduceAdd h v (ix1 j) = ∑ p : Fin a, v (ix2 p j) := by
  refine (Ideal.reduceAdd_single h v (ix1 j)).trans ?_
  refine Finset.sum_congr rfl fun k _ => congrArg v (funext fun c => Fin.ext ?_)
  match c with
  | ⟨0, _⟩ => rfl
  | ⟨1, _⟩ => rfl

/-- A row sum as a vector reduction states it, at any format and with the accumulator's word as the reduction
    carries it. -/
theorem multiReduction_add_axis1_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) : multiReduction .add [1] ⟨1, ![a]⟩ v acc h hφ hacc (ix1 p) = ∑ k : Fin b, v (ix2 p k) :=
  reduceAdd_axis1_apply v h p

/-- A column sum as a vector reduction states it, at any format and with the accumulator's word as the reduction
    carries it. -/
theorem multiReduction_add_axis0_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) : multiReduction .add [0] ⟨1, ![b]⟩ v acc h hφ hacc (ix1 j) = ∑ p : Fin a, v (ix2 p j) :=
  reduceAdd_axis0_apply v h j

/-- A binary32 row sum from the zero word, as a vector reduction states it. -/
theorem multiReduction_add_axis1_f32 {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  reduceAdd_axis1_apply v h p

/-- A binary32 column sum from the zero word, as a vector reduction states it. -/
theorem multiReduction_add_axis0_f32 {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ v 0x00000000#32 h hφ hacc (ix1 j) = ∑ p : Fin a, v (ix2 p j) :=
  reduceAdd_axis0_apply v h j

/-! ## Two matrices side by side -/

/-- Two matrices `[a, b₁]` and `[a, b₂]` joined along the columns read the first at a column below `b₁`. -/
theorem concat_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b) (k₁ : Fin b₁)
    (hk : k₁.val = k.val) :
    concatenate ⟨2, ![a, b]⟩ 1 [⟨⟨2, ![a, b₁]⟩, x₁⟩, ⟨⟨2, ![a, b₂]⟩, x₂⟩] h (ix2 p k) = x₁ (ix2 p k₁) :=
  concatenate_pair_apply_left 1 x₁ x₂ h (ix2 p k) rfl (ix2 p k₁) fun c => by
    match c with
    | ⟨0, _⟩ => rfl
    | ⟨1, _⟩ => exact hk

/-- … and the second, at the column less `b₁`, at a column from `b₁` on. -/
theorem concat_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b) (k₂ : Fin b₂)
    (hk : k₂.val + b₁ = k.val) :
    concatenate ⟨2, ![a, b]⟩ 1 [⟨⟨2, ![a, b₁]⟩, x₁⟩, ⟨⟨2, ![a, b₂]⟩, x₂⟩] h (ix2 p k) = x₂ (ix2 p k₂) :=
  concatenate_pair_apply_right 1 x₁ x₂ h (ix2 p k) rfl rfl (ix2 p k₂)
    (fun c hc => by
      match c with
      | ⟨0, _⟩ => rfl
      | ⟨1, _⟩ => exact absurd rfl hc)
    hk

end Cert.KernelIdeal.Layout
-- ==== Proof.KI.MatmulAt.lean ====
/-
  The two matrix products of the first stage read at an entry.

  A product of a `1024 × K` matrix with a `K × 256` matrix that is accumulated onto a zero matrix has, at row `p` and
  column `j`, the value `Σ_k lhs(p, k) · rhs(k, j)`, `k` running over the `K` contracted positions; there is no rounding
  on the extended reals, so nothing else is left of the operation. `K` is 256 for the first vector's weights and 512 for
  the other two products.
-/
import proofs.«135453_j26697516712490_1_alg».proof.Proof.Gen.KernelIdeal.Skeleton
import Idealize.ShloMosaic.Lib.ValueIdx
import Idealize.ShloMosaic.PureOps.Ideal.Laws

open scoped BigOperators

noncomputable section

namespace Cert.KernelIdeal.TileAt

open Cert.KernelIdeal Cert.KernelIdeal.Gen Idealize.ShloMosaic Idealize.ShloMosaic.ValueIdx

/-! ### The contraction `S1024x256 · S256x256` -/

theorem lhs_dotA_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_dotA_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhs_dotA_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhs_dotA_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product of a `1024 × 256` matrix and a `256 × 256` matrix accumulated onto zero, at `(p, j)`: the sum over the
    contracted index of the products of row `p`'s and column `j`'s entries. -/
theorem matmul_dotA_at {φ₁ φ₂ : FTy} (lhs : FVec Ideal S1024x256 φ₁) (rhs : FVec Ideal S256x256 φ₂) (p : Fin 1024) (j : Fin 256) :
    matmul dot_S1024x256_S256x256_S1024x256_1_0_0_1_n_n none lhs rhs (constant (F := Ideal) S1024x256 .f32 0x00000000#32) (ix2 p j)
      = ∑ k : Fin 256, lhs (ix2 p k) * rhs (ix2 k j) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p j) ((contrEquiv1 dot_S1024x256_S256x256_S1024x256_1_0_0_1_n_n 256 rfl rfl).symm k) = ix2 p k := funext fun a => Fin.ext (by
    match a with
    | ⟨0, _⟩ => exact lhs_dotA_0 _ _
    | ⟨1, _⟩ => exact (lhs_dotA_1 _ _).trans hk)
  have er : dot_S1024x256_S256x256_S1024x256_1_0_0_1_n_n.rhsIdx (ix2 p j) ((contrEquiv1 dot_S1024x256_S256x256_S1024x256_1_0_0_1_n_n 256 rfl rfl).symm k) = ix2 k j := funext fun a => Fin.ext (by
    match a with
    | ⟨0, _⟩ => exact (rhs_dotA_0 _ _).trans hk
    | ⟨1, _⟩ => exact rhs_dotA_1 _ _)
  rw [el, er]

/-! ### The contraction `S1024x512 · S512x256` -/

theorem lhs_dotV_0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_dotV_1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem rhs_dotV_0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem rhs_dotV_1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product of a `1024 × 512` matrix and a `512 × 256` matrix accumulated onto zero, at `(p, j)`: the sum over the
    contracted index of the products of row `p`'s and column `j`'s entries. -/
theorem matmul_dotV_at {φ₁ φ₂ : FTy} (lhs : FVec Ideal S1024x512 φ₁) (rhs : FVec Ideal S512x256 φ₂) (p : Fin 1024) (j : Fin 256) :
    matmul dot_S1024x512_S512x256_S1024x256_1_0_0_1_n_n none lhs rhs (constant (F := Ideal) S1024x256 .f32 0x00000000#32) (ix2 p j)
      = ∑ k : Fin 512, lhs (ix2 p k) * rhs (ix2 k j) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p j) ((contrEquiv1 dot_S1024x512_S512x256_S1024x256_1_0_0_1_n_n 512 rfl rfl).symm k) = ix2 p k := funext fun a => Fin.ext (by
    match a with
    | ⟨0, _⟩ => exact lhs_dotV_0 _ _
    | ⟨1, _⟩ => exact (lhs_dotV_1 _ _).trans hk)
  have er : dot_S1024x512_S512x256_S1024x256_1_0_0_1_n_n.rhsIdx (ix2 p j) ((contrEquiv1 dot_S1024x512_S512x256_S1024x256_1_0_0_1_n_n 512 rfl rfl).symm k) = ix2 k j := funext fun a => Fin.ext (by
    match a with
    | ⟨0, _⟩ => exact (rhs_dotV_0 _ _).trans hk
    | ⟨1, _⟩ => exact rhs_dotV_1 _ _)
  rw [el, er]

end Cert.KernelIdeal.TileAt

end
-- ==== Proof.KI.SimAt.lean ====
/-
  The first stage's slabs and its cosine similarity read at an entry.

  A tile holds 1024 rows of four vectors of width 512. Vector `c` of every row, as a matrix `1024 × 512`, reads at
  `(p, k)` the tile at `(p, c, k)`; the first 256 entries of vector 0, as a matrix `1024 × 256`, likewise. The cosine
  similarity of row `p` is the inner product of its vectors 2 and 3 over the product of their Euclidean norms, that
  product floored at a positive constant; every one of the three sums is a sum over the row's 512 positions.
-/
import proofs.«135453_j26697516712490_1_alg».proof.Proof.Gen.KernelIdeal.Skeleton
import proofs.«135453_j26697516712490_1_alg».proof.Proof.KI.Layout
import Idealize.ShloMosaic.Lib.ValueIdx
import Idealize.ShloMosaic.Lib.ValueLayout
import Idealize.ShloMosaic.PureOps.Ideal.Laws

open scoped BigOperators

noncomputable section

namespace Cert.KernelIdeal.TileAt

open Cert.KernelIdeal Cert.KernelIdeal.Gen Idealize.ShloMosaic Idealize.ShloMosaic.ValueIdx

/-- A square root of a vector at an index is the square root of the entry. -/
theorem sqrt_apply {s : Shape} {φ : FTy} (a : FVec Ideal s φ) (i : s.Idx) : sqrt a i = Ideal.sqrt (a i) := rfl

/-- Vector `c` of every row of the tile, cut out from offset `o = c` along the middle axis, as a `1024 × 512` matrix,
    at `(p, k)`. -/
theorem slab_at (x0 : Vec Ideal S1024x4x512 .f32) (o : ℕ) (h : S1024x4x512.Slices ![0, o, 0] S1024x1x512)
    (h' : S1024x1x512.ShapeCasts S1024x512) (p : Fin 1024) (k : Fin 512) (c : Fin 4) (hc : c.val = o) :
    shapeCast S1024x512 (extractStridedSlice S1024x1x512 ![0, o, 0] x0 h) h' (ix2 p k) = x0 (ix3 p c k) :=
  (Layout.shapeCast_a1b_ab_apply _ h' p k).trans
    (slice3_axis1_apply o x0 h p (0 : Fin 1) k c (hc.trans (Nat.add_zero o).symm))

/-- Vector 1 of every row. -/
theorem slab1_at (x0 : Vec Ideal S1024x4x512 .f32) (h : S1024x4x512.Slices ![0, 1, 0] S1024x1x512)
    (h' : S1024x1x512.ShapeCasts S1024x512) (p : Fin 1024) (k : Fin 512) :
    shapeCast S1024x512 (extractStridedSlice S1024x1x512 ![0, 1, 0] x0 h) h' (ix2 p k) = x0 (ix3 p 1 k) :=
  slab_at x0 1 h h' p k 1 rfl

/-- Vector 2 of every row. -/
theorem slab2_at (x0 : Vec Ideal S1024x4x512 .f32) (h : S1024x4x512.Slices ![0, 2, 0] S1024x1x512)
    (h' : S1024x1x512.ShapeCasts S1024x512) (p : Fin 1024) (k : Fin 512) :
    shapeCast S1024x512 (extractStridedSlice S1024x1x512 ![0, 2, 0] x0 h) h' (ix2 p k) = x0 (ix3 p 2 k) :=
  slab_at x0 2 h h' p k 2 rfl

/-- Vector 3 of every row. -/
theorem slab3_at (x0 : Vec Ideal S1024x4x512 .f32) (h : S1024x4x512.Slices ![0, 3, 0] S1024x1x512)
    (h' : S1024x1x512.ShapeCasts S1024x512) (p : Fin 1024) (k : Fin 512) :
    shapeCast S1024x512 (extractStridedSlice S1024x1x512 ![0, 3, 0] x0 h) h' (ix2 p k) = x0 (ix3 p 3 k) :=
  slab_at x0 3 h h' p k 3 rfl

/-- The first 256 entries of vector 0 of every row of the tile, as a `1024 × 256` matrix, at `(p, k)`. -/
theorem slab0_at (x0 : Vec Ideal S1024x4x512 .f32) (h : S1024x4x512.Slices ![0, 0, 0] S1024x1x256)
    (h' : S1024x1x256.ShapeCasts S1024x256) (p : Fin 1024) (k : Fin 256) (k' : Fin 512) (hk : k'.val = k.val) :
    shapeCast S1024x256 (extractStridedSlice S1024x1x256 ![0, 0, 0] x0 h) h' (ix2 p k) = x0 (ix3 p 0 k') :=
  (Layout.shapeCast_a1b_ab_apply _ h' p k).trans
    (extractStridedSlice_apply _ x0 h (ix3 p (0 : Fin 1) k) (ix3 p 0 k') fun a => by
      match a with
      | ⟨0, _⟩ => exact (Nat.zero_add _).symm
      | ⟨1, _⟩ => rfl
      | ⟨2, _⟩ => exact hk.trans (Nat.zero_add _).symm)

/-- The first-vector slab the later products read. -/
theorem pay4_at (x0 : Vec Ideal S1024x4x512 .f32) (p : Fin 1024) (k : Fin 256) (k' : Fin 512) (hk : k'.val = k.val) :
    k0_pay4 (F := Ideal) x0 (ix2 p k) = x0 (ix3 p 0 k') := by
  unfold k0_pay4
  exact slab0_at x0 _ _ p k k' hk

/-- The second-vector slab (its change of format is the identity on the extended reals). -/
theorem pay9_at (x0 : Vec Ideal S1024x4x512 .f32) (p : Fin 1024) (k : Fin 512) :
    k0_pay9 (F := Ideal) x0 (ix2 p k) = x0 (ix3 p 1 k) := by
  unfold k0_pay9
  exact slab1_at x0 slices_S1024x4x512_o0_1_0_S1024x1x512 shapeCasts_S1024x1x512_S1024x512 p k

/-- The cosine similarity of row `p` of the tile. -/
theorem sim_at (x0 : Vec Ideal S1024x4x512 .f32) (p : Fin 1024) :
    k0_pay5 (F := Ideal) x0 (ix2 p (0 : Fin 1))
      = Ideal.div (0 + ∑ k : Fin 512, x0 (ix3 p 2 k) * x0 (ix3 p 3 k))
          (max (Ideal.sqrt (0 + ∑ k : Fin 512, x0 (ix3 p 2 k) * x0 (ix3 p 2 k))
                * Ideal.sqrt (0 + ∑ k : Fin 512, x0 (ix3 p 3 k) * x0 (ix3 p 3 k)))
            (Ideal.ofBits .f32 0x322BCC77#32)) := by
  unfold k0_pay5
  simp only [divf_apply, maximumf_apply, mulf_apply, sqrt_apply, broadcast_apply, Layout.shapeCast_a_a1_apply]
  rw [Layout.multiReduction_add_axis1_f32, Layout.multiReduction_add_axis1_f32, Layout.multiReduction_add_axis1_f32]
  simp only [mulf_apply, zero_add]
  have e2 : ∀ k : Fin 512, shapeCast S1024x512 (extractStridedSlice S1024x1x512 ![0, 2, 0] x0 slices_S1024x4x512_o0_2_0_S1024x1x512)
          shapeCasts_S1024x1x512_S1024x512 (ix2 p k) = x0 (ix3 p 2 k) := fun k => slab2_at x0 _ _ p k
  have e3 : ∀ k : Fin 512, shapeCast S1024x512 (extractStridedSlice S1024x1x512 ![0, 3, 0] x0 slices_S1024x4x512_o0_3_0_S1024x1x512)
          shapeCasts_S1024x1x512_S1024x512 (ix2 p k) = x0 (ix3 p 3 k) := fun k => slab3_at x0 _ _ p k
  simp only [e2, e3]
  rfl

end Cert.KernelIdeal.TileAt

end
-- ==== Proof.KI.FeatAt.lean ====
/-
  The first stage's feature rows read at an entry.

  Row `p` of a tile gives, at column `j`: the affine image `Σ_k x(p,0,k)·Wa(k,j) + ba(j)` of the first 256 entries of its
  first vector; the affine image `Σ_k x(p,1,k)·Wv(k,j) + bv(j)` of its second vector; the row of width 512 made of the first
  256 entries of the first vector, each times the row's cosine similarity, followed by the 256 entries of the second
  vector's image; the affine image of that row under `Wf, bf`; and the blend `m·a + (1 - m)·f` of the first and the last
  of these by the row's mask value `m`.
-/
import proofs.«135453_j26697516712490_1_alg».proof.Proof.Gen.KernelIdeal.Skeleton
import proofs.«135453_j26697516712490_1_alg».proof.Proof.KI.Layout
import proofs.«135453_j26697516712490_1_alg».proof.Proof.KI.MatmulAt
import proofs.«135453_j26697516712490_1_alg».proof.Proof.KI.SimAt
import Idealize.ShloMosaic.Lib.ValueIdx
import Idealize.ShloMosaic.Lib.ValueLayout
import Idealize.ShloMosaic.PureOps.Ideal.Laws

open scoped BigOperators

noncomputable section

namespace Cert.KernelIdeal.TileAt

open Cert.KernelIdeal Cert.KernelIdeal.Gen Idealize.ShloMosaic Idealize.ShloMosaic.ValueIdx

/-- A position among the first 256 of a vector of width 512. -/
abbrev lo (k : Fin 256) : Fin 512 := ⟨k.val, Nat.lt_of_lt_of_le k.isLt (by decide)⟩

/-! ## The tile's values as functions of its coordinates -/

/-- The cosine similarity of row `p`: the inner product of its vectors 2 and 3 over the product of their norms, the
    product floored at the constant. -/
def tSim (x0 : S1024x4x512.Idx → EReal) (p : Fin 1024) : EReal :=
  Ideal.div (0 + ∑ k : Fin 512, x0 (ix3 p 2 k) * x0 (ix3 p 3 k))
    (max (Ideal.sqrt (0 + ∑ k : Fin 512, x0 (ix3 p 2 k) * x0 (ix3 p 2 k))
          * Ideal.sqrt (0 + ∑ k : Fin 512, x0 (ix3 p 3 k) * x0 (ix3 p 3 k)))
      (Ideal.ofBits .f32 0x322BCC77#32))

/-- The affine image of the first 256 entries of row `p`'s first vector, at column `j`. -/
def tA (x0 : S1024x4x512.Idx → EReal) (x2 : S256x256.Idx → EReal) (x3 : S256.Idx → EReal) (p : Fin 1024) (j : Fin 256) : EReal :=
  (∑ k : Fin 256, x0 (ix3 p 0 (lo k)) * x2 (ix2 k j)) + x3 (ix1 j)

/-- The affine image of row `p`'s second vector, at column `j`. -/
def tV (x0 : S1024x4x512.Idx → EReal) (x4 : S512x256.Idx → EReal) (x5 : S256.Idx → EReal) (p : Fin 1024) (j : Fin 256) : EReal :=
  (∑ k : Fin 512, x0 (ix3 p 1 k) * x4 (ix2 k j)) + x5 (ix1 j)

/-- Row `p` of the side-by-side pair: the first vector's first 256 entries times the similarity, then the second
    vector's image. -/
def tCat (x0 : S1024x4x512.Idx → EReal) (x4 : S512x256.Idx → EReal) (x5 : S256.Idx → EReal) (p : Fin 1024) (k : Fin 512) : EReal :=
  if h : k.val < 256 then x0 (ix3 p 0 k) * tSim x0 p
  else tV x0 x4 x5 p ⟨k.val - 256, by have := k.isLt; omega⟩

/-- The affine image of the side-by-side pair, at column `j`. -/
def tFused (x0 : S1024x4x512.Idx → EReal) (x4 : S512x256.Idx → EReal) (x5 : S256.Idx → EReal) (x6 : S512x256.Idx → EReal)
    (x7 : S256.Idx → EReal) (p : Fin 1024) (j : Fin 256) : EReal :=
  (∑ k : Fin 512, tCat x0 x4 x5 p k * x6 (ix2 k j)) + x7 (ix1 j)

/-- The feature of row `p` at column `j`: the blend of the first vector's image and the pair's image by the row's mask
    value. -/
def tG (x0 : S1024x4x512.Idx → EReal) (x1 : S1024x1.Idx → EReal) (x2 : S256x256.Idx → EReal) (x3 : S256.Idx → EReal)
    (x4 : S512x256.Idx → EReal) (x5 : S256.Idx → EReal) (x6 : S512x256.Idx → EReal) (x7 : S256.Idx → EReal)
    (p : Fin 1024) (j : Fin 256) : EReal :=
  x1 (ix2 p 0) * tA x0 x2 x3 p j
    + (Ideal.ofBits .f32 0x3F800000#32 - x1 (ix2 p 0)) * tFused x0 x4 x5 x6 x7 p j

/-! ## The payloads at an entry -/

theorem sim_eq_tSim (x0 : Vec Ideal S1024x4x512 .f32) (p : Fin 1024) :
    k0_pay5 (F := Ideal) x0 (ix2 p (0 : Fin 1)) = tSim x0 p := sim_at x0 p

/-- The first vector's image. -/
theorem pay8_at (x0 : Vec Ideal S1024x4x512 .f32) (x2 : Vec Ideal S256x256 .f32) (x3 : Vec Ideal S256 .f32)
    (p : Fin 1024) (j : Fin 256) : k0_pay8 (F := Ideal) x0 x2 x3 (ix2 p j) = tA x0 x2 x3 p j := by
  have h4 : ∀ k : Fin 256, k0_pay4 (F := Ideal) x0 (ix2 p k) = x0 (ix3 p 0 (lo k)) := fun k => pay4_at x0 p k (lo k) rfl
  unfold k0_pay8 tA
  simp only [addf_apply, matmul_dotA_at, truncf_apply, h4, broadcastTo_1b_ab_apply, shapeCast_a_1a_apply]

/-- Two `1024 × 256` matrices set side by side, at `(p, k)`: the first on the columns below 256, the second after. -/
theorem concat_at (x₁ x₂ : FVec Ideal S1024x256 .f32) (h : Shape.Concatenates [S1024x256, S1024x256] S1024x512 1)
    (p : Fin 1024) (k : Fin 512) :
    concatenate S1024x512 1 [⟨S1024x256, x₁⟩, ⟨S1024x256, x₂⟩] h (ix2 p k)
      = if hk : k.val < 256 then x₁ (ix2 p ⟨k.val, hk⟩) else x₂ (ix2 p ⟨k.val - 256, by have := k.isLt; omega⟩) := by
  split
  · next hk => exact Layout.concat_cols_left x₁ x₂ h p k ⟨k.val, hk⟩ rfl
  · next hk =>
    exact Layout.concat_cols_right x₁ x₂ h p k ⟨k.val - 256, by have := k.isLt; omega⟩
      (by show k.val - 256 + 256 = k.val; omega)

/-- The feature rows over ANY operands: the blend, by the mask column, of the given first image and of the image of
    the side-by-side pair built from the given first slab, similarity column and second slab. -/
theorem pay10_at (v5 : FVec Ideal S1024x256 .f32) (v26 : FVec Ideal S1024x1 .f32) (v30 v32 : FVec Ideal S512x256 .bf16)
    (v38 : FVec Ideal S1024x256 .f32) (v39 : FVec Ideal S1024x512 .bf16) (v41 v50 : Vec Ideal S256 .f32)
    (v54 : Vec Ideal S1024x1 .f32) (p : Fin 1024) (j : Fin 256) :
    k0_pay10 (F := Ideal) v5 v26 v30 v32 v38 v39 v41 v50 v54 (ix2 p j)
      = v54 (ix2 p 0) * v38 (ix2 p j)
        + (Ideal.ofBits .f32 0x3F800000#32 - v54 (ix2 p 0))
          * ((∑ k : Fin 512,
                (if hk : k.val < 256 then v5 (ix2 p ⟨k.val, hk⟩) * v26 (ix2 p 0)
                 else (∑ k' : Fin 512, v39 (ix2 p k') * v30 (ix2 k' ⟨k.val - 256, by have := k.isLt; omega⟩))
                        + v41 (ix1 ⟨k.val - 256, by have := k.isLt; omega⟩)) * v32 (ix2 k j))
              + v50 (ix1 j)) := by
  have hmm : ∀ (lhs : FVec Ideal S1024x512 .bf16) (rhs : FVec Ideal S512x256 .bf16) (j' : Fin 256),
      matmul dot_S1024x512_S512x256_S1024x256_1_0_0_1_n_n none lhs rhs (constant (F := Ideal) S1024x256 .f32 0x00000000#32) (ix2 p j')
        = ∑ k : Fin 512, lhs (ix2 p k) * rhs (ix2 k j') := fun lhs rhs j' => matmul_dotV_at lhs rhs p j'
  have hcat : ∀ (x₁ x₂ : FVec Ideal S1024x256 .f32) (k : Fin 512),
      concatenate S1024x512 1 [⟨S1024x256, x₁⟩, ⟨S1024x256, x₂⟩] concatenates_S1024x256_S1024x256_S1024x512_d1 (ix2 p k)
        = if hk : k.val < 256 then x₁ (ix2 p ⟨k.val, hk⟩) else x₂ (ix2 p ⟨k.val - 256, by have := k.isLt; omega⟩) :=
    fun x₁ x₂ k => concat_at x₁ x₂ _ p k
  unfold k0_pay10
  simp only [addf_apply, mulf_apply, subf_apply, broadcast_apply, Layout.broadcastTo_a1_ab_apply, shapeCast_self,
    hmm, truncf_apply, hcat, broadcastTo_1b_ab_apply, shapeCast_a_1a_apply, Ideal.ofBits_def]

/-- The feature rows of a tile, from the tile's slab `x0`, its mask column `x1` and the six weight arrays. -/
theorem feat_at (x0 : Vec Ideal S1024x4x512 .f32) (x1 : Vec Ideal S1024x1 .f32) (x2 : Vec Ideal S256x256 .f32)
    (x3 : Vec Ideal S256 .f32) (x4 : Vec Ideal S512x256 .f32) (x5 : Vec Ideal S256 .f32) (x6 : Vec Ideal S512x256 .f32)
    (x7 : Vec Ideal S256 .f32) (p : Fin 1024) (j : Fin 256) :
    k0_pay10 (F := Ideal) (k0_pay4 x0) (k0_pay5 x0) (k0_pay6 x4) (k0_pay7 x6) (k0_pay8 x0 x2 x3) (k0_pay9 x0) x5 x7 x1 (ix2 p j)
      = tG x0 x1 x2 x3 x4 x5 x6 x7 p j := by
  have h4 : ∀ (k : Fin 512) (hk : k.val < 256), k0_pay4 (F := Ideal) x0 (ix2 p ⟨k.val, hk⟩) = x0 (ix3 p 0 k) :=
    fun k hk => pay4_at x0 p ⟨k.val, hk⟩ k rfl
  have h9 : ∀ k' : Fin 512, k0_pay9 (F := Ideal) x0 (ix2 p k') = x0 (ix3 p 1 k') := pay9_at x0 p
  have h6 : ∀ i, k0_pay6 (F := Ideal) x4 i = x4 i := fun i => rfl
  have h7 : ∀ i, k0_pay7 (F := Ideal) x6 i = x6 i := fun i => rfl
  rw [pay10_at, pay8_at, sim_eq_tSim]
  unfold tG tFused tCat tV
  simp only [h4, h9, h6, h7]

end Cert.KernelIdeal.TileAt

end
-- ==== Proof.Spec.lean ====
/-
  The result of the network as ONE function of its twelve argument arrays, index by index, on the extended reals.

  Row `r` of the input `x` (131072 rows, four feature vectors of width 512 each) gives: a cosine similarity of
  its third and fourth vectors; an affine image of the first 256 entries of its first vector; an affine image of its
  second vector; a second affine image of the first vector scaled by the similarity, set side by side with the second
  vector's image; and, by the row's mask bit, one of the two 256-wide results. Over all rows each of the 256 columns
  is then normalised by its mean and (biased) variance, scaled, shifted, clipped below at zero, and sent through a
  last affine map to two outputs.

  Every sum carries its initial value `0` on the left, as a reduction from zero does; every product and every sum is
  written with its operands in the order the reference computation takes them. The three constants that are not zero
  stay the 32-bit words they are given as: nothing here depends on their values.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Shapes of the arguments and of the result -/

/-- The input: 131072 rows of four vectors of width 512. -/
abbrev SX : Shape := ⟨3, ![131072, 4, 512]⟩
/-- One entry per row (the mask). -/
abbrev SRow : Shape := ⟨1, ![131072]⟩
/-- The first vector's weights. -/
abbrev SWa : Shape := ⟨2, ![256, 256]⟩
/-- One entry per column (a bias, a scale, a shift). -/
abbrev SCol : Shape := ⟨1, ![256]⟩
/-- The second vector's weights, and the weights of the side-by-side pair. -/
abbrev SWv : Shape := ⟨2, ![512, 256]⟩
/-- The last map's weights. -/
abbrev SWfc : Shape := ⟨2, ![256, 2]⟩
/-- The last map's bias. -/
abbrev SOut : Shape := ⟨1, ![2]⟩
/-- The result: two outputs per row. -/
abbrev SRes : Shape := ⟨2, ![131072, 2]⟩

/-! ## The three constants, as the words they are given as -/

/-- The floor under the product of the two norms. -/
abbrev c8 : EReal := Ideal.ofBits .f32 0x322BCC77#32
/-- The number of rows, 131072, as a float. -/
abbrev nRows : EReal := Ideal.ofBits .f32 0x48000000#32
/-- The constant added to the variance. -/
abbrev e5 : EReal := Ideal.ofBits .f32 0x3727C5AC#32

/-- A position among the first 256 of a vector of width 512. -/
abbrev lo (k : Fin 256) : Fin 512 := ⟨k.val, Nat.lt_of_lt_of_le k.isLt (by decide)⟩

/-! ## One row -/

/-- The cosine similarity of row `r`'s third and fourth vectors: their inner product over the product of their
    norms, the product floored at `c8`. -/
def sim (x : SX.Idx → EReal) (r : Fin 131072) : EReal :=
  Ideal.div (0 + ∑ k : Fin 512, x (ix3 r 2 k) * x (ix3 r 3 k))
    (max (Ideal.sqrt (0 + ∑ k : Fin 512, x (ix3 r 2 k) * x (ix3 r 2 k))
          * Ideal.sqrt (0 + ∑ k : Fin 512, x (ix3 r 3 k) * x (ix3 r 3 k))) c8)

/-- The affine image of the first 256 entries of row `r`'s first vector, at column `j`. -/
def aOut (x : SX.Idx → EReal) (Wa : SWa.Idx → EReal) (ba : SCol.Idx → EReal) (r : Fin 131072) (j : Fin 256) : EReal :=
  (∑ k : Fin 256, x (ix3 r 0 (lo k)) * Wa (ix2 k j)) + ba (ix1 j)

/-- The affine image of row `r`'s second vector, at column `j`. -/
def vOut (x : SX.Idx → EReal) (Wv : SWv.Idx → EReal) (bv : SCol.Idx → EReal) (r : Fin 131072) (j : Fin 256) : EReal :=
  (∑ k : Fin 512, x (ix3 r 1 k) * Wv (ix2 k j)) + bv (ix1 j)

/-- Row `r` of the side-by-side pair: the first 256 entries of the first vector, each times the row's similarity,
    then the 256 entries of the second vector's image. -/
def cat (x : SX.Idx → EReal) (Wv : SWv.Idx → EReal) (bv : SCol.Idx → EReal) (r : Fin 131072) (k : Fin 512) : EReal :=
  if h : k.val < 256 then x (ix3 r 0 k) * sim x r
  else vOut x Wv bv r ⟨k.val - 256, by have := k.isLt; omega⟩

/-- The affine image of the side-by-side pair, at column `j`. -/
def fused (x : SX.Idx → EReal) (Wv : SWv.Idx → EReal) (bv : SCol.Idx → EReal) (Wf : SWv.Idx → EReal)
    (bf : SCol.Idx → EReal) (r : Fin 131072) (j : Fin 256) : EReal :=
  (∑ k : Fin 512, cat x Wv bv r k * Wf (ix2 k j)) + bf (ix1 j)

/-- The row's features: by its mask bit, the first vector's image or the pair's. -/
def gSel (mask : SRow.Idx → BitVec 1) (x : SX.Idx → EReal) (Wa : SWa.Idx → EReal) (ba : SCol.Idx → EReal)
    (Wv : SWv.Idx → EReal) (bv : SCol.Idx → EReal) (Wf : SWv.Idx → EReal) (bf : SCol.Idx → EReal)
    (r : Fin 131072) (j : Fin 256) : EReal :=
  Scalar.select (mask (ix1 r)) (aOut x Wa ba r j) (fused x Wv bv Wf bf r j)

/-! ## The statistics of a column, for any table of features -/

/-- The mean of column `j` over the rows. -/
def colMean (g : Fin 131072 → Fin 256 → EReal) (j : Fin 256) : EReal :=
  Ideal.div (0 + ∑ r : Fin 131072, g r j) nRows

/-- The (biased) variance of column `j`: the mean of the squared differences from the column's mean. -/
def varRef (g : Fin 131072 → Fin 256 → EReal) (j : Fin 256) : EReal :=
  Ideal.div (0 + ∑ r : Fin 131072, (g r j - colMean g j) * (g r j - colMean g j)) nRows

/-- One over the square root of a column's variance plus `e5`. -/
def invStd (v : Fin 256 → EReal) (j : Fin 256) : EReal :=
  Ideal.rsqrt (v j + e5)

/-! ## The normalised, clipped features through the last map -/

/-- Output `o` of row `r`: each column centred by `mu`, scaled by `inv` and then by `gamma`, shifted by
    `beta`, clipped below at zero, and summed against the last map's weights; plus that map's bias. -/
def outOf (g : Fin 131072 → Fin 256 → EReal) (mu inv : Fin 256 → EReal) (gamma beta : SCol.Idx → EReal)
    (Wfc : SWfc.Idx → EReal) (bfc : SOut.Idx → EReal) (r : Fin 131072) (o : Fin 2) : EReal :=
  (∑ j : Fin 256, max (((g r j - mu j) * inv j) * gamma (ix1 j) + beta (ix1 j)) 0 * Wfc (ix2 j o)) + bfc (ix1 o)

/-- The result array, entry by entry: the last map applied to the row's features normalised by the features' own
    column means and variances. -/
def G (x : SX.Idx → EReal) (mask : SRow.Idx → BitVec 1) (Wa : SWa.Idx → EReal) (ba : SCol.Idx → EReal)
    (Wv : SWv.Idx → EReal) (bv : SCol.Idx → EReal) (Wf : SWv.Idx → EReal) (bf : SCol.Idx → EReal)
    (gamma beta : SCol.Idx → EReal) (Wfc : SWfc.Idx → EReal) (bfc : SOut.Idx → EReal) : SRes.Idx → EReal :=
  fun i =>
    outOf (gSel mask x Wa ba Wv bv Wf bf) (colMean (gSel mask x Wa ba Wv bv Wf bf))
      (invStd (varRef (gSel mask x Wa ba Wv bv Wf bf))) gamma beta Wfc bfc (i 0) (i 1)

end Cert.Spec

end
-- ==== Proof.KI.TileIsSpec.lean ====
/- A TILE's values are the specification's values at the tile's rows. Tile `b` of the first kernel holds rows
   `1024·b … 1024·b + 1023` of `x` and of the mask column; its row `p` is row `r = 1024·b + p` of the arrays. Each of
   the tile's per-row quantities — the cosine similarity, the two affine images, the side-by-side pair, its affine
   image, and the blend by the mask value — is written over the tile's blocks exactly as the specification writes it
   over the whole arrays, so at row `p` of tile `b` it IS the specification's at row `r`: the tile's entry
   `(p, s, k)` is the array's entry `(r, s, k)`. Hence the feature matrix the region leaves, at row `r`, is the
   specification's blend at row `r` (row `r` is row `r mod 1024` of tile `r / 1024`). -/
import proofs.«135453_j26697516712490_1_alg».proof.Proof.KI.FeatAt
import proofs.«135453_j26697516712490_1_alg».proof.Proof.KI.Region0Value
import proofs.«135453_j26697516712490_1_alg».proof.Proof.Spec

open scoped BigOperators

noncomputable section

namespace Cert.KernelIdeal.TileAt

open Cert.KernelIdeal Cert.KernelIdeal.Gen Cert.KernelIdeal.Region0
open Idealize.ShloMosaic Idealize.ShloMosaic.ValueIdx

/-- Row `p` of tile `b` as a row of the whole arrays: `1024·b + p`. -/
def rowOf (b : Fin 128) (p : Fin 1024) : Fin 131072 := ⟨1024 * b.val + p.val, by have := b.isLt; have := p.isLt; omega⟩

/-- The tile's entry `(p, s, k)` of `x` is the array's entry `(1024·b + p, s, k)`. -/
theorem xTile_at (X : S131072x4x512.Idx → EReal) (b : Fin 128) (p : Fin 1024) (s : Fin 4) (k : Fin 512) :
    (xTile (F := Ideal) X b (ix3 p s k) : EReal) = X (ix3 (rowOf b p) s k) := rfl

/-- The tile's mask entry of row `p` is the array's of row `1024·b + p`. -/
theorem maskTile_at (Mf : S131072x1.Idx → EReal) (b : Fin 128) (p : Fin 1024) (u : Fin 1) :
    (maskTile (F := Ideal) Mf b (ix2 p u) : EReal) = Mf (ix2 (rowOf b p) u) := rfl

variable (X : S131072x4x512.Idx → EReal) (Mf : S131072x1.Idx → EReal) (Wa : S256x256.Idx → EReal) (ba : S256.Idx → EReal)
  (Wv : S512x256.Idx → EReal) (bv : S256.Idx → EReal) (Wf : S512x256.Idx → EReal) (bf : S256.Idx → EReal)

/-- The tile's cosine similarity at row `p` is the specification's at row `1024·b + p`. -/
theorem tSim_tile (b : Fin 128) (p : Fin 1024) : tSim (xTile (F := Ideal) X b) p = Cert.Spec.sim X (rowOf b p) := by
  unfold tSim Cert.Spec.sim
  simp only [xTile_at]

/-- The first vector's affine image. -/
theorem tA_tile (b : Fin 128) (p : Fin 1024) (j : Fin 256) :
    tA (xTile (F := Ideal) X b) Wa ba p j = Cert.Spec.aOut X Wa ba (rowOf b p) j := by
  unfold tA Cert.Spec.aOut
  simp only [xTile_at]

/-- The second vector's affine image. -/
theorem tV_tile (b : Fin 128) (p : Fin 1024) (j : Fin 256) :
    tV (xTile (F := Ideal) X b) Wv bv p j = Cert.Spec.vOut X Wv bv (rowOf b p) j := by
  unfold tV Cert.Spec.vOut
  simp only [xTile_at]

/-- The side-by-side pair. -/
theorem tCat_tile (b : Fin 128) (p : Fin 1024) (k : Fin 512) :
    tCat (xTile (F := Ideal) X b) Wv bv p k = Cert.Spec.cat X Wv bv (rowOf b p) k := by
  unfold tCat Cert.Spec.cat
  by_cases h : k.val < 256
  · rw [dif_pos h, dif_pos h, tSim_tile, xTile_at]
  · rw [dif_neg h, dif_neg h, tV_tile]

/-- The pair's affine image. -/
theorem tFused_tile (b : Fin 128) (p : Fin 1024) (j : Fin 256) :
    tFused (xTile (F := Ideal) X b) Wv bv Wf bf p j = Cert.Spec.fused X Wv bv Wf bf (rowOf b p) j := by
  unfold tFused Cert.Spec.fused
  simp only [tCat_tile]

/-- The blend by the mask value: the tile's feature at row `p`, column `j`, is the specification's two images at row
    `1024·b + p` blended by that row's mask value. -/
theorem tG_tile (b : Fin 128) (p : Fin 1024) (j : Fin 256) :
    tG (xTile (F := Ideal) X b) (maskTile (F := Ideal) Mf b) Wa ba Wv bv Wf bf p j
      = Mf (ix2 (rowOf b p) 0) * Cert.Spec.aOut X Wa ba (rowOf b p) j
        + (Ideal.ofBits .f32 0x3F800000#32 - Mf (ix2 (rowOf b p) 0)) * Cert.Spec.fused X Wv bv Wf bf (rowOf b p) j := by
  unfold tG
  rw [tA_tile, tFused_tile, maskTile_at]

/-- The body's feature rows on tile `b`, at row `p` and column `j`. -/
theorem tileFeat_entry (b : Fin 128) (p : Fin 1024) (j : Fin 256) :
    (k0_pay10 (F := Ideal) (k0_pay4 (xTile (F := Ideal) X b)) (k0_pay5 (xTile (F := Ideal) X b)) (k0_pay6 Wv) (k0_pay7 Wf)
        (k0_pay8 (xTile (F := Ideal) X b) Wa ba) (k0_pay9 (xTile (F := Ideal) X b)) bv bf (maskTile (F := Ideal) Mf b) (ix2 p j) : EReal)
      = Mf (ix2 (rowOf b p) 0) * Cert.Spec.aOut X Wa ba (rowOf b p) j
        + (Ideal.ofBits .f32 0x3F800000#32 - Mf (ix2 (rowOf b p) 0)) * Cert.Spec.fused X Wv bv Wf bf (rowOf b p) j :=
  (feat_at (xTile (F := Ideal) X b) (maskTile (F := Ideal) Mf b) Wa ba Wv bv Wf bf p j).trans (tG_tile X Mf Wa ba Wv bv Wf bf b p j)

/-- THE FEATURE MATRIX at row `r`, column `j`, at the extended reals: the specification's two images at row `r`
    blended by the row's mask value (the narrowing on storing is the identity on extended reals). -/
theorem featMatrix_entry (r : Fin 131072) (j : Fin 256) :
    (featMatrix (F := Ideal) X Mf Wa ba Wv bv Wf bf (ix2 r j) : EReal)
      = Mf (ix2 r 0) * Cert.Spec.aOut X Wa ba r j + (Ideal.ofBits .f32 0x3F800000#32 - Mf (ix2 r 0)) * Cert.Spec.fused X Wv bv Wf bf r j := by
  have hr : r.val < 131072 := r.isLt
  let b : Fin 128 := ⟨r.val / 1024, by omega⟩
  let p : Fin 1024 := ⟨r.val % 1024, Nat.mod_lt _ (by decide)⟩
  have er : rowOf b p = r := Fin.ext (by show 1024 * (r.val / 1024) + r.val % 1024 = r.val; omega)
  have e1 := featMatrix_at (F := Ideal) X Mf Wa ba Wv bv Wf bf b (ix2 p j) (ix2 r j)
    (by show r.val = 1024 * (r.val / 1024) + r.val % 1024; omega) rfl
  have e2 : (featRows (F := Ideal) (xTile (F := Ideal) X b) (maskTile (F := Ideal) Mf b) Wa ba Wv bv Wf bf (ix2 p j) : EReal)
      = k0_pay10 (F := Ideal) (k0_pay4 (xTile (F := Ideal) X b)) (k0_pay5 (xTile (F := Ideal) X b)) (k0_pay6 Wv) (k0_pay7 Wf)
        (k0_pay8 (xTile (F := Ideal) X b) Wa ba) (k0_pay9 (xTile (F := Ideal) X b)) bv bf (maskTile (F := Ideal) Mf b) (ix2 p j) := rfl
  have e3 := tileFeat_entry X Mf Wa ba Wv bv Wf bf b p j
  rw [er] at e3
  exact (e1.trans e2).trans e3

end Cert.KernelIdeal.TileAt

end
-- ==== Proof.KI.R0Plain.lean ====
/-
  Every load and store of the first kernel's body is of a whole buffer, so what a grid point stores is just the body's
  arithmetic on the tile's input blocks: the feature rows, the running column sum plus the tile's column sum, the running sum of
  squares plus the tile's.
-/
import proofs.«135453_j26697516712490_1_alg».proof.Proof.KI.R0Defs
import Idealize.ShloMosaic.Lib.Pipeline.Value
set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → ℕ) = fun _ => 0 := by funext a; fin_cases a <;> rfl
theorem zero2 : (![0, 0] : Fin 2 → ℕ) = fun _ => 0 := by funext a; fin_cases a <;> rfl
theorem zero1 : (![0] : Fin 1 → ℕ) = fun _ => 0 := by funext a; fin_cases a; rfl

variable (x0 : Vec F S1024x4x512 .f32) (x1 : Vec F S1024x1 .f32) (x2 : Vec F S256x256 .f32) (x3 : Vec F S256 .f32) (x4 : Vec F S512x256 .f32) (x5 : Vec F S256 .f32) (x6 : Vec F S512x256 .f32) (x7 : Vec F S256 .f32)

theorem featStored_plain : featStored x0 x1 x2 x3 x4 x5 x6 x7 = k0_pay11 (k0_pay4 x0) (k0_pay5 x0) (k0_pay6 x4) (k0_pay7 x6) (k0_pay8 x0 x2 x3) (k0_pay9 x0) x5 x7 x1 := by
  unfold featStored
  simp only [View.canon_unit_zero (S := S1024x256) zero2, View.ld_unit_zero (S := S1024x4x512) zero3, View.ld_unit_zero (S := S1024x1) zero2,
    View.ld_unit_zero (S := S256x256) zero2, View.ld_unit_zero (S := S512x256) zero2, View.ld_unit_zero (S := S256) zero1]

theorem sumStep_eq (s : Vec F S1x1x256 .f32) : sumStep x0 x1 x2 x3 x4 x5 x6 x7 s = k0_pay12 (k0_pay4 x0) (k0_pay5 x0) (k0_pay6 x4) (k0_pay7 x6) (k0_pay8 x0 x2 x3) (k0_pay9 x0) x5 x7 x1 s := by
  unfold sumStep
  simp only [View.canon_unit_zero (S := S1x1x256) zero3, View.ld_unit_zero (S := S1x1x256) zero3, View.ld_unit_zero (S := S1024x4x512) zero3, View.ld_unit_zero (S := S1024x1) zero2,
    View.ld_unit_zero (S := S256x256) zero2, View.ld_unit_zero (S := S512x256) zero2, View.ld_unit_zero (S := S256) zero1]

theorem sqStep_eq (s : Vec F S1x1x256 .f32) : sqStep x0 x1 x2 x3 x4 x5 x6 x7 s = k0_pay1 s (k0_pay13 (k0_pay4 x0) (k0_pay5 x0) (k0_pay6 x4) (k0_pay7 x6) (k0_pay8 x0 x2 x3) (k0_pay9 x0) x5 x7 x1) := by
  unfold sqStep
  simp only [View.canon_unit_zero (S := S1x1x256) zero3, View.ld_unit_zero (S := S1x1x256) zero3, View.ld_unit_zero (S := S1024x4x512) zero3, View.ld_unit_zero (S := S1024x1) zero2,
    View.ld_unit_zero (S := S256x256) zero2, View.ld_unit_zero (S := S512x256) zero2, View.ld_unit_zero (S := S256) zero1]

theorem zeroSum_eq : (zeroSum : Vec F S1x1x256 .f32) = k0_pay2 := by
  unfold zeroSum; simp only [View.canon_unit_zero (S := S1x1x256) zero3]
theorem zeroSq_eq : (zeroSq : Vec F S1x1x256 .f32) = k0_pay3 := by
  unfold zeroSq; simp only [View.canon_unit_zero (S := S1x1x256) zero3]

end Cert.KernelIdeal.Region0

end
-- ==== Proof.KI.SumsAt.lean ====
/-
  The first stage's column sums, accumulator steps and stored rows read at an entry.

  The rows a tile stores are its feature rows (the change of format is the identity on the extended reals). The column
  sum of the tile's feature rows, and of their squares, at column `j` is the sum over the tile's 1024 rows taken from a
  zero initial value; an accumulator step adds it to the accumulator's entry; the accumulators start from the zero row.
  All of this holds whatever the feature rows are, so it is stated over arbitrary operands of the feature payload.
-/
import proofs.«135453_j26697516712490_1_alg».proof.Proof.Gen.KernelIdeal.Skeleton
import proofs.«135453_j26697516712490_1_alg».proof.Proof.KI.Layout
import Idealize.ShloMosaic.Lib.ValueIdx
import Idealize.ShloMosaic.Lib.ValueLayout
import Idealize.ShloMosaic.PureOps.Ideal.Laws

open scoped BigOperators

noncomputable section

namespace Cert.KernelIdeal.TileAt

open Cert.KernelIdeal Cert.KernelIdeal.Gen Idealize.ShloMosaic Idealize.ShloMosaic.ValueIdx

/-- The stored rows are the feature rows. -/
theorem pay11_at (v5 : FVec Ideal S1024x256 .f32) (v26 : FVec Ideal S1024x1 .f32) (v30 v32 : FVec Ideal S512x256 .bf16)
    (v38 : FVec Ideal S1024x256 .f32) (v39 : FVec Ideal S1024x512 .bf16) (v41 v50 : Vec Ideal S256 .f32)
    (v54 : Vec Ideal S1024x1 .f32) (i : S1024x256.Idx) :
    k0_pay11 (F := Ideal) v5 v26 v30 v32 v38 v39 v41 v50 v54 i = k0_pay10 (F := Ideal) v5 v26 v30 v32 v38 v39 v41 v50 v54 i := rfl

/-- The running sum's step: the accumulator's entry plus the column sum of the tile's feature rows. -/
theorem pay12_at (v5 : FVec Ideal S1024x256 .f32) (v26 : FVec Ideal S1024x1 .f32) (v30 v32 : FVec Ideal S512x256 .bf16)
    (v38 : FVec Ideal S1024x256 .f32) (v39 : FVec Ideal S1024x512 .bf16) (v41 v50 : Vec Ideal S256 .f32)
    (v54 : Vec Ideal S1024x1 .f32) (s : Vec Ideal S1x1x256 .f32) (j : Fin 256) :
    k0_pay12 (F := Ideal) v5 v26 v30 v32 v38 v39 v41 v50 v54 s (ix3 (0 : Fin 1) (0 : Fin 1) j)
      = s (ix3 (0 : Fin 1) (0 : Fin 1) j) + (0 + ∑ p : Fin 1024, k0_pay10 (F := Ideal) v5 v26 v30 v32 v38 v39 v41 v50 v54 (ix2 p j)) := by
  unfold k0_pay12
  simp only [shapeCast_self, addf_apply, Layout.shapeCast_1a_11a_apply, shapeCast_a_1a_apply]
  rw [Layout.multiReduction_add_axis0_f32, zero_add]

/-- The column sum of the squares of the tile's feature rows. -/
theorem pay13_at (v5 : FVec Ideal S1024x256 .f32) (v26 : FVec Ideal S1024x1 .f32) (v30 v32 : FVec Ideal S512x256 .bf16)
    (v38 : FVec Ideal S1024x256 .f32) (v39 : FVec Ideal S1024x512 .bf16) (v41 v50 : Vec Ideal S256 .f32)
    (v54 : Vec Ideal S1024x1 .f32) (j : Fin 256) :
    k0_pay13 (F := Ideal) v5 v26 v30 v32 v38 v39 v41 v50 v54 (ix3 (0 : Fin 1) (0 : Fin 1) j)
      = 0 + ∑ p : Fin 1024, k0_pay10 (F := Ideal) v5 v26 v30 v32 v38 v39 v41 v50 v54 (ix2 p j) * k0_pay10 (F := Ideal) v5 v26 v30 v32 v38 v39 v41 v50 v54 (ix2 p j) := by
  unfold k0_pay13
  simp only [Layout.shapeCast_1a_11a_apply, shapeCast_a_1a_apply]
  rw [Layout.multiReduction_add_axis0_f32, zero_add]
  rfl

/-- The running sum of squares' step: the accumulator's entry plus the given row's entry. -/
theorem pay1_at (s : Vec Ideal S1x1x256 .f32) (v : FVec Ideal S1x1x256 .f32) (i : S1x1x256.Idx) :
    k0_pay1 (F := Ideal) s v i = s i + v i := by
  unfold k0_pay1
  simp only [shapeCast_self, addf_apply]

/-- The running sum of squares' step on the tile's column sum of squares. -/
theorem sq_step_at (v5 : FVec Ideal S1024x256 .f32) (v26 : FVec Ideal S1024x1 .f32) (v30 v32 : FVec Ideal S512x256 .bf16)
    (v38 : FVec Ideal S1024x256 .f32) (v39 : FVec Ideal S1024x512 .bf16) (v41 v50 : Vec Ideal S256 .f32)
    (v54 : Vec Ideal S1024x1 .f32) (s : Vec Ideal S1x1x256 .f32) (j : Fin 256) :
    k0_pay1 (F := Ideal) s (k0_pay13 (F := Ideal) v5 v26 v30 v32 v38 v39 v41 v50 v54) (ix3 (0 : Fin 1) (0 : Fin 1) j)
      = s (ix3 (0 : Fin 1) (0 : Fin 1) j)
        + (0 + ∑ p : Fin 1024, k0_pay10 (F := Ideal) v5 v26 v30 v32 v38 v39 v41 v50 v54 (ix2 p j) * k0_pay10 (F := Ideal) v5 v26 v30 v32 v38 v39 v41 v50 v54 (ix2 p j)) := by
  rw [pay1_at, pay13_at]

/-- The accumulators start from the zero row. -/
theorem pay2_at (i : S1x1x256.Idx) : k0_pay2 (F := Ideal) i = 0 := by
  unfold k0_pay2
  simp only [shapeCast_self, broadcast_apply]
  exact Ideal.ofBits_zero_f32

theorem pay3_at (i : S1x1x256.Idx) : k0_pay3 (F := Ideal) i = 0 := by
  unfold k0_pay3
  simp only [shapeCast_self, broadcast_apply]
  exact Ideal.ofBits_zero_f32

end Cert.KernelIdeal.TileAt

end
-- ==== Proof.LibGridSum.lean ====
/-
  A sum over all rows against the same sum taken tile by tile on a grid of cores.

  The rows `0, …, A·T·B - 1` are cut into `A·T` consecutive tiles of `B` rows; tile `k` holds the rows `k·B + p`,
  `p < B`. Core `c < A` owns the `T` consecutive tiles `c·T + t`, `t < T`, so the row of core `c`, tile `t`, place `p` is
  `(c·T + t)·B + p`. Each tile is summed on its own from a zero initial value; each core keeps an accumulator that
  starts at zero and adds its tiles' sums one after the other, `(((0 + s₀) + s₁) + …) + s_{T-1}`; the cores' final
  accumulators are added up at the end.

  Only the associativity and commutativity of `+` and the neutrality of `0` are used, so the result holds in every
  commutative additive monoid — in particular on the extended reals, with no assumption of finiteness: regrouping a
  sum needs neither cancellation nor distributivity.
-/
import Mathlib

open scoped BigOperators

namespace LibGridSum

variable {M : Type*} [AddCommMonoid M]

/-- The sum of tile `k` (rows `k·B + p`, `p < B`), taken from a zero initial value. -/
def tileSum (B : ℕ) (h : ℕ → M) (k : ℕ) : M := 0 + ∑ p : Fin B, h (k * B + p.val)

/-- The accumulator of core `c` after its first `n` tiles: zero before the first tile, and each tile adds its sum. -/
def acc (T B : ℕ) (h : ℕ → M) (c : ℕ) : ℕ → M
  | 0 => 0
  | n + 1 => acc T B h c n + tileSum B h (c * T + n)

@[simp] theorem acc_zero (T B : ℕ) (h : ℕ → M) (c : ℕ) : acc T B h c 0 = 0 := rfl

@[simp] theorem acc_succ (T B : ℕ) (h : ℕ → M) (c n : ℕ) :
    acc T B h c (n + 1) = acc T B h c n + tileSum B h (c * T + n) := rfl

/-- A tile's sum over its places `p < B`, the places counted as natural numbers. -/
theorem tileSum_eq_range (B : ℕ) (h : ℕ → M) (k : ℕ) : tileSum B h k = ∑ p ∈ Finset.range B, h (k * B + p) := by
  rw [tileSum, zero_add]
  exact Fin.sum_univ_eq_sum_range (fun p => h (k * B + p)) B

/-- The accumulator after `n` tiles is the sum of those tiles' sums. -/
theorem acc_eq_sum (T B : ℕ) (h : ℕ → M) (c n : ℕ) :
    acc T B h c n = ∑ t ∈ Finset.range n, tileSum B h (c * T + t) := by
  induction n with
  | zero => simp
  | succ n ih => rw [acc_succ, ih, Finset.sum_range_succ]

/-- A sum over `n·B` consecutive indices is the sum over the `n` blocks of the sums over each block's `B` indices. -/
theorem sum_range_mul (n B : ℕ) (h : ℕ → M) :
    ∑ r ∈ Finset.range (n * B), h r = ∑ k ∈ Finset.range n, ∑ p ∈ Finset.range B, h (k * B + p) := by
  induction n with
  | zero => simp
  | succ n ih => rw [Nat.succ_mul, Finset.sum_range_add, ih, Finset.sum_range_succ]

/-- The sum over all `A·T·B` rows is the sum over the cores, the tiles of each core and the places of each tile. -/
theorem sum_range_grid (A T B : ℕ) (h : ℕ → M) :
    ∑ r ∈ Finset.range (A * T * B), h r
      = ∑ c ∈ Finset.range A, ∑ t ∈ Finset.range T, ∑ p ∈ Finset.range B, h ((c * T + t) * B + p) := by
  rw [sum_range_mul (A * T) B h, sum_range_mul A T fun k => ∑ p ∈ Finset.range B, h (k * B + p)]

/-- The cores' final accumulators add up to the sum over all rows. -/
theorem sum_acc_eq_sum_range (A T B : ℕ) (h : ℕ → M) :
    ∑ c ∈ Finset.range A, acc T B h c T = ∑ r ∈ Finset.range (A * T * B), h r := by
  rw [sum_range_grid]
  refine Finset.sum_congr rfl fun c _ => ?_
  rw [acc_eq_sum]
  exact Finset.sum_congr rfl fun t _ => tileSum_eq_range B h (c * T + t)

/-- The same with the cores and the rows as elements of `Fin`. -/
theorem sum_acc_eq_sum (A T B : ℕ) (h : ℕ → M) :
    ∑ c : Fin A, acc T B h c.val T = ∑ r : Fin (A * T * B), h r.val := by
  rw [Fin.sum_univ_eq_sum_range (fun c => acc T B h c T) A, Fin.sum_univ_eq_sum_range h (A * T * B)]
  exact sum_acc_eq_sum_range A T B h

/-- Two cores: the two final accumulators added are the sum over all rows taken at once from a zero initial value. -/
theorem acc_add_acc_eq_sum (T B : ℕ) (h : ℕ → M) :
    acc T B h 0 T + acc T B h 1 T = 0 + ∑ r : Fin (2 * T * B), h r.val := by
  rw [zero_add, ← sum_acc_eq_sum 2 T B h, Fin.sum_univ_two]
  rfl

/-! ### Rows given as a function on `Fin N` -/

/-- A function on the first `N` natural numbers continued by zero. -/
def ofFin {N : ℕ} (g : Fin N → M) : ℕ → M := fun n => if hn : n < N then g ⟨n, hn⟩ else 0

theorem ofFin_of_lt {N : ℕ} (g : Fin N → M) {n : ℕ} (hn : n < N) : ofFin g n = g ⟨n, hn⟩ := dif_pos hn

@[simp] theorem ofFin_val {N : ℕ} (g : Fin N → M) (i : Fin N) : ofFin g i.val = g i := by
  rw [ofFin_of_lt g i.isLt]

/-- Two cores, the rows given on `Fin N` with `N = 2·T·B`: the two final accumulators added are the sum over all rows
    taken at once from a zero initial value. -/
theorem acc_add_acc_eq_sum_fin {N : ℕ} (T B : ℕ) (hN : N = 2 * T * B) (g : Fin N → M) :
    acc T B (ofFin g) 0 T + acc T B (ofFin g) 1 T = 0 + ∑ r : Fin N, g r := by
  subst hN
  rw [acc_add_acc_eq_sum]
  exact congrArg (0 + ·) (Finset.sum_congr rfl fun r _ => ofFin_val g r)

end LibGridSum
-- ==== Proof.KI.SumsValue.lean ====
/-
  The running column sums of the first kernel, as sums over rows.

  The grid has 128 points; point `t` works on the tile of rows `t·1024 + p`, `p < 1024`, and core `t / 64` runs the 64
  points `(t / 64)·64 + n`, `n < 64`, in order. At the first point of its run a core's running sum restarts from the zero
  row; at every point it is advanced by the tile's column sum of the feature rows, taken from a zero initial value. So after
  point `t` the running sum is the accumulator of core `t / 64` after its first `t % 64 + 1` tiles, over the feature entries
  of all rows read off their tiles; the same for the sums of squares.
-/
import proofs.«135453_j26697516712490_1_alg».proof.Proof.KI.R0Dat
import proofs.«135453_j26697516712490_1_alg».proof.Proof.KI.R0Plain
import proofs.«135453_j26697516712490_1_alg».proof.Proof.KI.SumsAt
import proofs.«135453_j26697516712490_1_alg».proof.Proof.LibGridSum
import Idealize.ShloMosaic.Lib.ValueIdx

noncomputable section

namespace Cert.KernelIdeal.Region0

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

/-! ## The feature rows of a tile, and of a row -/

/-- The feature rows of the tile at grid point `t`. -/
def tileFeat (c : Dev nD) (t : Fin cfg0.N) : S1024x256.Idx → EReal :=
  k0_pay10 (F := Ideal) (k0_pay4 (tile V c 0 t)) (k0_pay5 (tile V c 0 t)) (k0_pay6 (tile V c 4 t)) (k0_pay7 (tile V c 6 t)) (k0_pay8 (tile V c 0 t) (tile V c 2 t) (tile V c 3 t)) (k0_pay9 (tile V c 0 t)) (tile V c 5 t) (tile V c 7 t) (tile V c 1 t)

/-- The number of grid points. -/
theorem N_eq : cfg0.N = 128 := Gen.N_0

/-- The feature entry of row `r`, column `j`, read off row `r`'s tile. -/
def rowFeat (c : Dev nD) (r : Fin 131072) (j : Fin 256) : EReal :=
  tileFeat V c ⟨r.val / 1024, by have h := r.isLt; rw [N_eq]; omega⟩ (ix2 ⟨r.val % 1024, Nat.mod_lt _ (by decide)⟩ j)

/-! ## One step at an index -/

/-- A step of the running column sum adds the tile's column sum of the feature rows, taken from zero. -/
theorem sumStep_tile (c : Dev nD) (t : Fin cfg0.N) (s : Vec Ideal S1x1x256 .f32) (j : Fin 256) :
    (sumStep (tile V c 0 t) (tile V c 1 t) (tile V c 2 t) (tile V c 3 t) (tile V c 4 t) (tile V c 5 t) (tile V c 6 t) (tile V c 7 t) s (ix3 0 0 j) : EReal)
      = (s (ix3 0 0 j) : EReal) + (0 + ∑ p : Fin 1024, tileFeat V c t (ix2 p j)) :=
  (congrFun (sumStep_eq (tile V c 0 t) (tile V c 1 t) (tile V c 2 t) (tile V c 3 t) (tile V c 4 t) (tile V c 5 t) (tile V c 6 t) (tile V c 7 t) s) _).trans (TileAt.pay12_at _ _ _ _ _ _ _ _ _ s j)

/-- A step of the running column sum of squares adds the tile's column sum of the squared feature rows. -/
theorem sqStep_tile (c : Dev nD) (t : Fin cfg0.N) (s : Vec Ideal S1x1x256 .f32) (j : Fin 256) :
    (sqStep (tile V c 0 t) (tile V c 1 t) (tile V c 2 t) (tile V c 3 t) (tile V c 4 t) (tile V c 5 t) (tile V c 6 t) (tile V c 7 t) s (ix3 0 0 j) : EReal)
      = (s (ix3 0 0 j) : EReal) + (0 + ∑ p : Fin 1024, tileFeat V c t (ix2 p j) * tileFeat V c t (ix2 p j)) :=
  (congrFun (sqStep_eq (tile V c 0 t) (tile V c 1 t) (tile V c 2 t) (tile V c 3 t) (tile V c 4 t) (tile V c 5 t) (tile V c 6 t) (tile V c 7 t) s) _).trans (TileAt.sq_step_at _ _ _ _ _ _ _ _ _ s j)

/-- The rows a core's run starts from are zero. -/
theorem zeroSum_at (j : Fin 256) : ((zeroSum (F := Ideal)) (ix3 0 0 j) : EReal) = 0 :=
  (congrFun (zeroSum_eq (F := Ideal)) _).trans (TileAt.pay2_at _)

theorem zeroSq_at (j : Fin 256) : ((zeroSq (F := Ideal)) (ix3 0 0 j) : EReal) = 0 :=
  (congrFun (zeroSq_eq (F := Ideal)) _).trans (TileAt.pay3_at _)

/-! ## The running sums, point by point -/

/-- At the first point of a core's run: the tile's column sum alone. -/
theorem sums_first_at (c : Dev nD) (t : Fin cfg0.N) (h : t.val % 64 = 0) (j : Fin 256) :
    ((sumsAt V c t.val t.isLt).1 (ix3 0 0 j) : EReal) = 0 + (0 + ∑ p : Fin 1024, tileFeat V c t (ix2 p j)) :=
  (congrFun (Prod.mk.inj (Prod.mk.eta.trans (sumsAt_first V c t h))).1 (ix3 0 0 j)).trans
    ((sumStep_tile V c t zeroSum j).trans (congrArg (· + (0 + ∑ p : Fin 1024, tileFeat V c t (ix2 p j))) (zeroSum_at j)))

/-- At any other point: the sum after the point before, plus the tile's column sum. -/
theorem sums_next_at (c : Dev nD) (t : Fin cfg0.N) (h : ¬t.val % 64 = 0) (j : Fin 256) :
    ((sumsAt V c t.val t.isLt).1 (ix3 0 0 j) : EReal)
      = ((sumsAt V c (t.val - 1) (Nat.lt_of_le_of_lt (Nat.sub_le _ _) t.isLt)).1 (ix3 0 0 j) : EReal)
        + (0 + ∑ p : Fin 1024, tileFeat V c t (ix2 p j)) :=
  (congrFun (Prod.mk.inj (Prod.mk.eta.trans (sumsAt_next V c t h))).1 (ix3 0 0 j)).trans (sumStep_tile V c t _ j)

theorem sqs_first_at (c : Dev nD) (t : Fin cfg0.N) (h : t.val % 64 = 0) (j : Fin 256) :
    ((sumsAt V c t.val t.isLt).2 (ix3 0 0 j) : EReal)
      = 0 + (0 + ∑ p : Fin 1024, tileFeat V c t (ix2 p j) * tileFeat V c t (ix2 p j)) :=
  (congrFun (Prod.mk.inj (Prod.mk.eta.trans (sumsAt_first V c t h))).2 (ix3 0 0 j)).trans
    ((sqStep_tile V c t zeroSq j).trans
      (congrArg (· + (0 + ∑ p : Fin 1024, tileFeat V c t (ix2 p j) * tileFeat V c t (ix2 p j))) (zeroSq_at j)))

theorem sqs_next_at (c : Dev nD) (t : Fin cfg0.N) (h : ¬t.val % 64 = 0) (j : Fin 256) :
    ((sumsAt V c t.val t.isLt).2 (ix3 0 0 j) : EReal)
      = ((sumsAt V c (t.val - 1) (Nat.lt_of_le_of_lt (Nat.sub_le _ _) t.isLt)).2 (ix3 0 0 j) : EReal)
        + (0 + ∑ p : Fin 1024, tileFeat V c t (ix2 p j) * tileFeat V c t (ix2 p j)) :=
  (congrFun (Prod.mk.inj (Prod.mk.eta.trans (sumsAt_next V c t h))).2 (ix3 0 0 j)).trans (sqStep_tile V c t _ j)

/-! ## A tile's column sum as a sum over its rows among all rows -/

/-- The rows of tile `n` among all rows are the tile's own rows: row `n·1024 + p` lies in tile `n` at place `p`. -/
theorem rowFeat_tile (c : Dev nD) (n : ℕ) (hn : n < cfg0.N) (p : Fin 1024) (j : Fin 256)
    (hr : n * 1024 + p.val < 131072) :
    rowFeat V c ⟨n * 1024 + p.val, hr⟩ j = tileFeat V c ⟨n, hn⟩ (ix2 p j) := by
  unfold rowFeat
  have hp := p.isLt
  have e1 : (⟨(n * 1024 + p.val) / 1024, by rw [N_eq]; omega⟩ : Fin cfg0.N) = ⟨n, hn⟩ := Fin.ext (by show (n * 1024 + p.val) / 1024 = n; omega)
  have e2 : (⟨(n * 1024 + p.val) % 1024, Nat.mod_lt _ (by decide)⟩ : Fin 1024) = p := Fin.ext (by show (n * 1024 + p.val) % 1024 = p.val; omega)
  show tileFeat V c ⟨(n * 1024 + p.val) / 1024, _⟩ (ix2 ⟨(n * 1024 + p.val) % 1024, _⟩ j) = _
  rw [e1, e2]

/-- The sum of tile `n` of a function of all rows, for a function that reads the feature entries. -/
theorem tileSum_feat (c : Dev nD) (n : ℕ) (hn : n < cfg0.N) (j : Fin 256) (φ : EReal → EReal) :
    LibGridSum.tileSum 1024 (LibGridSum.ofFin fun r : Fin 131072 => φ (rowFeat V c r j)) n
      = 0 + ∑ p : Fin 1024, φ (tileFeat V c ⟨n, hn⟩ (ix2 p j)) := by
  unfold LibGridSum.tileSum
  refine congrArg (0 + ·) (Finset.sum_congr rfl fun p _ => ?_)
  have hp := p.isLt
  have hn' : n < 128 := by rw [← N_eq]; exact hn
  have hr : n * 1024 + p.val < 131072 := by omega
  rw [LibGridSum.ofFin_of_lt _ hr, rowFeat_tile V c n hn p j hr]

/-! ## The running sums after each grid point -/

/-- Division of the point's number by the length of a core's run, one step back. -/
theorem prev_div_mod {n : ℕ} (h : ¬n % 64 = 0) : (n - 1) / 64 = n / 64 ∧ (n - 1) % 64 + 1 = n % 64 := by omega

theorem run_start {n : ℕ} : n / 64 * 64 + n % 64 = n := by omega

/-- The running column sum after a point that starts a core's run. -/
theorem sums_col_first (c : Dev nD) (j : Fin 256) (n : ℕ) (hn : n < cfg0.N)
    (h : n % 64 = 0) :
    ((sumsAt V c n hn).1 (ix3 0 0 j) : EReal)
      = LibGridSum.acc 64 1024 (LibGridSum.ofFin fun r : Fin 131072 => rowFeat V c r j) (n / 64) (n % 64 + 1) := by
  refine (sums_first_at V c ⟨n, hn⟩ h j).trans ?_
  have e : n / 64 * 64 + 0 = n := by omega
  rw [h, LibGridSum.acc_succ, LibGridSum.acc_zero, e]
  exact congrArg (0 + ·) (tileSum_feat V c n hn j id).symm

theorem sqs_col_first (c : Dev nD) (j : Fin 256) (n : ℕ) (hn : n < cfg0.N)
    (h : n % 64 = 0) :
    ((sumsAt V c n hn).2 (ix3 0 0 j) : EReal)
      = LibGridSum.acc 64 1024 (LibGridSum.ofFin fun r : Fin 131072 => rowFeat V c r j * rowFeat V c r j) (n / 64)
          (n % 64 + 1) := by
  refine (sqs_first_at V c ⟨n, hn⟩ h j).trans ?_
  have e : n / 64 * 64 + 0 = n := by omega
  rw [h, LibGridSum.acc_succ, LibGridSum.acc_zero, e]
  exact congrArg (0 + ·) (tileSum_feat V c n hn j fun y => y * y).symm

/-- The running column sum after point `n`. -/
theorem sums_col_nat (c : Dev nD) (j : Fin 256) :
    ∀ (n : ℕ) (hn : n < cfg0.N),
      ((sumsAt V c n hn).1 (ix3 0 0 j) : EReal)
        = LibGridSum.acc 64 1024 (LibGridSum.ofFin fun r : Fin 131072 => rowFeat V c r j) (n / 64) (n % 64 + 1) := by
  intro n
  induction n with
  | zero => exact fun hn => sums_col_first V c j 0 hn (Nat.zero_mod 64)
  | succ m ih =>
    intro hn
    by_cases h : (m + 1) % 64 = 0
    · exact sums_col_first V c j (m + 1) hn h
    · refine (sums_next_at V c ⟨m + 1, hn⟩ h j).trans ?_
      have hd := prev_div_mod (n := m + 1) h
      rw [Nat.add_sub_cancel] at hd
      have ih' := ih (Nat.lt_of_succ_lt hn)
      rw [hd.1, hd.2] at ih'
      rw [LibGridSum.acc_succ, run_start, ← ih']
      exact congrArg (_ + ·) (tileSum_feat V c (m + 1) hn j id).symm

/-- The running column sum of squares after point `n`. -/
theorem sqs_col_nat (c : Dev nD) (j : Fin 256) :
    ∀ (n : ℕ) (hn : n < cfg0.N),
      ((sumsAt V c n hn).2 (ix3 0 0 j) : EReal)
        = LibGridSum.acc 64 1024 (LibGridSum.ofFin fun r : Fin 131072 => rowFeat V c r j * rowFeat V c r j) (n / 64)
            (n % 64 + 1) := by
  intro n
  induction n with
  | zero => exact fun hn => sqs_col_first V c j 0 hn (Nat.zero_mod 64)
  | succ m ih =>
    intro hn
    by_cases h : (m + 1) % 64 = 0
    · exact sqs_col_first V c j (m + 1) hn h
    · refine (sqs_next_at V c ⟨m + 1, hn⟩ h j).trans ?_
      have hd := prev_div_mod (n := m + 1) h
      rw [Nat.add_sub_cancel] at hd
      have ih' := ih (Nat.lt_of_succ_lt hn)
      rw [hd.1, hd.2] at ih'
      rw [LibGridSum.acc_succ, run_start, ← ih']
      exact congrArg (_ + ·) (tileSum_feat V c (m + 1) hn j fun y => y * y).symm

/-- The running column sum after grid point `t`: the accumulator of core `t / 64` after `t % 64 + 1` tiles. -/
theorem sums_col (c : Dev nD) (t : Fin cfg0.N) (j : Fin 256) :
    ((sumsAt V c t.val t.isLt).1 (ix3 0 0 j) : EReal)
      = LibGridSum.acc 64 1024 (LibGridSum.ofFin fun r : Fin 131072 => rowFeat V c r j) (t.val / 64) (t.val % 64 + 1) :=
  sums_col_nat V c j t.val t.isLt

/-- The running column sum of squares after grid point `t`. -/
theorem sqs_col (c : Dev nD) (t : Fin cfg0.N) (j : Fin 256) :
    ((sumsAt V c t.val t.isLt).2 (ix3 0 0 j) : EReal)
      = LibGridSum.acc 64 1024 (LibGridSum.ofFin fun r : Fin 131072 => rowFeat V c r j * rowFeat V c r j) (t.val / 64)
          (t.val % 64 + 1) :=
  sqs_col_nat V c j t.val t.isLt

/-! ## At the two points where a core's run ends -/

theorem sums_core0 (c : Dev nD) (h : 63 < cfg0.N) (j : Fin 256) :
    ((sumsAt V c 63 h).1 (ix3 0 0 j) : EReal)
      = LibGridSum.acc 64 1024 (LibGridSum.ofFin fun r : Fin 131072 => rowFeat V c r j) 0 64 :=
  sums_col_nat V c j 63 h

theorem sums_core1 (c : Dev nD) (h : 127 < cfg0.N) (j : Fin 256) :
    ((sumsAt V c 127 h).1 (ix3 0 0 j) : EReal)
      = LibGridSum.acc 64 1024 (LibGridSum.ofFin fun r : Fin 131072 => rowFeat V c r j) 1 64 :=
  sums_col_nat V c j 127 h

theorem sqs_core0 (c : Dev nD) (h : 63 < cfg0.N) (j : Fin 256) :
    ((sumsAt V c 63 h).2 (ix3 0 0 j) : EReal)
      = LibGridSum.acc 64 1024 (LibGridSum.ofFin fun r : Fin 131072 => rowFeat V c r j * rowFeat V c r j) 0 64 :=
  sqs_col_nat V c j 63 h

theorem sqs_core1 (c : Dev nD) (h : 127 < cfg0.N) (j : Fin 256) :
    ((sumsAt V c 127 h).2 (ix3 0 0 j) : EReal)
      = LibGridSum.acc 64 1024 (LibGridSum.ofFin fun r : Fin 131072 => rowFeat V c r j * rowFeat V c r j) 1 64 :=
  sqs_col_nat V c j 127 h

end Cert.KernelIdeal.Region0

end
-- ==== Proof.LibERealCoe.lean ====
/-
  Pushing the coercion of the reals into the extended reals through finite sums, maxima and minima.

  The coercion ℝ → [-∞, +∞] is an additive map and strictly monotone, so it commutes with a finite sum and with the
  maximum and the minimum of two reals. With these an identity between extended-real expressions whose entries are
  all (coercions of) reals is the coercion of the same identity over ℝ, where distributivity and cancellation hold.
-/
import Mathlib.Data.EReal.Operations
import Mathlib.Algebra.BigOperators.Group.Finset.Basic

open scoped BigOperators

namespace Cert.Spec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The coercion of the smaller of two reals is the smaller of the coercions. -/
theorem coe_min (a b : ℝ) : ((min a b : ℝ) : EReal) = min (a : EReal) (b : EReal) :=
  EReal.coe_strictMono.monotone.map_min

/-- A finite sum of extended reals that are all reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

end Cert.Spec
-- ==== Proof.LibRealClosure.lean ====
/-
  Real-valuedness of extended-real expressions.

  An extended real is "a real" when it is the image of some real number under the embedding ℝ → [-∞, +∞], that is,
  when it is neither of the two infinities. The arithmetic of the extended reals agrees with the arithmetic of ℝ on
  such values, and every operation below maps reals to reals:

  * the sum, the difference and the product of two reals;
  * a finite sum of reals, also when it is started from a real initial value;
  * the square root of a real (a negative real has no square root; the value assigned to it there is -∞, so the
    square root is a real exactly on the non-negative reals);
  * the larger and the smaller of two reals;
  * the quotient of a real by a non-zero real, in particular by a positive one, in particular by the larger of an
    arbitrary real and a positive real.

  The five binary32 patterns that occur as constants — 0, 1, 131072 = 2¹⁷, and the roundings of 10⁻⁸ and of 10⁻⁵ — are
  evaluated: each denotes a real, and the last two denote positive reals.
-/
import Mathlib
import Idealize.ShloMosaic.PureOps.Ideal
import Idealize.ShloMosaic.PureOps.Ideal.Laws
import proofs.«135453_j26697516712490_1_alg».proof.Proof.LibERealCoe

open scoped BigOperators

namespace LibRealClosure

open Idealize.ShloMosaic

/-- An extended real that is (the image of) a real number. -/
abbrev IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

/-- Being a real is being neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

theorem IsReal.ne_top {x : EReal} (h : IsReal x) : x ≠ ⊤ := ((isReal_iff x).1 h).2

theorem IsReal.ne_bot {x : EReal} (h : IsReal x) : x ≠ ⊥ := ((isReal_iff x).1 h).1

/-- The sum of two reals is a real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The difference of two reals is a real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is a real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negative of a real is a real. -/
theorem isReal_neg {x : EReal} (hx : IsReal x) : IsReal (-x) := by
  obtain ⟨a, rfl⟩ := hx
  exact ⟨-a, (EReal.coe_neg a).symm⟩

/-- The larger of two reals is a real. -/
theorem isReal_max {x y : EReal} (hx : IsReal x) (hy : IsReal y) : IsReal (max x y) := by
  rcases max_choice x y with h | h <;> rw [h] <;> assumption

/-- The smaller of two reals is a real. -/
theorem isReal_min {x y : EReal} (hx : IsReal x) (hy : IsReal y) : IsReal (min x y) := by
  rcases min_choice x y with h | h <;> rw [h] <;> assumption

/-- The embedding of the reals commutes with finite sums (the imported lemma, under this module's name). -/
theorem coe_sum {ι : Type*} (s : Finset ι) (f : ι → ℝ) : ((∑ i ∈ s, f i : ℝ) : EReal) = ∑ i ∈ s, (f i : EReal) :=
  Cert.Spec.coe_sum s f

/-- A finite sum of reals is a real. -/
theorem isReal_sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact isReal_add (hf a (Finset.mem_insert_self a s)) (ih fun i hi => hf i (Finset.mem_insert_of_mem hi))

/-- A finite sum of reals over a whole finite index type is a real. -/
theorem isReal_sum_univ {ι : Type*} [Fintype ι] (f : ι → EReal) (hf : ∀ i, IsReal (f i)) : IsReal (∑ i, f i) :=
  isReal_sum Finset.univ f fun i _ => hf i

/-- A finite sum of reals started from a real initial value is a real. -/
theorem isReal_init_add_sum {ι : Type*} [Fintype ι] {init : EReal} (f : ι → EReal) (hi : IsReal init)
    (hf : ∀ i, IsReal (f i)) : IsReal (init + ∑ i, f i) :=
  isReal_add hi (isReal_sum_univ f hf)

/-- The square root of a non-negative real is the real square root. -/
theorem sqrt_coe_of_nonneg {r : ℝ} (h : 0 ≤ r) : Ideal.sqrt (r : EReal) = (Real.sqrt r : EReal) := by
  rw [Ideal.sqrt_coe, if_neg (not_lt.2 h)]

/-- The square root of a non-negative real is a real. (A negative real has no square root: the value there is -∞.) -/
theorem isReal_sqrt {x : EReal} (hx : IsReal x) (h0 : 0 ≤ x) : IsReal (Ideal.sqrt x) := by
  obtain ⟨a, rfl⟩ := hx
  have ha : 0 ≤ a := by exact_mod_cast h0
  exact ⟨Real.sqrt a, sqrt_coe_of_nonneg ha⟩

/-- The square root of a non-negative real is non-negative. -/
theorem sqrt_nonneg {x : EReal} (hx : IsReal x) (h0 : 0 ≤ x) : 0 ≤ Ideal.sqrt x := by
  obtain ⟨a, rfl⟩ := hx
  have ha : 0 ≤ a := by exact_mod_cast h0
  rw [sqrt_coe_of_nonneg ha]
  exact_mod_cast Real.sqrt_nonneg a

/-- A real times itself is non-negative. -/
theorem mul_self_nonneg {x : EReal} (hx : IsReal x) : 0 ≤ x * x := by
  obtain ⟨a, rfl⟩ := hx
  rw [← EReal.coe_mul]
  exact_mod_cast _root_.mul_self_nonneg a

/-- A finite sum of non-negative extended reals is non-negative. -/
theorem sum_nonneg {ι : Type*} (s : Finset ι) (f : ι → EReal) (hf : ∀ i ∈ s, 0 ≤ f i) : 0 ≤ ∑ i ∈ s, f i :=
  Finset.sum_nonneg hf

/-- Division by a non-zero real is multiplication by its reciprocal. -/
theorem div_coe_coe (a : ℝ) {d : ℝ} (hd : d ≠ 0) : Ideal.div (a : EReal) (d : EReal) = ((a / d : ℝ) : EReal) := by
  rw [Ideal.div_coe hd, ← EReal.coe_mul, mul_one_div]

/-- The quotient of a real by a non-zero real is a real. -/
theorem isReal_div {x y : EReal} (hx : IsReal x) (hy : IsReal y) (h0 : y ≠ 0) : IsReal (Ideal.div x y) := by
  obtain ⟨a, rfl⟩ := hx
  obtain ⟨d, rfl⟩ := hy
  have hd : d ≠ 0 := by
    intro h
    exact h0 (by rw [h]; rfl)
  exact ⟨a / d, div_coe_coe a hd⟩

/-- The quotient of a real by a positive real is a real. -/
theorem isReal_div_of_pos {x y : EReal} (hx : IsReal x) (hy : IsReal y) (h0 : 0 < y) : IsReal (Ideal.div x y) :=
  isReal_div hx hy (ne_of_gt h0)

/-- The larger of anything and a positive value is positive. -/
theorem pos_max_right {y e : EReal} (he : 0 < e) : 0 < max y e := lt_of_lt_of_le he (le_max_right y e)

/-- The larger of anything and a positive value is positive. -/
theorem pos_max_left {y e : EReal} (he : 0 < e) : 0 < max e y := lt_of_lt_of_le he (le_max_left e y)

/-- The quotient of a real by the larger of a real and a positive real is a real. -/
theorem isReal_div_max {x y e : EReal} (hx : IsReal x) (hy : IsReal y) (he : IsReal e) (hpos : 0 < e) :
    IsReal (Ideal.div x (max y e)) :=
  isReal_div_of_pos hx (isReal_max hy he) (pos_max_right hpos)

/-- The reciprocal square root of a positive real is the reciprocal of the real square root. -/
theorem rsqrt_coe_of_pos {r : ℝ} (h : 0 < r) : Ideal.rsqrt (r : EReal) = (((Real.sqrt r)⁻¹ : ℝ) : EReal) := by
  rw [Ideal.rsqrt_coe, if_neg (not_lt.2 h.le), if_neg (ne_of_gt h)]

/-- The reciprocal square root of a positive real is a real. (At zero it is +∞ and at a negative real -∞.) -/
theorem isReal_rsqrt {x : EReal} (hx : IsReal x) (h0 : 0 < x) : IsReal (Ideal.rsqrt x) := by
  obtain ⟨a, rfl⟩ := hx
  have ha : 0 < a := by exact_mod_cast h0
  exact ⟨(Real.sqrt a)⁻¹, rsqrt_coe_of_pos ha⟩

/-- A sum of squares of reals, taken from a zero initial value, is a non-negative real, so its square root is a
    real: the Euclidean norm of a real vector. -/
theorem isReal_sqrt_sum_mul_self {ι : Type*} [Fintype ι] (f : ι → EReal) (hf : ∀ i, IsReal (f i)) :
    IsReal (Ideal.sqrt (0 + ∑ i, f i * f i)) := by
  refine isReal_sqrt (isReal_init_add_sum _ isReal_zero fun i => isReal_mul (hf i) (hf i)) ?_
  rw [zero_add]
  exact Finset.sum_nonneg fun i _ => mul_self_nonneg (hf i)

/-- An accumulator plus a finite sum of products of reals is a real: a contraction of real operands onto a real. -/
theorem isReal_add_sum_mul {ι : Type*} [Fintype ι] {acc : EReal} (l r : ι → EReal) (hacc : IsReal acc)
    (hl : ∀ k, IsReal (l k)) (hr : ∀ k, IsReal (r k)) : IsReal (acc + ∑ k, l k * r k) :=
  isReal_init_add_sum _ hacc fun k => isReal_mul (hl k) (hr k)

/-- A selection between two reals is a real. -/
theorem isReal_select (c : BitVec 1) {a b : EReal} (ha : IsReal a) (hb : IsReal b) : IsReal (Scalar.select c a b) := by
  unfold Scalar.select
  split <;> assumption

/-- The float made from an unsigned integer word is a real. -/
theorem isReal_uitofp {w : ℕ} (c : BitVec w) : IsReal (FloatOps.uitofp (F := Ideal) .f32 c : EReal) := ⟨(c.toNat : ℝ), rfl⟩

/-! ### The constants -/

/-- The pattern `0x00000000` is the real 0. -/
theorem ofBits_zero : Ideal.ofBits .f32 0x00000000#32 = 0 := by simp [Ideal.ofBits, Ideal.ieee]

/-- The pattern `0x3F800000` is the real 1. -/
theorem ofBits_one : Ideal.ofBits .f32 0x3F800000#32 = 1 := by
  rw [show (1 : EReal) = ((1 : ℝ) : EReal) by norm_cast]
  simp [Ideal.ofBits, Ideal.ieee, -EReal.coe_mul]; norm_num

/-- The pattern `0x48000000` is the real 131072 = 2¹⁷. -/
theorem ofBits_131072 : Ideal.ofBits .f32 0x48000000#32 = ((131072 : ℝ) : EReal) := by
  simp [Ideal.ofBits, Ideal.ieee, -EReal.coe_mul]; norm_num

/-- The pattern `0x322BCC77` (the binary32 nearest to 10⁻⁸) is the real 11258999 · 2⁻⁵⁰. -/
theorem ofBits_1em8 : Ideal.ofBits .f32 0x322BCC77#32 = ((11258999 / 2 ^ 50 : ℝ) : EReal) := by
  simp [Ideal.ofBits, Ideal.ieee, -EReal.coe_mul]; norm_num

/-- The pattern `0x3727C5AC` (the binary32 nearest to 10⁻⁵) is the real 10995116 · 2⁻⁴⁰. -/
theorem ofBits_1em5 : Ideal.ofBits .f32 0x3727C5AC#32 = ((10995116 / 2 ^ 40 : ℝ) : EReal) := by
  simp [Ideal.ofBits, Ideal.ieee, -EReal.coe_mul]; norm_num

theorem isReal_ofBits_zero : IsReal (Ideal.ofBits .f32 0x00000000#32) := ⟨0, ofBits_zero⟩

theorem isReal_ofBits_one : IsReal (Ideal.ofBits .f32 0x3F800000#32) := ⟨1, ofBits_one⟩

theorem isReal_ofBits_131072 : IsReal (Ideal.ofBits .f32 0x48000000#32) := ⟨131072, ofBits_131072⟩

theorem isReal_ofBits_1em8 : IsReal (Ideal.ofBits .f32 0x322BCC77#32) := ⟨_, ofBits_1em8⟩

theorem isReal_ofBits_1em5 : IsReal (Ideal.ofBits .f32 0x3727C5AC#32) := ⟨_, ofBits_1em5⟩

/-- The constant near 10⁻⁸ is positive. -/
theorem ofBits_1em8_pos : 0 < Ideal.ofBits .f32 0x322BCC77#32 := by
  rw [ofBits_1em8]
  exact_mod_cast (by positivity : (0 : ℝ) < 11258999 / 2 ^ 50)

/-- The constant near 10⁻⁵ is positive. -/
theorem ofBits_1em5_pos : 0 < Ideal.ofBits .f32 0x3727C5AC#32 := by
  rw [ofBits_1em5]
  exact_mod_cast (by positivity : (0 : ℝ) < 10995116 / 2 ^ 40)

/-- The constant 131072 is not zero. -/
theorem ofBits_131072_ne_zero : Ideal.ofBits .f32 0x48000000#32 ≠ 0 := by
  rw [ofBits_131072]
  exact_mod_cast (by norm_num : (131072 : ℝ) ≠ 0)

end LibRealClosure
-- ==== Proof.SpecReal.lean ====
/-
  The row features of the specification are real numbers when the inputs are. The only division on the way is the
  cosine similarity's, and its divisor is the larger of a product of two norms and a positive constant, so it is a
  positive real; everything else is finite sums, products, one square root of a sum of squares per norm, and a choice
  between two reals.
-/
import proofs.«135453_j26697516712490_1_alg».proof.Proof.Spec
import proofs.«135453_j26697516712490_1_alg».proof.Proof.LibRealClosure

noncomputable section

namespace Cert.Spec

open Idealize.ShloMosaic Idealize.ShloMosaic.ValueIdx LibRealClosure

/-- The cosine similarity of a row of reals is a real. -/
theorem isReal_sim (x : SX.Idx → EReal) (hx : ∀ i, IsReal (x i)) (r : Fin 131072) : IsReal (sim x r) := by
  unfold sim
  exact isReal_div_max
    (isReal_init_add_sum (fun k : Fin 512 => x (ix3 r 2 k) * x (ix3 r 3 k)) isReal_zero
      fun k => isReal_mul (hx _) (hx _))
    (isReal_mul (isReal_sqrt_sum_mul_self (fun k : Fin 512 => x (ix3 r 2 k)) fun k => hx _)
      (isReal_sqrt_sum_mul_self (fun k : Fin 512 => x (ix3 r 3 k)) fun k => hx _))
    isReal_ofBits_1em8 ofBits_1em8_pos

/-- The first vector's affine image is a real. -/
theorem isReal_aOut (x : SX.Idx → EReal) (Wa : SWa.Idx → EReal) (ba : SCol.Idx → EReal) (hx : ∀ i, IsReal (x i))
    (hWa : ∀ i, IsReal (Wa i)) (hba : ∀ i, IsReal (ba i)) (r : Fin 131072) (j : Fin 256) :
    IsReal (aOut x Wa ba r j) := by
  unfold aOut
  exact isReal_add (isReal_sum_univ _ fun k => isReal_mul (hx _) (hWa _)) (hba _)

/-- The second vector's affine image is a real. -/
theorem isReal_vOut (x : SX.Idx → EReal) (Wv : SWv.Idx → EReal) (bv : SCol.Idx → EReal) (hx : ∀ i, IsReal (x i))
    (hWv : ∀ i, IsReal (Wv i)) (hbv : ∀ i, IsReal (bv i)) (r : Fin 131072) (j : Fin 256) :
    IsReal (vOut x Wv bv r j) := by
  unfold vOut
  exact isReal_add (isReal_sum_univ _ fun k => isReal_mul (hx _) (hWv _)) (hbv _)

/-- Every entry of the side-by-side pair is a real. -/
theorem isReal_cat (x : SX.Idx → EReal) (Wv : SWv.Idx → EReal) (bv : SCol.Idx → EReal) (hx : ∀ i, IsReal (x i))
    (hWv : ∀ i, IsReal (Wv i)) (hbv : ∀ i, IsReal (bv i)) (r : Fin 131072) (k : Fin 512) :
    IsReal (cat x Wv bv r k) := by
  unfold cat
  split
  · exact isReal_mul (hx _) (isReal_sim x hx r)
  · exact isReal_vOut x Wv bv hx hWv hbv r _

/-- The pair's affine image is a real. -/
theorem isReal_fused (x : SX.Idx → EReal) (Wv : SWv.Idx → EReal) (bv : SCol.Idx → EReal) (Wf : SWv.Idx → EReal)
    (bf : SCol.Idx → EReal) (hx : ∀ i, IsReal (x i)) (hWv : ∀ i, IsReal (Wv i)) (hbv : ∀ i, IsReal (bv i))
    (hWf : ∀ i, IsReal (Wf i)) (hbf : ∀ i, IsReal (bf i)) (r : Fin 131072) (j : Fin 256) :
    IsReal (fused x Wv bv Wf bf r j) := by
  unfold fused
  exact isReal_add (isReal_sum_univ _ fun k => isReal_mul (isReal_cat x Wv bv hx hWv hbv r k) (hWf _)) (hbf _)

/-- The row's features are reals, whatever the mask. -/
theorem isReal_gSel (mask : SRow.Idx → BitVec 1) (x : SX.Idx → EReal) (Wa : SWa.Idx → EReal) (ba : SCol.Idx → EReal)
    (Wv : SWv.Idx → EReal) (bv : SCol.Idx → EReal) (Wf : SWv.Idx → EReal) (bf : SCol.Idx → EReal)
    (hx : ∀ i, IsReal (x i)) (hWa : ∀ i, IsReal (Wa i)) (hba : ∀ i, IsReal (ba i)) (hWv : ∀ i, IsReal (Wv i))
    (hbv : ∀ i, IsReal (bv i)) (hWf : ∀ i, IsReal (Wf i)) (hbf : ∀ i, IsReal (bf i))
    (r : Fin 131072) (j : Fin 256) : IsReal (gSel mask x Wa ba Wv bv Wf bf r j) := by
  unfold gSel
  exact isReal_select _ (isReal_aOut x Wa ba hx hWa hba r j) (isReal_fused x Wv bv Wf bf hx hWv hbv hWf hbf r j)

end Cert.Spec

end
-- ==== Proof.LibVarianceLaw.lean ====
/-
  The two formulas for the variance of finitely many reals.

  Let `g` be a family of real numbers indexed by a finite type with `N` elements, `N ≠ 0`, and let `μ = (Σ g) / N` be
  its mean. Then the mean of the squared deviations is the mean of the squares less the square of the mean:

      (Σ (g - μ)·(g - μ)) / N  =  (Σ g·g) / N  -  μ·μ .

  Indeed `Σ (g - μ)² = Σ g² - 2μ·Σ g + N·μ²` and `Σ g = N·μ`, so the right side is `Σ g² - N·μ²`; dividing by `N` gives
  the claim. The expansion uses distributivity and cancellation, which hold for reals and fail at the infinities, so
  the law is stated for extended reals that are all reals; under that hypothesis every intermediate value (each sum,
  the mean, each deviation and each product) is a real as well, and the identity on the extended reals is the image of
  the identity over ℝ. The count of the summands enters only through `Σ μ² = N·μ²`, hence the hypothesis that the index
  type has `N` elements. Each sum is taken from a zero initial value.
-/
import Mathlib
import Idealize.ShloMosaic.PureOps.Ideal
import proofs.«135453_j26697516712490_1_alg».proof.Proof.LibERealCoe

open scoped BigOperators

namespace LibVarianceLaw

open Idealize.ShloMosaic

/-- The embedding of the reals commutes with finite sums (the imported lemma, under this module's name). -/
theorem coe_sum {ι : Type*} (s : Finset ι) (f : ι → ℝ) : ((∑ i ∈ s, f i : ℝ) : EReal) = ∑ i ∈ s, (f i : EReal) :=
  Cert.Spec.coe_sum s f

/-- The quotient of a real by a non-zero real is the real quotient. -/
theorem div_coe_coe (a : ℝ) {d : ℝ} (hd : d ≠ 0) : Ideal.div (a : EReal) (d : EReal) = ((a / d : ℝ) : EReal) := by
  rw [Ideal.div_coe hd, ← EReal.coe_mul, mul_one_div]

/-- Over ℝ: the mean of the squared deviations from the mean is the mean of the squares less the squared mean. -/
theorem real_variance {ι : Type*} [Fintype ι] (r : ι → ℝ) (N : ℝ) (hN : N ≠ 0) (hcard : (Fintype.card ι : ℝ) = N) :
    (∑ i, (r i - (∑ i, r i) / N) * (r i - (∑ i, r i) / N)) / N
      = (∑ i, r i * r i) / N - (∑ i, r i) / N * ((∑ i, r i) / N) := by
  generalize hS : ∑ i, r i = S
  have h1 : ∑ i, (r i - S / N) * (r i - S / N) = (∑ i, r i * r i) - 2 * (S / N) * S + N * (S / N * (S / N)) := by
    have hexp : ∀ i, (r i - S / N) * (r i - S / N) = r i * r i - 2 * (S / N) * r i + S / N * (S / N) := fun i => by ring
    rw [Finset.sum_congr rfl fun i _ => hexp i, Finset.sum_add_distrib, Finset.sum_sub_distrib, ← Finset.mul_sum, hS,
      Finset.sum_const, Finset.card_univ, nsmul_eq_mul, hcard]
  rw [h1]
  field_simp
  ring

/-- The mean of reals is a real: the sum from a zero initial value, divided by a non-zero real. -/
theorem mean_eq_coe {ι : Type*} [Fintype ι] (r : ι → ℝ) {N : ℝ} (hN : N ≠ 0) :
    Ideal.div (0 + ∑ i, (r i : EReal)) (N : EReal) = (((∑ i, r i) / N : ℝ) : EReal) := by
  rw [zero_add, ← coe_sum, div_coe_coe _ hN]

/-- The variance law on the extended reals, for a family of reals `g` over an index type with `N ≠ 0` elements, with
    the mean `μ` given by its defining equation: the mean of the squares less the squared mean is the mean of the squared
    deviations. -/
theorem variance_law_of_mean {ι : Type*} [Fintype ι] (g : ι → EReal) (hg : ∀ i, ∃ r : ℝ, g i = (r : EReal))
    (N : ℝ) (hN : N ≠ 0) (hcard : (Fintype.card ι : ℝ) = N) (μ : EReal)
    (hμ : μ = Ideal.div (0 + ∑ i, g i) (N : EReal)) :
    Ideal.div (0 + ∑ i, g i * g i) (N : EReal) - μ * μ
      = Ideal.div (0 + ∑ i, (g i - μ) * (g i - μ)) (N : EReal) := by
  choose r hr using hg
  have hg' : g = fun i => (r i : EReal) := funext hr
  subst hg'
  rw [mean_eq_coe r hN] at hμ
  subst hμ
  have hsq : (0 : EReal) + ∑ i, (r i : EReal) * (r i : EReal) = ((∑ i, r i * r i : ℝ) : EReal) := by
    rw [zero_add, coe_sum]
    exact Finset.sum_congr rfl fun i _ => (EReal.coe_mul _ _).symm
  have hdev : (0 : EReal) + ∑ i, ((r i : EReal) - (((∑ i, r i) / N : ℝ) : EReal)) * ((r i : EReal) - (((∑ i, r i) / N : ℝ) : EReal))
      = ((∑ i, (r i - (∑ i, r i) / N) * (r i - (∑ i, r i) / N) : ℝ) : EReal) := by
    rw [zero_add, coe_sum]
    exact Finset.sum_congr rfl fun i _ => by rw [← EReal.coe_sub, ← EReal.coe_mul]
  rw [hsq, hdev, div_coe_coe _ hN, div_coe_coe _ hN, ← EReal.coe_mul, ← EReal.coe_sub, real_variance r N hN hcard]

/-- The variance law with the mean spelt out on both sides. -/
theorem variance_law {ι : Type*} [Fintype ι] (g : ι → EReal) (hg : ∀ i, ∃ r : ℝ, g i = (r : EReal))
    (N : ℝ) (hN : N ≠ 0) (hcard : (Fintype.card ι : ℝ) = N) :
    Ideal.div (0 + ∑ i, g i * g i) (N : EReal)
        - Ideal.div (0 + ∑ i, g i) (N : EReal) * Ideal.div (0 + ∑ i, g i) (N : EReal)
      = Ideal.div (0 + ∑ i, (g i - Ideal.div (0 + ∑ i, g i) (N : EReal)) * (g i - Ideal.div (0 + ∑ i, g i) (N : EReal)))
          (N : EReal) :=
  variance_law_of_mean g hg N hN hcard _ rfl

/-- The mean of a family of reals is a real. -/
theorem mean_isReal {ι : Type*} [Fintype ι] (g : ι → EReal) (hg : ∀ i, ∃ r : ℝ, g i = (r : EReal)) (N : ℝ) (hN : N ≠ 0) :
    ∃ m : ℝ, Ideal.div (0 + ∑ i, g i) (N : EReal) = (m : EReal) := by
  choose r hr using hg
  have hg' : g = fun i => (r i : EReal) := funext hr
  subst hg'
  exact ⟨_, mean_eq_coe r hN⟩

end LibVarianceLaw
-- ==== Proof.LibMaskBlend.lean ====
/-
  A blend by a one-bit mask is a selection.

  Let `c` be one bit and `m` the number it denotes, `0` or `1`. Then `m·a + (1 - m)·f` is `a` when the bit is set and
  `f` when it is clear, for ALL extended reals `a` and `f`, the infinities included: for `m = 1` the blend is
  `1·a + 0·f = a + 0 = a`, and for `m = 0` it is `0·a + 1·f = 0 + f = f`, because on the extended reals `0·x = 0` for every
  `x` (also for `x = ±∞`), `1·x = x` and `x + 0 = x`.
-/
import Mathlib
import Idealize.ShloMosaic.PureOps.Ideal

namespace LibMaskBlend

open Idealize.ShloMosaic

/-- The float made from an unsigned integer word is the natural number the word denotes. -/
theorem uitofp_eq {w : ℕ} (c : BitVec w) : (FloatOps.uitofp (F := Ideal) .f32 c : EReal) = ((c.toNat : ℝ) : EReal) := rfl

/-- The number one bit denotes: `1` when set, `0` when clear. -/
theorem coe_toNat_bit (c : BitVec 1) : ((c.toNat : ℝ) : EReal) = if c = 1#1 then 1 else 0 := by
  rcases BitVec.eq_zero_or_eq_one c with h | h <;> subst h <;> simp

/-- The blend `m·a + (1 - m)·f` by the number `m` of one bit is the selection by that bit, for all extended reals. -/
theorem blend_toNat (c : BitVec 1) (a f : EReal) :
    ((c.toNat : ℝ) : EReal) * a + (1 - ((c.toNat : ℝ) : EReal)) * f = Scalar.select c a f := by
  have h11 : (1 : EReal) - 1 = 0 := by
    rw [show (1 : EReal) = ((1 : ℝ) : EReal) from rfl, ← EReal.coe_sub, sub_self, EReal.coe_zero]
  rcases BitVec.eq_zero_or_eq_one c with h | h <;> subst h
  · simp [Scalar.select]
  · simp [Scalar.select, h11]

/-- The same with the float conversion of the bit spelt out. -/
theorem blend_uitofp (c : BitVec 1) (a f : EReal) :
    (FloatOps.uitofp (F := Ideal) .f32 c : EReal) * a + (1 - (FloatOps.uitofp (F := Ideal) .f32 c : EReal)) * f
      = Scalar.select c a f :=
  blend_toNat c a f

/-- The binary32 pattern `0x3F800000` is the real 1. -/
theorem ofBits_one : Ideal.ofBits .f32 0x3F800000#32 = 1 := by
  rw [show (1 : EReal) = ((1 : ℝ) : EReal) by norm_cast]
  simp [Ideal.ofBits, Ideal.ieee, -EReal.coe_mul]; norm_num

/-- The blend with the constant one given by its binary32 pattern. -/
theorem blend_uitofp_ofBits (c : BitVec 1) (a f : EReal) :
    (FloatOps.uitofp (F := Ideal) .f32 c : EReal) * a
        + (Ideal.ofBits .f32 0x3F800000#32 - (FloatOps.uitofp (F := Ideal) .f32 c : EReal)) * f
      = Scalar.select c a f := by
  rw [ofBits_one]
  exact blend_toNat c a f

/-- The blend with the mask as the right factor of each product. -/
theorem blend_uitofp_comm (c : BitVec 1) (a f : EReal) :
    a * (FloatOps.uitofp (F := Ideal) .f32 c : EReal) + f * (1 - (FloatOps.uitofp (F := Ideal) .f32 c : EReal))
      = Scalar.select c a f := by
  rw [mul_comm a, mul_comm f]
  exact blend_toNat c a f

end LibMaskBlend
-- ==== Proof.SpecBridge.lean ====
/-
  The same result with the column statistics and the choice by the mask arranged another way.

  The column statistics of the specification are a mean and the mean of the squared deviations from it, each sum taken
  over all 131072 rows at once. The other arrangement cuts the rows into 2·64 tiles of 1024, lets each of two
  accumulators add up the sums of its 64 tiles, adds the two, and takes the variance as the mean of the squares less
  the square of the mean. The regrouping of a sum is free; the second formula for the variance is the first when the
  features are real numbers, which they are when the inputs are. The choice by the mask bit is, for every pair of
  extended reals, the blend `m·a + (1 - m)·f` by the number `m` of the bit.
-/
import proofs.«135453_j26697516712490_1_alg».proof.Proof.Spec
import proofs.«135453_j26697516712490_1_alg».proof.Proof.SpecReal
import proofs.«135453_j26697516712490_1_alg».proof.Proof.LibGridSum
import proofs.«135453_j26697516712490_1_alg».proof.Proof.LibVarianceLaw
import proofs.«135453_j26697516712490_1_alg».proof.Proof.LibMaskBlend
import proofs.«135453_j26697516712490_1_alg».proof.Proof.LibRealClosure

noncomputable section

namespace Cert.Spec

open Idealize.ShloMosaic Idealize.ShloMosaic.ValueIdx LibRealClosure

/-! ## The statistics, tile by tile on two accumulators -/

/-- The mean of column `j`: the two accumulators' sums of their tiles' sums, added, over the number of rows. -/
def kMean (g : Fin 131072 → Fin 256 → EReal) (j : Fin 256) : EReal :=
  Ideal.div (LibGridSum.acc 64 1024 (LibGridSum.ofFin fun r : Fin 131072 => g r j) 0 64
      + LibGridSum.acc 64 1024 (LibGridSum.ofFin fun r : Fin 131072 => g r j) 1 64) nRows

/-- The variance of column `j` as the mean of the squares, accumulated the same way, less the square of the mean. -/
def kVar (g : Fin 131072 → Fin 256 → EReal) (j : Fin 256) : EReal :=
  Ideal.div (LibGridSum.acc 64 1024 (LibGridSum.ofFin fun r : Fin 131072 => g r j * g r j) 0 64
      + LibGridSum.acc 64 1024 (LibGridSum.ofFin fun r : Fin 131072 => g r j * g r j) 1 64) nRows
    - kMean g j * kMean g j

/-- The number of rows is the real 131072. -/
theorem nRows_eq : nRows = ((131072 : ℝ) : EReal) := ofBits_131072

/-- The tiled mean is the mean, for every table of extended reals: a sum may be regrouped freely. -/
theorem kMean_eq (g : Fin 131072 → Fin 256 → EReal) : kMean g = colMean g := by
  funext j
  unfold kMean colMean
  rw [LibGridSum.acc_add_acc_eq_sum_fin 64 1024 (by norm_num) fun r : Fin 131072 => g r j]

/-- For a table of reals, the mean of the squares less the square of the mean is the mean of the squared deviations. -/
theorem kVar_eq (g : Fin 131072 → Fin 256 → EReal) (hg : ∀ r j, IsReal (g r j)) : kVar g = varRef g := by
  funext j
  unfold kVar varRef
  rw [kMean_eq, LibGridSum.acc_add_acc_eq_sum_fin 64 1024 (by norm_num) fun r : Fin 131072 => g r j * g r j, nRows_eq]
  refine LibVarianceLaw.variance_law_of_mean (fun r : Fin 131072 => g r j) (fun r => hg r j) 131072 (by norm_num)
    (by rw [Fintype.card_fin]; norm_num) (colMean g j) ?_
  unfold colMean
  rw [nRows_eq]

/-- Hence the same factor one over the square root of the variance plus the constant. -/
theorem invStd_kVar_eq (g : Fin 131072 → Fin 256 → EReal) (hg : ∀ r j, IsReal (g r j)) :
    invStd (kVar g) = invStd (varRef g) := by
  rw [kVar_eq g hg]

/-! ## The choice by the mask bit as a blend -/

/-- The row's features as the blend `m·a + (1 - m)·f` of the two images by the number `m` of the row's mask bit. -/
def gBlend (mask : SRow.Idx → BitVec 1) (x : SX.Idx → EReal) (Wa : SWa.Idx → EReal) (ba : SCol.Idx → EReal)
    (Wv : SWv.Idx → EReal) (bv : SCol.Idx → EReal) (Wf : SWv.Idx → EReal) (bf : SCol.Idx → EReal)
    (r : Fin 131072) (j : Fin 256) : EReal :=
  (FloatOps.uitofp (F := Ideal) .f32 (mask (ix1 r)) : EReal) * aOut x Wa ba r j
    + (Ideal.ofBits .f32 0x3F800000#32 - (FloatOps.uitofp (F := Ideal) .f32 (mask (ix1 r)) : EReal))
        * fused x Wv bv Wf bf r j

/-- The blend is the choice, for all inputs. -/
theorem gBlend_eq (mask : SRow.Idx → BitVec 1) (x : SX.Idx → EReal) (Wa : SWa.Idx → EReal) (ba : SCol.Idx → EReal)
    (Wv : SWv.Idx → EReal) (bv : SCol.Idx → EReal) (Wf : SWv.Idx → EReal) (bf : SCol.Idx → EReal) :
    gBlend mask x Wa ba Wv bv Wf bf = gSel mask x Wa ba Wv bv Wf bf := by
  funext r j
  unfold gBlend gSel
  exact LibMaskBlend.blend_uitofp_ofBits _ _ _

/-! ## The result in the other arrangement -/

/-- When the seven arrays the features are made of hold reals, the result is the last map applied to the blended
    features normalised by the tiled mean and by the variance taken as mean of squares less squared mean. -/
theorem G_eq_tiled (x : SX.Idx → EReal) (mask : SRow.Idx → BitVec 1) (Wa : SWa.Idx → EReal) (ba : SCol.Idx → EReal)
    (Wv : SWv.Idx → EReal) (bv : SCol.Idx → EReal) (Wf : SWv.Idx → EReal) (bf : SCol.Idx → EReal)
    (gamma beta : SCol.Idx → EReal) (Wfc : SWfc.Idx → EReal) (bfc : SOut.Idx → EReal)
    (hx : ∀ i, IsReal (x i)) (hWa : ∀ i, IsReal (Wa i)) (hba : ∀ i, IsReal (ba i)) (hWv : ∀ i, IsReal (Wv i))
    (hbv : ∀ i, IsReal (bv i)) (hWf : ∀ i, IsReal (Wf i)) (hbf : ∀ i, IsReal (bf i)) :
    G x mask Wa ba Wv bv Wf bf gamma beta Wfc bfc
      = fun i => outOf (gBlend mask x Wa ba Wv bv Wf bf) (kMean (gBlend mask x Wa ba Wv bv Wf bf))
          (invStd (kVar (gBlend mask x Wa ba Wv bv Wf bf))) gamma beta Wfc bfc (i 0) (i 1) := by
  rw [gBlend_eq, kMean_eq, kVar_eq _ (isReal_gSel mask x Wa ba Wv bv Wf bf hx hWa hba hWv hbv hWf hbf)]
  rfl

end Cert.Spec

end
-- ==== Proof.PreReal.lean ====
/-
  From the precondition to the finiteness of the inputs. The precondition is one bit: for each of the eleven float
  arguments, "every entry's absolute value is below plus infinity", all joined by `and`. On the extended reals an
  entry whose absolute value is below plus infinity is neither infinity, that is, it is a real number. So when the
  bit is one, every entry of every float argument is a real.
-/
import proofs.«135453_j26697516712490_1_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.PreReal

open Idealize.ShloMosaic Cert.Pre_finite_inputs

/-- The scalar shape has one index. -/
instance subsingleton_scalar_idx : Subsingleton S_.Idx := ⟨fun a b => funext fun d => d.elim0⟩

/-- An extended real whose absolute value `max x (-x)` compares below plus infinity (the word `0x7F800000`) is a real
    number: at either infinity the absolute value is plus infinity itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One argument's test: if "every entry's absolute value is below plus infinity", reduced by `and` over the whole
    array from the bit one, is one, then every entry of the array is a real. -/
theorem all_real {s : Shape} (hb : S_.BroadcastsInDim s (![] : Fin 0 → Fin s.rank)) {axes : List (Fin s.rank)}
    (hr : s.ReducesTo axes S_) (hS : 0 < S_.numel) (a : FVec Ideal s .f32)
    (h : Host.reduce IntOp.andi
          (cmpf .olt (Host.absf a) (broadcastInDim s ![] hb (constant (F := Ideal) S_ .f32 0x7F800000#32)))
          (constantI S_ 1 1#1) hr hS ValueIdx.ix0 = 1#1) :
    ∀ i : s.Idx, ∃ r : ℝ, a i = (r : EReal) := by
  intro i
  have hi := Host.reduce_andi_all _ _ hr hS ValueIdx.ix0 h i
  rw [ValueIdx.cmpf_apply, broadcastInDim_apply _ hb _ i ValueIdx.ix0 (fun d => d.elim0)] at hi
  exact real_of_abs_lt_inf (a i) hi

/-- The `and` of two arrays of bits, at an index. -/
theorem andi_apply {s : Shape} {w : Nat} (x y : IVec s w) (i : s.Idx) : andi x y i = IntOp.andi (x i) (y i) := rfl

variable [Facts]

/-- When the precondition's bit is one, every entry of each of the eleven float arguments is a real. -/
theorem pre_real (a0 : FVec Ideal S131072x4x512 .f32) (a1 : IVec S131072 1) (a2 : FVec Ideal S256x256 .f32)
    (a3 : FVec Ideal S256 .f32) (a4 : FVec Ideal S512x256 .f32) (a5 : FVec Ideal S256 .f32)
    (a6 : FVec Ideal S512x256 .f32) (a7 : FVec Ideal S256 .f32) (a8 : FVec Ideal S256 .f32)
    (a9 : FVec Ideal S256 .f32) (a10 : FVec Ideal S256x2 .f32) (a11 : FVec Ideal S2 .f32)
    (h : fn (F := Ideal) a0 a1 a2 a3 a4 a5 a6 a7 a8 a9 a10 a11 = (fun _ => 1#1)) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal)) := by
  have h0 := congrFun h ValueIdx.ix0
  dsimp only [fn, fn_part1, fn_part2, fn_part3] at h0
  simp only [andi_apply, IntOp.andi_eq_one] at h0
  obtain ⟨⟨⟨⟨⟨⟨⟨⟨⟨⟨h0', h2⟩, h3⟩, h4⟩, h5⟩, h6⟩, h7⟩, h8⟩, h9⟩, h10⟩, h11⟩ := h0
  exact ⟨all_real _ _ _ a0 h0', all_real _ _ _ a2 h2, all_real _ _ _ a3 h3, all_real _ _ _ a4 h4,
    all_real _ _ _ a5 h5, all_real _ _ _ a6 h6, all_real _ _ _ a7 h7, all_real _ _ _ a8 h8, all_real _ _ _ a9 h9,
    all_real _ _ _ a10 h10, all_real _ _ _ a11 h11⟩

end Cert.PreReal

end
-- ==== Proof.KI.KernelValue.lean ====
import proofs.«135453_j26697516712490_1_alg».proof.Proof.KI.Entry
import proofs.«135453_j26697516712490_1_alg».proof.Proof.KI.Region1Read
import proofs.«135453_j26697516712490_1_alg».proof.Proof.KI.TileIsSpec
import proofs.«135453_j26697516712490_1_alg».proof.Proof.KI.SumsValue
import proofs.«135453_j26697516712490_1_alg».proof.Proof.SpecBridge
import proofs.«135453_j26697516712490_1_alg».proof.Proof.PreReal

/-
  The kernel program's result, at the exact extended reals, as a function of the arguments.  Each entry of the feature array the
  first kernel writes is the blend m·a + (1 - m)·f of the row's two candidate feature rows (m the row's mask bit as a float); the two
  per-core column sums the host adds are the tile-by-tile accumulations of that array's columns; so the rows the second kernel
  reads as mean and reciprocal standard deviation are the blended features' column mean and (mean of squares - squared mean + eps)^(-1/2);
  and the second kernel's output row r is the rectified, normalised row r times the head matrix plus its bias.  Every feature
  entry is a real number when the inputs are, which is what turns this arrangement into the reference's.
-/

set_option maxRecDepth 16384

noncomputable section

namespace Cert.KernelIdeal.Result

open Cert.KernelIdeal Cert.KernelIdeal.Gen Cert.KernelIdeal.Run Cert.KernelIdeal.Region0 Cert.KernelIdeal.Region1 Cert.KernelIdeal.HostValues Cert.KernelIdeal.TileAt
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! The arguments, as arrays. -/
abbrev aX : S131072x4x512.Idx → EReal := m ((c : Thread nD τ).loc main_arg0)
abbrev aMask : S131072.Idx → BitVec 1 := m ((c : Thread nD τ).loc main_arg1)
abbrev aWa : S256x256.Idx → EReal := m ((c : Thread nD τ).loc main_arg2)
abbrev aba : S256.Idx → EReal := m ((c : Thread nD τ).loc main_arg3)
abbrev aWv : S512x256.Idx → EReal := m ((c : Thread nD τ).loc main_arg4)
abbrev abv : S256.Idx → EReal := m ((c : Thread nD τ).loc main_arg5)
abbrev aWf : S512x256.Idx → EReal := m ((c : Thread nD τ).loc main_arg6)
abbrev abf : S256.Idx → EReal := m ((c : Thread nD τ).loc main_arg7)
abbrev aGamma : S256.Idx → EReal := m ((c : Thread nD τ).loc main_arg8)
abbrev aBeta : S256.Idx → EReal := m ((c : Thread nD τ).loc main_arg9)
abbrev aWfc : S256x2.Idx → EReal := m ((c : Thread nD τ).loc main_arg10)
abbrev abfc : S2.Idx → EReal := m ((c : Thread nD τ).loc main_arg11)

/-- The blended feature rows of the arguments. -/
abbrev gB : Fin 131072 → Fin 256 → EReal :=
  Cert.Spec.gBlend (aMask m c) (aX m c) (aWa m c) (aba m c) (aWv m c) (abv m c) (aWf m c) (abf m c)

/-- Every entry of the feature array the first kernel writes is the blended feature of its row. -/
theorem feat_entry (r : Fin 131072) (j : Fin 256) :
    ((dat0 (V1 m ρ) c).arrAt 8 cfg0.N : S131072x256.Idx → EReal) (ix2 r j) = gB m c r j := by
  rw [final0_8]
  refine (featMatrix_entry _ _ _ _ _ _ _ _ r j).trans ?_
  rw [in0_x, in0_Wa, in0_ba, in0_Wv, in0_bv, in0_Wf, in0_bf, in0_mask]
  rfl

/-- The feature of global row r, read off r's tile, is the blended feature of the arguments. -/
theorem rowFeat_eq (r : Fin 131072) (j : Fin 256) : rowFeat (V1 m ρ) c r j = gB m c r j := by
  unfold rowFeat tileFeat
  rw [tile0_eq, tile1_eq, tile2_eq, tile3_eq, tile4_eq, tile5_eq, tile6_eq, tile7_eq]
  refine (tileFeat_entry _ _ _ _ _ _ _ _ _ _ j).trans ?_
  have hr : rowOf ⟨r.val / 1024, by have := r.isLt; omega⟩ ⟨r.val % 1024, Nat.mod_lt _ (by decide)⟩ = r :=
    Fin.ext (by show 1024 * (r.val / 1024) + r.val % 1024 = r.val; omega)
  rw [hr, in0_x, in0_Wa, in0_ba, in0_Wv, in0_bv, in0_Wf, in0_bf, in0_mask]
  rfl

theorem p63 : 63 < cfg0.N := by rw [Region0.N_eq]; decide

theorem p127 : 127 < cfg0.N := by rw [Region0.N_eq]; decide

/-- The two per-core column sums the host reads are the tile-by-tile accumulations of the blended features' columns, -/
theorem colSums_acc (cc : Fin 2) (j : Fin 256) : colSums (W2 m ρ c) (ix3 cc 0 j)
    = LibGridSum.acc 64 1024 (LibGridSum.ofFin fun r : Fin 131072 => gB m c r j) cc.val 64 := by
  rw [sums_read, final0_9]
  have hfun : (fun r : Fin 131072 => rowFeat (V1 m ρ) c r j) = fun r => gB m c r j := funext fun r => rowFeat_eq m ρ c r j
  fin_cases cc
  · refine (sumOfCore_at (V1 m ρ) c ⟨63, p63⟩ (by decide) (ix3 0 0 j) (ix3 0 0 j) rfl rfl).trans ?_
    rw [← hfun]; exact sums_core0 (V1 m ρ) c p63 j
  · refine (sumOfCore_at (V1 m ρ) c ⟨127, p127⟩ (by decide) (ix3 0 0 j) (ix3 1 0 j) rfl rfl).trans ?_
    rw [← hfun]; exact sums_core1 (V1 m ρ) c p127 j

/-- and likewise the two per-core column sums of squares. -/
theorem sqSums_acc (cc : Fin 2) (j : Fin 256) : sqSums (W2 m ρ c) (ix3 cc 0 j)
    = LibGridSum.acc 64 1024 (LibGridSum.ofFin fun r : Fin 131072 => gB m c r j * gB m c r j) cc.val 64 := by
  rw [sqs_read, final0_10]
  have hfun : (fun r : Fin 131072 => rowFeat (V1 m ρ) c r j * rowFeat (V1 m ρ) c r j) = fun r => gB m c r j * gB m c r j :=
    funext fun r => by rw [rowFeat_eq m ρ c r j]
  fin_cases cc
  · refine (sqOfCore_at (V1 m ρ) c ⟨63, p63⟩ (by decide) (ix3 0 0 j) (ix3 0 0 j) rfl rfl).trans ?_
    rw [← hfun]; exact sqs_core0 (V1 m ρ) c p63 j
  · refine (sqOfCore_at (V1 m ρ) c ⟨127, p127⟩ (by decide) (ix3 0 0 j) (ix3 1 0 j) rfl rfl).trans ?_
    rw [← hfun]; exact sqs_core1 (V1 m ρ) c p127 j

/-- The mean row the second kernel reads is the column mean of the blended features, in the kernel's arrangement. -/
theorem mu_entry (j : Fin 256) :
    (V3 m ρ c (Pipeline.arrRef spec1 1) : S1x256.Idx → EReal) (ix2 0 j) = Cert.Spec.kMean (gB m c) j := by
  rw [in1_mu, colSums_acc m ρ c 0 j, colSums_acc m ρ c 1 j]; rfl

/-- The reciprocal-standard-deviation row it reads, likewise. -/
theorem inv_entry (j : Fin 256) :
    (V3 m ρ c (Pipeline.arrRef spec1 2) : S1x256.Idx → EReal) (ix2 0 j) = Cert.Spec.invStd (Cert.Spec.kVar (gB m c)) j := by
  rw [in1_inv, colSums_acc m ρ c 0 j, colSums_acc m ρ c 1 j, sqSums_acc m ρ c 0 j, sqSums_acc m ρ c 1 j]; rfl

/-! The second kernel's operand arrays, typed. -/
abbrev opFeat : S131072x256.Idx → EReal := V3 m ρ c (Pipeline.arrRef spec1 0)
abbrev opMu : S1x256.Idx → EReal := V3 m ρ c (Pipeline.arrRef spec1 1)
abbrev opInv : S1x256.Idx → EReal := V3 m ρ c (Pipeline.arrRef spec1 2)
abbrev opGamma : S1x256.Idx → EReal := V3 m ρ c (Pipeline.arrRef spec1 3)
abbrev opBeta : S1x256.Idx → EReal := V3 m ρ c (Pipeline.arrRef spec1 4)
abbrev opWfc : S256x2.Idx → EReal := V3 m ρ c (Pipeline.arrRef spec1 5)
abbrev opBfc : S1x2.Idx → EReal := V3 m ρ c (Pipeline.arrRef spec1 6)

/-- One entry of the result, from the second kernel's operand arrays. -/
theorem result_entry (r : Fin 131072) (o : Fin 2) :
    ((dat1 (V3 m ρ) c).arrAt 7 cfg1.N : S131072x2.Idx → EReal) (ix2 r o)
      = (∑ k : Fin 256, max (((opFeat m ρ c (ix2 r k) - opMu m ρ c (ix2 (0 : Fin 1) k)) * opInv m ρ c (ix2 (0 : Fin 1) k)) * opGamma m ρ c (ix2 (0 : Fin 1) k) + opBeta m ρ c (ix2 (0 : Fin 1) k)) 0 * opWfc m ρ c (ix2 k o))
        + opBfc m ρ c (ix2 (0 : Fin 1) o) :=
  (congrFun (final1 (V3 m ρ) c) (ix2 r o)).trans (G1_apply (opFeat m ρ c) (opMu m ρ c) (opInv m ρ c) (opGamma m ρ c) (opBeta m ρ c) (opWfc m ρ c) (opBfc m ρ c) r o)

/-- The result array: row r is the rectified, normalised blended feature row r times the head matrix, plus the bias. -/
theorem kernel_tiled :
    ((dat1 (V3 m ρ) c).arrAt 7 cfg1.N : S131072x2.Idx → EReal)
      = fun i => Cert.Spec.outOf (gB m c) (Cert.Spec.kMean (gB m c)) (Cert.Spec.invStd (Cert.Spec.kVar (gB m c)))
          (aGamma m c) (aBeta m c) (aWfc m c) (abfc m c) (i 0) (i 1) := by
  funext i
  obtain ⟨r, o, rfl⟩ : ∃ (r : Fin 131072) (o : Fin 2), i = ix2 r o := ⟨i 0, i 1, eq_ix2 i⟩
  refine (result_entry m ρ c r o).trans ?_
  show _ = (∑ j : Fin 256, max (((gB m c r j - Cert.Spec.kMean (gB m c) j) * Cert.Spec.invStd (Cert.Spec.kVar (gB m c)) j) * aGamma m c (ix1 j) + aBeta m c (ix1 j)) 0 * aWfc m c (ix2 j o)) + abfc m c (ix1 o)
  refine congrArg₂ (· + ·) (Finset.sum_congr rfl fun k _ => ?_) (in1_bfc m ρ c o)
  have hfeat : opFeat m ρ c (ix2 r k) = gB m c r k := (congrFun (in1_feat m ρ c) _).trans (feat_entry m ρ c r k)
  have hW : opWfc m ρ c (ix2 k o) = aWfc m c (ix2 k o) := congrFun (in1_Wfc m ρ c) _
  exact congrArg₂ (· * ·) (congrArg (fun x => max x 0) (congrArg₂ (· + ·) (congrArg₂ (· * ·) (congrArg₂ (· * ·) (congrArg₂ (· - ·) hfeat (mu_entry m ρ c k)) (inv_entry m ρ c k)) (in1_gamma m ρ c k)) (in1_beta m ρ c k))) hW

/-- Under the precondition (every float input finite) that arrangement is the specification: the blend is the select, the
    accumulated sums are the whole sums, and the feature entries being real, the two forms of the variance agree. -/
theorem kernel_value [Cert.Pre_finite_inputs.Facts]
    (hpre : Cert.Pre_finite_inputs.fn (F := Ideal) (aX m c) (aMask m c) (aWa m c) (aba m c) (aWv m c) (abv m c) (aWf m c) (abf m c) (aGamma m c) (aBeta m c) (aWfc m c) (abfc m c) = (fun _ => 1#1)) :
    ((dat1 (V3 m ρ) c).arrAt 7 cfg1.N : S131072x2.Idx → EReal)
      = Cert.Spec.G (aX m c) (aMask m c) (aWa m c) (aba m c) (aWv m c) (abv m c) (aWf m c) (abf m c) (aGamma m c) (aBeta m c) (aWfc m c) (abfc m c) := by
  obtain ⟨hx, hWa, hba, hWv, hbv, hWf, hbf, -⟩ := Cert.PreReal.pre_real _ _ _ _ _ _ _ _ _ _ _ _ hpre
  rw [kernel_tiled m ρ c]
  exact (Cert.Spec.G_eq_tiled _ _ _ _ _ _ _ _ _ _ _ _ hx hWa hba hWv hbv hWf hbf).symm

end Cert.KernelIdeal.Result

end
-- ==== Proof.KI.TileAt.lean ====
/-
  One tile of the first stage, read at an entry, as functions of the tile's slab, its mask column and the weights.

  With `tG` the feature of a row at a column (the mask blend of the two affine images), the rows the tile stores are
  `tG`; a step of the running column sum adds `0 + Σ_p tG(p, j)` over the tile's 1024 rows to the accumulator's entry;
  a step of the running sum of squares adds `0 + Σ_p tG(p, j)·tG(p, j)`; and both accumulators start from zero.
-/
import proofs.«135453_j26697516712490_1_alg».proof.Proof.KI.FeatAt
import proofs.«135453_j26697516712490_1_alg».proof.Proof.KI.SumsAt

open scoped BigOperators

noncomputable section

namespace Cert.KernelIdeal.TileAt

open Cert.KernelIdeal Cert.KernelIdeal.Gen Idealize.ShloMosaic Idealize.ShloMosaic.ValueIdx

/-- The rows the tile stores. -/
theorem stored_at (x0 : Vec Ideal S1024x4x512 .f32) (x1 : Vec Ideal S1024x1 .f32) (x2 : Vec Ideal S256x256 .f32)
    (x3 : Vec Ideal S256 .f32) (x4 : Vec Ideal S512x256 .f32) (x5 : Vec Ideal S256 .f32) (x6 : Vec Ideal S512x256 .f32)
    (x7 : Vec Ideal S256 .f32) (p : Fin 1024) (j : Fin 256) :
    k0_pay11 (F := Ideal) (k0_pay4 x0) (k0_pay5 x0) (k0_pay6 x4) (k0_pay7 x6) (k0_pay8 x0 x2 x3) (k0_pay9 x0) x5 x7 x1 (ix2 p j) = tG x0 x1 x2 x3 x4 x5 x6 x7 p j :=
  (pay11_at _ _ _ _ _ _ _ _ _ (ix2 p j)).trans (feat_at x0 x1 x2 x3 x4 x5 x6 x7 p j)

/-- A step of the running column sum. -/
theorem sumStep_at (x0 : Vec Ideal S1024x4x512 .f32) (x1 : Vec Ideal S1024x1 .f32) (x2 : Vec Ideal S256x256 .f32)
    (x3 : Vec Ideal S256 .f32) (x4 : Vec Ideal S512x256 .f32) (x5 : Vec Ideal S256 .f32) (x6 : Vec Ideal S512x256 .f32)
    (x7 : Vec Ideal S256 .f32) (s : Vec Ideal S1x1x256 .f32) (j : Fin 256) :
    k0_pay12 (F := Ideal) (k0_pay4 x0) (k0_pay5 x0) (k0_pay6 x4) (k0_pay7 x6) (k0_pay8 x0 x2 x3) (k0_pay9 x0) x5 x7 x1 s (ix3 (0 : Fin 1) (0 : Fin 1) j)
      = s (ix3 (0 : Fin 1) (0 : Fin 1) j) + (0 + ∑ p : Fin 1024, tG x0 x1 x2 x3 x4 x5 x6 x7 p j) := by
  rw [pay12_at]
  exact congrArg (fun t => s (ix3 (0 : Fin 1) (0 : Fin 1) j) + (0 + t))
    (Finset.sum_congr rfl fun p _ => feat_at x0 x1 x2 x3 x4 x5 x6 x7 p j)

/-- A step of the running column sum of squares. -/
theorem sqStep_at (x0 : Vec Ideal S1024x4x512 .f32) (x1 : Vec Ideal S1024x1 .f32) (x2 : Vec Ideal S256x256 .f32)
    (x3 : Vec Ideal S256 .f32) (x4 : Vec Ideal S512x256 .f32) (x5 : Vec Ideal S256 .f32) (x6 : Vec Ideal S512x256 .f32)
    (x7 : Vec Ideal S256 .f32) (s : Vec Ideal S1x1x256 .f32) (j : Fin 256) :
    k0_pay1 (F := Ideal) s (k0_pay13 (F := Ideal) (k0_pay4 x0) (k0_pay5 x0) (k0_pay6 x4) (k0_pay7 x6) (k0_pay8 x0 x2 x3) (k0_pay9 x0) x5 x7 x1) (ix3 (0 : Fin 1) (0 : Fin 1) j)
      = s (ix3 (0 : Fin 1) (0 : Fin 1) j) + (0 + ∑ p : Fin 1024, tG x0 x1 x2 x3 x4 x5 x6 x7 p j * tG x0 x1 x2 x3 x4 x5 x6 x7 p j) := by
  rw [sq_step_at]
  exact congrArg (fun t => s (ix3 (0 : Fin 1) (0 : Fin 1) j) + (0 + t))
    (Finset.sum_congr rfl fun p _ => by rw [feat_at x0 x1 x2 x3 x4 x5 x6 x7 p j])

/-- Both accumulators start from zero. -/
theorem zero_at (j : Fin 256) :
    k0_pay2 (F := Ideal) (ix3 (0 : Fin 1) (0 : Fin 1) j) = 0 ∧ k0_pay3 (F := Ideal) (ix3 (0 : Fin 1) (0 : Fin 1) j) = 0 :=
  ⟨pay2_at _, pay3_at _⟩

end Cert.KernelIdeal.TileAt

end
-- ==== Proof.RefRun.lean ====
/-
  The reference program's run and its operations read at an index: the two modules the bridge is written over.
-/
import proofs.«135453_j26697516712490_1_alg».proof.Proof.Gen.ReferenceIdeal.Run
import proofs.«135453_j26697516712490_1_alg».proof.Proof.Gen.ReferenceIdeal.Read
-- ==== Proof.RefIsSpec.lean ====
/-
  The reference computation, stage by stage, IS the specification: each stage of the reference read at an index is
  the corresponding function of `Cert.Spec` of the argument arrays. The stages are read in the order the
  computation takes them — the four feature vectors of a row, the row's cosine similarity, the two affine images, the
  side-by-side pair and its affine image, the choice by the mask bit, the column statistics over all rows, and the
  normalised, clipped features through the last affine map.
-/
import proofs.«135453_j26697516712490_1_alg».proof.Proof.RefRun
import proofs.«135453_j26697516712490_1_alg».proof.Proof.Spec

noncomputable section

namespace Cert.ReferenceIdeal.RefValue

open Cert.ReferenceIdeal Cert.ReferenceIdeal.Gen Cert.ReferenceIdeal.Read Idealize.ShloMosaic
  Idealize.ShloMosaic.StableHlo Idealize.ShloMosaic.ValueIdx

/-! ## The argument arrays' types, as the reference's stages take them -/

abbrev AX : Type := (⟨S131072x4x512, .f32⟩ : BufTy).Contents (Elt Ideal)
abbrev AMask : Type := (⟨S131072, .i1⟩ : BufTy).Contents (Elt Ideal)
abbrev AWa : Type := (⟨S256x256, .f32⟩ : BufTy).Contents (Elt Ideal)
abbrev ACol : Type := (⟨S256, .f32⟩ : BufTy).Contents (Elt Ideal)
abbrev AWv : Type := (⟨S512x256, .f32⟩ : BufTy).Contents (Elt Ideal)
abbrev AWfc : Type := (⟨S256x2, .f32⟩ : BufTy).Contents (Elt Ideal)
abbrev AOut : Type := (⟨S2, .f32⟩ : BufTy).Contents (Elt Ideal)

/-! ## The four feature vectors of a row -/

/-- The first 256 entries of row `r`'s first vector. -/
theorem v1_at (x0 : AX) (r : Fin 131072) (k : Fin 256) :
    val_main_v1 (F := Ideal) x0 (ix2 r k) = x0 (ix3 r 0 (Cert.Spec.lo k)) := by
  rw [val_main_v1_apply, val_main_v0_apply]
  refine congrArg x0 (funext fun a => Fin.ext ?_)
  have hr := r.isLt; have hk := k.isLt
  match a with
  | ⟨0, _⟩ => show (r.val * 256 + k.val) / 256 = r.val; omega
  | ⟨1, _⟩ => rfl
  | ⟨2, _⟩ => show (r.val * 256 + k.val) % 256 = k.val; omega

/-- Row `r`'s second vector. -/
theorem v3_at (x0 : AX) (r : Fin 131072) (k : Fin 512) :
    val_main_v3 (F := Ideal) x0 (ix2 r k) = x0 (ix3 r 1 k) := by
  rw [val_main_v3_apply, val_main_v2_apply]
  refine congrArg x0 (funext fun a => Fin.ext ?_)
  have hr := r.isLt; have hk := k.isLt
  match a with
  | ⟨0, _⟩ => show (r.val * 512 + k.val) / 512 = r.val; omega
  | ⟨1, _⟩ => rfl
  | ⟨2, _⟩ => show (r.val * 512 + k.val) % 512 = k.val; omega

/-- Row `r`'s third vector. -/
theorem v5_at (x0 : AX) (r : Fin 131072) (k : Fin 512) :
    val_main_v5 (F := Ideal) x0 (ix2 r k) = x0 (ix3 r 2 k) := by
  rw [val_main_v5_apply, val_main_v4_apply]
  refine congrArg x0 (funext fun a => Fin.ext ?_)
  have hr := r.isLt; have hk := k.isLt
  match a with
  | ⟨0, _⟩ => show (r.val * 512 + k.val) / 512 = r.val; omega
  | ⟨1, _⟩ => rfl
  | ⟨2, _⟩ => show (r.val * 512 + k.val) % 512 = k.val; omega

/-- Row `r`'s fourth vector. -/
theorem v7_at (x0 : AX) (r : Fin 131072) (k : Fin 512) :
    val_main_v7 (F := Ideal) x0 (ix2 r k) = x0 (ix3 r 3 k) := by
  rw [val_main_v7_apply, val_main_v6_apply]
  refine congrArg x0 (funext fun a => Fin.ext ?_)
  have hr := r.isLt; have hk := k.isLt
  match a with
  | ⟨0, _⟩ => show (r.val * 512 + k.val) / 512 = r.val; omega
  | ⟨1, _⟩ => rfl
  | ⟨2, _⟩ => show (r.val * 512 + k.val) % 512 = k.val; omega

/-! ## The cosine similarity of a row -/

theorem idx9 (r : Fin 131072) (k : Fin 512) : idx_main_v9 (ix1 r) k = ix2 r k :=
  funext fun a => by match a with | ⟨0, _⟩ => rfl | ⟨1, _⟩ => rfl
theorem idxN0 (r : Fin 131072) (k : Fin 512) : idx_main_call0_v1 (ix1 r) k = ix2 r k :=
  funext fun a => by match a with | ⟨0, _⟩ => rfl | ⟨1, _⟩ => rfl
theorem idxN1 (r : Fin 131072) (k : Fin 512) : idx_main_call1_v1 (ix1 r) k = ix2 r k :=
  funext fun a => by match a with | ⟨0, _⟩ => rfl | ⟨1, _⟩ => rfl

/-- The reference's similarity of row `r` is the specification's. -/
theorem sim_at (x0 : AX) (r : Fin 131072) :
    val_main_v15 (F := Ideal) x0 (ix1 r) = Cert.Spec.sim x0 r := by
  rw [val_main_v15_apply, val_main_v9_apply, val_main_v14_apply, val_main_v12_apply, val_main_v10_apply,
    val_main_v11_apply, val_main_call0_v1_apply, val_main_call1_v1_apply, val_main_v13_apply, val_main_cst_0_apply,
    val_main_cst_apply, val_main_call0_cst_apply, val_main_call1_cst_apply]
  simp only [idx9, idxN0, idxN1, val_main_v8_apply, val_main_call0_v0_apply, val_main_call1_v0_apply, v5_at, v7_at,
    Ideal.hostDivf_def, Ideal.mulf_def, Ideal.maximumf_def, Ideal.hostUnary_sqrt_def, Ideal.ofBits_def,
    Ideal.ofBits_zero_f32, Cert.Spec.sim]

/-! ## A vector laid along the rows, and a per-row value laid along the columns -/

/-- A bias laid along the rows, read at row `r`, column `j`. -/
theorem b18 (x3 : ACol) (r : Fin 131072) (j : Fin 256) : val_main_v18 (F := Ideal) x3 (ix2 r j) = x3 (ix1 j) := by
  rw [val_main_v18_apply, val_main_v17_apply]
  exact congrArg x3 (funext fun a => by match a with | ⟨0, _⟩ => rfl)
theorem b22 (x5 : ACol) (r : Fin 131072) (j : Fin 256) : val_main_v22 (F := Ideal) x5 (ix2 r j) = x5 (ix1 j) := by
  rw [val_main_v22_apply, val_main_v21_apply]
  exact congrArg x5 (funext fun a => by match a with | ⟨0, _⟩ => rfl)
theorem b30 (x7 : ACol) (r : Fin 131072) (j : Fin 256) : val_main_v30 (F := Ideal) x7 (ix2 r j) = x7 (ix1 j) := by
  rw [val_main_v30_apply, val_main_v29_apply]
  exact congrArg x7 (funext fun a => by match a with | ⟨0, _⟩ => rfl)
theorem b54 (x8 : ACol) (r : Fin 131072) (j : Fin 256) : val_main_v54 (F := Ideal) x8 (ix2 r j) = x8 (ix1 j) := by
  rw [val_main_v54_apply, val_main_v53_apply]
  exact congrArg x8 (funext fun a => by match a with | ⟨0, _⟩ => rfl)
theorem b57 (x9 : ACol) (r : Fin 131072) (j : Fin 256) : val_main_v57 (F := Ideal) x9 (ix2 r j) = x9 (ix1 j) := by
  rw [val_main_v57_apply, val_main_v56_apply]
  exact congrArg x9 (funext fun a => by match a with | ⟨0, _⟩ => rfl)
theorem b62 (x11 : AOut) (r : Fin 131072) (o : Fin 2) : val_main_v62 (F := Ideal) x11 (ix2 r o) = x11 (ix1 o) := by
  rw [val_main_v62_apply, val_main_v61_apply]
  exact congrArg x11 (funext fun a => by match a with | ⟨0, _⟩ => rfl)

/-- The row's similarity laid along the columns. -/
theorem sim25 (x0 : AX) (r : Fin 131072) (j : Fin 256) :
    val_main_v25 (F := Ideal) x0 (ix2 r j) = Cert.Spec.sim x0 r := by
  rw [val_main_v25_apply, val_main_v24_apply, ← sim_at]
  exact congrArg (val_main_v15 (F := Ideal) x0) (funext fun a => by match a with | ⟨0, _⟩ => rfl)

/-- The row's mask bit laid along the columns. -/
theorem mask_at (x1 : AMask) (r : Fin 131072) (j : Fin 256) :
    val_main_call2_v0 (F := Ideal) x1 (ix2 r j) = x1 (ix1 r) := by
  rw [val_main_call2_v0_apply, val_main_v32_apply]
  exact congrArg x1 (funext fun a => by match a with | ⟨0, _⟩ => rfl)

/-! ## The two affine images -/

theorem lidx16 (r : Fin 131072) (j k : Fin 256) : lidx_main_v16 (ix2 r j) k = ix2 r k :=
  funext fun a => by match a with | ⟨0, _⟩ => rfl | ⟨1, _⟩ => rfl
theorem ridx16 (r : Fin 131072) (j k : Fin 256) : ridx_main_v16 (ix2 r j) k = ix2 k j :=
  funext fun a => by match a with | ⟨0, _⟩ => rfl | ⟨1, _⟩ => rfl
theorem lidx20 (r : Fin 131072) (j : Fin 256) (k : Fin 512) : lidx_main_v20 (ix2 r j) k = ix2 r k :=
  funext fun a => by match a with | ⟨0, _⟩ => rfl | ⟨1, _⟩ => rfl
theorem ridx20 (r : Fin 131072) (j : Fin 256) (k : Fin 512) : ridx_main_v20 (ix2 r j) k = ix2 k j :=
  funext fun a => by match a with | ⟨0, _⟩ => rfl | ⟨1, _⟩ => rfl
theorem lidx28 (r : Fin 131072) (j : Fin 256) (k : Fin 512) : lidx_main_v28 (ix2 r j) k = ix2 r k :=
  funext fun a => by match a with | ⟨0, _⟩ => rfl | ⟨1, _⟩ => rfl
theorem ridx28 (r : Fin 131072) (j : Fin 256) (k : Fin 512) : ridx_main_v28 (ix2 r j) k = ix2 k j :=
  funext fun a => by match a with | ⟨0, _⟩ => rfl | ⟨1, _⟩ => rfl
theorem lidx60 (r : Fin 131072) (o : Fin 2) (k : Fin 256) : lidx_main_v60 (ix2 r o) k = ix2 r k :=
  funext fun a => by match a with | ⟨0, _⟩ => rfl | ⟨1, _⟩ => rfl
theorem ridx60 (r : Fin 131072) (o : Fin 2) (k : Fin 256) : ridx_main_v60 (ix2 r o) k = ix2 k o :=
  funext fun a => by match a with | ⟨0, _⟩ => rfl | ⟨1, _⟩ => rfl

/-- The first vector's affine image. -/
theorem aOut_at (x0 : AX) (x2 : AWa) (x3 : ACol) (r : Fin 131072) (j : Fin 256) :
    val_main_v19 (F := Ideal) x0 x2 x3 (ix2 r j) = Cert.Spec.aOut x0 x2 x3 r j := by
  rw [val_main_v19_apply, val_main_v16_apply, b18]
  simp only [lidx16, ridx16, v1_at, Ideal.addf_def, Cert.Spec.aOut]

/-- The second vector's affine image. -/
theorem vOut_at (x0 : AX) (x4 : AWv) (x5 : ACol) (r : Fin 131072) (j : Fin 256) :
    val_main_v23 (F := Ideal) x0 x4 x5 (ix2 r j) = Cert.Spec.vOut x0 x4 x5 r j := by
  rw [val_main_v23_apply, val_main_v20_apply, b22]
  simp only [lidx20, ridx20, v3_at, Ideal.addf_def, Cert.Spec.vOut]

/-! ## The side-by-side pair and its affine image -/

/-- Two tables of 256 columns set side by side, read at column `k` of the 512: the left table's column `k` below
    256, the right table's column `k - 256` from 256 on. -/
theorem pair_read {α : Type} (y1 y2 : S131072x256.Idx → α) (r : Fin 131072) (k : Fin 512) :
    concatenate S131072x512 1 [⟨S131072x256, y1⟩, ⟨S131072x256, y2⟩]
        concatenates_S131072x256_S131072x256_S131072x512_d1 (ix2 r k)
      = if h : k.val < 256 then y1 (ix2 r ⟨k.val, h⟩)
        else y2 (ix2 r ⟨k.val - 256, by have := k.isLt; omega⟩) := by
  by_cases h : k.val < 256
  · rw [dif_pos h]
    exact concatenate_pair_apply_left 1 y1 y2 _ (ix2 r k) rfl (ix2 r ⟨k.val, h⟩)
      (fun b => by match b with | ⟨0, _⟩ => rfl | ⟨1, _⟩ => rfl)
  · rw [dif_neg h]
    exact concatenate_pair_apply_right 1 y1 y2 _ (ix2 r k) rfl rfl (ix2 r ⟨k.val - 256, by have := k.isLt; omega⟩)
      (fun b hb => by match b with | ⟨0, _⟩ => rfl | ⟨1, _⟩ => exact absurd rfl hb)
      (by show k.val - 256 + 256 = k.val; omega)

/-- The first vector scaled by the row's similarity. -/
theorem scaled_at (x0 : AX) (r : Fin 131072) (k : Fin 256) :
    val_main_v26 (F := Ideal) x0 (ix2 r k) = x0 (ix3 r 0 (Cert.Spec.lo k)) * Cert.Spec.sim x0 r := by
  rw [val_main_v26_apply, v1_at, sim25]; rfl

/-- The side-by-side pair at row `r`, column `k`. -/
theorem cat_at (x0 : AX) (x4 : AWv) (x5 : ACol) (r : Fin 131072) (k : Fin 512) :
    val_main_v27 (F := Ideal) x0 x4 x5 (ix2 r k) = Cert.Spec.cat x0 x4 x5 r k := by
  unfold val_main_v27 Cert.Spec.cat
  rw [pair_read]
  by_cases h : k.val < 256
  · rw [dif_pos h, dif_pos h, scaled_at]
  · rw [dif_neg h, dif_neg h, vOut_at]

/-- The pair's affine image. -/
theorem fused_at (x0 : AX) (x4 : AWv) (x5 : ACol) (x6 : AWv) (x7 : ACol) (r : Fin 131072) (j : Fin 256) :
    val_main_v31 (F := Ideal) x0 x4 x5 x6 x7 (ix2 r j) = Cert.Spec.fused x0 x4 x5 x6 x7 r j := by
  rw [val_main_v31_apply, val_main_v28_apply, b30]
  simp only [lidx28, ridx28, cat_at, Ideal.addf_def, Cert.Spec.fused]

/-! ## The choice by the mask bit -/

/-- The row's features. -/
theorem gSel_at (x0 : AX) (x1 : AMask) (x2 : AWa) (x3 : ACol) (x4 : AWv) (x5 : ACol) (x6 : AWv) (x7 : ACol)
    (r : Fin 131072) (j : Fin 256) :
    val_main_v33 (F := Ideal) x0 x1 x2 x3 x4 x5 x6 x7 (ix2 r j) = Cert.Spec.gSel x1 x0 x2 x3 x4 x5 x6 x7 r j := by
  rw [val_main_v33_apply, mask_at, aOut_at, fused_at]; rfl

/-! ## The column statistics over all rows -/

theorem idx34 (j : Fin 256) (k : Fin 131072) : idx_main_v34 (ix1 j) k = ix2 k j :=
  funext fun a => by match a with | ⟨0, _⟩ => rfl | ⟨1, _⟩ => rfl
theorem idx41 (j : Fin 256) (k : Fin 131072) : idx_main_v41 (ix1 j) k = ix2 k j :=
  funext fun a => by match a with | ⟨0, _⟩ => rfl | ⟨1, _⟩ => rfl

/-- The mean of a column. -/
theorem mean_at (x0 : AX) (x1 : AMask) (x2 : AWa) (x3 : ACol) (x4 : AWv) (x5 : ACol) (x6 : AWv) (x7 : ACol)
    (j : Fin 256) :
    val_main_v36 (F := Ideal) x0 x1 x2 x3 x4 x5 x6 x7 (ix1 j)
      = Cert.Spec.colMean (Cert.Spec.gSel x1 x0 x2 x3 x4 x5 x6 x7) j := by
  rw [val_main_v36_apply, val_main_v34_apply, val_main_v35_apply, val_main_cst_2_apply, val_main_cst_1_apply]
  simp only [idx34, gSel_at, Ideal.hostDivf_def, Ideal.ofBits_def, Ideal.ofBits_zero_f32, Cert.Spec.colMean]

/-- The column's mean laid along the rows, as the variance reads it. -/
theorem m38 (x0 : AX) (x1 : AMask) (x2 : AWa) (x3 : ACol) (x4 : AWv) (x5 : ACol) (x6 : AWv) (x7 : ACol)
    (r : Fin 131072) (j : Fin 256) :
    val_main_v38 (F := Ideal) x0 x1 x2 x3 x4 x5 x6 x7 (ix2 r j)
      = Cert.Spec.colMean (Cert.Spec.gSel x1 x0 x2 x3 x4 x5 x6 x7) j := by
  rw [val_main_v38_apply, val_main_v37_apply, ← mean_at]
  exact congrArg (val_main_v36 (F := Ideal) x0 x1 x2 x3 x4 x5 x6 x7) (funext fun a => by match a with | ⟨0, _⟩ => rfl)

/-- The column's mean laid along the rows, as the normalisation reads it. -/
theorem m45 (x0 : AX) (x1 : AMask) (x2 : AWa) (x3 : ACol) (x4 : AWv) (x5 : ACol) (x6 : AWv) (x7 : ACol)
    (r : Fin 131072) (j : Fin 256) :
    val_main_v45 (F := Ideal) x0 x1 x2 x3 x4 x5 x6 x7 (ix2 r j)
      = Cert.Spec.colMean (Cert.Spec.gSel x1 x0 x2 x3 x4 x5 x6 x7) j := by
  rw [val_main_v45_apply, val_main_v44_apply, ← mean_at]
  exact congrArg (val_main_v36 (F := Ideal) x0 x1 x2 x3 x4 x5 x6 x7) (funext fun a => by match a with | ⟨0, _⟩ => rfl)

/-- The variance of a column. -/
theorem var_at (x0 : AX) (x1 : AMask) (x2 : AWa) (x3 : ACol) (x4 : AWv) (x5 : ACol) (x6 : AWv) (x7 : ACol)
    (j : Fin 256) :
    val_main_v43 (F := Ideal) x0 x1 x2 x3 x4 x5 x6 x7 (ix1 j)
      = Cert.Spec.varRef (Cert.Spec.gSel x1 x0 x2 x3 x4 x5 x6 x7) j := by
  rw [val_main_v43_apply, val_main_v41_apply, val_main_v42_apply, val_main_cst_4_apply, val_main_cst_3_apply]
  simp only [idx41, val_main_v40_apply, val_main_v39_apply, m38, gSel_at, Ideal.hostDivf_def, Ideal.mulf_def,
    Ideal.subf_def, Ideal.ofBits_def, Ideal.ofBits_zero_f32, Cert.Spec.varRef]

/-- One over the square root of the column's variance plus the constant. -/
theorem inv_at (x0 : AX) (x1 : AMask) (x2 : AWa) (x3 : ACol) (x4 : AWv) (x5 : ACol) (x6 : AWv) (x7 : ACol)
    (j : Fin 256) :
    val_main_v49 (F := Ideal) x0 x1 x2 x3 x4 x5 x6 x7 (ix1 j)
      = Cert.Spec.invStd (Cert.Spec.varRef (Cert.Spec.gSel x1 x0 x2 x3 x4 x5 x6 x7)) j := by
  rw [val_main_v49_apply, val_main_v48_apply, var_at, val_main_v47_apply, val_main_cst_5_apply]
  simp only [Ideal.hostUnary_rsqrt_def, Ideal.addf_def, Ideal.ofBits_def, Cert.Spec.invStd]

/-- That factor laid along the rows. -/
theorem s51 (x0 : AX) (x1 : AMask) (x2 : AWa) (x3 : ACol) (x4 : AWv) (x5 : ACol) (x6 : AWv) (x7 : ACol)
    (r : Fin 131072) (j : Fin 256) :
    val_main_v51 (F := Ideal) x0 x1 x2 x3 x4 x5 x6 x7 (ix2 r j)
      = Cert.Spec.invStd (Cert.Spec.varRef (Cert.Spec.gSel x1 x0 x2 x3 x4 x5 x6 x7)) j := by
  rw [val_main_v51_apply, val_main_v50_apply, ← inv_at]
  exact congrArg (val_main_v49 (F := Ideal) x0 x1 x2 x3 x4 x5 x6 x7) (funext fun a => by match a with | ⟨0, _⟩ => rfl)

/-! ## The normalised, clipped features, and the last affine map -/

/-- The normalised feature of row `r`, column `j`, clipped below at zero. -/
theorem act_at (x0 : AX) (x1 : AMask) (x2 : AWa) (x3 : ACol) (x4 : AWv) (x5 : ACol) (x6 : AWv) (x7 x8 x9 : ACol)
    (r : Fin 131072) (j : Fin 256) :
    val_main_v59 (F := Ideal) x0 x1 x2 x3 x4 x5 x6 x7 x8 x9 (ix2 r j)
      = max (((Cert.Spec.gSel x1 x0 x2 x3 x4 x5 x6 x7 r j
                - Cert.Spec.colMean (Cert.Spec.gSel x1 x0 x2 x3 x4 x5 x6 x7) j)
              * Cert.Spec.invStd (Cert.Spec.varRef (Cert.Spec.gSel x1 x0 x2 x3 x4 x5 x6 x7)) j)
             * x8 (ix1 j) + x9 (ix1 j)) 0 := by
  rw [val_main_v59_apply, val_main_v58_apply, val_main_v55_apply, val_main_v52_apply, val_main_v46_apply, gSel_at,
    m45, s51, b54, b57, val_main_call3_v0_apply, val_main_call3_cst_apply]
  simp only [Ideal.maximumf_def, Ideal.addf_def, Ideal.mulf_def, Ideal.subf_def, Ideal.ofBits_def,
    Ideal.ofBits_zero_f32]

/-- The reference's result, as a function of the twelve argument arrays, is the specification's. -/
theorem ref_is_spec (x0 : AX) (x1 : AMask) (x2 : AWa) (x3 : ACol) (x4 : AWv) (x5 : ACol) (x6 : AWv)
    (x7 x8 x9 : ACol) (x10 : AWfc) (x11 : AOut) :
    val_main_v63 (F := Ideal) x0 x1 x2 x3 x4 x5 x6 x7 x8 x9 x10 x11
      = Cert.Spec.G x0 x1 x2 x3 x4 x5 x6 x7 x8 x9 x10 x11 := by
  funext i
  obtain ⟨r, o, rfl⟩ : ∃ (r : Fin 131072) (o : Fin 2), i = ix2 r o := ⟨i 0, i 1, eq_ix2 i⟩
  rw [val_main_v63_apply, val_main_v60_apply, b62]
  simp only [lidx60, ridx60, act_at, Ideal.addf_def, Cert.Spec.G, Cert.Spec.outOf]

end Cert.ReferenceIdeal.RefValue

end
-- ==== Proof.lean ====
/-
  The claim's five parts.  Both kernel programs (the word-level one and the idealized one) are the same four segments — the
  mask's conversion, the first kernel on its 2 × 64 grid of 1024-row tiles, the batch statistics on the host, the second kernel on
  its 32 tiles of 4096 rows — and each runs to the end from any memory, its arguments untouched: the first kernel's body is run in
  the three cases a grid point can be in (first tile of a core's run: the two running column sums restart; last tile: they are
  written out; neither), the invariant carrying the two running sums from point to point.  The reference is host operations only.
  The idealization rewrote nothing.  At the exact extended reals the kernel's result and the reference's are one function of the
  arguments: the mask blend m·a + (1-m)·f is the select; the column sums accumulated tile by tile and core by core are the whole
  column sums; and, every feature entry being a real number when the inputs are, the mean of squares minus the squared mean is
  the mean of squared deviations.
-/
import proofs.«135453_j26697516712490_1_alg».proof.Defs
import proofs.«135453_j26697516712490_1_alg».proof.Proof.Gen.Kernel
import proofs.«135453_j26697516712490_1_alg».proof.Proof.Gen.KernelIdeal
import proofs.«135453_j26697516712490_1_alg».proof.Proof.Gen.ReferenceIdeal
import proofs.«135453_j26697516712490_1_alg».proof.Proof.Gen.Pre_finite_inputs
import proofs.«135453_j26697516712490_1_alg».proof.Proof.K.Run
import proofs.«135453_j26697516712490_1_alg».proof.Proof.K.Region0Value
import proofs.«135453_j26697516712490_1_alg».proof.Proof.K.Region1Value
import proofs.«135453_j26697516712490_1_alg».proof.Proof.K.R0Plain
import proofs.«135453_j26697516712490_1_alg».proof.Proof.KI.Run
import proofs.«135453_j26697516712490_1_alg».proof.Proof.KI.KernelValue
import proofs.«135453_j26697516712490_1_alg».proof.Proof.KI.TileAt
import proofs.«135453_j26697516712490_1_alg».proof.Proof.RefIsSpec
import Idealize.ShloMosaic.Adequacy
import Idealize.ShloMosaic.Init

noncomputable section

namespace Cert.Proof

open Idealize.ShloMosaic Idealize.SL.Sem

/-- The word-level kernel program runs to the end from any memory and leaves its arguments as launched. -/
theorem frame_word : Cert.frame_Kernel (hKernel := Cert.Kernel.Gen.facts) (hPre_finite_inputs := Cert.Pre_finite_inputs.Gen.facts) :=
  fun m ρ _ => Cert.Kernel.Run.frame (F := Bits) m ρ
/-- So does the idealized kernel program, -/
theorem frame_ideal : Cert.frame_KernelIdeal (hKernelIdeal := Cert.KernelIdeal.Gen.facts) (hPre_finite_inputs := Cert.Pre_finite_inputs.Gen.facts) :=
  fun m ρ _ => Cert.KernelIdeal.Run.frame (F := Ideal) m ρ
/-- and the reference, which is host operations only: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, under the precondition, both idealized programs end with the result array at the
    specification of the arguments: the kernel program by reading its two kernels' write-backs back to the arguments, the
    reference by reading its operations one at a time. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Result.kernel_value m ρ c (hpre c)), (h c).2⟩)
      (Cert.KernelIdeal.Run.result (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v63_eq, Cert.ReferenceIdeal.RefValue.ref_is_spec,
      (hagree c).1, (hagree c).2.1, (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_word, frame_ideal, frame_reference, trivial, algebraic⟩

end Cert.Proof

end
